-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S8x192x224x224 : Shape := ⟨4, ![8, 192, 224, 224]⟩
abbrev S192 : Shape := ⟨1, ![192]⟩
abbrev S_ : Shape := ⟨0, ![]⟩

class Facts : Prop where
  bcast_S_S8x192x224x224 : S_.BroadcastsInDim S8x192x224x224 (![] : Fin 0 → Fin S8x192x224x224.rank)
  reducesTo_S8x192x224x224_S_d0_1_2_3 : S8x192x224x224.ReducesTo [0, 1, 2, 3] S_
  h_S_ : 0 < S_.numel
  bcast_S_S192 : S_.BroadcastsInDim S192 (![] : Fin 0 → Fin S192.rank)
  reducesTo_S192_S_d0 : S192.ReducesTo [0] S_

variable [Facts]

def fn {F : FTy → Type} [FloatOps F] (main_arg0 : FVec F S8x192x224x224 .f32) (main_arg1 : IVec S192 32) : IVec S_ 1 :=
  let main_v0 : FVec F S8x192x224x224 .f32 := Host.absf main_arg0
  let main_cst : FVec F S_ .f32 := constant S_ .f32 0x7F800000#32
  let main_v1 : FVec F S8x192x224x224 .f32 := broadcastInDim S8x192x224x224 ![] bcast_S_S8x192x224x224 main_cst
  let main_v2 : IVec S8x192x224x224 1 := cmpf .olt main_v0 main_v1
  let main_c : IVec S_ 1 := constantI S_ 1 1#1
  let main_v3 : IVec S_ 1 := (fun x v => Host.reduce IntOp.andi x v reducesTo_S8x192x224x224_S_d0_1_2_3 h_S_) main_v2 main_c
  let main_c_0 : IVec S_ 32 := constantI S_ 32 0#32
  let main_v4 : IVec S192 32 := broadcastInDim S192 ![] bcast_S_S192 main_c_0
  let main_v5 : IVec S192 1 := cmpi .sge main_arg1 main_v4
  let main_c_1 : IVec S_ 32 := constantI S_ 32 191#32
  let main_v6 : IVec S192 32 := broadcastInDim S192 ![] bcast_S_S192 main_c_1
  let main_v7 : IVec S192 1 := cmpi .sle main_arg1 main_v6
  let main_v8 : IVec S192 1 := andi main_v5 main_v7
  let main_c_2 : IVec S_ 1 := constantI S_ 1 1#1
  let main_v9 : IVec S_ 1 := (fun x v => Host.reduce IntOp.andi x v reducesTo_S192_S_d0 h_S_) main_v8 main_c_2
  let main_v10 : IVec S_ 1 := andi main_v3 main_v9
  main_v10
-- ==== Kernel.lean ====
abbrev S8x192x224x224 : Shape := ⟨4, ![8, 192, 224, 224]⟩
abbrev S192 : Shape := ⟨1, ![192]⟩
abbrev S1536x224x224 : Shape := ⟨3, ![1536, 224, 224]⟩
abbrev S8 : Shape := ⟨1, ![8]⟩
abbrev S8x1 : Shape := ⟨2, ![8, 1]⟩
abbrev S_ : Shape := ⟨0, ![]⟩
abbrev S1x192 : Shape := ⟨2, ![1, 192]⟩
abbrev S8x192 : Shape := ⟨2, ![8, 192]⟩
abbrev S1536 : Shape := ⟨1, ![1536]⟩
abbrev S48 : Shape := ⟨1, ![48]⟩
abbrev S16x2x224x224 : Shape := ⟨4, ![16, 2, 224, 224]⟩
abbrev S16 : Shape := ⟨1, ![16]⟩
abbrev S1 : Shape := ⟨1, ![1]⟩
abbrev S1x1x224x224 : Shape := ⟨4, ![1, 1, 224, 224]⟩
abbrev S224x224 : Shape := ⟨2, ![224, 224]⟩
abbrev S1x224x224 : Shape := ⟨3, ![1, 224, 224]⟩

abbrev nBuf : Table → Nat
  | .hbm => 15
  | .shared => 1
  | .local .scVector .vmem => 1
  | _ => 0

abbrev bufTy : (tb : Table) → Fin (nBuf tb) → BufTy
  | .hbm, ⟨0, _⟩ => ⟨S8x192x224x224, .f32⟩
  | .hbm, ⟨1, _⟩ => ⟨S192, .i32⟩
  | .hbm, ⟨2, _⟩ => ⟨S1536x224x224, .f32⟩
  | .hbm, ⟨3, _⟩ => ⟨S8, .i32⟩
  | .hbm, ⟨4, _⟩ => ⟨S8x1, .i32⟩
  | .hbm, ⟨5, _⟩ => ⟨S_, .i32⟩
  | .hbm, ⟨6, _⟩ => ⟨S8x1, .i32⟩
  | .hbm, ⟨7, _⟩ => ⟨S8x1, .i32⟩
  | .hbm, ⟨8, _⟩ => ⟨S1x192, .i32⟩
  | .hbm, ⟨9, _⟩ => ⟨S8x192, .i32⟩
  | .hbm, ⟨10, _⟩ => ⟨S8x192, .i32⟩
  | .hbm, ⟨11, _⟩ => ⟨S8x192, .i32⟩
  | .hbm, ⟨12, _⟩ => ⟨S1536, .i32⟩
  | .hbm, ⟨13, _⟩ => ⟨S1536x224x224, .f32⟩
  | .hbm, ⟨14, _⟩ => ⟨S8x192x224x224, .f32⟩
  | .shared, ⟨0, _⟩ => ⟨S16x2x224x224, .f32⟩
  | .local .scVector .vmem, ⟨0, _⟩ => ⟨S48, .i32⟩
  | _, _ => ⟨S8x192x224x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v0_scv : Ref sig .scVector := ⟨.hbm, 2, rfl⟩
abbrev main_v9_scv : Ref sig .scVector := ⟨.hbm, 12, rfl⟩
abbrev main_v10_scv : Ref sig .scVector := ⟨.hbm, 13, rfl⟩
abbrev cc0_scratch1 : Ref sig .scVector := ⟨.shared, 0, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  ![v2.toNat]
def k0_off2 (i : grid0.Coords) : Fin 4 → Nat :=
  let arg1 : BitVec 32 := BitVec.ofNat 32 (i 1).val
  let c0_i32 : BitVec 32 := 0#32
  let c0_i32_0 : BitVec 32 := 0#32
  let c0_i32_1 : BitVec 32 := 0#32
  ![arg1.toNat, 0, 0, 0]
def k0_off3 (v6 : BitVec 32) : Fin 3 → Nat :=
  let c0_i32_2 : BitVec 32 := 0#32
  let c0_i32_3 : BitVec 32 := 0#32
  ![v6.toNat, 0, 0]

def k0_chk1 (v6 : BitVec 32) : Prop :=
  (∀ a, (k0_off3 v6) a + S1x224x224.size a ≤ S1536x224x224.size a)
instance k0_chk1.dec : ∀ (v6 : BitVec 32), Decidable (k0_chk1 v6) := fun v6 => decidable_of_iff' _ (Iff.of_eq (k0_chk1.eq_1 v6))
theorem k0_off3_inb : ∀ (v6 : BitVec 32) (k0_hw1 : k0_chk1 v6), ∀ a, (k0_off3 v6) a + S1x224x224.size a ≤ S1536x224x224.size a := fun v6 k0_hw1 => k0_hw1

def k0_off4 (i : grid0.Coords) : Fin 4 → Nat :=
  let arg1 : BitVec 32 := BitVec.ofNat 32 (i 1).val
  let c1_i32 : BitVec 32 := 1#32
  let c0_i32_4 : BitVec 32 := 0#32
  let c0_i32_5 : BitVec 32 := 0#32
  ![arg1.toNat, 1, 0, 0]
def k0_off5 (v12 : BitVec 32) : Fin 3 → Nat :=
  let c0_i32_6 : BitVec 32 := 0#32
  let c0_i32_7 : BitVec 32 := 0#32
  ![v12.toNat, 0, 0]

def k0_chk2 (v12 : BitVec 32) : Prop :=
  (∀ a, (k0_off5 v12) a + S1x224x224.size a ≤ S1536x224x224.size a)
instance k0_chk2.dec : ∀ (v12 : BitVec 32), Decidable (k0_chk2 v12) := fun v12 => decidable_of_iff' _ (Iff.of_eq (k0_chk2.eq_1 v12))
theorem k0_off5_inb : ∀ (v12 : BitVec 32) (k0_hw2 : k0_chk2 v12), ∀ a, (k0_off5 v12) a + S1x224x224.size a ≤ S1536x224x224.size a := fun v12 k0_hw2 => k0_hw2

@[reducible] def k0_t1_loop : Scf.Loop 32 :=
  let c0_i32_8 : BitVec 32 := 0#32
  let c3_i32 : BitVec 32 := 3#32
  let v17 : BitVec 32 := Scalar.addi c0_i32_8 c3_i32
  let c1_i32_9 : BitVec 32 := 1#32
  ⟨c0_i32_8, v17, c1_i32_9⟩
def k0_off6 (k0_t1 : Fin k0_t1_loop.trips) : Fin 1 → Nat :=
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let v21 : Index := Scalar.indexCast v20
  ![v21.toNat]
def k0_off7 (k0_t1 : Fin k0_t1_loop.trips) : Fin 1 → Nat :=
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c16_i32_13 : BitVec 32 := 16#32
  let v24 : BitVec 32 := Scalar.addi v20 c16_i32_13
  let c32_i32 : BitVec 32 := 32#32
  let v25 : BitVec 32 := Scalar.minsi v24 c32_i32
  let v26 : Index := Scalar.indexCast v25
  ![v26.toNat]
def k0_off8 (i : grid0.Coords) : Fin 4 → Nat :=
  let arg1 : BitVec 32 := BitVec.ofNat 32 (i 1).val
  let c0_i32_16 : BitVec 32 := 0#32
  let c0_i32_17 : BitVec 32 := 0#32
  let c0_i32_18 : BitVec 32 := 0#32
  ![arg1.toNat, 0, 0, 0]
def k0_off9 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c0_i32_14 : BitVec 32 := 0#32
  let v29 : BitVec 32 := Scalar.addi v20 c0_i32_14
  let v34 : BitVec 32 := Scalar.addi v2 v29
  let c0_i32_178_r1 : BitVec 32 := 0#32
  let c0_i32_179_r1 : BitVec 32 := 0#32
  ![v34.toNat, 0, 0]
def k0_cond1 (k0_t1 : Fin k0_t1_loop.trips) : BitVec 1 :=
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c0_i32_14 : BitVec 32 := 0#32
  let v29 : BitVec 32 := Scalar.addi v20 c0_i32_14
  let c2_i32_22 : BitVec 32 := 2#32
  let v37 : BitVec 32 := Scalar.addi v29 c2_i32_22
  let c48_i32_23 : BitVec 32 := 48#32
  let v38 : BitVec 1 := Scalar.cmpi .slt v37 c48_i32_23
  let v39 : BitVec 32 := Scalar.extui v38
  let c0_i32_24 : BitVec 32 := 0#32
  let v40 : BitVec 1 := Scalar.cmpi .ne v39 c0_i32_24
  v40

def k0_off10 (i : grid0.Coords) : Fin 4 → Nat :=
  let arg1 : BitVec 32 := BitVec.ofNat 32 (i 1).val
  let c0_i32_178 : BitVec 32 := 0#32
  let c0_i32_179 : BitVec 32 := 0#32
  let c0_i32_180 : BitVec 32 := 0#32
  ![arg1.toNat, 0, 0, 0]
def k0_off11 (v36 : BitVec 32) : Fin 3 → Nat :=
  let c0_i32_181 : BitVec 32 := 0#32
  let c0_i32_182 : BitVec 32 := 0#32
  ![v36.toNat, 0, 0]

def k0_chk3 (k0_t1 : Fin k0_t1_loop.trips) (v36 : BitVec 32) : Prop :=
  (∀ (k0_h1 : k0_cond1 k0_t1 = 1#1), ∀ a, (k0_off11 v36) a + S1x224x224.size a ≤ S1536x224x224.size a)
instance k0_chk3.dec : ∀ (k0_t1 : Fin k0_t1_loop.trips) (v36 : BitVec 32), Decidable (k0_chk3 k0_t1 v36) := fun k0_t1 v36 => decidable_of_iff' _ (Iff.of_eq (k0_chk3.eq_1 k0_t1 v36))
theorem k0_off11_inb : ∀ (k0_t1 : Fin k0_t1_loop.trips) (v36 : BitVec 32) (k0_hw3 : k0_chk3 k0_t1 v36), ∀ (k0_h1 : k0_cond1 k0_t1 = 1#1), ∀ a, (k0_off11 v36) a + S1x224x224.size a ≤ S1536x224x224.size a := fun k0_t1 v36 k0_hw3 k0_h1 => k0_hw3 k0_h1

def k0_off12 (i : grid0.Coords) : Fin 4 → Nat :=
  let arg1 : BitVec 32 := BitVec.ofNat 32 (i 1).val
  let c1_i32_27 : BitVec 32 := 1#32
  let c0_i32_28 : BitVec 32 := 0#32
  let c0_i32_29 : BitVec 32 := 0#32
  ![arg1.toNat, 1, 0, 0]
def k0_off13 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c1_i32_25 : BitVec 32 := 1#32
  let v41 : BitVec 32 := Scalar.addi v20 c1_i32_25
  let v46 : BitVec 32 := Scalar.addi v2 v41
  let c0_i32_178_r2 : BitVec 32 := 0#32
  let c0_i32_179_r2 : BitVec 32 := 0#32
  ![v46.toNat, 0, 0]
def k0_cond2 (k0_t1 : Fin k0_t1_loop.trips) : BitVec 1 :=
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c1_i32_25 : BitVec 32 := 1#32
  let v41 : BitVec 32 := Scalar.addi v20 c1_i32_25
  let c2_i32_33 : BitVec 32 := 2#32
  let v49 : BitVec 32 := Scalar.addi v41 c2_i32_33
  let c48_i32_34 : BitVec 32 := 48#32
  let v50 : BitVec 1 := Scalar.cmpi .slt v49 c48_i32_34
  let v51 : BitVec 32 := Scalar.extui v50
  let c0_i32_35 : BitVec 32 := 0#32
  let v52 : BitVec 1 := Scalar.cmpi .ne v51 c0_i32_35
  v52

def k0_off14 (i : grid0.Coords) : Fin 4 → Nat :=
  let arg1 : BitVec 32 := BitVec.ofNat 32 (i 1).val
  let c1_i32_178 : BitVec 32 := 1#32
  let c0_i32_179 : BitVec 32 := 0#32
  let c0_i32_180 : BitVec 32 := 0#32
  ![arg1.toNat, 1, 0, 0]
def k0_off15 (v48 : BitVec 32) : Fin 3 → Nat :=
  let c0_i32_181 : BitVec 32 := 0#32
  let c0_i32_182 : BitVec 32 := 0#32
  ![v48.toNat, 0, 0]

def k0_chk4 (k0_t1 : Fin k0_t1_loop.trips) (v48 : BitVec 32) : Prop :=
  (∀ (k0_h2 : k0_cond2 k0_t1 = 1#1), ∀ a, (k0_off15 v48) a + S1x224x224.size a ≤ S1536x224x224.size a)
instance k0_chk4.dec : ∀ (k0_t1 : Fin k0_t1_loop.trips) (v48 : BitVec 32), Decidable (k0_chk4 k0_t1 v48) := fun k0_t1 v48 => decidable_of_iff' _ (Iff.of_eq (k0_chk4.eq_1 k0_t1 v48))
theorem k0_off15_inb : ∀ (k0_t1 : Fin k0_t1_loop.trips) (v48 : BitVec 32) (k0_hw4 : k0_chk4 k0_t1 v48), ∀ (k0_h2 : k0_cond2 k0_t1 = 1#1), ∀ a, (k0_off15 v48) a + S1x224x224.size a ≤ S1536x224x224.size a := fun k0_t1 v48 k0_hw4 k0_h2 => k0_hw4 k0_h2

def k0_off16 (i : grid0.Coords) : Fin 4 → Nat :=
  let arg1 : BitVec 32 := BitVec.ofNat 32 (i 1).val
  let c0_i32_38 : BitVec 32 := 0#32
  let c0_i32_39 : BitVec 32 := 0#32
  let c0_i32_40 : BitVec 32 := 0#32
  ![arg1.toNat, 0, 0, 0]
def k0_off17 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c2_i32_36 : BitVec 32 := 2#32
  let v53 : BitVec 32 := Scalar.addi v20 c2_i32_36
  let v58 : BitVec 32 := Scalar.addi v2 v53
  let c0_i32_178_r3 : BitVec 32 := 0#32
  let c0_i32_179_r3 : BitVec 32 := 0#32
  ![v58.toNat, 0, 0]
def k0_cond3 (k0_t1 : Fin k0_t1_loop.trips) : BitVec 1 :=
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c2_i32_36 : BitVec 32 := 2#32
  let v53 : BitVec 32 := Scalar.addi v20 c2_i32_36
  let c2_i32_44 : BitVec 32 := 2#32
  let v61 : BitVec 32 := Scalar.addi v53 c2_i32_44
  let c48_i32_45 : BitVec 32 := 48#32
  let v62 : BitVec 1 := Scalar.cmpi .slt v61 c48_i32_45
  let v63 : BitVec 32 := Scalar.extui v62
  let c0_i32_46 : BitVec 32 := 0#32
  let v64 : BitVec 1 := Scalar.cmpi .ne v63 c0_i32_46
  v64

def k0_off18 (i : grid0.Coords) : Fin 4 → Nat :=
  let arg1 : BitVec 32 := BitVec.ofNat 32 (i 1).val
  let c0_i32_178 : BitVec 32 := 0#32
  let c0_i32_179 : BitVec 32 := 0#32
  let c0_i32_180 : BitVec 32 := 0#32
  ![arg1.toNat, 0, 0, 0]
def k0_off19 (v60 : BitVec 32) : Fin 3 → Nat :=
  let c0_i32_181 : BitVec 32 := 0#32
  let c0_i32_182 : BitVec 32 := 0#32
  ![v60.toNat, 0, 0]

def k0_chk5 (k0_t1 : Fin k0_t1_loop.trips) (v60 : BitVec 32) : Prop :=
  (∀ (k0_h3 : k0_cond3 k0_t1 = 1#1), ∀ a, (k0_off19 v60) a + S1x224x224.size a ≤ S1536x224x224.size a)
instance k0_chk5.dec : ∀ (k0_t1 : Fin k0_t1_loop.trips) (v60 : BitVec 32), Decidable (k0_chk5 k0_t1 v60) := fun k0_t1 v60 => decidable_of_iff' _ (Iff.of_eq (k0_chk5.eq_1 k0_t1 v60))
theorem k0_off19_inb : ∀ (k0_t1 : Fin k0_t1_loop.trips) (v60 : BitVec 32) (k0_hw5 : k0_chk5 k0_t1 v60), ∀ (k0_h3 : k0_cond3 k0_t1 = 1#1), ∀ a, (k0_off19 v60) a + S1x224x224.size a ≤ S1536x224x224.size a := fun k0_t1 v60 k0_hw5 k0_h3 => k0_hw5 k0_h3

def k0_off20 (i : grid0.Coords) : Fin 4 → Nat :=
  let arg1 : BitVec 32 := BitVec.ofNat 32 (i 1).val
  let c1_i32_49 : BitVec 32 := 1#32
  let c0_i32_50 : BitVec 32 := 0#32
  let c0_i32_51 : BitVec 32 := 0#32
  ![arg1.toNat, 1, 0, 0]
def k0_off21 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c3_i32_47 : BitVec 32 := 3#32
  let v65 : BitVec 32 := Scalar.addi v20 c3_i32_47
  let v70 : BitVec 32 := Scalar.addi v2 v65
  let c0_i32_178_r4 : BitVec 32 := 0#32
  let c0_i32_179_r4 : BitVec 32 := 0#32
  ![v70.toNat, 0, 0]
def k0_cond4 (k0_t1 : Fin k0_t1_loop.trips) : BitVec 1 :=
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c3_i32_47 : BitVec 32 := 3#32
  let v65 : BitVec 32 := Scalar.addi v20 c3_i32_47
  let c2_i32_55 : BitVec 32 := 2#32
  let v73 : BitVec 32 := Scalar.addi v65 c2_i32_55
  let c48_i32_56 : BitVec 32 := 48#32
  let v74 : BitVec 1 := Scalar.cmpi .slt v73 c48_i32_56
  let v75 : BitVec 32 := Scalar.extui v74
  let c0_i32_57 : BitVec 32 := 0#32
  let v76 : BitVec 1 := Scalar.cmpi .ne v75 c0_i32_57
  v76

def k0_off22 (i : grid0.Coords) : Fin 4 → Nat :=
  let arg1 : BitVec 32 := BitVec.ofNat 32 (i 1).val
  let c1_i32_178 : BitVec 32 := 1#32
  let c0_i32_179 : BitVec 32 := 0#32
  let c0_i32_180 : BitVec 32 := 0#32
  ![arg1.toNat, 1, 0, 0]
def k0_off23 (v72 : BitVec 32) : Fin 3 → Nat :=
  let c0_i32_181 : BitVec 32 := 0#32
  let c0_i32_182 : BitVec 32 := 0#32
  ![v72.toNat, 0, 0]

def k0_chk6 (k0_t1 : Fin k0_t1_loop.trips) (v72 : BitVec 32) : Prop :=
  (∀ (k0_h4 : k0_cond4 k0_t1 = 1#1), ∀ a, (k0_off23 v72) a + S1x224x224.size a ≤ S1536x224x224.size a)
instance k0_chk6.dec : ∀ (k0_t1 : Fin k0_t1_loop.trips) (v72 : BitVec 32), Decidable (k0_chk6 k0_t1 v72) := fun k0_t1 v72 => decidable_of_iff' _ (Iff.of_eq (k0_chk6.eq_1 k0_t1 v72))
theorem k0_off23_inb : ∀ (k0_t1 : Fin k0_t1_loop.trips) (v72 : BitVec 32) (k0_hw6 : k0_chk6 k0_t1 v72), ∀ (k0_h4 : k0_cond4 k0_t1 = 1#1), ∀ a, (k0_off23 v72) a + S1x224x224.size a ≤ S1536x224x224.size a := fun k0_t1 v72 k0_hw6 k0_h4 => k0_hw6 k0_h4

def k0_off24 (i : grid0.Coords) : Fin 4 → Nat :=
  let arg1 : BitVec 32 := BitVec.ofNat 32 (i 1).val
  let c0_i32_59 : BitVec 32 := 0#32
  let c0_i32_60 : BitVec 32 := 0#32
  let c0_i32_61 : BitVec 32 := 0#32
  ![arg1.toNat, 0, 0, 0]
def k0_off25 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c4_i32 : BitVec 32 := 4#32
  let v77 : BitVec 32 := Scalar.addi v20 c4_i32
  let v82 : BitVec 32 := Scalar.addi v2 v77
  let c0_i32_178_r5 : BitVec 32 := 0#32
  let c0_i32_179_r5 : BitVec 32 := 0#32
  ![v82.toNat, 0, 0]
def k0_cond5 (k0_t1 : Fin k0_t1_loop.trips) : BitVec 1 :=
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c4_i32 : BitVec 32 := 4#32
  let v77 : BitVec 32 := Scalar.addi v20 c4_i32
  let c2_i32_65 : BitVec 32 := 2#32
  let v85 : BitVec 32 := Scalar.addi v77 c2_i32_65
  let c48_i32_66 : BitVec 32 := 48#32
  let v86 : BitVec 1 := Scalar.cmpi .slt v85 c48_i32_66
  let v87 : BitVec 32 := Scalar.extui v86
  let c0_i32_67 : BitVec 32 := 0#32
  let v88 : BitVec 1 := Scalar.cmpi .ne v87 c0_i32_67
  v88

def k0_off26 (i : grid0.Coords) : Fin 4 → Nat :=
  let arg1 : BitVec 32 := BitVec.ofNat 32 (i 1).val
  let c0_i32_178 : BitVec 32 := 0#32
  let c0_i32_179 : BitVec 32 := 0#32
  let c0_i32_180 : BitVec 32 := 0#32
  ![arg1.toNat, 0, 0, 0]
def k0_off27 (v84 : BitVec 32) : Fin 3 → Nat :=
  let c0_i32_181 : BitVec 32 := 0#32
  let c0_i32_182 : BitVec 32 := 0#32
  ![v84.toNat, 0, 0]

def k0_chk7 (k0_t1 : Fin k0_t1_loop.trips) (v84 : BitVec 32) : Prop :=
  (∀ (k0_h5 : k0_cond5 k0_t1 = 1#1), ∀ a, (k0_off27 v84) a + S1x224x224.size a ≤ S1536x224x224.size a)
instance k0_chk7.dec : ∀ (k0_t1 : Fin k0_t1_loop.trips) (v84 : BitVec 32), Decidable (k0_chk7 k0_t1 v84) := fun k0_t1 v84 => decidable_of_iff' _ (Iff.of_eq (k0_chk7.eq_1 k0_t1 v84))
theorem k0_off27_inb : ∀ (k0_t1 : Fin k0_t1_loop.trips) (v84 : BitVec 32) (k0_hw7 : k0_chk7 k0_t1 v84), ∀ (k0_h5 : k0_cond5 k0_t1 = 1#1), ∀ a, (k0_off27 v84) a + S1x224x224.size a ≤ S1536x224x224.size a := fun k0_t1 v84 k0_hw7 k0_h5 => k0_hw7 k0_h5

def k0_off28 (i : grid0.Coords) : Fin 4 → Nat :=
  let arg1 : BitVec 32 := BitVec.ofNat 32 (i 1).val
  let c1_i32_69 : BitVec 32 := 1#32
  let c0_i32_70 : BitVec 32 := 0#32
  let c0_i32_71 : BitVec 32 := 0#32
  ![arg1.toNat, 1, 0, 0]
def k0_off29 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c5_i32 : BitVec 32 := 5#32
  let v89 : BitVec 32 := Scalar.addi v20 c5_i32
  let v94 : BitVec 32 := Scalar.addi v2 v89
  let c0_i32_178_r6 : BitVec 32 := 0#32
  let c0_i32_179_r6 : BitVec 32 := 0#32
  ![v94.toNat, 0, 0]
def k0_cond6 (k0_t1 : Fin k0_t1_loop.trips) : BitVec 1 :=
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c5_i32 : BitVec 32 := 5#32
  let v89 : BitVec 32 := Scalar.addi v20 c5_i32
  let c2_i32_75 : BitVec 32 := 2#32
  let v97 : BitVec 32 := Scalar.addi v89 c2_i32_75
  let c48_i32_76 : BitVec 32 := 48#32
  let v98 : BitVec 1 := Scalar.cmpi .slt v97 c48_i32_76
  let v99 : BitVec 32 := Scalar.extui v98
  let c0_i32_77 : BitVec 32 := 0#32
  let v100 : BitVec 1 := Scalar.cmpi .ne v99 c0_i32_77
  v100

def k0_off30 (i : grid0.Coords) : Fin 4 → Nat :=
  let arg1 : BitVec 32 := BitVec.ofNat 32 (i 1).val
  let c1_i32_178 : BitVec 32 := 1#32
  let c0_i32_179 : BitVec 32 := 0#32
  let c0_i32_180 : BitVec 32 := 0#32
  ![arg1.toNat, 1, 0, 0]
def k0_off31 (v96 : BitVec 32) : Fin 3 → Nat :=
  let c0_i32_181 : BitVec 32 := 0#32
  let c0_i32_182 : BitVec 32 := 0#32
  ![v96.toNat, 0, 0]

def k0_chk8 (k0_t1 : Fin k0_t1_loop.trips) (v96 : BitVec 32) : Prop :=
  (∀ (k0_h6 : k0_cond6 k0_t1 = 1#1), ∀ a, (k0_off31 v96) a + S1x224x224.size a ≤ S1536x224x224.size a)
instance k0_chk8.dec : ∀ (k0_t1 : Fin k0_t1_loop.trips) (v96 : BitVec 32), Decidable (k0_chk8 k0_t1 v96) := fun k0_t1 v96 => decidable_of_iff' _ (Iff.of_eq (k0_chk8.eq_1 k0_t1 v96))
theorem k0_off31_inb : ∀ (k0_t1 : Fin k0_t1_loop.trips) (v96 : BitVec 32) (k0_hw8 : k0_chk8 k0_t1 v96), ∀ (k0_h6 : k0_cond6 k0_t1 = 1#1), ∀ a, (k0_off31 v96) a + S1x224x224.size a ≤ S1536x224x224.size a := fun k0_t1 v96 k0_hw8 k0_h6 => k0_hw8 k0_h6

def k0_off32 (i : grid0.Coords) : Fin 4 → Nat :=
  let arg1 : BitVec 32 := BitVec.ofNat 32 (i 1).val
  let c0_i32_79 : BitVec 32 := 0#32
  let c0_i32_80 : BitVec 32 := 0#32
  let c0_i32_81 : BitVec 32 := 0#32
  ![arg1.toNat, 0, 0, 0]
def k0_off33 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c6_i32 : BitVec 32 := 6#32
  let v101 : BitVec 32 := Scalar.addi v20 c6_i32
  let v106 : BitVec 32 := Scalar.addi v2 v101
  let c0_i32_178_r7 : BitVec 32 := 0#32
  let c0_i32_179_r7 : BitVec 32 := 0#32
  ![v106.toNat, 0, 0]
def k0_cond7 (k0_t1 : Fin k0_t1_loop.trips) : BitVec 1 :=
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c6_i32 : BitVec 32 := 6#32
  let v101 : BitVec 32 := Scalar.addi v20 c6_i32
  let c2_i32_85 : BitVec 32 := 2#32
  let v109 : BitVec 32 := Scalar.addi v101 c2_i32_85
  let c48_i32_86 : BitVec 32 := 48#32
  let v110 : BitVec 1 := Scalar.cmpi .slt v109 c48_i32_86
  let v111 : BitVec 32 := Scalar.extui v110
  let c0_i32_87 : BitVec 32 := 0#32
  let v112 : BitVec 1 := Scalar.cmpi .ne v111 c0_i32_87
  v112

def k0_off34 (i : grid0.Coords) : Fin 4 → Nat :=
  let arg1 : BitVec 32 := BitVec.ofNat 32 (i 1).val
  let c0_i32_178 : BitVec 32 := 0#32
  let c0_i32_179 : BitVec 32 := 0#32
  let c0_i32_180 : BitVec 32 := 0#32
  ![arg1.toNat, 0, 0, 0]
def k0_off35 (v108 : BitVec 32) : Fin 3 → Nat :=
  let c0_i32_181 : BitVec 32 := 0#32
  let c0_i32_182 : BitVec 32 := 0#32
  ![v108.toNat, 0, 0]

def k0_chk9 (k0_t1 : Fin k0_t1_loop.trips) (v108 : BitVec 32) : Prop :=
  (∀ (k0_h7 : k0_cond7 k0_t1 = 1#1), ∀ a, (k0_off35 v108) a + S1x224x224.size a ≤ S1536x224x224.size a)
instance k0_chk9.dec : ∀ (k0_t1 : Fin k0_t1_loop.trips) (v108 : BitVec 32), Decidable (k0_chk9 k0_t1 v108) := fun k0_t1 v108 => decidable_of_iff' _ (Iff.of_eq (k0_chk9.eq_1 k0_t1 v108))
theorem k0_off35_inb : ∀ (k0_t1 : Fin k0_t1_loop.trips) (v108 : BitVec 32) (k0_hw9 : k0_chk9 k0_t1 v108), ∀ (k0_h7 : k0_cond7 k0_t1 = 1#1), ∀ a, (k0_off35 v108) a + S1x224x224.size a ≤ S1536x224x224.size a := fun k0_t1 v108 k0_hw9 k0_h7 => k0_hw9 k0_h7

def k0_off36 (i : grid0.Coords) : Fin 4 → Nat :=
  let arg1 : BitVec 32 := BitVec.ofNat 32 (i 1).val
  let c1_i32_89 : BitVec 32 := 1#32
  let c0_i32_90 : BitVec 32 := 0#32
  let c0_i32_91 : BitVec 32 := 0#32
  ![arg1.toNat, 1, 0, 0]
def k0_off37 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c7_i32 : BitVec 32 := 7#32
  let v113 : BitVec 32 := Scalar.addi v20 c7_i32
  let v118 : BitVec 32 := Scalar.addi v2 v113
  let c0_i32_178_r8 : BitVec 32 := 0#32
  let c0_i32_179_r8 : BitVec 32 := 0#32
  ![v118.toNat, 0, 0]
def k0_cond8 (k0_t1 : Fin k0_t1_loop.trips) : BitVec 1 :=
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c7_i32 : BitVec 32 := 7#32
  let v113 : BitVec 32 := Scalar.addi v20 c7_i32
  let c2_i32_95 : BitVec 32 := 2#32
  let v121 : BitVec 32 := Scalar.addi v113 c2_i32_95
  let c48_i32_96 : BitVec 32 := 48#32
  let v122 : BitVec 1 := Scalar.cmpi .slt v121 c48_i32_96
  let v123 : BitVec 32 := Scalar.extui v122
  let c0_i32_97 : BitVec 32 := 0#32
  let v124 : BitVec 1 := Scalar.cmpi .ne v123 c0_i32_97
  v124

def k0_off38 (i : grid0.Coords) : Fin 4 → Nat :=
  let arg1 : BitVec 32 := BitVec.ofNat 32 (i 1).val
  let c1_i32_178 : BitVec 32 := 1#32
  let c0_i32_179 : BitVec 32 := 0#32
  let c0_i32_180 : BitVec 32 := 0#32
  ![arg1.toNat, 1, 0, 0]
def k0_off39 (v120 : BitVec 32) : Fin 3 → Nat :=
  let c0_i32_181 : BitVec 32 := 0#32
  let c0_i32_182 : BitVec 32 := 0#32
  ![v120.toNat, 0, 0]

def k0_chk10 (k0_t1 : Fin k0_t1_loop.trips) (v120 : BitVec 32) : Prop :=
  (∀ (k0_h8 : k0_cond8 k0_t1 = 1#1), ∀ a, (k0_off39 v120) a + S1x224x224.size a ≤ S1536x224x224.size a)
instance k0_chk10.dec : ∀ (k0_t1 : Fin k0_t1_loop.trips) (v120 : BitVec 32), Decidable (k0_chk10 k0_t1 v120) := fun k0_t1 v120 => decidable_of_iff' _ (Iff.of_eq (k0_chk10.eq_1 k0_t1 v120))
theorem k0_off39_inb : ∀ (k0_t1 : Fin k0_t1_loop.trips) (v120 : BitVec 32) (k0_hw10 : k0_chk10 k0_t1 v120), ∀ (k0_h8 : k0_cond8 k0_t1 = 1#1), ∀ a, (k0_off39 v120) a + S1x224x224.size a ≤ S1536x224x224.size a := fun k0_t1 v120 k0_hw10 k0_h8 => k0_hw10 k0_h8

def k0_off40 (i : grid0.Coords) : Fin 4 → Nat :=
  let arg1 : BitVec 32 := BitVec.ofNat 32 (i 1).val
  let c0_i32_99 : BitVec 32 := 0#32
  let c0_i32_100 : BitVec 32 := 0#32
  let c0_i32_101 : BitVec 32 := 0#32
  ![arg1.toNat, 0, 0, 0]
def k0_off41 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c8_i32 : BitVec 32 := 8#32
  let v125 : BitVec 32 := Scalar.addi v20 c8_i32
  let v130 : BitVec 32 := Scalar.addi v2 v125
  let c0_i32_178_r9 : BitVec 32 := 0#32
  let c0_i32_179_r9 : BitVec 32 := 0#32
  ![v130.toNat, 0, 0]
def k0_cond9 (k0_t1 : Fin k0_t1_loop.trips) : BitVec 1 :=
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c8_i32 : BitVec 32 := 8#32
  let v125 : BitVec 32 := Scalar.addi v20 c8_i32
  let c2_i32_105 : BitVec 32 := 2#32
  let v133 : BitVec 32 := Scalar.addi v125 c2_i32_105
  let c48_i32_106 : BitVec 32 := 48#32
  let v134 : BitVec 1 := Scalar.cmpi .slt v133 c48_i32_106
  let v135 : BitVec 32 := Scalar.extui v134
  let c0_i32_107 : BitVec 32 := 0#32
  let v136 : BitVec 1 := Scalar.cmpi .ne v135 c0_i32_107
  v136

def k0_off42 (i : grid0.Coords) : Fin 4 → Nat :=
  let arg1 : BitVec 32 := BitVec.ofNat 32 (i 1).val
  let c0_i32_178 : BitVec 32 := 0#32
  let c0_i32_179 : BitVec 32 := 0#32
  let c0_i32_180 : BitVec 32 := 0#32
  ![arg1.toNat, 0, 0, 0]
def k0_off43 (v132 : BitVec 32) : Fin 3 → Nat :=
  let c0_i32_181 : BitVec 32 := 0#32
  let c0_i32_182 : BitVec 32 := 0#32
  ![v132.toNat, 0, 0]

def k0_chk11 (k0_t1 : Fin k0_t1_loop.trips) (v132 : BitVec 32) : Prop :=
  (∀ (k0_h9 : k0_cond9 k0_t1 = 1#1), ∀ a, (k0_off43 v132) a + S1x224x224.size a ≤ S1536x224x224.size a)
instance k0_chk11.dec : ∀ (k0_t1 : Fin k0_t1_loop.trips) (v132 : BitVec 32), Decidable (k0_chk11 k0_t1 v132) := fun k0_t1 v132 => decidable_of_iff' _ (Iff.of_eq (k0_chk11.eq_1 k0_t1 v132))
theorem k0_off43_inb : ∀ (k0_t1 : Fin k0_t1_loop.trips) (v132 : BitVec 32) (k0_hw11 : k0_chk11 k0_t1 v132), ∀ (k0_h9 : k0_cond9 k0_t1 = 1#1), ∀ a, (k0_off43 v132) a + S1x224x224.size a ≤ S1536x224x224.size a := fun k0_t1 v132 k0_hw11 k0_h9 => k0_hw11 k0_h9

def k0_off44 (i : grid0.Coords) : Fin 4 → Nat :=
  let arg1 : BitVec 32 := BitVec.ofNat 32 (i 1).val
  let c1_i32_109 : BitVec 32 := 1#32
  let c0_i32_110 : BitVec 32 := 0#32
  let c0_i32_111 : BitVec 32 := 0#32
  ![arg1.toNat, 1, 0, 0]
def k0_off45 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c9_i32 : BitVec 32 := 9#32
  let v137 : BitVec 32 := Scalar.addi v20 c9_i32
  let v142 : BitVec 32 := Scalar.addi v2 v137
  let c0_i32_178_r10 : BitVec 32 := 0#32
  let c0_i32_179_r10 : BitVec 32 := 0#32
  ![v142.toNat, 0, 0]
def k0_cond10 (k0_t1 : Fin k0_t1_loop.trips) : BitVec 1 :=
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c9_i32 : BitVec 32 := 9#32
  let v137 : BitVec 32 := Scalar.addi v20 c9_i32
  let c2_i32_115 : BitVec 32 := 2#32
  let v145 : BitVec 32 := Scalar.addi v137 c2_i32_115
  let c48_i32_116 : BitVec 32 := 48#32
  let v146 : BitVec 1 := Scalar.cmpi .slt v145 c48_i32_116
  let v147 : BitVec 32 := Scalar.extui v146
  let c0_i32_117 : BitVec 32 := 0#32
  let v148 : BitVec 1 := Scalar.cmpi .ne v147 c0_i32_117
  v148

def k0_off46 (i : grid0.Coords) : Fin 4 → Nat :=
  let arg1 : BitVec 32 := BitVec.ofNat 32 (i 1).val
  let c1_i32_178 : BitVec 32 := 1#32
  let c0_i32_179 : BitVec 32 := 0#32
  let c0_i32_180 : BitVec 32 := 0#32
  ![arg1.toNat, 1, 0, 0]
def k0_off47 (v144 : BitVec 32) : Fin 3 → Nat :=
  let c0_i32_181 : BitVec 32 := 0#32
  let c0_i32_182 : BitVec 32 := 0#32
  ![v144.toNat, 0, 0]

def k0_chk12 (k0_t1 : Fin k0_t1_loop.trips) (v144 : BitVec 32) : Prop :=
  (∀ (k0_h10 : k0_cond10 k0_t1 = 1#1), ∀ a, (k0_off47 v144) a + S1x224x224.size a ≤ S1536x224x224.size a)
instance k0_chk12.dec : ∀ (k0_t1 : Fin k0_t1_loop.trips) (v144 : BitVec 32), Decidable (k0_chk12 k0_t1 v144) := fun k0_t1 v144 => decidable_of_iff' _ (Iff.of_eq (k0_chk12.eq_1 k0_t1 v144))
theorem k0_off47_inb : ∀ (k0_t1 : Fin k0_t1_loop.trips) (v144 : BitVec 32) (k0_hw12 : k0_chk12 k0_t1 v144), ∀ (k0_h10 : k0_cond10 k0_t1 = 1#1), ∀ a, (k0_off47 v144) a + S1x224x224.size a ≤ S1536x224x224.size a := fun k0_t1 v144 k0_hw12 k0_h10 => k0_hw12 k0_h10

def k0_off48 (i : grid0.Coords) : Fin 4 → Nat :=
  let arg1 : BitVec 32 := BitVec.ofNat 32 (i 1).val
  let c0_i32_119 : BitVec 32 := 0#32
  let c0_i32_120 : BitVec 32 := 0#32
  let c0_i32_121 : BitVec 32 := 0#32
  ![arg1.toNat, 0, 0, 0]
def k0_off49 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c10_i32 : BitVec 32 := 10#32
  let v149 : BitVec 32 := Scalar.addi v20 c10_i32
  let v154 : BitVec 32 := Scalar.addi v2 v149
  let c0_i32_178_r11 : BitVec 32 := 0#32
  let c0_i32_179_r11 : BitVec 32 := 0#32
  ![v154.toNat, 0, 0]
def k0_cond11 (k0_t1 : Fin k0_t1_loop.trips) : BitVec 1 :=
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c10_i32 : BitVec 32 := 10#32
  let v149 : BitVec 32 := Scalar.addi v20 c10_i32
  let c2_i32_125 : BitVec 32 := 2#32
  let v157 : BitVec 32 := Scalar.addi v149 c2_i32_125
  let c48_i32_126 : BitVec 32 := 48#32
  let v158 : BitVec 1 := Scalar.cmpi .slt v157 c48_i32_126
  let v159 : BitVec 32 := Scalar.extui v158
  let c0_i32_127 : BitVec 32 := 0#32
  let v160 : BitVec 1 := Scalar.cmpi .ne v159 c0_i32_127
  v160

def k0_off50 (i : grid0.Coords) : Fin 4 → Nat :=
  let arg1 : BitVec 32 := BitVec.ofNat 32 (i 1).val
  let c0_i32_178 : BitVec 32 := 0#32
  let c0_i32_179 : BitVec 32 := 0#32
  let c0_i32_180 : BitVec 32 := 0#32
  ![arg1.toNat, 0, 0, 0]
def k0_off51 (v156 : BitVec 32) : Fin 3 → Nat :=
  let c0_i32_181 : BitVec 32 := 0#32
  let c0_i32_182 : BitVec 32 := 0#32
  ![v156.toNat, 0, 0]

def k0_chk13 (k0_t1 : Fin k0_t1_loop.trips) (v156 : BitVec 32) : Prop :=
  (∀ (k0_h11 : k0_cond11 k0_t1 = 1#1), ∀ a, (k0_off51 v156) a + S1x224x224.size a ≤ S1536x224x224.size a)
instance k0_chk13.dec : ∀ (k0_t1 : Fin k0_t1_loop.trips) (v156 : BitVec 32), Decidable (k0_chk13 k0_t1 v156) := fun k0_t1 v156 => decidable_of_iff' _ (Iff.of_eq (k0_chk13.eq_1 k0_t1 v156))
theorem k0_off51_inb : ∀ (k0_t1 : Fin k0_t1_loop.trips) (v156 : BitVec 32) (k0_hw13 : k0_chk13 k0_t1 v156), ∀ (k0_h11 : k0_cond11 k0_t1 = 1#1), ∀ a, (k0_off51 v156) a + S1x224x224.size a ≤ S1536x224x224.size a := fun k0_t1 v156 k0_hw13 k0_h11 => k0_hw13 k0_h11

def k0_off52 (i : grid0.Coords) : Fin 4 → Nat :=
  let arg1 : BitVec 32 := BitVec.ofNat 32 (i 1).val
  let c1_i32_129 : BitVec 32 := 1#32
  let c0_i32_130 : BitVec 32 := 0#32
  let c0_i32_131 : BitVec 32 := 0#32
  ![arg1.toNat, 1, 0, 0]
def k0_off53 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c11_i32 : BitVec 32 := 11#32
  let v161 : BitVec 32 := Scalar.addi v20 c11_i32
  let v166 : BitVec 32 := Scalar.addi v2 v161
  let c0_i32_178_r12 : BitVec 32 := 0#32
  let c0_i32_179_r12 : BitVec 32 := 0#32
  ![v166.toNat, 0, 0]
def k0_cond12 (k0_t1 : Fin k0_t1_loop.trips) : BitVec 1 :=
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c11_i32 : BitVec 32 := 11#32
  let v161 : BitVec 32 := Scalar.addi v20 c11_i32
  let c2_i32_135 : BitVec 32 := 2#32
  let v169 : BitVec 32 := Scalar.addi v161 c2_i32_135
  let c48_i32_136 : BitVec 32 := 48#32
  let v170 : BitVec 1 := Scalar.cmpi .slt v169 c48_i32_136
  let v171 : BitVec 32 := Scalar.extui v170
  let c0_i32_137 : BitVec 32 := 0#32
  let v172 : BitVec 1 := Scalar.cmpi .ne v171 c0_i32_137
  v172

def k0_off54 (i : grid0.Coords) : Fin 4 → Nat :=
  let arg1 : BitVec 32 := BitVec.ofNat 32 (i 1).val
  let c1_i32_178 : BitVec 32 := 1#32
  let c0_i32_179 : BitVec 32 := 0#32
  let c0_i32_180 : BitVec 32 := 0#32
  ![arg1.toNat, 1, 0, 0]
def k0_off55 (v168 : BitVec 32) : Fin 3 → Nat :=
  let c0_i32_181 : BitVec 32 := 0#32
  let c0_i32_182 : BitVec 32 := 0#32
  ![v168.toNat, 0, 0]

def k0_chk14 (k0_t1 : Fin k0_t1_loop.trips) (v168 : BitVec 32) : Prop :=
  (∀ (k0_h12 : k0_cond12 k0_t1 = 1#1), ∀ a, (k0_off55 v168) a + S1x224x224.size a ≤ S1536x224x224.size a)
instance k0_chk14.dec : ∀ (k0_t1 : Fin k0_t1_loop.trips) (v168 : BitVec 32), Decidable (k0_chk14 k0_t1 v168) := fun k0_t1 v168 => decidable_of_iff' _ (Iff.of_eq (k0_chk14.eq_1 k0_t1 v168))
theorem k0_off55_inb : ∀ (k0_t1 : Fin k0_t1_loop.trips) (v168 : BitVec 32) (k0_hw14 : k0_chk14 k0_t1 v168), ∀ (k0_h12 : k0_cond12 k0_t1 = 1#1), ∀ a, (k0_off55 v168) a + S1x224x224.size a ≤ S1536x224x224.size a := fun k0_t1 v168 k0_hw14 k0_h12 => k0_hw14 k0_h12

def k0_off56 (i : grid0.Coords) : Fin 4 → Nat :=
  let arg1 : BitVec 32 := BitVec.ofNat 32 (i 1).val
  let c0_i32_139 : BitVec 32 := 0#32
  let c0_i32_140 : BitVec 32 := 0#32
  let c0_i32_141 : BitVec 32 := 0#32
  ![arg1.toNat, 0, 0, 0]
def k0_off57 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c12_i32 : BitVec 32 := 12#32
  let v173 : BitVec 32 := Scalar.addi v20 c12_i32
  let v178 : BitVec 32 := Scalar.addi v2 v173
  let c0_i32_178_r13 : BitVec 32 := 0#32
  let c0_i32_179_r13 : BitVec 32 := 0#32
  ![v178.toNat, 0, 0]
def k0_cond13 (k0_t1 : Fin k0_t1_loop.trips) : BitVec 1 :=
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c12_i32 : BitVec 32 := 12#32
  let v173 : BitVec 32 := Scalar.addi v20 c12_i32
  let c2_i32_145 : BitVec 32 := 2#32
  let v181 : BitVec 32 := Scalar.addi v173 c2_i32_145
  let c48_i32_146 : BitVec 32 := 48#32
  let v182 : BitVec 1 := Scalar.cmpi .slt v181 c48_i32_146
  let v183 : BitVec 32 := Scalar.extui v182
  let c0_i32_147 : BitVec 32 := 0#32
  let v184 : BitVec 1 := Scalar.cmpi .ne v183 c0_i32_147
  v184

def k0_off58 (i : grid0.Coords) : Fin 4 → Nat :=
  let arg1 : BitVec 32 := BitVec.ofNat 32 (i 1).val
  let c0_i32_178 : BitVec 32 := 0#32
  let c0_i32_179 : BitVec 32 := 0#32
  let c0_i32_180 : BitVec 32 := 0#32
  ![arg1.toNat, 0, 0, 0]
def k0_off59 (v180 : BitVec 32) : Fin 3 → Nat :=
  let c0_i32_181 : BitVec 32 := 0#32
  let c0_i32_182 : BitVec 32 := 0#32
  ![v180.toNat, 0, 0]

def k0_chk15 (k0_t1 : Fin k0_t1_loop.trips) (v180 : BitVec 32) : Prop :=
  (∀ (k0_h13 : k0_cond13 k0_t1 = 1#1), ∀ a, (k0_off59 v180) a + S1x224x224.size a ≤ S1536x224x224.size a)
instance k0_chk15.dec : ∀ (k0_t1 : Fin k0_t1_loop.trips) (v180 : BitVec 32), Decidable (k0_chk15 k0_t1 v180) := fun k0_t1 v180 => decidable_of_iff' _ (Iff.of_eq (k0_chk15.eq_1 k0_t1 v180))
theorem k0_off59_inb : ∀ (k0_t1 : Fin k0_t1_loop.trips) (v180 : BitVec 32) (k0_hw15 : k0_chk15 k0_t1 v180), ∀ (k0_h13 : k0_cond13 k0_t1 = 1#1), ∀ a, (k0_off59 v180) a + S1x224x224.size a ≤ S1536x224x224.size a := fun k0_t1 v180 k0_hw15 k0_h13 => k0_hw15 k0_h13

def k0_off60 (i : grid0.Coords) : Fin 4 → Nat :=
  let arg1 : BitVec 32 := BitVec.ofNat 32 (i 1).val
  let c1_i32_149 : BitVec 32 := 1#32
  let c0_i32_150 : BitVec 32 := 0#32
  let c0_i32_151 : BitVec 32 := 0#32
  ![arg1.toNat, 1, 0, 0]
def k0_off61 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c13_i32 : BitVec 32 := 13#32
  let v185 : BitVec 32 := Scalar.addi v20 c13_i32
  let v190 : BitVec 32 := Scalar.addi v2 v185
  let c0_i32_178_r14 : BitVec 32 := 0#32
  let c0_i32_179_r14 : BitVec 32 := 0#32
  ![v190.toNat, 0, 0]
def k0_cond14 (k0_t1 : Fin k0_t1_loop.trips) : BitVec 1 :=
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c13_i32 : BitVec 32 := 13#32
  let v185 : BitVec 32 := Scalar.addi v20 c13_i32
  let c2_i32_155 : BitVec 32 := 2#32
  let v193 : BitVec 32 := Scalar.addi v185 c2_i32_155
  let c48_i32_156 : BitVec 32 := 48#32
  let v194 : BitVec 1 := Scalar.cmpi .slt v193 c48_i32_156
  let v195 : BitVec 32 := Scalar.extui v194
  let c0_i32_157 : BitVec 32 := 0#32
  let v196 : BitVec 1 := Scalar.cmpi .ne v195 c0_i32_157
  v196

def k0_off62 (i : grid0.Coords) : Fin 4 → Nat :=
  let arg1 : BitVec 32 := BitVec.ofNat 32 (i 1).val
  let c1_i32_178 : BitVec 32 := 1#32
  let c0_i32_179 : BitVec 32 := 0#32
  let c0_i32_180 : BitVec 32 := 0#32
  ![arg1.toNat, 1, 0, 0]
def k0_off63 (v192 : BitVec 32) : Fin 3 → Nat :=
  let c0_i32_181 : BitVec 32 := 0#32
  let c0_i32_182 : BitVec 32 := 0#32
  ![v192.toNat, 0, 0]

def k0_chk16 (k0_t1 : Fin k0_t1_loop.trips) (v192 : BitVec 32) : Prop :=
  (∀ (k0_h14 : k0_cond14 k0_t1 = 1#1), ∀ a, (k0_off63 v192) a + S1x224x224.size a ≤ S1536x224x224.size a)
instance k0_chk16.dec : ∀ (k0_t1 : Fin k0_t1_loop.trips) (v192 : BitVec 32), Decidable (k0_chk16 k0_t1 v192) := fun k0_t1 v192 => decidable_of_iff' _ (Iff.of_eq (k0_chk16.eq_1 k0_t1 v192))
theorem k0_off63_inb : ∀ (k0_t1 : Fin k0_t1_loop.trips) (v192 : BitVec 32) (k0_hw16 : k0_chk16 k0_t1 v192), ∀ (k0_h14 : k0_cond14 k0_t1 = 1#1), ∀ a, (k0_off63 v192) a + S1x224x224.size a ≤ S1536x224x224.size a := fun k0_t1 v192 k0_hw16 k0_h14 => k0_hw16 k0_h14

def k0_off64 (i : grid0.Coords) : Fin 4 → Nat :=
  let arg1 : BitVec 32 := BitVec.ofNat 32 (i 1).val
  let c0_i32_159 : BitVec 32 := 0#32
  let c0_i32_160 : BitVec 32 := 0#32
  let c0_i32_161 : BitVec 32 := 0#32
  ![arg1.toNat, 0, 0, 0]
def k0_off65 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c14_i32 : BitVec 32 := 14#32
  let v197 : BitVec 32 := Scalar.addi v20 c14_i32
  let v202 : BitVec 32 := Scalar.addi v2 v197
  let c0_i32_178_r15 : BitVec 32 := 0#32
  let c0_i32_179_r15 : BitVec 32 := 0#32
  ![v202.toNat, 0, 0]
def k0_cond15 (k0_t1 : Fin k0_t1_loop.trips) : BitVec 1 :=
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c14_i32 : BitVec 32 := 14#32
  let v197 : BitVec 32 := Scalar.addi v20 c14_i32
  let c2_i32_165 : BitVec 32 := 2#32
  let v205 : BitVec 32 := Scalar.addi v197 c2_i32_165
  let c48_i32_166 : BitVec 32 := 48#32
  let v206 : BitVec 1 := Scalar.cmpi .slt v205 c48_i32_166
  let v207 : BitVec 32 := Scalar.extui v206
  let c0_i32_167 : BitVec 32 := 0#32
  let v208 : BitVec 1 := Scalar.cmpi .ne v207 c0_i32_167
  v208

def k0_off66 (i : grid0.Coords) : Fin 4 → Nat :=
  let arg1 : BitVec 32 := BitVec.ofNat 32 (i 1).val
  let c0_i32_178 : BitVec 32 := 0#32
  let c0_i32_179 : BitVec 32 := 0#32
  let c0_i32_180 : BitVec 32 := 0#32
  ![arg1.toNat, 0, 0, 0]
def k0_off67 (v204 : BitVec 32) : Fin 3 → Nat :=
  let c0_i32_181 : BitVec 32 := 0#32
  let c0_i32_182 : BitVec 32 := 0#32
  ![v204.toNat, 0, 0]

def k0_chk17 (k0_t1 : Fin k0_t1_loop.trips) (v204 : BitVec 32) : Prop :=
  (∀ (k0_h15 : k0_cond15 k0_t1 = 1#1), ∀ a, (k0_off67 v204) a + S1x224x224.size a ≤ S1536x224x224.size a)
instance k0_chk17.dec : ∀ (k0_t1 : Fin k0_t1_loop.trips) (v204 : BitVec 32), Decidable (k0_chk17 k0_t1 v204) := fun k0_t1 v204 => decidable_of_iff' _ (Iff.of_eq (k0_chk17.eq_1 k0_t1 v204))
theorem k0_off67_inb : ∀ (k0_t1 : Fin k0_t1_loop.trips) (v204 : BitVec 32) (k0_hw17 : k0_chk17 k0_t1 v204), ∀ (k0_h15 : k0_cond15 k0_t1 = 1#1), ∀ a, (k0_off67 v204) a + S1x224x224.size a ≤ S1536x224x224.size a := fun k0_t1 v204 k0_hw17 k0_h15 => k0_hw17 k0_h15

def k0_off68 (i : grid0.Coords) : Fin 4 → Nat :=
  let arg1 : BitVec 32 := BitVec.ofNat 32 (i 1).val
  let c1_i32_169 : BitVec 32 := 1#32
  let c0_i32_170 : BitVec 32 := 0#32
  let c0_i32_171 : BitVec 32 := 0#32
  ![arg1.toNat, 1, 0, 0]
def k0_off69 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c15_i32 : BitVec 32 := 15#32
  let v209 : BitVec 32 := Scalar.addi v20 c15_i32
  let v214 : BitVec 32 := Scalar.addi v2 v209
  let c0_i32_178_r16 : BitVec 32 := 0#32
  let c0_i32_179_r16 : BitVec 32 := 0#32
  ![v214.toNat, 0, 0]
def k0_cond16 (k0_t1 : Fin k0_t1_loop.trips) : BitVec 1 :=
  let c0_i32_12 : BitVec 32 := 0#32
  let c0_i32_8 : BitVec 32 := 0#32
  let c1_i32_9 : BitVec 32 := 1#32
  let arg9 : BitVec 32 := Scf.iv c0_i32_8 c1_i32_9 k0_t1
  let c1_i32_11 : BitVec 32 := 1#32
  let v18 : BitVec 32 := Scalar.muli arg9 c1_i32_11
  let v19 : BitVec 32 := Scalar.addi c0_i32_12 v18
  let c16_i32 : BitVec 32 := 16#32
  let v20 : BitVec 32 := Scalar.muli v19 c16_i32
  let c15_i32 : BitVec 32 := 15#32
  let v209 : BitVec 32 := Scalar.addi v20 c15_i32
  let c2_i32_175 : BitVec 32 := 2#32
  let v217 : BitVec 32 := Scalar.addi v209 c2_i32_175
  let c48_i32_176 : BitVec 32 := 48#32
  let v218 : BitVec 1 := Scalar.cmpi .slt v217 c48_i32_176
  let v219 : BitVec 32 := Scalar.extui v218
  let c0_i32_177 : BitVec 32 := 0#32
  let v220 : BitVec 1 := Scalar.cmpi .ne v219 c0_i32_177
  v220

def k0_off70 (i : grid0.Coords) : Fin 4 → Nat :=
  let arg1 : BitVec 32 := BitVec.ofNat 32 (i 1).val
  let c1_i32_178 : BitVec 32 := 1#32
  let c0_i32_179 : BitVec 32 := 0#32
  let c0_i32_180 : BitVec 32 := 0#32
  ![arg1.toNat, 1, 0, 0]
def k0_off71 (v216 : BitVec 32) : Fin 3 → Nat :=
  let c0_i32_181 : BitVec 32 := 0#32
  let c0_i32_182 : BitVec 32 := 0#32
  ![v216.toNat, 0, 0]

def k0_chk18 (k0_t1 : Fin k0_t1_loop.trips) (v216 : BitVec 32) : Prop :=
  (∀ (k0_h16 : k0_cond16 k0_t1 = 1#1), ∀ a, (k0_off71 v216) a + S1x224x224.size a ≤ S1536x224x224.size a)
instance k0_chk18.dec : ∀ (k0_t1 : Fin k0_t1_loop.trips) (v216 : BitVec 32), Decidable (k0_chk18 k0_t1 v216) := fun k0_t1 v216 => decidable_of_iff' _ (Iff.of_eq (k0_chk18.eq_1 k0_t1 v216))
theorem k0_off71_inb : ∀ (k0_t1 : Fin k0_t1_loop.trips) (v216 : BitVec 32) (k0_hw18 : k0_chk18 k0_t1 v216), ∀ (k0_h16 : k0_cond16 k0_t1 = 1#1), ∀ a, (k0_off71 v216) a + S1x224x224.size a ≤ S1536x224x224.size a := fun k0_t1 v216 k0_hw18 k0_h16 => k0_hw18 k0_h16

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S8x192x224x224_S1536x224x224 : S8x192x224x224.ShapeCasts S1536x224x224
  bcast_S8_S8x1_0 : S8.BroadcastsInDim S8x1 (![0] : Fin 1 → Fin S8x1.rank)
  bcast_S_S8x1 : S_.BroadcastsInDim S8x1 (![] : Fin 0 → Fin S8x1.rank)
  bcast_S192_S1x192_1 : S192.BroadcastsInDim S1x192 (![1] : Fin 1 → Fin S1x192.rank)
  bcast_S8x1_S8x192_0_1 : S8x1.BroadcastsInDim S8x192 (![0, 1] : Fin 2 → Fin S8x192.rank)
  bcast_S1x192_S8x192_0_1 : S1x192.BroadcastsInDim S8x192 (![0, 1] : Fin 2 → Fin S8x192.rank)
  shapeCasts_S8x192_S1536 : S8x192.ShapeCasts S1536
  inb_S48_S16_0 : ∀ a, (![0] : Fin 1 → Nat) a + S16.size a ≤ S48.size a
  h_S16 : 0 < S16.numel
  shapeCasts_S16_S16 : S16.ShapeCasts S16
  slices_S16_o0_S1 : S16.Slices ![0] S1
  inpos_S1_p0 : ∀ a, (![0] : Fin 1 → Nat) a < S1.size a
  squeezes_S1x1x224x224_S224x224 : S1x1x224x224.Squeezes S224x224
  squeezes_S1x224x224_S224x224 : S1x224x224.Squeezes S224x224
  slices_S16_o1_S1 : S16.Slices ![1] S1
  inb_S1536x224x224_S1x224x224_0_0_0 : ∀ a, (![0, 0, 0] : Fin 3 → Nat) a + S1x224x224.size a ≤ S1536x224x224.size a
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  shapeCasts_S1536x224x224_S8x192x224x224 : S1536x224x224.ShapeCasts S8x192x224x224
  hcc0_scratch2 : 0 + S_.numel ≤ 19
  hcc0_scratch3 : 1 + S_.numel ≤ 19
  hcc0_scoped0 : 2 + S_.numel ≤ 19
  hcc0_scoped1 : 3 + S_.numel ≤ 19
  hcc0_scoped2 : 4 + S_.numel ≤ 19
  hcc0_scoped3 : 5 + S_.numel ≤ 19
  hcc0_scoped4 : 6 + S_.numel ≤ 19
  hcc0_scoped5 : 7 + S_.numel ≤ 19
  hcc0_scoped6 : 8 + S_.numel ≤ 19
  hcc0_scoped7 : 9 + S_.numel ≤ 19
  hcc0_scoped8 : 10 + S_.numel ≤ 19
  hcc0_scoped9 : 11 + S_.numel ≤ 19
  hcc0_scoped10 : 12 + S_.numel ≤ 19
  hcc0_scoped11 : 13 + S_.numel ≤ 19
  hcc0_scoped12 : 14 + S_.numel ≤ 19
  hcc0_scoped13 : 15 + S_.numel ≤ 19
  hcc0_scoped14 : 16 + S_.numel ≤ 19
  hcc0_scoped15 : 17 + S_.numel ≤ 19
  hcc0_scoped16 : 18 + S_.numel ≤ 19
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S48.size a ≤ S1536.size a
  k0_off2_inb : ∀ i : grid0.Coords, ∀ a, (k0_off2 i) a + S1x1x224x224.size a ≤ S16x2x224x224.size a
  k0_off4_inb : ∀ i : grid0.Coords, ∀ a, (k0_off4 i) a + S1x1x224x224.size a ≤ S16x2x224x224.size a
  k0_t1_ok : k0_t1_loop.OK
  k0_off6_inb : ∀ k0_t1 : Fin k0_t1_loop.trips, ∀ a, (k0_off6 k0_t1) a + S16.size a ≤ S48.size a
  k0_off7_inb : ∀ k0_t1 : Fin k0_t1_loop.trips, ∀ a, (k0_off7 k0_t1) a + S16.size a ≤ S48.size a
  k0_off8_inb : ∀ i : grid0.Coords, ∀ a, (k0_off8 i) a + S1x1x224x224.size a ≤ S16x2x224x224.size a
  k0_off9_inb : ∀ (i : grid0.Coords) (k0_t1 : Fin k0_t1_loop.trips), ∀ a, (k0_off9 i k0_t1) a + S1x224x224.size a ≤ S1536x224x224.size a
  k0_off10_inb : ∀ (i : grid0.Coords) (k0_t1 : Fin k0_t1_loop.trips), ∀ (k0_h1 : k0_cond1 k0_t1 = 1#1), ∀ a, (k0_off10 i) a + S1x1x224x224.size a ≤ S16x2x224x224.size a
  k0_off12_inb : ∀ i : grid0.Coords, ∀ a, (k0_off12 i) a + S1x1x224x224.size a ≤ S16x2x224x224.size a
  k0_off13_inb : ∀ (i : grid0.Coords) (k0_t1 : Fin k0_t1_loop.trips), ∀ a, (k0_off13 i k0_t1) a + S1x224x224.size a ≤ S1536x224x224.size a
  k0_off14_inb : ∀ (i : grid0.Coords) (k0_t1 : Fin k0_t1_loop.trips), ∀ (k0_h2 : k0_cond2 k0_t1 = 1#1), ∀ a, (k0_off14 i) a + S1x1x224x224.size a ≤ S16x2x224x224.size a
  k0_off16_inb : ∀ i : grid0.Coords, ∀ a, (k0_off16 i) a + S1x1x224x224.size a ≤ S16x2x224x224.size a
  k0_off17_inb : ∀ (i : grid0.Coords) (k0_t1 : Fin k0_t1_loop.trips), ∀ a, (k0_off17 i k0_t1) a + S1x224x224.size a ≤ S1536x224x224.size a
  k0_off18_inb : ∀ (i : grid0.Coords) (k0_t1 : Fin k0_t1_loop.trips), ∀ (k0_h3 : k0_cond3 k0_t1 = 1#1), ∀ a, (k0_off18 i) a + S1x1x224x224.size a ≤ S16x2x224x224.size a
  k0_off20_inb : ∀ i : grid0.Coords, ∀ a, (k0_off20 i) a + S1x1x224x224.size a ≤ S16x2x224x224.size a
  k0_off21_inb : ∀ (i : grid0.Coords) (k0_t1 : Fin k0_t1_loop.trips), ∀ a, (k0_off21 i k0_t1) a + S1x224x224.size a ≤ S1536x224x224.size a
  k0_off22_inb : ∀ (i : grid0.Coords) (k0_t1 : Fin k0_t1_loop.trips), ∀ (k0_h4 : k0_cond4 k0_t1 = 1#1), ∀ a, (k0_off22 i) a + S1x1x224x224.size a ≤ S16x2x224x224.size a
  k0_off24_inb : ∀ i : grid0.Coords, ∀ a, (k0_off24 i) a + S1x1x224x224.size a ≤ S16x2x224x224.size a
  k0_off25_inb : ∀ (i : grid0.Coords) (k0_t1 : Fin k0_t1_loop.trips), ∀ a, (k0_off25 i k0_t1) a + S1x224x224.size a ≤ S1536x224x224.size a
  k0_off26_inb : ∀ (i : grid0.Coords) (k0_t1 : Fin k0_t1_loop.trips), ∀ (k0_h5 : k0_cond5 k0_t1 = 1#1), ∀ a, (k0_off26 i) a + S1x1x224x224.size a ≤ S16x2x224x224.size a
  k0_off28_inb : ∀ i : grid0.Coords, ∀ a, (k0_off28 i) a + S1x1x224x224.size a ≤ S16x2x224x224.size a
  k0_off29_inb : ∀ (i : grid0.Coords) (k0_t1 : Fin k0_t1_loop.trips), ∀ a, (k0_off29 i k0_t1) a + S1x224x224.size a ≤ S1536x224x224.size a
  k0_off30_inb : ∀ (i : grid0.Coords) (k0_t1 : Fin k0_t1_loop.trips), ∀ (k0_h6 : k0_cond6 k0_t1 = 1#1), ∀ a, (k0_off30 i) a + S1x1x224x224.size a ≤ S16x2x224x224.size a
  k0_off32_inb : ∀ i : grid0.Coords, ∀ a, (k0_off32 i) a + S1x1x224x224.size a ≤ S16x2x224x224.size a
  k0_off33_inb : ∀ (i : grid0.Coords) (k0_t1 : Fin k0_t1_loop.trips), ∀ a, (k0_off33 i k0_t1) a + S1x224x224.size a ≤ S1536x224x224.size a
  k0_off34_inb : ∀ (i : grid0.Coords) (k0_t1 : Fin k0_t1_loop.trips), ∀ (k0_h7 : k0_cond7 k0_t1 = 1#1), ∀ a, (k0_off34 i) a + S1x1x224x224.size a ≤ S16x2x224x224.size a
  k0_off36_inb : ∀ i : grid0.Coords, ∀ a, (k0_off36 i) a + S1x1x224x224.size a ≤ S16x2x224x224.size a
  k0_off37_inb : ∀ (i : grid0.Coords) (k0_t1 : Fin k0_t1_loop.trips), ∀ a, (k0_off37 i k0_t1) a + S1x224x224.size a ≤ S1536x224x224.size a
  k0_off38_inb : ∀ (i : grid0.Coords) (k0_t1 : Fin k0_t1_loop.trips), ∀ (k0_h8 : k0_cond8 k0_t1 = 1#1), ∀ a, (k0_off38 i) a + S1x1x224x224.size a ≤ S16x2x224x224.size a
  k0_off40_inb : ∀ i : grid0.Coords, ∀ a, (k0_off40 i) a + S1x1x224x224.size a ≤ S16x2x224x224.size a
  k0_off41_inb : ∀ (i : grid0.Coords) (k0_t1 : Fin k0_t1_loop.trips), ∀ a, (k0_off41 i k0_t1) a + S1x224x224.size a ≤ S1536x224x224.size a
  k0_off42_inb : ∀ (i : grid0.Coords) (k0_t1 : Fin k0_t1_loop.trips), ∀ (k0_h9 : k0_cond9 k0_t1 = 1#1), ∀ a, (k0_off42 i) a + S1x1x224x224.size a ≤ S16x2x224x224.size a
  k0_off44_inb : ∀ i : grid0.Coords, ∀ a, (k0_off44 i) a + S1x1x224x224.size a ≤ S16x2x224x224.size a
  k0_off45_inb : ∀ (i : grid0.Coords) (k0_t1 : Fin k0_t1_loop.trips), ∀ a, (k0_off45 i k0_t1) a + S1x224x224.size a ≤ S1536x224x224.size a
  k0_off46_inb : ∀ (i : grid0.Coords) (k0_t1 : Fin k0_t1_loop.trips), ∀ (k0_h10 : k0_cond10 k0_t1 = 1#1), ∀ a, (k0_off46 i) a + S1x1x224x224.size a ≤ S16x2x224x224.size a
  k0_off48_inb : ∀ i : grid0.Coords, ∀ a, (k0_off48 i) a + S1x1x224x224.size a ≤ S16x2x224x224.size a
  k0_off49_inb : ∀ (i : grid0.Coords) (k0_t1 : Fin k0_t1_loop.trips), ∀ a, (k0_off49 i k0_t1) a + S1x224x224.size a ≤ S1536x224x224.size a
  k0_off50_inb : ∀ (i : grid0.Coords) (k0_t1 : Fin k0_t1_loop.trips), ∀ (k0_h11 : k0_cond11 k0_t1 = 1#1), ∀ a, (k0_off50 i) a + S1x1x224x224.size a ≤ S16x2x224x224.size a
  k0_off52_inb : ∀ i : grid0.Coords, ∀ a, (k0_off52 i) a + S1x1x224x224.size a ≤ S16x2x224x224.size a
  k0_off53_inb : ∀ (i : grid0.Coords) (k0_t1 : Fin k0_t1_loop.trips), ∀ a, (k0_off53 i k0_t1) a + S1x224x224.size a ≤ S1536x224x224.size a
  k0_off54_inb : ∀ (i : grid0.Coords) (k0_t1 : Fin k0_t1_loop.trips), ∀ (k0_h12 : k0_cond12 k0_t1 = 1#1), ∀ a, (k0_off54 i) a + S1x1x224x224.size a ≤ S16x2x224x224.size a
  k0_off56_inb : ∀ i : grid0.Coords, ∀ a, (k0_off56 i) a + S1x1x224x224.size a ≤ S16x2x224x224.size a
  k0_off57_inb : ∀ (i : grid0.Coords) (k0_t1 : Fin k0_t1_loop.trips), ∀ a, (k0_off57 i k0_t1) a + S1x224x224.size a ≤ S1536x224x224.size a
  k0_off58_inb : ∀ (i : grid0.Coords) (k0_t1 : Fin k0_t1_loop.trips), ∀ (k0_h13 : k0_cond13 k0_t1 = 1#1), ∀ a, (k0_off58 i) a + S1x1x224x224.size a ≤ S16x2x224x224.size a
  k0_off60_inb : ∀ i : grid0.Coords, ∀ a, (k0_off60 i) a + S1x1x224x224.size a ≤ S16x2x224x224.size a
  k0_off61_inb : ∀ (i : grid0.Coords) (k0_t1 : Fin k0_t1_loop.trips), ∀ a, (k0_off61 i k0_t1) a + S1x224x224.size a ≤ S1536x224x224.size a
  k0_off62_inb : ∀ (i : grid0.Coords) (k0_t1 : Fin k0_t1_loop.trips), ∀ (k0_h14 : k0_cond14 k0_t1 = 1#1), ∀ a, (k0_off62 i) a + S1x1x224x224.size a ≤ S16x2x224x224.size a
  k0_off64_inb : ∀ i : grid0.Coords, ∀ a, (k0_off64 i) a + S1x1x224x224.size a ≤ S16x2x224x224.size a
  k0_off65_inb : ∀ (i : grid0.Coords) (k0_t1 : Fin k0_t1_loop.trips), ∀ a, (k0_off65 i k0_t1) a + S1x224x224.size a ≤ S1536x224x224.size a
  k0_off66_inb : ∀ (i : grid0.Coords) (k0_t1 : Fin k0_t1_loop.trips), ∀ (k0_h15 : k0_cond15 k0_t1 = 1#1), ∀ a, (k0_off66 i) a + S1x1x224x224.size a ≤ S16x2x224x224.size a
  k0_off68_inb : ∀ i : grid0.Coords, ∀ a, (k0_off68 i) a + S1x1x224x224.size a ≤ S16x2x224x224.size a
  k0_off69_inb : ∀ (i : grid0.Coords) (k0_t1 : Fin k0_t1_loop.trips), ∀ a, (k0_off69 i k0_t1) a + S1x224x224.size a ≤ S1536x224x224.size a
  k0_off70_inb : ∀ (i : grid0.Coords) (k0_t1 : Fin k0_t1_loop.trips), ∀ (k0_h16 : k0_cond16 k0_t1 = 1#1), ∀ a, (k0_off70 i) a + S1x1x224x224.size a ≤ S16x2x224x224.size a

variable [Facts₀]

abbrev cc0_scratch2 : DmaSems sig S_ := SemArray.consecutive 0 S_ hcc0_scratch2
abbrev cc0_scratch3 : DmaSems sig S_ := SemArray.consecutive 1 S_ hcc0_scratch3
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3
abbrev cc0_scoped4 : DmaSems sig S_ := SemArray.consecutive 6 S_ hcc0_scoped4
abbrev cc0_scoped5 : DmaSems sig S_ := SemArray.consecutive 7 S_ hcc0_scoped5
abbrev cc0_scoped6 : DmaSems sig S_ := SemArray.consecutive 8 S_ hcc0_scoped6
abbrev cc0_scoped7 : DmaSems sig S_ := SemArray.consecutive 9 S_ hcc0_scoped7
abbrev cc0_scoped8 : DmaSems sig S_ := SemArray.consecutive 10 S_ hcc0_scoped8
abbrev cc0_scoped9 : DmaSems sig S_ := SemArray.consecutive 11 S_ hcc0_scoped9
abbrev cc0_scoped10 : DmaSems sig S_ := SemArray.consecutive 12 S_ hcc0_scoped10
abbrev cc0_scoped11 : DmaSems sig S_ := SemArray.consecutive 13 S_ hcc0_scoped11
abbrev cc0_scoped12 : DmaSems sig S_ := SemArray.consecutive 14 S_ hcc0_scoped12
abbrev cc0_scoped13 : DmaSems sig S_ := SemArray.consecutive 15 S_ hcc0_scoped13
abbrev cc0_scoped14 : DmaSems sig S_ := SemArray.consecutive 16 S_ hcc0_scoped14
abbrev cc0_scoped15 : DmaSems sig S_ := SemArray.consecutive 17 S_ hcc0_scoped15
abbrev cc0_scoped16 : DmaSems sig S_ := SemArray.consecutive 18 S_ hcc0_scoped16

class Facts : Prop extends Facts₀ where

variable [Facts]
-- ==== ReferenceIdeal.lean ====
abbrev S8x192x224x224 : Shape := ⟨4, ![8, 192, 224, 224]⟩
abbrev S192 : Shape := ⟨1, ![192]⟩
abbrev S_ : Shape := ⟨0, ![]⟩
abbrev S192x1 : Shape := ⟨2, ![192, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S8x192x224x224, .f32⟩
  | .hbm, ⟨1, _⟩ => ⟨S192, .i32⟩
  | .hbm, ⟨2, _⟩ => ⟨S_, .i32⟩
  | .hbm, ⟨3, _⟩ => ⟨S192, .i32⟩
  | .hbm, ⟨4, _⟩ => ⟨S192, .i1⟩
  | .hbm, ⟨5, _⟩ => ⟨S_, .i32⟩
  | .hbm, ⟨6, _⟩ => ⟨S192, .i32⟩
  | .hbm, ⟨7, _⟩ => ⟨S192, .i32⟩
  | .hbm, ⟨8, _⟩ => ⟨S192, .i32⟩
  | .hbm, ⟨9, _⟩ => ⟨S192x1, .i32⟩
  | .hbm, ⟨10, _⟩ => ⟨S1, .i32⟩
  | .hbm, ⟨11, _⟩ => ⟨S_, .i32⟩
  | .hbm, ⟨12, _⟩ => ⟨S192x1, .i32⟩
  | .hbm, ⟨13, _⟩ => ⟨S192x1, .i1⟩
  | .hbm, ⟨14, _⟩ => ⟨S1x1, .i32⟩
  | .hbm, ⟨15, _⟩ => ⟨S192x1, .i32⟩
  | .hbm, ⟨16, _⟩ => ⟨S192x1, .i1⟩
  | .hbm, ⟨17, _⟩ => ⟨S192x1, .i1⟩
  | .hbm, ⟨18, _⟩ => ⟨S_, .i1⟩
  | .hbm, ⟨19, _⟩ => ⟨S192, .i1⟩
  | .hbm, ⟨20, _⟩ => ⟨S8x192x224x224, .f32⟩
  | .hbm, ⟨21, _⟩ => ⟨S8x192x224x224, .i1⟩
  | .hbm, ⟨22, _⟩ => ⟨S_, .f32⟩
  | .hbm, ⟨23, _⟩ => ⟨S8x192x224x224, .f32⟩
  | .hbm, ⟨24, _⟩ => ⟨S8x192x224x224, .f32⟩
  | _, _ => ⟨S8x192x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S192 : S_.BroadcastsInDim S192 (![] : Fin 0 → Fin S192.rank)
  bcast_S192_S192x1_0 : S192.BroadcastsInDim S192x1 (![0] : Fin 1 → Fin S192x1.rank)
  bcast_S_S192x1 : S_.BroadcastsInDim S192x1 (![] : Fin 0 → Fin S192x1.rank)
  bcast_S1_S1x1_1 : S1.BroadcastsInDim S1x1 (![1] : Fin 1 → Fin S1x1.rank)
  bcast_S1x1_S192x1_0_1 : S1x1.BroadcastsInDim S192x1 (![0, 1] : Fin 2 → Fin S192x1.rank)
  reducesTo_S192x1_S192_d1 : S192x1.ReducesTo [1] S192
  h_S_ : 0 < S_.numel
  bcast_S192_S8x192x224x224_1 : S192.BroadcastsInDim S8x192x224x224 (![1] : Fin 1 → Fin S8x192x224x224.rank)
  bcast_S_S8x192x224x224 : S_.BroadcastsInDim S8x192x224x224 (![] : Fin 0 → Fin S8x192x224x224.rank)
  gather_S8x192x224x224_S192x1_S8x192x224x224_023_1_n_n_1_1_81224224_wf : GatherDims.WF S8x192x224x224 S192x1 S8x192x224x224 [0, 2, 3] [1] [] [1] [] 1 ![8, 1, 224, 224]

variable [Facts₀]

def gather_S8x192x224x224_S192x1_S8x192x224x224_023_1_n_n_1_1_81224224 : GatherDims S8x192x224x224 S192x1 S8x192x224x224 where
  offsetDims := [0, 2, 3]
  collapsedSliceDims := [1]
  operandBatchingDims := []
  startIndicesBatchingDims := []
  startIndexMap := [1]
  indexVectorDim := 1
  sliceSizes := ![8, 1, 224, 224]
  wf := gather_S8x192x224x224_S192x1_S8x192x224x224_023_1_n_n_1_1_81224224_wf

class Facts : Prop extends Facts₀ where

variable [Facts]
-- ==== Proof.Spec.lean ====
/-
  The function both programs compute, stated once over literal shapes: the channel axis of a
  batch of images re-read through a table of channel numbers,
      out[b, c, h, w] = x[b, perm[c], h, w].
  A table word is read as a natural number and reduced into the channel range, so that the
  function is total; under the precondition every word is already a channel number.
-/
import Idealize.ShloMosaic.PureOps.Ideal
import Idealize.ShloMosaic.Lib.ValueIdx

noncomputable section

namespace Cert.Proof.Spec

open Idealize.ShloMosaic Idealize.ShloMosaic.ValueIdx

/-- The images: batch 8, channels 192, 224 × 224 pixels. -/
abbrev SX : Shape := ⟨4, ![8, 192, 224, 224]⟩
/-- The table of channel numbers. -/
abbrev SP : Shape := ⟨1, ![192]⟩

/-- The channel a table word names: its value as a natural number, reduced into `[0, 192)`. -/
def chan (w : BitVec 32) : Fin 192 := ⟨w.toNat % 192, Nat.mod_lt _ (by decide)⟩

theorem chan_val_of_lt {w : BitVec 32} (h : w.toNat < 192) : (chan w).val = w.toNat := Nat.mod_eq_of_lt h

/-- `out[b, c, h, w] = x[b, perm[c], h, w]`. -/
def permuted {α : Type} (x : SX.Idx → α) (p : IVec SP 32) : SX.Idx → α :=
  fun i => x (ix4 (i 0 : Fin 8) (chan (p (ix1 (i 1 : Fin 192)))) (i 2 : Fin 224) (i 3 : Fin 224))

/-- The images with batch and channel flattened to 1536 rows of 224 × 224 pixels. -/
abbrev SR : Shape := ⟨3, ![1536, 224, 224]⟩
/-- A table of 1536 row numbers. -/
abbrev SI : Shape := ⟨1, ![1536]⟩

/-- The row a table word names: its value as a natural number, reduced into `[0, 1536)`. -/
def row (w : BitVec 32) : Fin 1536 := ⟨w.toNat % 1536, Nat.mod_lt _ (by decide)⟩

theorem row_val_of_lt {w : BitVec 32} (h : w.toNat < 1536) : (row w).val = w.toNat := Nat.mod_eq_of_lt h

/-- Rows re-read through a table of row numbers: `out[r, h, w] = rows[src[r], h, w]`. -/
def gathered {α : Type} (x3 : SR.Idx → α) (src : IVec SI 32) : SR.Idx → α :=
  fun j => x3 (ix3 (row (src (ix1 (j 0 : Fin 1536)))) (j 1 : Fin 224) (j 2 : Fin 224))

end Cert.Proof.Spec

end
-- ==== Proof.HostValueIdeal.lean ====
/-
  The host operations of the program's @main, read as values.  Before the SparseCore call @main
  flattens the images to 1536 rows (row 192·b + c is image b's channel c) and builds the table of
  row numbers  src[192·b + c] = 192·b + perm[c]  in 32-bit words (an iota times 192, broadcast,
  plus the broadcast table, flattened); after the call it reshapes the gathered rows back to
  batch × channel.  Under "every table word is a channel number" the words do not wrap, each row
  number is below 1536, and the reshaped gathered rows are the channel axis re-read through the
  table:  out[b, c, h, w] = x[b, perm[c], h, w].
-/
import proofs.«214331_g712964571761_cont_9to1_m_186_24_alg».proof.KernelIdeal
import proofs.«214331_g712964571761_cont_9to1_m_186_24_alg».proof.Proof.Gen.KernelIdeal
import proofs.«214331_g712964571761_cont_9to1_m_186_24_alg».proof.Proof.Spec
import Idealize.ShloMosaic.Lib.StableHlo.Run
import Idealize.ShloMosaic.Lib.ValueIdx
import Idealize.ShloMosaic.Lib.Pipeline.Value

noncomputable section

namespace Cert.Proof.HostValueIdeal

open Cert.KernelIdeal Cert.KernelIdeal.Facts₀ Cert.KernelIdeal.Facts
open Idealize.ShloMosaic Idealize.ShloMosaic.TcCoe Idealize.SL.Sem
open Idealize.ShloMosaic.StableHlo Idealize.ShloMosaic.ValueIdx

variable {F : FTy → Type} [FloatOps F]

/-! ## The program as host operations around the call -/

/-- @main's host operations before the call, in order, as @main spells them. -/
abbrev opsPre : List (HloOp τ sig (Elt F)) :=
  [ StableHlo.reshape main_arg0 main_v0 rfl shapeCasts_S8x192x224x224_S1536x224x224,
    StableHlo.nullary main_v1 (iotaInDim S8 32 0),
    StableHlo.unary main_v1 main_v2 (broadcastInDim S8x1 ![0] bcast_S8_S8x1_0 : (⟨S8, .i32⟩ : BufTy).Contents (Elt F) → (⟨S8x1, .i32⟩ : BufTy).Contents (Elt F)),
    StableHlo.nullary main_c (constantI S_ 32 192#32),
    StableHlo.unary main_c main_v3 (broadcastInDim S8x1 ![] bcast_S_S8x1 : (⟨S_, .i32⟩ : BufTy).Contents (Elt F) → (⟨S8x1, .i32⟩ : BufTy).Contents (Elt F)),
    StableHlo.binary main_v2 main_v3 main_v4 (muli : (⟨S8x1, .i32⟩ : BufTy).Contents (Elt F) → (⟨S8x1, .i32⟩ : BufTy).Contents (Elt F) → (⟨S8x1, .i32⟩ : BufTy).Contents (Elt F)),
    StableHlo.unary main_arg1 main_v5 (broadcastInDim S1x192 ![1] bcast_S192_S1x192_1 : (⟨S192, .i32⟩ : BufTy).Contents (Elt F) → (⟨S1x192, .i32⟩ : BufTy).Contents (Elt F)),
    StableHlo.unary main_v4 main_v6 (broadcastInDim S8x192 ![0, 1] bcast_S8x1_S8x192_0_1 : (⟨S8x1, .i32⟩ : BufTy).Contents (Elt F) → (⟨S8x192, .i32⟩ : BufTy).Contents (Elt F)),
    StableHlo.unary main_v5 main_v7 (broadcastInDim S8x192 ![0, 1] bcast_S1x192_S8x192_0_1 : (⟨S1x192, .i32⟩ : BufTy).Contents (Elt F) → (⟨S8x192, .i32⟩ : BufTy).Contents (Elt F)),
    StableHlo.binary main_v6 main_v7 main_v8 (addi : (⟨S8x192, .i32⟩ : BufTy).Contents (Elt F) → (⟨S8x192, .i32⟩ : BufTy).Contents (Elt F) → (⟨S8x192, .i32⟩ : BufTy).Contents (Elt F)),
    StableHlo.reshape main_v8 main_v9 rfl shapeCasts_S8x192_S1536 ]

/-- The one host operation after the call. -/
abbrev opsPost : List (HloOp τ sig (Elt F)) :=
  [ StableHlo.reshape main_v10 main_v11 rfl shapeCasts_S1536x224x224_S8x192x224x224 ]

/-- @main is: the host operations before the call, the call, the reshape after it. -/
theorem main_eq (d : Dev nD) :
    main (F := F) d = (StableHlo.seq opsPre >>= fun _ => (sc (F := F)).run d 0 >>= fun _ => StableHlo.seq opsPost) := by
  simp only [main, StableHlo.seq, bind_assoc, pure_bind]

/-- Every operation's buffers are device buffers of the TensorCore's. -/
theorem opsPre_sub : ∀ op ∈ (opsPre : List (HloOp τ sig (Elt F))), op.bufs ⊆ tcRefs τ sig :=
  List.forall_iff_forall_mem.1 (show (opsPre : List (HloOp τ sig (Elt F))).Forall fun op => op.bufs ⊆ tcRefs τ sig from
    ⟨reshape_bufs_sub .., nullary_bufs_sub .., unary_bufs_sub .., nullary_bufs_sub .., unary_bufs_sub .., binary_bufs_sub ..,
      unary_bufs_sub .., unary_bufs_sub .., unary_bufs_sub .., binary_bufs_sub .., reshape_bufs_sub ..⟩)

theorem opsPost_sub : ∀ op ∈ (opsPost : List (HloOp τ sig (Elt F))), op.bufs ⊆ tcRefs τ sig :=
  List.forall_iff_forall_mem.1 (show (opsPost : List (HloOp τ sig (Elt F))).Forall fun op => op.bufs ⊆ tcRefs τ sig from
    reshape_bufs_sub ..)

/-- No operation allocates: each writes a value it computes. -/
theorem opsPre_fresh : ∀ op ∈ (opsPre : List (HloOp τ sig (Elt F))), op.fresh = ∅ := by
  intro _ h; (repeat (cases h with | head => rfl | tail _ h => ?_)); exact nomatch h

theorem opsPost_fresh : ∀ op ∈ (opsPost : List (HloOp τ sig (Elt F))), op.fresh = ∅ := by
  intro _ h; (repeat (cases h with | head => rfl | tail _ h => ?_)); exact nomatch h

/-! ## What the operations leave in each buffer -/

/-- The images with batch and channel flattened: row `192·b + c` is image `b`'s channel `c`. -/
def x3Of (x : FVec F S8x192x224x224 .f32) : FVec F S1536x224x224 .f32 :=
  shapeCast S1536x224x224 x shapeCasts_S8x192x224x224_S1536x224x224

/-- The table of row numbers built from the table of channel numbers: `iota(8) · 192` down the
    batch, plus the table across the channels, flattened. -/
def srcOf (p : IVec S192 32) : IVec S1536 32 :=
  shapeCast S1536
    (addi
      (broadcastInDim S8x192 ![0, 1] bcast_S8x1_S8x192_0_1
        (muli (broadcastInDim S8x1 ![0] bcast_S8_S8x1_0 (iotaInDim S8 32 0))
          (broadcastInDim S8x1 ![] bcast_S_S8x1 (constantI S_ 32 192#32))))
      (broadcastInDim S8x192 ![0, 1] bcast_S1x192_S8x192_0_1
        (broadcastInDim S1x192 ![1] bcast_S192_S1x192_1 p)))
    shapeCasts_S8x192_S1536

theorem pre_v0 (V : Valuation τ sig (Elt F)) :
    StableHlo.after opsPre V (Proc.devRef .tc main_v0) = x3Of (V (Proc.devRef .tc main_arg0)) := by
  dsimp only [opsPre]; after_results; rfl

theorem pre_v9 (V : Valuation τ sig (Elt F)) :
    StableHlo.after opsPre V (Proc.devRef .tc main_v9) = srcOf (V (Proc.devRef .tc main_arg1)) := by
  dsimp only [opsPre]; after_results; rfl

theorem pre_arg0 (V : Valuation τ sig (Elt F)) :
    StableHlo.after opsPre V (Proc.devRef .tc main_arg0) = V (Proc.devRef .tc main_arg0) := by
  dsimp only [opsPre]; after_results

theorem pre_arg1 (V : Valuation τ sig (Elt F)) :
    StableHlo.after opsPre V (Proc.devRef .tc main_arg1) = V (Proc.devRef .tc main_arg1) := by
  dsimp only [opsPre]; after_results

theorem pre_v10 (V : Valuation τ sig (Elt F)) :
    StableHlo.after opsPre V (Proc.devRef .tc main_v10) = V (Proc.devRef .tc main_v10) := by
  dsimp only [opsPre]; after_results

theorem pre_v11 (V : Valuation τ sig (Elt F)) :
    StableHlo.after opsPre V (Proc.devRef .tc main_v11) = V (Proc.devRef .tc main_v11) := by
  dsimp only [opsPre]; after_results

/-- A buffer none of the eleven operations writes keeps its contents. -/
theorem pre_other (V : Valuation τ sig (Elt F)) (r : Ref sig .tc)
    (hr : r ∉ [main_v0, main_v1, main_v2, main_c, main_v3, main_v4, main_v5, main_v6, main_v7, main_v8, main_v9]) :
    StableHlo.after opsPre V (Proc.devRef .tc r) = V (Proc.devRef .tc r) :=
  after_of_writes_sub (W := [main_v0, main_v1, main_v2, main_c, main_v3, main_v4, main_v5, main_v6, main_v7, main_v8, main_v9])
    opsPre V (by simp [List.Forall]) hr

/-- A buffer other than the result keeps its contents through the last reshape. -/
theorem post_other (V : Valuation τ sig (Elt F)) (r : Ref sig .tc) (hr : r ∉ [main_v11]) :
    StableHlo.after opsPost V (Proc.devRef .tc r) = V (Proc.devRef .tc r) :=
  after_of_writes_sub (W := [main_v11]) opsPost V (by simp [List.Forall]) hr

theorem post_v11 (V : Valuation τ sig (Elt F)) :
    StableHlo.after opsPost V (Proc.devRef .tc main_v11)
      = shapeCast S8x192x224x224 (V (Proc.devRef .tc main_v10)) shapeCasts_S1536x224x224_S8x192x224x224 := by
  dsimp only [opsPost]; after_results; rfl

theorem post_arg0 (V : Valuation τ sig (Elt F)) :
    StableHlo.after opsPost V (Proc.devRef .tc main_arg0) = V (Proc.devRef .tc main_arg0) := by
  dsimp only [opsPost]; after_results

theorem post_arg1 (V : Valuation τ sig (Elt F)) :
    StableHlo.after opsPost V (Proc.devRef .tc main_arg1) = V (Proc.devRef .tc main_arg1) := by
  dsimp only [opsPost]; after_results

theorem post_v0 (V : Valuation τ sig (Elt F)) :
    StableHlo.after opsPost V (Proc.devRef .tc main_v0) = V (Proc.devRef .tc main_v0) :=
  post_other V main_v0 (by decide)

theorem post_v9 (V : Valuation τ sig (Elt F)) :
    StableHlo.after opsPost V (Proc.devRef .tc main_v9) = V (Proc.devRef .tc main_v9) :=
  post_other V main_v9 (by decide)

theorem post_v10 (V : Valuation τ sig (Elt F)) :
    StableHlo.after opsPost V (Proc.devRef .tc main_v10) = V (Proc.devRef .tc main_v10) :=
  post_other V main_v10 (by decide)

/-! ## The table of row numbers, read at an index -/

/-- Entry `192·b + c` of the table, as words: `b · 192 + perm[c]`. -/
theorem srcOf_ix (p : IVec S192 32) (b : Fin 8) (c : Fin 192) (h : 192 * b.val + c.val < 1536) :
    srcOf p (ix1 (⟨192 * b.val + c.val, h⟩ : Fin 1536))
      = IntOp.addi (IntOp.muli (BitVec.ofNat 32 b.val) 192#32) (p (ix1 c)) := by
  unfold srcOf
  refine (shapeCast_apply _ _ (ix1 (⟨192 * b.val + c.val, h⟩ : Fin 1536)) (ix2 b c) (by
    rw [Shape.rowMajor_val_two, Shape.rowMajor_val_one]
    show b.val * 192 + c.val = 192 * b.val + c.val
    omega)).trans ?_
  have e1 : broadcastInDim S8x192 ![0, 1] bcast_S8x1_S8x192_0_1
        (muli (broadcastInDim S8x1 ![0] bcast_S8_S8x1_0 (iotaInDim S8 32 0))
          (broadcastInDim S8x1 ![] bcast_S_S8x1 (constantI S_ 32 192#32))) (ix2 b c)
      = IntOp.muli (BitVec.ofNat 32 b.val) 192#32 :=
    (broadcastInDim_apply ![0, 1] bcast_S8x1_S8x192_0_1 _ (ix2 b c) (ix2 b (0 : Fin 1))
      (fun a => match a with | ⟨0, _⟩ => rfl | ⟨1, _⟩ => rfl)).trans rfl
  have e2 : broadcastInDim S8x192 ![0, 1] bcast_S1x192_S8x192_0_1
        (broadcastInDim S1x192 ![1] bcast_S192_S1x192_1 p) (ix2 b c) = p (ix1 c) :=
    (broadcastInDim_apply ![0, 1] bcast_S1x192_S8x192_0_1 _ (ix2 b c) (ix2 (0 : Fin 1) c)
      (fun a => match a with | ⟨0, _⟩ => rfl | ⟨1, _⟩ => rfl)).trans
    (broadcastInDim_apply ![1] bcast_S192_S1x192_1 p (ix2 (0 : Fin 1) c) (ix1 c)
      (fun a => match a with | ⟨0, _⟩ => rfl))
  exact congrArg₂ IntOp.addi e1 e2

/-- With the table word a channel number, `b · 192 + w` does not wrap. -/
theorem word_toNat (b : Fin 8) (w : BitVec 32) (hw : w.toNat < 192) :
    (IntOp.addi (IntOp.muli (BitVec.ofNat 32 b.val) 192#32) w).toNat = 192 * b.val + w.toNat := by
  have hb := b.isLt
  unfold IntOp.addi IntOp.muli
  rw [BitVec.toNat_add, BitVec.toNat_mul, BitVec.toNat_ofNat, BitVec.toNat_ofNat]
  omega

theorem srcOf_apply (p : IVec S192 32) (hp : ∀ j, (p j).toNat < 192) (b : Fin 8) (c : Fin 192) :
    (srcOf p (ix1 (⟨192 * b.val + c.val, by omega⟩ : Fin 1536))).toNat = 192 * b.val + (p (ix1 c)).toNat := by
  rw [srcOf_ix, word_toNat b _ (hp _)]

theorem srcOf_lt (p : IVec S192 32) (hp : ∀ j, (p j).toNat < 192) (r : S1536.Idx) : (srcOf p r).toNat < 1536 := by
  have hr : (r 0).val < 1536 := (r 0).isLt
  have e : r = ix1 (⟨192 * (⟨(r 0).val / 192, by omega⟩ : Fin 8).val + (⟨(r 0).val % 192, Nat.mod_lt _ (by decide)⟩ : Fin 192).val,
      by show 192 * ((r 0).val / 192) + (r 0).val % 192 < 1536; omega⟩ : Fin 1536) := by
    exact (eq_ix1 r).trans
      (congrArg ix1 (Fin.ext (by show (r 0).val = 192 * ((r 0).val / 192) + (r 0).val % 192; omega)))
  rw [e, srcOf_apply p hp]
  have := hp (ix1 (⟨(r 0).val % 192, Nat.mod_lt _ (by decide)⟩ : Fin 192))
  show 192 * ((r 0).val / 192) + _ < 1536
  omega

/-! ## The bridge -/

/-- At explicit coordinates: entry `(b, c, h, w)` of the reshaped gathered rows is row
    `192·b + c` of the gathered rows, which is row `192·b + perm[c]` of the flattened images,
    which is channel `perm[c]` of image `b`. -/
theorem bridge_ix {α : Type} (x : S8x192x224x224.Idx → α) (p : IVec S192 32) (hp : ∀ j, (p j).toNat < 192)
    (b : Fin 8) (c : Fin 192) (h : Fin 224) (w : Fin 224) :
    shapeCast S8x192x224x224
        (Cert.Proof.Spec.gathered (shapeCast S1536x224x224 x shapeCasts_S8x192x224x224_S1536x224x224) (srcOf p))
        shapeCasts_S1536x224x224_S8x192x224x224 (ix4 b c h w)
      = x (ix4 b (Cert.Proof.Spec.chan (p (ix1 c))) h w) := by
  have hb := b.isLt
  have hc := c.isLt
  have hh := h.isLt
  have hw := w.isLt
  have hpc := hp (ix1 c)
  have hsrc := srcOf_apply p hp b c
  have hrow : (Cert.Proof.Spec.row (srcOf p (ix1 (⟨192 * b.val + c.val, by omega⟩ : Fin 1536)))).val
      = 192 * b.val + (p (ix1 c)).toNat :=
    (Cert.Proof.Spec.row_val_of_lt (by rw [hsrc]; omega)).trans hsrc
  refine (shapeCast_apply _ _ (ix4 b c h w) (ix3 (⟨192 * b.val + c.val, by omega⟩ : Fin 1536) h w) (by
    rw [Shape.rowMajor_val_three, Shape.rowMajor_val_four]
    show ((192 * b.val + c.val) * 224 + h.val) * 224 + w.val = ((b.val * 192 + c.val) * 224 + h.val) * 224 + w.val
    omega)).trans ?_
  show shapeCast S1536x224x224 x shapeCasts_S8x192x224x224_S1536x224x224
      (ix3 (Cert.Proof.Spec.row (srcOf p (ix1 (⟨192 * b.val + c.val, by omega⟩ : Fin 1536)))) h w) = _
  refine (shapeCast_apply _ _ _ (ix4 b (Cert.Proof.Spec.chan (p (ix1 c))) h w) (by
    rw [Shape.rowMajor_val_four, Shape.rowMajor_val_three]
    show ((b.val * 192 + (Cert.Proof.Spec.chan (p (ix1 c))).val) * 224 + h.val) * 224 + w.val
      = ((Cert.Proof.Spec.row (srcOf p (ix1 (⟨192 * b.val + c.val, by omega⟩ : Fin 1536)))).val * 224 + h.val) * 224 + w.val
    rw [hrow, Cert.Proof.Spec.chan_val_of_lt hpc]
    omega)).trans rfl

/-- The bridge: the reshaped gathered rows are the channel-permuted images. -/
theorem bridge (x : FVec F S8x192x224x224 .f32) (p : IVec S192 32) (hp : ∀ j, (p j).toNat < 192) :
    shapeCast S8x192x224x224 (Cert.Proof.Spec.gathered (x3Of x) (srcOf p)) shapeCasts_S1536x224x224_S8x192x224x224
      = Cert.Proof.Spec.permuted x p := by
  funext i
  rw [eq_ix4 i]
  exact bridge_ix x p hp (i 0) (i 1) (i 2) (i 3)

end Cert.Proof.HostValueIdeal

end
-- ==== Proof.SetupIdeal.lean ====
/-
  The SparseCore program as the launch theorem reads it, and the names the run is stated over:
  the threads, the five arrays the kernel touches as each vector subcore addresses them, and the
  ghost state (the launch handshakes' rounds beside one counter per transfer in flight).
-/
import proofs.«214331_g712964571761_cont_9to1_m_186_24_alg».proof.Defs
import Idealize.ShloMosaic.Lib.SparseCore.Launch
import Idealize.ShloMosaic.Lib.StableHlo.Run
import Idealize.ShloMosaic.Lib.Pipeline.Kit
import Idealize.ShloMosaic.Lib.Tactic
import proofs.«214331_g712964571761_cont_9to1_m_186_24_alg».proof.Proof.Gen.KernelIdeal
import proofs.«214331_g712964571761_cont_9to1_m_186_24_alg».proof.Proof.Gen.KernelIdeal.Skeleton
import proofs.«214331_g712964571761_cont_9to1_m_186_24_alg».proof.Proof.Spec
import proofs.«214331_g712964571761_cont_9to1_m_186_24_alg».proof.Proof.HostValueIdeal

noncomputable section

namespace Cert.Proof.RunIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The handshakes' rounds, the left factor; the transfers' counters are found by instance in the right. -/
abbrev EH : Emb UH (MT nD τ sig (HIx 1) (Elt F) ℕ UU ℕ) := embL

/-! ## The arrays -/

/-- The flattened images, the row table and the result, as locations of device `d`. -/
abbrev xLoc (d : Dev nD) : Loc nD τ sig := (SparseCore.T d).loc main_v0
abbrev sLoc (d : Dev nD) : Loc nD τ sig := (SparseCore.T d).loc main_v9
abbrev oLoc (d : Dev nD) : Loc nD τ sig := (SparseCore.T d).loc main_v10

/-- The vector subcore at grid coordinates `L`. -/
abbrev cV (L : grid0.Coords) : Fin τ.nSC := (L 0).castLE hcore0
abbrev jV (L : grid0.Coords) : Fin τ.nSub := (L 1).castLE hsub0

/-- The vector subcore of SparseCore `c`, subcore `i`, works on the 48 rows of block `2 i + c`. -/
def wid (c : Fin 2) (i : Fin 16) : Fin 32 := ⟨2 * i.val + c.val, by omega⟩

theorem hdivS : 32 ∣ S1536.size 0 := ⟨48, rfl⟩
theorem hdivO : 32 ∣ S1536x224x224.size 0 := ⟨48, rfl⟩
/-- Block `w` of the row table: entries `[48 w, 48 w + 48)`. -/
abbrev sPart (w : Fin 32) : Rect S1536 := Rect.part (s := S1536) (a₀ := 0) hdivS w
abbrev sSet (w : Fin 32) : Finset S1536.Idx := ((Memref.whole main_v9_scv : Memref sig .scVector .hbm S1536 .i32).view.slice (sPart w)).set
/-- Block `w` of the result: rows `[48 w, 48 w + 48)`. -/
abbrev oPart (w : Fin 32) : Rect S1536x224x224 := Rect.part (s := S1536x224x224) (a₀ := 0) hdivO w
abbrev oSet (w : Fin 32) : Finset S1536x224x224.Idx := ((Memref.whole main_v10_scv : Memref sig .scVector .hbm S1536x224x224 .f32).view.slice (oPart w)).set

/-- A SparseCore's shared staging memory: sixteen subcores × two slots of one 224 × 224 image. -/
abbrev shRef (c : Fin τ.nSC) : DevRef τ sig := ⟨.shared, ⟨0, by decide⟩, c⟩
abbrev shLoc (d : Dev nD) (c : Fin τ.nSC) : Loc nD τ sig := (d, shRef c)
theorem bRect_inb (i : Fin 16) (b : Fin 2) : ∀ a, (![i.val, b.val, 0, 0] : Fin 4 → Nat) a + S1x1x224x224.size a ≤ S16x2x224x224.size a := by
  intro a; fin_cases a <;> simp <;> omega
/-- Slot `b` of subcore `i`. -/
abbrev bRect (i : Fin 16) (b : Fin 2) : Rect S16x2x224x224 := Rect.unit (s := S16x2x224x224) ![i.val, b.val, 0, 0] S1x1x224x224.size (bRect_inb i b)
abbrev bSet (i : Fin 16) (b : Fin 2) : Finset S16x2x224x224.Idx := ((Memref.whole cc0_scratch1 : Memref sig .scVector .shared S16x2x224x224 .f32).view.slice (bRect i b)).set

/-! ## The launch memory, and what the arrays hold when the call starts and when it ends -/

local notation "𝕄" => MT nD τ sig (HIx 1) (Elt F) ℕ UU ℕ

variable (m : (ℓ : Loc nD τ sig) → Buf (Elt F) ℓ) (ρ : Dev nD → PrngReg)
variable [FloatOps F]

/-- The flattened images: the host's reshape of the first argument. -/
def X3 (d : Dev nD) : Buf (Elt F) (xLoc d) := Cert.Proof.HostValueIdeal.x3Of (m ((SparseCore.T d).loc main_arg0))
/-- The row table: row `192 b + c` names row `192 b + perm[c]`. -/
def SRC (d : Dev nD) : Buf (Elt F) (sLoc d) := Cert.Proof.HostValueIdeal.srcOf (m ((SparseCore.T d).loc main_arg1))
/-- The result the call leaves: the rows re-read through the table. -/
def OUT (d : Dev nD) : Buf (Elt F) (oLoc d) := Cert.Proof.Spec.gathered (X3 m d) (SRC m d)

/-- What the proof asks of the launch memory: every table word the kernel reads names a row. -/
def PreOK : Prop := ∀ (d : Dev nD) (j : S1536.Idx), (SRC m d j).toNat < 1536

/-! ## What the handshakes carry -/

/-- SparseCore `c`'s read share of the images, and subcore `i`'s part of it. -/
abbrev qC (c : Fin 2) : PosShare TreeShare := Transfers.shareTokN fullShare c.val
abbrev qT (c : Fin 2) (i : Fin 16) : PosShare TreeShare := Transfers.shareTok (qC c) 16 i

abbrev xShare (d : Dev nD) (q : PosShare TreeShare) : sProp 𝕄 := xLoc d ↦{q} X3 m d
abbrev sRows (d : Dev nD) (w : Fin 32) : sProp 𝕄 := sLoc d ↦[sSet w]{fullShare} SRC m d
abbrev oRows (d : Dev nD) (w : Fin 32) (f : Buf (Elt F) (oLoc d)) : sProp 𝕄 := oLoc d ↦[oSet w]{fullShare} f
abbrev bSlot (d : Dev nD) (c : Fin τ.nSC) (i : Fin 16) (b : Fin 2) (f : Buf (Elt F) (shLoc d c)) : sProp 𝕄 := shLoc d c ↦[bSet i b]{fullShare} f

/-- What a subcore's task takes (`fo` the result array's contents then) and what it hands back. -/
abbrev tileIn (d : Dev nD) (c : Fin 2) (i : Fin 16) (cc : Fin τ.nSC) (fo : Buf (Elt F) (oLoc d)) : sProp 𝕄 :=
  iprop(xShare m d (qT c i) ∗ sRows m d (wid c i) ∗ oRows d (wid c i) fo ∗ (∃ f, bSlot d cc i 0 f) ∗ (∃ f, bSlot d cc i 1 f))
abbrev coreOf (c : Fin ((K (F := F)).nCore 0)) : Fin τ.nSC := (K (F := F)).core 0 c

/-- The call hands SparseCore `c` its read share of the images and, for each of its subcores, the subcore's block of the
    table and of the result; a task besides takes the subcore's two slots of the shared staging memory. Everything comes back,
    the result's blocks at the gathered rows. -/
def P : (K (F := F)).Pay (nD := nD) (Val := Elt F) (Name := ℕ) (U := UU) where
  st := fun q d c => match q with
    | 0 => iprop(xShare m d (qC (Fin.cast nCore_zero c))
      ∗ bigSep Finset.univ fun i : Fin 16 => iprop(sRows m d (wid (Fin.cast nCore_zero c) i) ∗ oRows d (wid (Fin.cast nCore_zero c) i) (m (oLoc d))))
  dn := fun q d c => match q with
    | 0 => iprop(xShare m d (qC (Fin.cast nCore_zero c))
      ∗ bigSep Finset.univ fun i : Fin 16 => iprop(sRows m d (wid (Fin.cast nCore_zero c) i) ∗ oRows d (wid (Fin.cast nCore_zero c) i) (OUT m d)))
  go := fun q d c i => match q with
    | 0 => tileIn m d (Fin.cast nCore_zero c) (Fin.cast nSub_zero i) (coreOf c) (m (oLoc d))
  td := fun q d c i => match q with
    | 0 => tileIn m d (Fin.cast nCore_zero c) (Fin.cast nSub_zero i) (coreOf c) (OUT m d)
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.RunIdeal

end
-- ==== Proof.SplitIdeal.lean ====
/-
  How the call's arrays divide among the vector subcores, and come back together.
  The row table and the result are cut along their rows into thirty-two blocks of forty-eight; subcore
  `i` of SparseCore `c` works on block `2 i + c`, and `(c, i) ↦ 2 i + c` is a bijection of
  `Fin 2 × Fin 16` onto `Fin 32`.  A SparseCore's shared staging memory is sixteen subcores × two slots of
  one image each: thirty-two unit rectangles, pairwise disjoint, covering it.  The images are only read:
  a SparseCore's share of them is halved sixteen times, one half per subcore, the remainder kept.
-/
import proofs.«214331_g712964571761_cont_9to1_m_186_24_alg».proof.Proof.SetupIdeal

noncomputable section

namespace Cert.Proof.RunIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Blocks of rows: `(c, i) ↦ 2 i + c` -/

/-- Subcore `i` of SparseCore `c` against block `2 i + c`: a bijection. -/
def widEquiv : Fin 2 × Fin 16 ≃ Fin 32 where
  toFun x := wid x.1 x.2
  invFun w := (⟨w.val % 2, Nat.mod_lt _ (by decide)⟩, ⟨w.val / 2, by omega⟩)
  left_inv x := by
    obtain ⟨c, i⟩ := x
    refine Prod.ext (Fin.ext ?_) (Fin.ext ?_)
    · show (2 * i.val + c.val) % 2 = c.val
      omega
    · show (2 * i.val + c.val) / 2 = i.val
      omega
  right_inv w := Fin.ext (by show 2 * (w.val / 2) + w.val % 2 = w.val; omega)

/-- A family over the thirty-two blocks, regrouped by SparseCore and subcore. -/
theorem bigSep_blocks (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]
  rfl

theorem sSet_eq (w : Fin 32) : sSet w = (sPart w).set := by
  show ((Memref.whole main_v9_scv : Memref sig .scVector .hbm S1536 .i32).view.slice (sPart w)).set = _
  rw [View.set_slice]; exact Finset.map_refl
theorem sBlocks_disjoint : ∀ i ∈ (Finset.univ : Finset (Fin 32)), ∀ j ∈ (Finset.univ : Finset (Fin 32)), i ≠ j → Disjoint (sSet i) (sSet j) :=
  fun i _ j _ h => by rw [sSet_eq, sSet_eq]; exact Rect.part_disjoint hdivS h
theorem sBlocks_cover : (Finset.univ : Finset (Fin 32)).biUnion sSet = Finset.univ :=
  (Finset.biUnion_congr rfl fun i _ => sSet_eq i).trans (Rect.biUnion_part hdivS)

theorem oSet_eq (w : Fin 32) : oSet w = (oPart w).set := by
  show ((Memref.whole main_v10_scv : Memref sig .scVector .hbm S1536x224x224 .f32).view.slice (oPart w)).set = _
  rw [View.set_slice]; exact Finset.map_refl
theorem oBlocks_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint hdivO h
theorem oBlocks_cover : (Finset.univ : Finset (Fin 32)).biUnion oSet = Finset.univ :=
  (Finset.biUnion_congr rfl fun i _ => oSet_eq i).trans (Rect.biUnion_part hdivO)

/-- The row table whole is its thirty-two blocks. -/
theorem sPts_blocks (d : Dev nD) (f : Buf (Elt F) (sLoc d)) :
    (sLoc d ↦{fullShare} f : sProp 𝕄)
      = bigSep Finset.univ fun c : Fin 2 => bigSep Finset.univ fun i : Fin 16 => sLoc d ↦[sSet (wid c i)]{fullShare} f := by
  rw [← bigSep_blocks (F := F) (fun w => sLoc d ↦[sSet w]{fullShare} f),
    ← pointsTo_biUnion Finset.univ (ℓ := sLoc d) sSet sBlocks_disjoint, sBlocks_cover]; try rfl

/-- The result whole is its thirty-two blocks. -/
theorem oPts_blocks (d : Dev nD) (f : Buf (Elt F) (oLoc d)) :
    (oLoc d ↦{fullShare} f : sProp 𝕄)
      = bigSep Finset.univ fun c : Fin 2 => bigSep Finset.univ fun i : Fin 16 => oLoc d ↦[oSet (wid c i)]{fullShare} f := by
  rw [← bigSep_blocks (F := F) (fun w => oLoc d ↦[oSet w]{fullShare} f),
    ← pointsTo_biUnion Finset.univ (ℓ := oLoc d) oSet oBlocks_disjoint, oBlocks_cover]; try rfl

/-! ## The shared staging memory's slots -/

theorem bSet_eq (i : Fin 16) (b : Fin 2) : bSet i b = (bRect i b).set := by
  show ((Memref.whole cc0_scratch1 : Memref sig .scVector .shared S16x2x224x224 .f32).view.slice (bRect i b)).set = _
  rw [View.set_slice]; exact Finset.map_refl

/-- Two different slots differ in their subcore or in their number: separated on that axis. -/
theorem bSlots_disjoint : ∀ x ∈ (Finset.univ : Finset (Fin 16 × Fin 2)), ∀ y ∈ (Finset.univ : Finset (Fin 16 × Fin 2)), x ≠ y →
    Disjoint (bSet x.1 x.2) (bSet y.1 y.2) := by
  rintro ⟨i, b⟩ - ⟨i', b'⟩ - h
  rw [bSet_eq, bSet_eq]
  by_cases hi : i = i'
  · have hb : b ≠ b' := fun e => h (by rw [hi, e])
    refine Rect.unit_disjoint 1 ?_
    show b.val + 1 ≤ b'.val ∨ b'.val + 1 ≤ b.val
    have : b.val ≠ b'.val := fun e => hb (Fin.ext e)
    omega
  · refine Rect.unit_disjoint 0 ?_
    show i.val + 1 ≤ i'.val ∨ i'.val + 1 ≤ i.val
    have : i.val ≠ i'.val := fun e => hi (Fin.ext e)
    omega

/-- Every element lies in the slot its first two coordinates name. -/
theorem bSlots_cover : (Finset.univ : Finset (Fin 16 × Fin 2)).biUnion (fun x => bSet x.1 x.2) = Finset.univ := by
  ext j
  simp only [Finset.mem_biUnion, Finset.mem_univ, true_and, iff_true]
  refine ⟨(j 0, j 1), ?_⟩
  rw [bSet_eq]
  refine Rect.mem_set_unit.mpr fun a => ?_
  match a with
  | ⟨0, _⟩ =>
    show (j 0).val ≤ (j 0).val ∧ (j 0).val < (j 0).val + 1
    omega
  | ⟨1, _⟩ =>
    show (j 1).val ≤ (j 1).val ∧ (j 1).val < (j 1).val + 1
    omega
  | ⟨2, _⟩ =>
    have := (j 2).isLt
    show 0 ≤ (j 2).val ∧ (j 2).val < 0 + 224
    exact ⟨Nat.zero_le _, by rw [Nat.zero_add]; exact this⟩
  | ⟨3, _⟩ =>
    have := (j 3).isLt
    show 0 ≤ (j 3).val ∧ (j 3).val < 0 + 224
    exact ⟨Nat.zero_le _, by rw [Nat.zero_add]; exact this⟩

/-- A family over the slots, grouped by subcore. -/
theorem bigSep_slots (Φ : Fin 16 → Fin 2 → sProp 𝕄) :
    (bigSep Finset.univ fun i : Fin 16 => iprop(Φ i 0 ∗ Φ i 1)) = bigSep Finset.univ fun x : Fin 16 × Fin 2 => Φ x.1 x.2 := by
  rw [bigSep_univ_prod]
  exact bigSep_congr fun i _ => (bigSep_univ_two (Φ i)).symm

/-- The shared staging memory whole is its slots, two per subcore. -/
theorem shPts_slots (d : Dev nD) (cc : Fin τ.nSC) (f : Buf (Elt F) (shLoc d cc)) :
    (shLoc d cc ↦{fullShare} f : sProp 𝕄)
      = bigSep Finset.univ fun i : Fin 16 => iprop((shLoc d cc ↦[bSet i 0]{fullShare} f) ∗ (shLoc d cc ↦[bSet i 1]{fullShare} f)) := by
  rw [bigSep_slots (F := F) (fun i b => shLoc d cc ↦[bSet i b]{fullShare} f),
    ← pointsTo_biUnion Finset.univ (ℓ := shLoc d cc) (fun x : Fin 16 × Fin 2 => bSet x.1 x.2) bSlots_disjoint, bSlots_cover]; try rfl

variable [FloatOps F]

/-- The slots, each at contents of its own, are the shared staging memory whole at some contents. -/
theorem shSlots_join (d : Dev nD) (cc : Fin τ.nSC) :
    (bigSep Finset.univ fun i : Fin 16 => iprop((∃ f, bSlot d cc i 0 f) ∗ (∃ f, bSlot d cc i 1 f)))
      ⊢ (iprop(∃ f, shLoc d cc ↦{fullShare} f) : sProp 𝕄) := by
  rw [bigSep_slots (F := F) (fun i b => iprop(∃ f, bSlot d cc i b f))]
  refine (bigSep_exists_pi Finset.univ (fun (x : Fin 16 × Fin 2) (f : Buf (Elt F) (shLoc d cc)) => bSlot d cc x.1 x.2 f)).trans ?_
  iintro ⟨%fs, H⟩
  ihave H' := (pointsTo_biUnion_join Finset.univ (fun x : Fin 16 × Fin 2 => bSet x.1 x.2) fs (fs (0, 0)) bSlots_disjoint) $$ H
  icases H' with ⟨%g, -, Hg⟩
  rw [bSlots_cover]
  iexists g; iexact Hg

/-! ## The images' read shares -/

variable (m : (ℓ : Loc nD τ sig) → Buf (Elt F) ℓ)

/-- A SparseCore's share of the images is what remains after sixteen halvings and the sixteen halves, one per subcore. -/
theorem xShare_tiles (d : Dev nD) (c : Fin 2) :
    (xShare m d (qC c) : sProp 𝕄)
      ⊣⊢ iprop((xLoc d ↦{Transfers.shareDrop (qC c) 16} X3 m d) ∗ bigSep Finset.univ fun i : Fin 16 => xShare m d (qT c i)) :=
  Transfers.pointsTo_toks (qC c) 16

/-! ## A SparseCore's operands to its tasks, and back -/

omit [FloatOps F] in
/-- A family over the kernel's subcores is the family over `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- The shared staging memory is among the sequencer's own buffers: it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] in
/-- The shared staging memory at given contents is its slots, each at some contents. -/
theorem slots_intro (d : Dev nD) (cc : Fin τ.nSC) (f : Buf (Elt F) (shLoc d cc)) :
    (shLoc d cc ↦{fullShare} f : sProp 𝕄)
      ⊢ bigSep Finset.univ fun i : Fin 16 => iprop((∃ f, bSlot d cc i 0 f) ∗ (∃ f, bSlot d cc i 1 f)) :=
  (Entails.of_eq (shPts_slots d cc f)).trans (bigSep_mono fun i _ =>
    BI.sep_mono (BI.BIClass.exists_intro (Φ := fun g => bSlot (F := F) d cc i 0 g) f)
      (BI.BIClass.exists_intro (Φ := fun g => bSlot (F := F) d cc i 1 g) f))

/-- What the sixteen tasks of a SparseCore take, family by family. -/
theorem tiles_eq (d : Dev nD) (c : Fin 2) (cc : Fin τ.nSC) (fo : Buf (Elt F) (oLoc d)) :
    (bigSep Finset.univ fun i : Fin 16 => tileIn m d c i cc fo : sProp 𝕄)
      = iprop((bigSep Finset.univ fun i : Fin 16 => xShare m d (qT c i))
          ∗ (bigSep Finset.univ fun i : Fin 16 => sRows m d (wid c i))
          ∗ (bigSep Finset.univ fun i : Fin 16 => oRows d (wid c i) fo)
          ∗ (bigSep Finset.univ fun i : Fin 16 => iprop((∃ f, bSlot d cc i 0 f) ∗ (∃ f, bSlot d cc i 1 f)))) := by
  rw [bigSep_sep' Finset.univ (fun i : Fin 16 => xShare m d (qT c i)),
    bigSep_sep' Finset.univ (fun i : Fin 16 => sRows m d (wid c i)),
    bigSep_sep' Finset.univ (fun i : Fin 16 => oRows d (wid c i) fo)]

/-- A SparseCore's blocks of the table and of the result, family by family. -/
theorem rows_eq (d : Dev nD) (c : Fin 2) (fo : Buf (Elt F) (oLoc d)) :
    (bigSep Finset.univ fun i : Fin 16 => iprop(sRows m d (wid c i) ∗ oRows d (wid c i) fo) : sProp 𝕄)
      = iprop((bigSep Finset.univ fun i : Fin 16 => sRows m d (wid c i)) ∗ (bigSep Finset.univ fun i : Fin 16 => oRows d (wid c i) fo)) :=
  bigSep_sep' _ _ _

/-- A SparseCore's operands split into its sixteen tasks' — a sixteenth of its read share of the images, the
    subcore's block of the table and of the result, the subcore's two slots of the shared staging memory —,
    and what the tasks hand back joins into the SparseCore's results and its staging memory whole. -/
theorem vecSplit : (K (F := F)).VecSplit (P m) 0 := by
  intro d c
  show iprop(iprop(xShare m d (qC (Fin.cast nCore_zero c))
          ∗ bigSep Finset.univ fun i : Fin 16 => iprop(sRows m d (wid (Fin.cast nCore_zero c) i) ∗ oRows d (wid (Fin.cast nCore_zero c) i) (m (oLoc d))))
        ∗ ownBufs (S d (coreOf c)))
      ⊢ |={Set.univ}=> iprop(
        (bigSep Finset.univ fun i : Fin ((K (F := F)).nSub 0) =>
          tileIn m d (Fin.cast nCore_zero c) (Fin.cast nSub_zero i) (coreOf c) (m (oLoc d)))
        ∗ ((bigSep Finset.univ fun i : Fin ((K (F := F)).nSub 0) =>
            tileIn m d (Fin.cast nCore_zero c) (Fin.cast nSub_zero i) (coreOf c) (OUT m d))
          -∗ iprop(iprop(xShare m d (qC (Fin.cast nCore_zero c))
              ∗ bigSep Finset.univ fun i : Fin 16 => iprop(sRows m d (wid (Fin.cast nCore_zero c) i) ∗ oRows d (wid (Fin.cast nCore_zero c) i) (OUT m d)))
            ∗ ownBufs (S d (coreOf c)))))
  rw [bigSep_tasks (F := F) (fun i => tileIn m d (Fin.cast nCore_zero c) i (coreOf c) (m (oLoc d))),
    bigSep_tasks (F := F) (fun i => tileIn m d (Fin.cast nCore_zero c) i (coreOf c) (OUT m d)),
    tiles_eq, tiles_eq, rows_eq, rows_eq, ownBufs_S]
  iintro ⟨⟨Hx, Hs, Ho⟩, ⟨%fsh, Hsh⟩, Hrest⟩
  ihave Hx' := (xShare_tiles m d (Fin.cast nCore_zero c)).1 $$ Hx
  icases Hx' with ⟨Hxd, Hxt⟩
  ihave Hsh' := (slots_intro d (coreOf c) fsh) $$ Hsh
  imodintro
  isplitl [Hxt Hs Ho Hsh']
  · isplitl [Hxt]; · iexact Hxt
    isplitl [Hs]; · iexact Hs
    isplitl [Ho]; · iexact Ho
    iexact Hsh'
  iintro ⟨Hxt, Hs, Ho, Hsh⟩
  isplitl [Hxd Hxt Hs Ho]
  · isplitl [Hxd Hxt]
    · iapply (xShare_tiles m d (Fin.cast nCore_zero c)).2
      isplitl [Hxd]; · iexact Hxd
      iexact Hxt
    isplitl [Hs]; · iexact Hs
    iexact Ho
  isplitl [Hsh]; · iapply (shSlots_join d (coreOf c)); iexact Hsh
  iexact Hrest

end Cert.Proof.RunIdeal

end
-- ==== Proof.LaunchIdeal.lean ====
/-
  The program's launch: the ghost state's launch element, @main on the TensorCore around the
  SparseCore call, and the run of the whole family of threads from the vector subcores' task.
-/
import proofs.«214331_g712964571761_cont_9to1_m_186_24_alg».proof.Proof.SetupIdeal
import proofs.«214331_g712964571761_cont_9to1_m_186_24_alg».proof.Proof.SplitIdeal

noncomputable section

namespace Cert.Proof.RunIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held tcRefs after wp_seq held_sub_split held_congr)
open Cert.Proof.HostValueIdeal (opsPre opsPost)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The three arrays the call works on, as device buffers. -/
abbrev xRef : DevRef τ sig := Proc.devRef .tc (main_v0 : Ref sig .tc)
abbrev sRef : DevRef τ sig := Proc.devRef .tc (main_v9 : Ref sig .tc)
abbrev oRef : DevRef τ sig := Proc.devRef .tc (main_v10 : Ref sig .tc)
abbrev callRefs : Finset (DevRef τ sig) := {xRef, sRef, oRef}

/-- The launch valuation. -/
def Vlaunch (d : Dev nD) : Valuation τ sig (Elt F) := fun b => m (d, b)

omit [FloatOps F] in
/-- @main's arrays at the launch contents are all of the TensorCore's buffers: none is scoped. -/
theorem unscoped_held (d : Dev nD) :
    (unscopedBufs d (fun b => m ((SparseCore.T d).loc b)) : sProp 𝕄) = held (T d) (tcRefs τ sig) (Vlaunch m d) := by
  unfold unscopedBufs held tcRefs
  rw [show (Finset.univ.filter fun b : Ref sig .tc => ¬ b.isScoped) = Finset.univ by decide, bigSep_map]
  rfl

omit [FloatOps F] in
theorem held_callRefs (d : Dev nD) (W : Valuation τ sig (Elt F)) :
    (held (T d) callRefs W : sProp 𝕄) = iprop((xLoc d ↦{fullShare} W xRef) ∗ (sLoc d ↦{fullShare} W sRef) ∗ oLoc d ↦{fullShare} W oRef) := by
  unfold held callRefs
  rw [SparseCore.bigSep_insert' (by decide), SparseCore.bigSep_insert' (by decide), bigSep_singleton]

omit [FloatOps F] in
theorem callRefs_sub : (callRefs : Finset (DevRef τ sig)) ⊆ tcRefs τ sig := by
  intro b hb
  simp only [callRefs, Finset.mem_insert, Finset.mem_singleton] at hb
  rcases hb with rfl | rfl | rfl <;> exact StableHlo.devRef_mem_tcRefs _

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call takes for the two SparseCores, regrouped: the two read shares of the images, the table whole, the
    result whole. -/
theorem st_eq (d : Dev nD) (fo : Buf (Elt F) (oLoc d)) :
    (bigSep Finset.univ fun c : Fin 2 => iprop(xShare m d (qC c)
        ∗ bigSep Finset.univ fun i : Fin 16 => iprop(sRows m d (wid c i) ∗ oRows d (wid c i) fo)))
      = iprop((bigSep Finset.univ fun c : Fin 2 => xShare m d (qC c)) ∗ (sLoc d ↦{fullShare} SRC m d) ∗ (oLoc d ↦{fullShare} fo)) := by
  rw [sPts_blocks, oPts_blocks, ← bigSep_sep', ← bigSep_sep']
  exact bigSep_congr fun c _ => by rw [bigSep_sep']

theorem st0_eq (d : Dev nD) :
    (bigSep Finset.univ fun c : Fin ((K (F := F)).nCore 0) => (P m).st 0 d c)
      = iprop((bigSep Finset.univ fun c : Fin 2 => xShare m d (qC c)) ∗ (sLoc d ↦{fullShare} SRC m d) ∗ (oLoc d ↦{fullShare} m (oLoc d))) :=
  (bigSep_cores (F := F) (fun c => iprop(xShare m d (qC c)
      ∗ bigSep Finset.univ fun i : Fin 16 => iprop(sRows m d (wid c i) ∗ oRows d (wid c i) (m (oLoc d)))))).trans (st_eq m d _)
theorem dn0_eq (d : Dev nD) :
    (bigSep Finset.univ fun c : Fin ((K (F := F)).nCore 0) => (P m).dn 0 d c)
      = iprop((bigSep Finset.univ fun c : Fin 2 => xShare m d (qC c)) ∗ (sLoc d ↦{fullShare} SRC m d) ∗ (oLoc d ↦{fullShare} OUT m d)) :=
  (bigSep_cores (F := F) (fun c => iprop(xShare m d (qC c)
      ∗ bigSep Finset.univ fun i : Fin 16 => iprop(sRows m d (wid c i) ∗ oRows d (wid c i) (OUT m d))))).trans (st_eq m d _)

/-! ### The valuations along @main -/

theorem after_x (d : Dev nD) : after opsPre (Vlaunch m d) xRef = X3 m d := Cert.Proof.HostValueIdeal.pre_v0 _
theorem after_s (d : Dev nD) : after opsPre (Vlaunch m d) sRef = SRC m d := Cert.Proof.HostValueIdeal.pre_v9 _
theorem after_o (d : Dev nD) : after opsPre (Vlaunch m d) oRef = m (oLoc d) := Cert.Proof.HostValueIdeal.pre_v10 _

/-- After the call: the result array at the gathered rows, every other array as the host operations left it. -/
def Vcall (d : Dev nD) : Valuation τ sig (Elt F) := Function.update (after opsPre (Vlaunch m d)) oRef (OUT m d)

theorem Vcall_x (d : Dev nD) : Vcall m d xRef = X3 m d := (Function.update_of_ne (show xRef ≠ oRef by decide) _ _).trans (after_x m d)
theorem Vcall_s (d : Dev nD) : Vcall m d sRef = SRC m d := (Function.update_of_ne (show sRef ≠ oRef by decide) _ _).trans (after_s m d)
theorem Vcall_o (d : Dev nD) : Vcall m d oRef = OUT m d := Function.update_self _ _ _

theorem held_Vcall (d : Dev nD) :
    (held (T d) (tcRefs τ sig) (Vcall m d) : sProp 𝕄)
      = iprop(((xLoc d ↦{fullShare} X3 m d) ∗ (sLoc d ↦{fullShare} SRC m d) ∗ oLoc d ↦{fullShare} OUT m d)
          ∗ held (T d) (tcRefs τ sig \ callRefs) (after opsPre (Vlaunch m d))) := by
  have hrest : (held (T d) (tcRefs τ sig \ callRefs) (Vcall m d) : sProp 𝕄) = held (T d) (tcRefs τ sig \ callRefs) (after opsPre (Vlaunch m d)) :=
    held_congr (T d) fun b hb => Function.update_of_ne (fun e => (Finset.mem_sdiff.mp hb).2 (by rw [e]; decide)) _ _
  rw [held_sub_split (T d) callRefs_sub, held_callRefs, Vcall_x, Vcall_s, Vcall_o, hrest]

/-- The arguments and the result, as device buffers and as locations. -/
abbrev a0Ref : DevRef τ sig := Proc.devRef .tc (main_arg0 : Ref sig .tc)
abbrev a1Ref : DevRef τ sig := Proc.devRef .tc (main_arg1 : Ref sig .tc)
abbrev rRef : DevRef τ sig := Proc.devRef .tc (main_v11 : Ref sig .tc)
abbrev finRefs : Finset (DevRef τ sig) := {a0Ref, a1Ref, rRef}
abbrev a0Loc (d : Dev nD) : Loc nD τ sig := (SparseCore.T d).loc main_arg0
abbrev a1Loc (d : Dev nD) : Loc nD τ sig := (SparseCore.T d).loc main_arg1
abbrev rLoc (d : Dev nD) : Loc nD τ sig := (SparseCore.T d).loc main_v11

/-- What @main returns: the gathered rows reshaped to batch × channel. -/
def RES (d : Dev nD) : Buf (Elt F) (rLoc d) :=
  shapeCast S8x192x224x224 (OUT m d) shapeCasts_S1536x224x224_S8x192x224x224

omit [FloatOps F] in
theorem held_finRefs (d : Dev nD) (W : Valuation τ sig (Elt F)) :
    (held (T d) finRefs W : sProp 𝕄) = iprop((a0Loc d ↦{fullShare} W a0Ref) ∗ (a1Loc d ↦{fullShare} W a1Ref) ∗ rLoc d ↦{fullShare} W rRef) := by
  unfold held finRefs
  rw [SparseCore.bigSep_insert' (by decide), SparseCore.bigSep_insert' (by decide), bigSep_singleton]

omit [FloatOps F] in
theorem finRefs_sub : (finRefs : Finset (DevRef τ sig)) ⊆ tcRefs τ sig := by
  intro b hb
  simp only [finRefs, Finset.mem_insert, Finset.mem_singleton] at hb
  rcases hb with rfl | rfl | rfl <;> exact StableHlo.devRef_mem_tcRefs _

theorem fin_a0 (d : Dev nD) : after opsPost (Vcall m d) a0Ref = m (a0Loc d) :=
  (Cert.Proof.HostValueIdeal.post_arg0 _).trans ((Function.update_of_ne (show a0Ref ≠ oRef by decide) _ _).trans
    (Cert.Proof.HostValueIdeal.pre_arg0 _))
theorem fin_a1 (d : Dev nD) : after opsPost (Vcall m d) a1Ref = m (a1Loc d) :=
  (Cert.Proof.HostValueIdeal.post_arg1 _).trans ((Function.update_of_ne (show a1Ref ≠ oRef by decide) _ _).trans
    (Cert.Proof.HostValueIdeal.pre_arg1 _))
theorem fin_r (d : Dev nD) : after opsPost (Vcall m d) rRef = RES m d :=
  (Cert.Proof.HostValueIdeal.post_v11 _).trans (by rw [Vcall_o]; rfl)

/-- What @main leaves the claim: the arguments at their launch contents, the result at the reshaped gathered rows. -/
abbrev FIN (d : Dev nD) : sProp 𝕄 :=
  iprop((a0Loc d ↦{fullShare} m (a0Loc d)) ∗ (a1Loc d ↦{fullShare} m (a1Loc d)) ∗ rLoc d ↦{fullShare} RES m d)

/-- @main on device `d`'s TensorCore: the host operations before the call; the call, from the two read shares of the
    flattened images, the table and the result array in blocks; the reshape after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, Cert.Proof.HostValueIdeal.main_eq]
  iintro ⟨#Hctx, Hst, ⟨Hb, Hheld, -, -⟩, -⟩
  iapply (wp_seq 𝒱 none Set.univ d (tcRefs τ sig) _ opsPre Cert.Proof.HostValueIdeal.opsPre_sub Cert.Proof.HostValueIdeal.opsPre_fresh (Vlaunch m d)) $$ [Hb Hheld]
  · isplitl [Hb]; · iexact Hb
    iexact Hheld
  iintro ⟨Hb, Hheld⟩
  -- the three arrays of the call, out of the TensorCore's buffers
  ihave H2 := (Entails.of_eq (held_sub_split (T d) callRefs_sub (after opsPre (Vlaunch m d)))) $$ Hheld
  icases H2 with ⟨H3, Hrest⟩
  ihave H3' := (Entails.of_eq (held_callRefs (F := F) d _)) $$ H3
  icases H3' with ⟨Hx, Hs, Ho⟩
  rw [after_x, after_s, after_o]
  -- the images' two read shares
  ihave Hx2 := (Transfers.pointsTo_toks_split fullShare 2) $$ Hx
  icases Hx2 with ⟨Hxr, Hxs⟩
  rw [wp_bind]
  iapply ((K (F := F)).wp_run (D (F := F)) 𝒱 (EH := EH) (P := P m) κ d 0) $$ [Hst Hxs Hs Ho Hb Hrest Hxr]
  isplitr; · iexact Hctx
  isplitl [Hst]; · iexact Hst
  isplitl [Hxs Hs Ho]
  · rw [st0_eq]
    isplitl [Hxs]; · iexact Hxs
    isplitl [Hs]; · iexact Hs
    iexact Ho
  iintro ⟨Hst, Hdn⟩
  ihave Hdn' := (Entails.of_eq (dn0_eq m d)) $$ Hdn
  icases Hdn' with ⟨Hxs, Hs, Ho⟩
  ihave Hx := (Transfers.pointsTo_toks_join fullShare 2) $$ [Hxr Hxs]
  · isplitl [Hxr]; · iexact Hxr
    iexact Hxs
  -- the reshape after the call, over all of the TensorCore's buffers again
  rw [show (StableHlo.seq (nD := nD) (Λ := SparseCore.Sig (ΛP (F := F)) 1) (opsPost (F := F))) = (StableHlo.seq opsPost >>= fun u => Pure.pure u) from (bind_pure _).symm]
  iapply (wp_seq 𝒱 none Set.univ d (tcRefs τ sig) (fun u => Pure.pure u) opsPost Cert.Proof.HostValueIdeal.opsPost_sub Cert.Proof.HostValueIdeal.opsPost_fresh (Vcall m d)) $$ [Hb Hx Hs Ho Hrest]
  · isplitl [Hb]; · iexact Hb
    rw [held_Vcall]
    isplitl [Hx Hs Ho]
    · isplitl [Hx]; · iexact Hx
      isplitl [Hs]; · iexact Hs
      iexact Ho
    iexact Hrest
  iintro ⟨-, Hheld⟩
  ihave H2 := (Entails.of_eq (held_sub_split (T d) finRefs_sub (after opsPost (Vcall m d)))) $$ Hheld
  icases H2 with ⟨H3, -⟩
  ihave H3' := (Entails.of_eq (held_finRefs (F := F) d _)) $$ H3
  icases H3' with ⟨Ha0, Ha1, Hr⟩
  rw [fin_a0, fin_a1, fin_r]
  rw [wp_pure]; imodintro
  isplitl [Hst]; · iexact Hst
  isplitl [Ha0]; · iexact Ha0
  isplitl [Ha1]; · iexact Ha1
  iexact Hr

/-- What the claim reads off the final memory of device `d`. -/
def fq (d : Dev nD) (s' : Phys nD τ sig (Elt F)) : Prop :=
  s'.mem.mem (a0Loc d) = m (a0Loc d) ∧ s'.mem.mem (a1Loc d) = m (a1Loc d) ∧ s'.mem.mem (rLoc d) = RES m d

theorem hfin (d : Dev nD) (s' : Phys nD τ sig (Elt F)) : iprop(FIN m d ∗ SI s') ⊢ (⌜fq m d s'⌝ : sProp 𝕄) := by
  iintro ⟨⟨Ha0, Ha1, Hr⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h1, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h2, HSI, -⟩
  ihave H := (SI_pointsTo_agree (st := s') (ℓ := rLoc d) (I := Finset.univ) (q := fullShare) (f := RES m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- The run's post: on every device the arguments as launched, the result buffer at the reshaped gathered rows. -/
def QC : PUnit × MemSt nD τ sig (Elt F) → Prop := fun r =>
  ∀ c : Dev nD, r.2.mem (a0Loc c) = m (a0Loc c) ∧ r.2.mem (a1Loc c) = m (a1Loc c) ∧ r.2.mem (rLoc c) = RES m c

/-- From the vector subcores' task (`htile`): every weakly
    fair execution of the whole family of threads ends, the arguments as launched and the result at `RES`. -/
theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => vecSplit m)
    m ρ main (fun _ => iprop(emp)) (FIN m) (u₀ (F := F)) (sep_elim_left.trans (hu₀ m)) (hmain m ρ) (fq m) (hfin m) (QC m) (fun _ h => h)

end Cert.Proof.RunIdeal

end
-- ==== Proof.HostValueWord.lean ====
/-
  The host operations of the program's @main, read as values.  Before the SparseCore call @main
  flattens the images to 1536 rows (row 192·b + c is image b's channel c) and builds the table of
  row numbers  src[192·b + c] = 192·b + perm[c]  in 32-bit words (an iota times 192, broadcast,
  plus the broadcast table, flattened); after the call it reshapes the gathered rows back to
  batch × channel.  Under "every table word is a channel number" the words do not wrap, each row
  number is below 1536, and the reshaped gathered rows are the channel axis re-read through the
  table:  out[b, c, h, w] = x[b, perm[c], h, w].
-/
import proofs.«214331_g712964571761_cont_9to1_m_186_24_alg».proof.Kernel
import proofs.«214331_g712964571761_cont_9to1_m_186_24_alg».proof.Proof.Gen.Kernel
import proofs.«214331_g712964571761_cont_9to1_m_186_24_alg».proof.Proof.Spec
import Idealize.ShloMosaic.Lib.StableHlo.Run
import Idealize.ShloMosaic.Lib.ValueIdx
import Idealize.ShloMosaic.Lib.Pipeline.Value

noncomputable section

namespace Cert.Proof.HostValueWord

open Cert.Kernel Cert.Kernel.Facts₀ Cert.Kernel.Facts
open Idealize.ShloMosaic Idealize.ShloMosaic.TcCoe Idealize.SL.Sem
open Idealize.ShloMosaic.StableHlo Idealize.ShloMosaic.ValueIdx

variable {F : FTy → Type} [FloatOps F]

/-! ## The program as host operations around the call -/

/-- @main's host operations before the call, in order, as @main spells them. -/
abbrev opsPre : List (HloOp τ sig (Elt F)) :=
  [ StableHlo.reshape main_arg0 main_v0 rfl shapeCasts_S8x192x224x224_S1536x224x224,
    StableHlo.nullary main_v1 (iotaInDim S8 32 0),
    StableHlo.unary main_v1 main_v2 (broadcastInDim S8x1 ![0] bcast_S8_S8x1_0 : (⟨S8, .i32⟩ : BufTy).Contents (Elt F) → (⟨S8x1, .i32⟩ : BufTy).Contents (Elt F)),
    StableHlo.nullary main_c (constantI S_ 32 192#32),
    StableHlo.unary main_c main_v3 (broadcastInDim S8x1 ![] bcast_S_S8x1 : (⟨S_, .i32⟩ : BufTy).Contents (Elt F) → (⟨S8x1, .i32⟩ : BufTy).Contents (Elt F)),
    StableHlo.binary main_v2 main_v3 main_v4 (muli : (⟨S8x1, .i32⟩ : BufTy).Contents (Elt F) → (⟨S8x1, .i32⟩ : BufTy).Contents (Elt F) → (⟨S8x1, .i32⟩ : BufTy).Contents (Elt F)),
    StableHlo.unary main_arg1 main_v5 (broadcastInDim S1x192 ![1] bcast_S192_S1x192_1 : (⟨S192, .i32⟩ : BufTy).Contents (Elt F) → (⟨S1x192, .i32⟩ : BufTy).Contents (Elt F)),
    StableHlo.unary main_v4 main_v6 (broadcastInDim S8x192 ![0, 1] bcast_S8x1_S8x192_0_1 : (⟨S8x1, .i32⟩ : BufTy).Contents (Elt F) → (⟨S8x192, .i32⟩ : BufTy).Contents (Elt F)),
    StableHlo.unary main_v5 main_v7 (broadcastInDim S8x192 ![0, 1] bcast_S1x192_S8x192_0_1 : (⟨S1x192, .i32⟩ : BufTy).Contents (Elt F) → (⟨S8x192, .i32⟩ : BufTy).Contents (Elt F)),
    StableHlo.binary main_v6 main_v7 main_v8 (addi : (⟨S8x192, .i32⟩ : BufTy).Contents (Elt F) → (⟨S8x192, .i32⟩ : BufTy).Contents (Elt F) → (⟨S8x192, .i32⟩ : BufTy).Contents (Elt F)),
    StableHlo.reshape main_v8 main_v9 rfl shapeCasts_S8x192_S1536 ]

/-- The one host operation after the call. -/
abbrev opsPost : List (HloOp τ sig (Elt F)) :=
  [ StableHlo.reshape main_v10 main_v11 rfl shapeCasts_S1536x224x224_S8x192x224x224 ]

/-- @main is: the host operations before the call, the call, the reshape after it. -/
theorem main_eq (d : Dev nD) :
    main (F := F) d = (StableHlo.seq opsPre >>= fun _ => (sc (F := F)).run d 0 >>= fun _ => StableHlo.seq opsPost) := by
  simp only [main, StableHlo.seq, bind_assoc, pure_bind]

/-- Every operation's buffers are device buffers of the TensorCore's. -/
theorem opsPre_sub : ∀ op ∈ (opsPre : List (HloOp τ sig (Elt F))), op.bufs ⊆ tcRefs τ sig :=
  List.forall_iff_forall_mem.1 (show (opsPre : List (HloOp τ sig (Elt F))).Forall fun op => op.bufs ⊆ tcRefs τ sig from
    ⟨reshape_bufs_sub .., nullary_bufs_sub .., unary_bufs_sub .., nullary_bufs_sub .., unary_bufs_sub .., binary_bufs_sub ..,
      unary_bufs_sub .., unary_bufs_sub .., unary_bufs_sub .., binary_bufs_sub .., reshape_bufs_sub ..⟩)

theorem opsPost_sub : ∀ op ∈ (opsPost : List (HloOp τ sig (Elt F))), op.bufs ⊆ tcRefs τ sig :=
  List.forall_iff_forall_mem.1 (show (opsPost : List (HloOp τ sig (Elt F))).Forall fun op => op.bufs ⊆ tcRefs τ sig from
    reshape_bufs_sub ..)

/-- No operation allocates: each writes a value it computes. -/
theorem opsPre_fresh : ∀ op ∈ (opsPre : List (HloOp τ sig (Elt F))), op.fresh = ∅ := by
  intro _ h; (repeat (cases h with | head => rfl | tail _ h => ?_)); exact nomatch h

theorem opsPost_fresh : ∀ op ∈ (opsPost : List (HloOp τ sig (Elt F))), op.fresh = ∅ := by
  intro _ h; (repeat (cases h with | head => rfl | tail _ h => ?_)); exact nomatch h

/-! ## What the operations leave in each buffer -/

/-- The images with batch and channel flattened: row `192·b + c` is image `b`'s channel `c`. -/
def x3Of (x : FVec F S8x192x224x224 .f32) : FVec F S1536x224x224 .f32 :=
  shapeCast S1536x224x224 x shapeCasts_S8x192x224x224_S1536x224x224

/-- The table of row numbers built from the table of channel numbers: `iota(8) · 192` down the
    batch, plus the table across the channels, flattened. -/
def srcOf (p : IVec S192 32) : IVec S1536 32 :=
  shapeCast S1536
    (addi
      (broadcastInDim S8x192 ![0, 1] bcast_S8x1_S8x192_0_1
        (muli (broadcastInDim S8x1 ![0] bcast_S8_S8x1_0 (iotaInDim S8 32 0))
          (broadcastInDim S8x1 ![] bcast_S_S8x1 (constantI S_ 32 192#32))))
      (broadcastInDim S8x192 ![0, 1] bcast_S1x192_S8x192_0_1
        (broadcastInDim S1x192 ![1] bcast_S192_S1x192_1 p)))
    shapeCasts_S8x192_S1536

theorem pre_v0 (V : Valuation τ sig (Elt F)) :
    StableHlo.after opsPre V (Proc.devRef .tc main_v0) = x3Of (V (Proc.devRef .tc main_arg0)) := by
  dsimp only [opsPre]; after_results; rfl

theorem pre_v9 (V : Valuation τ sig (Elt F)) :
    StableHlo.after opsPre V (Proc.devRef .tc main_v9) = srcOf (V (Proc.devRef .tc main_arg1)) := by
  dsimp only [opsPre]; after_results; rfl

theorem pre_arg0 (V : Valuation τ sig (Elt F)) :
    StableHlo.after opsPre V (Proc.devRef .tc main_arg0) = V (Proc.devRef .tc main_arg0) := by
  dsimp only [opsPre]; after_results

theorem pre_arg1 (V : Valuation τ sig (Elt F)) :
    StableHlo.after opsPre V (Proc.devRef .tc main_arg1) = V (Proc.devRef .tc main_arg1) := by
  dsimp only [opsPre]; after_results

theorem pre_v10 (V : Valuation τ sig (Elt F)) :
    StableHlo.after opsPre V (Proc.devRef .tc main_v10) = V (Proc.devRef .tc main_v10) := by
  dsimp only [opsPre]; after_results

theorem pre_v11 (V : Valuation τ sig (Elt F)) :
    StableHlo.after opsPre V (Proc.devRef .tc main_v11) = V (Proc.devRef .tc main_v11) := by
  dsimp only [opsPre]; after_results

/-- A buffer none of the eleven operations writes keeps its contents. -/
theorem pre_other (V : Valuation τ sig (Elt F)) (r : Ref sig .tc)
    (hr : r ∉ [main_v0, main_v1, main_v2, main_c, main_v3, main_v4, main_v5, main_v6, main_v7, main_v8, main_v9]) :
    StableHlo.after opsPre V (Proc.devRef .tc r) = V (Proc.devRef .tc r) :=
  after_of_writes_sub (W := [main_v0, main_v1, main_v2, main_c, main_v3, main_v4, main_v5, main_v6, main_v7, main_v8, main_v9])
    opsPre V (by simp [List.Forall]) hr

/-- A buffer other than the result keeps its contents through the last reshape. -/
theorem post_other (V : Valuation τ sig (Elt F)) (r : Ref sig .tc) (hr : r ∉ [main_v11]) :
    StableHlo.after opsPost V (Proc.devRef .tc r) = V (Proc.devRef .tc r) :=
  after_of_writes_sub (W := [main_v11]) opsPost V (by simp [List.Forall]) hr

theorem post_v11 (V : Valuation τ sig (Elt F)) :
    StableHlo.after opsPost V (Proc.devRef .tc main_v11)
      = shapeCast S8x192x224x224 (V (Proc.devRef .tc main_v10)) shapeCasts_S1536x224x224_S8x192x224x224 := by
  dsimp only [opsPost]; after_results; rfl

theorem post_arg0 (V : Valuation τ sig (Elt F)) :
    StableHlo.after opsPost V (Proc.devRef .tc main_arg0) = V (Proc.devRef .tc main_arg0) := by
  dsimp only [opsPost]; after_results

theorem post_arg1 (V : Valuation τ sig (Elt F)) :
    StableHlo.after opsPost V (Proc.devRef .tc main_arg1) = V (Proc.devRef .tc main_arg1) := by
  dsimp only [opsPost]; after_results

theorem post_v0 (V : Valuation τ sig (Elt F)) :
    StableHlo.after opsPost V (Proc.devRef .tc main_v0) = V (Proc.devRef .tc main_v0) :=
  post_other V main_v0 (by decide)

theorem post_v9 (V : Valuation τ sig (Elt F)) :
    StableHlo.after opsPost V (Proc.devRef .tc main_v9) = V (Proc.devRef .tc main_v9) :=
  post_other V main_v9 (by decide)

theorem post_v10 (V : Valuation τ sig (Elt F)) :
    StableHlo.after opsPost V (Proc.devRef .tc main_v10) = V (Proc.devRef .tc main_v10) :=
  post_other V main_v10 (by decide)

/-! ## The table of row numbers, read at an index -/

/-- Entry `192·b + c` of the table, as words: `b · 192 + perm[c]`. -/
theorem srcOf_ix (p : IVec S192 32) (b : Fin 8) (c : Fin 192) (h : 192 * b.val + c.val < 1536) :
    srcOf p (ix1 (⟨192 * b.val + c.val, h⟩ : Fin 1536))
      = IntOp.addi (IntOp.muli (BitVec.ofNat 32 b.val) 192#32) (p (ix1 c)) := by
  unfold srcOf
  refine (shapeCast_apply _ _ (ix1 (⟨192 * b.val + c.val, h⟩ : Fin 1536)) (ix2 b c) (by
    rw [Shape.rowMajor_val_two, Shape.rowMajor_val_one]
    show b.val * 192 + c.val = 192 * b.val + c.val
    omega)).trans ?_
  have e1 : broadcastInDim S8x192 ![0, 1] bcast_S8x1_S8x192_0_1
        (muli (broadcastInDim S8x1 ![0] bcast_S8_S8x1_0 (iotaInDim S8 32 0))
          (broadcastInDim S8x1 ![] bcast_S_S8x1 (constantI S_ 32 192#32))) (ix2 b c)
      = IntOp.muli (BitVec.ofNat 32 b.val) 192#32 :=
    (broadcastInDim_apply ![0, 1] bcast_S8x1_S8x192_0_1 _ (ix2 b c) (ix2 b (0 : Fin 1))
      (fun a => match a with | ⟨0, _⟩ => rfl | ⟨1, _⟩ => rfl)).trans rfl
  have e2 : broadcastInDim S8x192 ![0, 1] bcast_S1x192_S8x192_0_1
        (broadcastInDim S1x192 ![1] bcast_S192_S1x192_1 p) (ix2 b c) = p (ix1 c) :=
    (broadcastInDim_apply ![0, 1] bcast_S1x192_S8x192_0_1 _ (ix2 b c) (ix2 (0 : Fin 1) c)
      (fun a => match a with | ⟨0, _⟩ => rfl | ⟨1, _⟩ => rfl)).trans
    (broadcastInDim_apply ![1] bcast_S192_S1x192_1 p (ix2 (0 : Fin 1) c) (ix1 c)
      (fun a => match a with | ⟨0, _⟩ => rfl))
  exact congrArg₂ IntOp.addi e1 e2

/-- With the table word a channel number, `b · 192 + w` does not wrap. -/
theorem word_toNat (b : Fin 8) (w : BitVec 32) (hw : w.toNat < 192) :
    (IntOp.addi (IntOp.muli (BitVec.ofNat 32 b.val) 192#32) w).toNat = 192 * b.val + w.toNat := by
  have hb := b.isLt
  unfold IntOp.addi IntOp.muli
  rw [BitVec.toNat_add, BitVec.toNat_mul, BitVec.toNat_ofNat, BitVec.toNat_ofNat]
  omega

theorem srcOf_apply (p : IVec S192 32) (hp : ∀ j, (p j).toNat < 192) (b : Fin 8) (c : Fin 192) :
    (srcOf p (ix1 (⟨192 * b.val + c.val, by omega⟩ : Fin 1536))).toNat = 192 * b.val + (p (ix1 c)).toNat := by
  rw [srcOf_ix, word_toNat b _ (hp _)]

theorem srcOf_lt (p : IVec S192 32) (hp : ∀ j, (p j).toNat < 192) (r : S1536.Idx) : (srcOf p r).toNat < 1536 := by
  have hr : (r 0).val < 1536 := (r 0).isLt
  have e : r = ix1 (⟨192 * (⟨(r 0).val / 192, by omega⟩ : Fin 8).val + (⟨(r 0).val % 192, Nat.mod_lt _ (by decide)⟩ : Fin 192).val,
      by show 192 * ((r 0).val / 192) + (r 0).val % 192 < 1536; omega⟩ : Fin 1536) := by
    exact (eq_ix1 r).trans
      (congrArg ix1 (Fin.ext (by show (r 0).val = 192 * ((r 0).val / 192) + (r 0).val % 192; omega)))
  rw [e, srcOf_apply p hp]
  have := hp (ix1 (⟨(r 0).val % 192, Nat.mod_lt _ (by decide)⟩ : Fin 192))
  show 192 * ((r 0).val / 192) + _ < 1536
  omega

/-! ## The bridge -/

/-- At explicit coordinates: entry `(b, c, h, w)` of the reshaped gathered rows is row
    `192·b + c` of the gathered rows, which is row `192·b + perm[c]` of the flattened images,
    which is channel `perm[c]` of image `b`. -/
theorem bridge_ix {α : Type} (x : S8x192x224x224.Idx → α) (p : IVec S192 32) (hp : ∀ j, (p j).toNat < 192)
    (b : Fin 8) (c : Fin 192) (h : Fin 224) (w : Fin 224) :
    shapeCast S8x192x224x224
        (Cert.Proof.Spec.gathered (shapeCast S1536x224x224 x shapeCasts_S8x192x224x224_S1536x224x224) (srcOf p))
        shapeCasts_S1536x224x224_S8x192x224x224 (ix4 b c h w)
      = x (ix4 b (Cert.Proof.Spec.chan (p (ix1 c))) h w) := by
  have hb := b.isLt
  have hc := c.isLt
  have hh := h.isLt
  have hw := w.isLt
  have hpc := hp (ix1 c)
  have hsrc := srcOf_apply p hp b c
  have hrow : (Cert.Proof.Spec.row (srcOf p (ix1 (⟨192 * b.val + c.val, by omega⟩ : Fin 1536)))).val
      = 192 * b.val + (p (ix1 c)).toNat :=
    (Cert.Proof.Spec.row_val_of_lt (by rw [hsrc]; omega)).trans hsrc
  refine (shapeCast_apply _ _ (ix4 b c h w) (ix3 (⟨192 * b.val + c.val, by omega⟩ : Fin 1536) h w) (by
    rw [Shape.rowMajor_val_three, Shape.rowMajor_val_four]
    show ((192 * b.val + c.val) * 224 + h.val) * 224 + w.val = ((b.val * 192 + c.val) * 224 + h.val) * 224 + w.val
    omega)).trans ?_
  show shapeCast S1536x224x224 x shapeCasts_S8x192x224x224_S1536x224x224
      (ix3 (Cert.Proof.Spec.row (srcOf p (ix1 (⟨192 * b.val + c.val, by omega⟩ : Fin 1536)))) h w) = _
  refine (shapeCast_apply _ _ _ (ix4 b (Cert.Proof.Spec.chan (p (ix1 c))) h w) (by
    rw [Shape.rowMajor_val_four, Shape.rowMajor_val_three]
    show ((b.val * 192 + (Cert.Proof.Spec.chan (p (ix1 c))).val) * 224 + h.val) * 224 + w.val
      = ((Cert.Proof.Spec.row (srcOf p (ix1 (⟨192 * b.val + c.val, by omega⟩ : Fin 1536)))).val * 224 + h.val) * 224 + w.val
    rw [hrow, Cert.Proof.Spec.chan_val_of_lt hpc]
    omega)).trans rfl

/-- The bridge: the reshaped gathered rows are the channel-permuted images. -/
theorem bridge (x : FVec F S8x192x224x224 .f32) (p : IVec S192 32) (hp : ∀ j, (p j).toNat < 192) :
    shapeCast S8x192x224x224 (Cert.Proof.Spec.gathered (x3Of x) (srcOf p)) shapeCasts_S1536x224x224_S8x192x224x224
      = Cert.Proof.Spec.permuted x p := by
  funext i
  rw [eq_ix4 i]
  exact bridge_ix x p hp (i 0) (i 1) (i 2) (i 3)

end Cert.Proof.HostValueWord

end
-- ==== Proof.SetupWord.lean ====
/-
  The SparseCore program as the launch theorem reads it, and the names the run is stated over:
  the threads, the five arrays the kernel touches as each vector subcore addresses them, and the
  ghost state (the launch handshakes' rounds beside one counter per transfer in flight).
-/
import proofs.«214331_g712964571761_cont_9to1_m_186_24_alg».proof.Defs
import Idealize.ShloMosaic.Lib.SparseCore.Launch
import Idealize.ShloMosaic.Lib.StableHlo.Run
import Idealize.ShloMosaic.Lib.Pipeline.Kit
import Idealize.ShloMosaic.Lib.Tactic
import proofs.«214331_g712964571761_cont_9to1_m_186_24_alg».proof.Proof.Gen.Kernel
import proofs.«214331_g712964571761_cont_9to1_m_186_24_alg».proof.Proof.Gen.Kernel.Skeleton
import proofs.«214331_g712964571761_cont_9to1_m_186_24_alg».proof.Proof.Spec
import proofs.«214331_g712964571761_cont_9to1_m_186_24_alg».proof.Proof.HostValueWord

noncomputable section

namespace Cert.Proof.RunWord

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The handshakes' rounds, the left factor; the transfers' counters are found by instance in the right. -/
abbrev EH : Emb UH (MT nD τ sig (HIx 1) (Elt F) ℕ UU ℕ) := embL

/-! ## The arrays -/

/-- The flattened images, the row table and the result, as locations of device `d`. -/
abbrev xLoc (d : Dev nD) : Loc nD τ sig := (SparseCore.T d).loc main_v0
abbrev sLoc (d : Dev nD) : Loc nD τ sig := (SparseCore.T d).loc main_v9
abbrev oLoc (d : Dev nD) : Loc nD τ sig := (SparseCore.T d).loc main_v10

/-- The vector subcore at grid coordinates `L`. -/
abbrev cV (L : grid0.Coords) : Fin τ.nSC := (L 0).castLE hcore0
abbrev jV (L : grid0.Coords) : Fin τ.nSub := (L 1).castLE hsub0

/-- The vector subcore of SparseCore `c`, subcore `i`, works on the 48 rows of block `2 i + c`. -/
def wid (c : Fin 2) (i : Fin 16) : Fin 32 := ⟨2 * i.val + c.val, by omega⟩

theorem hdivS : 32 ∣ S1536.size 0 := ⟨48, rfl⟩
theorem hdivO : 32 ∣ S1536x224x224.size 0 := ⟨48, rfl⟩
/-- Block `w` of the row table: entries `[48 w, 48 w + 48)`. -/
abbrev sPart (w : Fin 32) : Rect S1536 := Rect.part (s := S1536) (a₀ := 0) hdivS w
abbrev sSet (w : Fin 32) : Finset S1536.Idx := ((Memref.whole main_v9_scv : Memref sig .scVector .hbm S1536 .i32).view.slice (sPart w)).set
/-- Block `w` of the result: rows `[48 w, 48 w + 48)`. -/
abbrev oPart (w : Fin 32) : Rect S1536x224x224 := Rect.part (s := S1536x224x224) (a₀ := 0) hdivO w
abbrev oSet (w : Fin 32) : Finset S1536x224x224.Idx := ((Memref.whole main_v10_scv : Memref sig .scVector .hbm S1536x224x224 .f32).view.slice (oPart w)).set

/-- A SparseCore's shared staging memory: sixteen subcores × two slots of one 224 × 224 image. -/
abbrev shRef (c : Fin τ.nSC) : DevRef τ sig := ⟨.shared, ⟨0, by decide⟩, c⟩
abbrev shLoc (d : Dev nD) (c : Fin τ.nSC) : Loc nD τ sig := (d, shRef c)
theorem bRect_inb (i : Fin 16) (b : Fin 2) : ∀ a, (![i.val, b.val, 0, 0] : Fin 4 → Nat) a + S1x1x224x224.size a ≤ S16x2x224x224.size a := by
  intro a; fin_cases a <;> simp <;> omega
/-- Slot `b` of subcore `i`. -/
abbrev bRect (i : Fin 16) (b : Fin 2) : Rect S16x2x224x224 := Rect.unit (s := S16x2x224x224) ![i.val, b.val, 0, 0] S1x1x224x224.size (bRect_inb i b)
abbrev bSet (i : Fin 16) (b : Fin 2) : Finset S16x2x224x224.Idx := ((Memref.whole cc0_scratch1 : Memref sig .scVector .shared S16x2x224x224 .f32).view.slice (bRect i b)).set

/-! ## The launch memory, and what the arrays hold when the call starts and when it ends -/

local notation "𝕄" => MT nD τ sig (HIx 1) (Elt F) ℕ UU ℕ

variable (m : (ℓ : Loc nD τ sig) → Buf (Elt F) ℓ) (ρ : Dev nD → PrngReg)
variable [FloatOps F]

/-- The flattened images: the host's reshape of the first argument. -/
def X3 (d : Dev nD) : Buf (Elt F) (xLoc d) := Cert.Proof.HostValueWord.x3Of (m ((SparseCore.T d).loc main_arg0))
/-- The row table: row `192 b + c` names row `192 b + perm[c]`. -/
def SRC (d : Dev nD) : Buf (Elt F) (sLoc d) := Cert.Proof.HostValueWord.srcOf (m ((SparseCore.T d).loc main_arg1))
/-- The result the call leaves: the rows re-read through the table. -/
def OUT (d : Dev nD) : Buf (Elt F) (oLoc d) := Cert.Proof.Spec.gathered (X3 m d) (SRC m d)

/-- What the proof asks of the launch memory: every table word the kernel reads names a row. -/
def PreOK : Prop := ∀ (d : Dev nD) (j : S1536.Idx), (SRC m d j).toNat < 1536

/-! ## What the handshakes carry -/

/-- SparseCore `c`'s read share of the images, and subcore `i`'s part of it. -/
abbrev qC (c : Fin 2) : PosShare TreeShare := Transfers.shareTokN fullShare c.val
abbrev qT (c : Fin 2) (i : Fin 16) : PosShare TreeShare := Transfers.shareTok (qC c) 16 i

abbrev xShare (d : Dev nD) (q : PosShare TreeShare) : sProp 𝕄 := xLoc d ↦{q} X3 m d
abbrev sRows (d : Dev nD) (w : Fin 32) : sProp 𝕄 := sLoc d ↦[sSet w]{fullShare} SRC m d
abbrev oRows (d : Dev nD) (w : Fin 32) (f : Buf (Elt F) (oLoc d)) : sProp 𝕄 := oLoc d ↦[oSet w]{fullShare} f
abbrev bSlot (d : Dev nD) (c : Fin τ.nSC) (i : Fin 16) (b : Fin 2) (f : Buf (Elt F) (shLoc d c)) : sProp 𝕄 := shLoc d c ↦[bSet i b]{fullShare} f

/-- What a subcore's task takes (`fo` the result array's contents then) and what it hands back. -/
abbrev tileIn (d : Dev nD) (c : Fin 2) (i : Fin 16) (cc : Fin τ.nSC) (fo : Buf (Elt F) (oLoc d)) : sProp 𝕄 :=
  iprop(xShare m d (qT c i) ∗ sRows m d (wid c i) ∗ oRows d (wid c i) fo ∗ (∃ f, bSlot d cc i 0 f) ∗ (∃ f, bSlot d cc i 1 f))
abbrev coreOf (c : Fin ((K (F := F)).nCore 0)) : Fin τ.nSC := (K (F := F)).core 0 c

/-- The call hands SparseCore `c` its read share of the images and, for each of its subcores, the subcore's block of the
    table and of the result; a task besides takes the subcore's two slots of the shared staging memory. Everything comes back,
    the result's blocks at the gathered rows. -/
def P : (K (F := F)).Pay (nD := nD) (Val := Elt F) (Name := ℕ) (U := UU) where
  st := fun q d c => match q with
    | 0 => iprop(xShare m d (qC (Fin.cast nCore_zero c))
      ∗ bigSep Finset.univ fun i : Fin 16 => iprop(sRows m d (wid (Fin.cast nCore_zero c) i) ∗ oRows d (wid (Fin.cast nCore_zero c) i) (m (oLoc d))))
  dn := fun q d c => match q with
    | 0 => iprop(xShare m d (qC (Fin.cast nCore_zero c))
      ∗ bigSep Finset.univ fun i : Fin 16 => iprop(sRows m d (wid (Fin.cast nCore_zero c) i) ∗ oRows d (wid (Fin.cast nCore_zero c) i) (OUT m d)))
  go := fun q d c i => match q with
    | 0 => tileIn m d (Fin.cast nCore_zero c) (Fin.cast nSub_zero i) (coreOf c) (m (oLoc d))
  td := fun q d c i => match q with
    | 0 => tileIn m d (Fin.cast nCore_zero c) (Fin.cast nSub_zero i) (coreOf c) (OUT m d)
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.RunWord

end
-- ==== Proof.SplitWord.lean ====
/-
  How the call's arrays divide among the vector subcores, and come back together.
  The row table and the result are cut along their rows into thirty-two blocks of forty-eight; subcore
  `i` of SparseCore `c` works on block `2 i + c`, and `(c, i) ↦ 2 i + c` is a bijection of
  `Fin 2 × Fin 16` onto `Fin 32`.  A SparseCore's shared staging memory is sixteen subcores × two slots of
  one image each: thirty-two unit rectangles, pairwise disjoint, covering it.  The images are only read:
  a SparseCore's share of them is halved sixteen times, one half per subcore, the remainder kept.
-/
import proofs.«214331_g712964571761_cont_9to1_m_186_24_alg».proof.Proof.SetupWord

noncomputable section

namespace Cert.Proof.RunWord

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Blocks of rows: `(c, i) ↦ 2 i + c` -/

/-- Subcore `i` of SparseCore `c` against block `2 i + c`: a bijection. -/
def widEquiv : Fin 2 × Fin 16 ≃ Fin 32 where
  toFun x := wid x.1 x.2
  invFun w := (⟨w.val % 2, Nat.mod_lt _ (by decide)⟩, ⟨w.val / 2, by omega⟩)
  left_inv x := by
    obtain ⟨c, i⟩ := x
    refine Prod.ext (Fin.ext ?_) (Fin.ext ?_)
    · show (2 * i.val + c.val) % 2 = c.val
      omega
    · show (2 * i.val + c.val) / 2 = i.val
      omega
  right_inv w := Fin.ext (by show 2 * (w.val / 2) + w.val % 2 = w.val; omega)

/-- A family over the thirty-two blocks, regrouped by SparseCore and subcore. -/
theorem bigSep_blocks (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]
  rfl

theorem sSet_eq (w : Fin 32) : sSet w = (sPart w).set := by
  show ((Memref.whole main_v9_scv : Memref sig .scVector .hbm S1536 .i32).view.slice (sPart w)).set = _
  rw [View.set_slice]; exact Finset.map_refl
theorem sBlocks_disjoint : ∀ i ∈ (Finset.univ : Finset (Fin 32)), ∀ j ∈ (Finset.univ : Finset (Fin 32)), i ≠ j → Disjoint (sSet i) (sSet j) :=
  fun i _ j _ h => by rw [sSet_eq, sSet_eq]; exact Rect.part_disjoint hdivS h
theorem sBlocks_cover : (Finset.univ : Finset (Fin 32)).biUnion sSet = Finset.univ :=
  (Finset.biUnion_congr rfl fun i _ => sSet_eq i).trans (Rect.biUnion_part hdivS)

theorem oSet_eq (w : Fin 32) : oSet w = (oPart w).set := by
  show ((Memref.whole main_v10_scv : Memref sig .scVector .hbm S1536x224x224 .f32).view.slice (oPart w)).set = _
  rw [View.set_slice]; exact Finset.map_refl
theorem oBlocks_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint hdivO h
theorem oBlocks_cover : (Finset.univ : Finset (Fin 32)).biUnion oSet = Finset.univ :=
  (Finset.biUnion_congr rfl fun i _ => oSet_eq i).trans (Rect.biUnion_part hdivO)

/-- The row table whole is its thirty-two blocks. -/
theorem sPts_blocks (d : Dev nD) (f : Buf (Elt F) (sLoc d)) :
    (sLoc d ↦{fullShare} f : sProp 𝕄)
      = bigSep Finset.univ fun c : Fin 2 => bigSep Finset.univ fun i : Fin 16 => sLoc d ↦[sSet (wid c i)]{fullShare} f := by
  rw [← bigSep_blocks (F := F) (fun w => sLoc d ↦[sSet w]{fullShare} f),
    ← pointsTo_biUnion Finset.univ (ℓ := sLoc d) sSet sBlocks_disjoint, sBlocks_cover]; try rfl

/-- The result whole is its thirty-two blocks. -/
theorem oPts_blocks (d : Dev nD) (f : Buf (Elt F) (oLoc d)) :
    (oLoc d ↦{fullShare} f : sProp 𝕄)
      = bigSep Finset.univ fun c : Fin 2 => bigSep Finset.univ fun i : Fin 16 => oLoc d ↦[oSet (wid c i)]{fullShare} f := by
  rw [← bigSep_blocks (F := F) (fun w => oLoc d ↦[oSet w]{fullShare} f),
    ← pointsTo_biUnion Finset.univ (ℓ := oLoc d) oSet oBlocks_disjoint, oBlocks_cover]; try rfl

/-! ## The shared staging memory's slots -/

theorem bSet_eq (i : Fin 16) (b : Fin 2) : bSet i b = (bRect i b).set := by
  show ((Memref.whole cc0_scratch1 : Memref sig .scVector .shared S16x2x224x224 .f32).view.slice (bRect i b)).set = _
  rw [View.set_slice]; exact Finset.map_refl

/-- Two different slots differ in their subcore or in their number: separated on that axis. -/
theorem bSlots_disjoint : ∀ x ∈ (Finset.univ : Finset (Fin 16 × Fin 2)), ∀ y ∈ (Finset.univ : Finset (Fin 16 × Fin 2)), x ≠ y →
    Disjoint (bSet x.1 x.2) (bSet y.1 y.2) := by
  rintro ⟨i, b⟩ - ⟨i', b'⟩ - h
  rw [bSet_eq, bSet_eq]
  by_cases hi : i = i'
  · have hb : b ≠ b' := fun e => h (by rw [hi, e])
    refine Rect.unit_disjoint 1 ?_
    show b.val + 1 ≤ b'.val ∨ b'.val + 1 ≤ b.val
    have : b.val ≠ b'.val := fun e => hb (Fin.ext e)
    omega
  · refine Rect.unit_disjoint 0 ?_
    show i.val + 1 ≤ i'.val ∨ i'.val + 1 ≤ i.val
    have : i.val ≠ i'.val := fun e => hi (Fin.ext e)
    omega

/-- Every element lies in the slot its first two coordinates name. -/
theorem bSlots_cover : (Finset.univ : Finset (Fin 16 × Fin 2)).biUnion (fun x => bSet x.1 x.2) = Finset.univ := by
  ext j
  simp only [Finset.mem_biUnion, Finset.mem_univ, true_and, iff_true]
  refine ⟨(j 0, j 1), ?_⟩
  rw [bSet_eq]
  refine Rect.mem_set_unit.mpr fun a => ?_
  match a with
  | ⟨0, _⟩ =>
    show (j 0).val ≤ (j 0).val ∧ (j 0).val < (j 0).val + 1
    omega
  | ⟨1, _⟩ =>
    show (j 1).val ≤ (j 1).val ∧ (j 1).val < (j 1).val + 1
    omega
  | ⟨2, _⟩ =>
    have := (j 2).isLt
    show 0 ≤ (j 2).val ∧ (j 2).val < 0 + 224
    exact ⟨Nat.zero_le _, by rw [Nat.zero_add]; exact this⟩
  | ⟨3, _⟩ =>
    have := (j 3).isLt
    show 0 ≤ (j 3).val ∧ (j 3).val < 0 + 224
    exact ⟨Nat.zero_le _, by rw [Nat.zero_add]; exact this⟩

/-- A family over the slots, grouped by subcore. -/
theorem bigSep_slots (Φ : Fin 16 → Fin 2 → sProp 𝕄) :
    (bigSep Finset.univ fun i : Fin 16 => iprop(Φ i 0 ∗ Φ i 1)) = bigSep Finset.univ fun x : Fin 16 × Fin 2 => Φ x.1 x.2 := by
  rw [bigSep_univ_prod]
  exact bigSep_congr fun i _ => (bigSep_univ_two (Φ i)).symm

/-- The shared staging memory whole is its slots, two per subcore. -/
theorem shPts_slots (d : Dev nD) (cc : Fin τ.nSC) (f : Buf (Elt F) (shLoc d cc)) :
    (shLoc d cc ↦{fullShare} f : sProp 𝕄)
      = bigSep Finset.univ fun i : Fin 16 => iprop((shLoc d cc ↦[bSet i 0]{fullShare} f) ∗ (shLoc d cc ↦[bSet i 1]{fullShare} f)) := by
  rw [bigSep_slots (F := F) (fun i b => shLoc d cc ↦[bSet i b]{fullShare} f),
    ← pointsTo_biUnion Finset.univ (ℓ := shLoc d cc) (fun x : Fin 16 × Fin 2 => bSet x.1 x.2) bSlots_disjoint, bSlots_cover]; try rfl

variable [FloatOps F]

/-- The slots, each at contents of its own, are the shared staging memory whole at some contents. -/
theorem shSlots_join (d : Dev nD) (cc : Fin τ.nSC) :
    (bigSep Finset.univ fun i : Fin 16 => iprop((∃ f, bSlot d cc i 0 f) ∗ (∃ f, bSlot d cc i 1 f)))
      ⊢ (iprop(∃ f, shLoc d cc ↦{fullShare} f) : sProp 𝕄) := by
  rw [bigSep_slots (F := F) (fun i b => iprop(∃ f, bSlot d cc i b f))]
  refine (bigSep_exists_pi Finset.univ (fun (x : Fin 16 × Fin 2) (f : Buf (Elt F) (shLoc d cc)) => bSlot d cc x.1 x.2 f)).trans ?_
  iintro ⟨%fs, H⟩
  ihave H' := (pointsTo_biUnion_join Finset.univ (fun x : Fin 16 × Fin 2 => bSet x.1 x.2) fs (fs (0, 0)) bSlots_disjoint) $$ H
  icases H' with ⟨%g, -, Hg⟩
  rw [bSlots_cover]
  iexists g; iexact Hg

/-! ## The images' read shares -/

variable (m : (ℓ : Loc nD τ sig) → Buf (Elt F) ℓ)

/-- A SparseCore's share of the images is what remains after sixteen halvings and the sixteen halves, one per subcore. -/
theorem xShare_tiles (d : Dev nD) (c : Fin 2) :
    (xShare m d (qC c) : sProp 𝕄)
      ⊣⊢ iprop((xLoc d ↦{Transfers.shareDrop (qC c) 16} X3 m d) ∗ bigSep Finset.univ fun i : Fin 16 => xShare m d (qT c i)) :=
  Transfers.pointsTo_toks (qC c) 16

/-! ## A SparseCore's operands to its tasks, and back -/

omit [FloatOps F] in
/-- A family over the kernel's subcores is the family over `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- The shared staging memory is among the sequencer's own buffers: it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] in
/-- The shared staging memory at given contents is its slots, each at some contents. -/
theorem slots_intro (d : Dev nD) (cc : Fin τ.nSC) (f : Buf (Elt F) (shLoc d cc)) :
    (shLoc d cc ↦{fullShare} f : sProp 𝕄)
      ⊢ bigSep Finset.univ fun i : Fin 16 => iprop((∃ f, bSlot d cc i 0 f) ∗ (∃ f, bSlot d cc i 1 f)) :=
  (Entails.of_eq (shPts_slots d cc f)).trans (bigSep_mono fun i _ =>
    BI.sep_mono (BI.BIClass.exists_intro (Φ := fun g => bSlot (F := F) d cc i 0 g) f)
      (BI.BIClass.exists_intro (Φ := fun g => bSlot (F := F) d cc i 1 g) f))

/-- What the sixteen tasks of a SparseCore take, family by family. -/
theorem tiles_eq (d : Dev nD) (c : Fin 2) (cc : Fin τ.nSC) (fo : Buf (Elt F) (oLoc d)) :
    (bigSep Finset.univ fun i : Fin 16 => tileIn m d c i cc fo : sProp 𝕄)
      = iprop((bigSep Finset.univ fun i : Fin 16 => xShare m d (qT c i))
          ∗ (bigSep Finset.univ fun i : Fin 16 => sRows m d (wid c i))
          ∗ (bigSep Finset.univ fun i : Fin 16 => oRows d (wid c i) fo)
          ∗ (bigSep Finset.univ fun i : Fin 16 => iprop((∃ f, bSlot d cc i 0 f) ∗ (∃ f, bSlot d cc i 1 f)))) := by
  rw [bigSep_sep' Finset.univ (fun i : Fin 16 => xShare m d (qT c i)),
    bigSep_sep' Finset.univ (fun i : Fin 16 => sRows m d (wid c i)),
    bigSep_sep' Finset.univ (fun i : Fin 16 => oRows d (wid c i) fo)]

/-- A SparseCore's blocks of the table and of the result, family by family. -/
theorem rows_eq (d : Dev nD) (c : Fin 2) (fo : Buf (Elt F) (oLoc d)) :
    (bigSep Finset.univ fun i : Fin 16 => iprop(sRows m d (wid c i) ∗ oRows d (wid c i) fo) : sProp 𝕄)
      = iprop((bigSep Finset.univ fun i : Fin 16 => sRows m d (wid c i)) ∗ (bigSep Finset.univ fun i : Fin 16 => oRows d (wid c i) fo)) :=
  bigSep_sep' _ _ _

/-- A SparseCore's operands split into its sixteen tasks' — a sixteenth of its read share of the images, the
    subcore's block of the table and of the result, the subcore's two slots of the shared staging memory —,
    and what the tasks hand back joins into the SparseCore's results and its staging memory whole. -/
theorem vecSplit : (K (F := F)).VecSplit (P m) 0 := by
  intro d c
  show iprop(iprop(xShare m d (qC (Fin.cast nCore_zero c))
          ∗ bigSep Finset.univ fun i : Fin 16 => iprop(sRows m d (wid (Fin.cast nCore_zero c) i) ∗ oRows d (wid (Fin.cast nCore_zero c) i) (m (oLoc d))))
        ∗ ownBufs (S d (coreOf c)))
      ⊢ |={Set.univ}=> iprop(
        (bigSep Finset.univ fun i : Fin ((K (F := F)).nSub 0) =>
          tileIn m d (Fin.cast nCore_zero c) (Fin.cast nSub_zero i) (coreOf c) (m (oLoc d)))
        ∗ ((bigSep Finset.univ fun i : Fin ((K (F := F)).nSub 0) =>
            tileIn m d (Fin.cast nCore_zero c) (Fin.cast nSub_zero i) (coreOf c) (OUT m d))
          -∗ iprop(iprop(xShare m d (qC (Fin.cast nCore_zero c))
              ∗ bigSep Finset.univ fun i : Fin 16 => iprop(sRows m d (wid (Fin.cast nCore_zero c) i) ∗ oRows d (wid (Fin.cast nCore_zero c) i) (OUT m d)))
            ∗ ownBufs (S d (coreOf c)))))
  rw [bigSep_tasks (F := F) (fun i => tileIn m d (Fin.cast nCore_zero c) i (coreOf c) (m (oLoc d))),
    bigSep_tasks (F := F) (fun i => tileIn m d (Fin.cast nCore_zero c) i (coreOf c) (OUT m d)),
    tiles_eq, tiles_eq, rows_eq, rows_eq, ownBufs_S]
  iintro ⟨⟨Hx, Hs, Ho⟩, ⟨%fsh, Hsh⟩, Hrest⟩
  ihave Hx' := (xShare_tiles m d (Fin.cast nCore_zero c)).1 $$ Hx
  icases Hx' with ⟨Hxd, Hxt⟩
  ihave Hsh' := (slots_intro d (coreOf c) fsh) $$ Hsh
  imodintro
  isplitl [Hxt Hs Ho Hsh']
  · isplitl [Hxt]; · iexact Hxt
    isplitl [Hs]; · iexact Hs
    isplitl [Ho]; · iexact Ho
    iexact Hsh'
  iintro ⟨Hxt, Hs, Ho, Hsh⟩
  isplitl [Hxd Hxt Hs Ho]
  · isplitl [Hxd Hxt]
    · iapply (xShare_tiles m d (Fin.cast nCore_zero c)).2
      isplitl [Hxd]; · iexact Hxd
      iexact Hxt
    isplitl [Hs]; · iexact Hs
    iexact Ho
  isplitl [Hsh]; · iapply (shSlots_join d (coreOf c)); iexact Hsh
  iexact Hrest

end Cert.Proof.RunWord

end
-- ==== Proof.LaunchWord.lean ====
/-
  The program's launch: the ghost state's launch element, @main on the TensorCore around the
  SparseCore call, and the run of the whole family of threads from the vector subcores' task.
-/
import proofs.«214331_g712964571761_cont_9to1_m_186_24_alg».proof.Proof.SetupWord
import proofs.«214331_g712964571761_cont_9to1_m_186_24_alg».proof.Proof.SplitWord

noncomputable section

namespace Cert.Proof.RunWord

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held tcRefs after wp_seq held_sub_split held_congr)
open Cert.Proof.HostValueWord (opsPre opsPost)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The three arrays the call works on, as device buffers. -/
abbrev xRef : DevRef τ sig := Proc.devRef .tc (main_v0 : Ref sig .tc)
abbrev sRef : DevRef τ sig := Proc.devRef .tc (main_v9 : Ref sig .tc)
abbrev oRef : DevRef τ sig := Proc.devRef .tc (main_v10 : Ref sig .tc)
abbrev callRefs : Finset (DevRef τ sig) := {xRef, sRef, oRef}

/-- The launch valuation. -/
def Vlaunch (d : Dev nD) : Valuation τ sig (Elt F) := fun b => m (d, b)

omit [FloatOps F] in
/-- @main's arrays at the launch contents are all of the TensorCore's buffers: none is scoped. -/
theorem unscoped_held (d : Dev nD) :
    (unscopedBufs d (fun b => m ((SparseCore.T d).loc b)) : sProp 𝕄) = held (T d) (tcRefs τ sig) (Vlaunch m d) := by
  unfold unscopedBufs held tcRefs
  rw [show (Finset.univ.filter fun b : Ref sig .tc => ¬ b.isScoped) = Finset.univ by decide, bigSep_map]
  rfl

omit [FloatOps F] in
theorem held_callRefs (d : Dev nD) (W : Valuation τ sig (Elt F)) :
    (held (T d) callRefs W : sProp 𝕄) = iprop((xLoc d ↦{fullShare} W xRef) ∗ (sLoc d ↦{fullShare} W sRef) ∗ oLoc d ↦{fullShare} W oRef) := by
  unfold held callRefs
  rw [SparseCore.bigSep_insert' (by decide), SparseCore.bigSep_insert' (by decide), bigSep_singleton]

omit [FloatOps F] in
theorem callRefs_sub : (callRefs : Finset (DevRef τ sig)) ⊆ tcRefs τ sig := by
  intro b hb
  simp only [callRefs, Finset.mem_insert, Finset.mem_singleton] at hb
  rcases hb with rfl | rfl | rfl <;> exact StableHlo.devRef_mem_tcRefs _

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call takes for the two SparseCores, regrouped: the two read shares of the images, the table whole, the
    result whole. -/
theorem st_eq (d : Dev nD) (fo : Buf (Elt F) (oLoc d)) :
    (bigSep Finset.univ fun c : Fin 2 => iprop(xShare m d (qC c)
        ∗ bigSep Finset.univ fun i : Fin 16 => iprop(sRows m d (wid c i) ∗ oRows d (wid c i) fo)))
      = iprop((bigSep Finset.univ fun c : Fin 2 => xShare m d (qC c)) ∗ (sLoc d ↦{fullShare} SRC m d) ∗ (oLoc d ↦{fullShare} fo)) := by
  rw [sPts_blocks, oPts_blocks, ← bigSep_sep', ← bigSep_sep']
  exact bigSep_congr fun c _ => by rw [bigSep_sep']

theorem st0_eq (d : Dev nD) :
    (bigSep Finset.univ fun c : Fin ((K (F := F)).nCore 0) => (P m).st 0 d c)
      = iprop((bigSep Finset.univ fun c : Fin 2 => xShare m d (qC c)) ∗ (sLoc d ↦{fullShare} SRC m d) ∗ (oLoc d ↦{fullShare} m (oLoc d))) :=
  (bigSep_cores (F := F) (fun c => iprop(xShare m d (qC c)
      ∗ bigSep Finset.univ fun i : Fin 16 => iprop(sRows m d (wid c i) ∗ oRows d (wid c i) (m (oLoc d)))))).trans (st_eq m d _)
theorem dn0_eq (d : Dev nD) :
    (bigSep Finset.univ fun c : Fin ((K (F := F)).nCore 0) => (P m).dn 0 d c)
      = iprop((bigSep Finset.univ fun c : Fin 2 => xShare m d (qC c)) ∗ (sLoc d ↦{fullShare} SRC m d) ∗ (oLoc d ↦{fullShare} OUT m d)) :=
  (bigSep_cores (F := F) (fun c => iprop(xShare m d (qC c)
      ∗ bigSep Finset.univ fun i : Fin 16 => iprop(sRows m d (wid c i) ∗ oRows d (wid c i) (OUT m d))))).trans (st_eq m d _)

/-! ### The valuations along @main -/

theorem after_x (d : Dev nD) : after opsPre (Vlaunch m d) xRef = X3 m d := Cert.Proof.HostValueWord.pre_v0 _
theorem after_s (d : Dev nD) : after opsPre (Vlaunch m d) sRef = SRC m d := Cert.Proof.HostValueWord.pre_v9 _
theorem after_o (d : Dev nD) : after opsPre (Vlaunch m d) oRef = m (oLoc d) := Cert.Proof.HostValueWord.pre_v10 _

/-- After the call: the result array at the gathered rows, every other array as the host operations left it. -/
def Vcall (d : Dev nD) : Valuation τ sig (Elt F) := Function.update (after opsPre (Vlaunch m d)) oRef (OUT m d)

theorem Vcall_x (d : Dev nD) : Vcall m d xRef = X3 m d := (Function.update_of_ne (show xRef ≠ oRef by decide) _ _).trans (after_x m d)
theorem Vcall_s (d : Dev nD) : Vcall m d sRef = SRC m d := (Function.update_of_ne (show sRef ≠ oRef by decide) _ _).trans (after_s m d)
theorem Vcall_o (d : Dev nD) : Vcall m d oRef = OUT m d := Function.update_self _ _ _

theorem held_Vcall (d : Dev nD) :
    (held (T d) (tcRefs τ sig) (Vcall m d) : sProp 𝕄)
      = iprop(((xLoc d ↦{fullShare} X3 m d) ∗ (sLoc d ↦{fullShare} SRC m d) ∗ oLoc d ↦{fullShare} OUT m d)
          ∗ held (T d) (tcRefs τ sig \ callRefs) (after opsPre (Vlaunch m d))) := by
  have hrest : (held (T d) (tcRefs τ sig \ callRefs) (Vcall m d) : sProp 𝕄) = held (T d) (tcRefs τ sig \ callRefs) (after opsPre (Vlaunch m d)) :=
    held_congr (T d) fun b hb => Function.update_of_ne (fun e => (Finset.mem_sdiff.mp hb).2 (by rw [e]; decide)) _ _
  rw [held_sub_split (T d) callRefs_sub, held_callRefs, Vcall_x, Vcall_s, Vcall_o, hrest]

/-- The arguments and the result, as device buffers and as locations. -/
abbrev a0Ref : DevRef τ sig := Proc.devRef .tc (main_arg0 : Ref sig .tc)
abbrev a1Ref : DevRef τ sig := Proc.devRef .tc (main_arg1 : Ref sig .tc)
abbrev rRef : DevRef τ sig := Proc.devRef .tc (main_v11 : Ref sig .tc)
abbrev finRefs : Finset (DevRef τ sig) := {a0Ref, a1Ref, rRef}
abbrev a0Loc (d : Dev nD) : Loc nD τ sig := (SparseCore.T d).loc main_arg0
abbrev a1Loc (d : Dev nD) : Loc nD τ sig := (SparseCore.T d).loc main_arg1
abbrev rLoc (d : Dev nD) : Loc nD τ sig := (SparseCore.T d).loc main_v11

/-- What @main returns: the gathered rows reshaped to batch × channel. -/
def RES (d : Dev nD) : Buf (Elt F) (rLoc d) :=
  shapeCast S8x192x224x224 (OUT m d) shapeCasts_S1536x224x224_S8x192x224x224

omit [FloatOps F] in
theorem held_finRefs (d : Dev nD) (W : Valuation τ sig (Elt F)) :
    (held (T d) finRefs W : sProp 𝕄) = iprop((a0Loc d ↦{fullShare} W a0Ref) ∗ (a1Loc d ↦{fullShare} W a1Ref) ∗ rLoc d ↦{fullShare} W rRef) := by
  unfold held finRefs
  rw [SparseCore.bigSep_insert' (by decide), SparseCore.bigSep_insert' (by decide), bigSep_singleton]

omit [FloatOps F] in
theorem finRefs_sub : (finRefs : Finset (DevRef τ sig)) ⊆ tcRefs τ sig := by
  intro b hb
  simp only [finRefs, Finset.mem_insert, Finset.mem_singleton] at hb
  rcases hb with rfl | rfl | rfl <;> exact StableHlo.devRef_mem_tcRefs _

theorem fin_a0 (d : Dev nD) : after opsPost (Vcall m d) a0Ref = m (a0Loc d) :=
  (Cert.Proof.HostValueWord.post_arg0 _).trans ((Function.update_of_ne (show a0Ref ≠ oRef by decide) _ _).trans
    (Cert.Proof.HostValueWord.pre_arg0 _))
theorem fin_a1 (d : Dev nD) : after opsPost (Vcall m d) a1Ref = m (a1Loc d) :=
  (Cert.Proof.HostValueWord.post_arg1 _).trans ((Function.update_of_ne (show a1Ref ≠ oRef by decide) _ _).trans
    (Cert.Proof.HostValueWord.pre_arg1 _))
theorem fin_r (d : Dev nD) : after opsPost (Vcall m d) rRef = RES m d :=
  (Cert.Proof.HostValueWord.post_v11 _).trans (by rw [Vcall_o]; rfl)

/-- What @main leaves the claim: the arguments at their launch contents, the result at the reshaped gathered rows. -/
abbrev FIN (d : Dev nD) : sProp 𝕄 :=
  iprop((a0Loc d ↦{fullShare} m (a0Loc d)) ∗ (a1Loc d ↦{fullShare} m (a1Loc d)) ∗ rLoc d ↦{fullShare} RES m d)

/-- @main on device `d`'s TensorCore: the host operations before the call; the call, from the two read shares of the
    flattened images, the table and the result array in blocks; the reshape after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, Cert.Proof.HostValueWord.main_eq]
  iintro ⟨#Hctx, Hst, ⟨Hb, Hheld, -, -⟩, -⟩
  iapply (wp_seq 𝒱 none Set.univ d (tcRefs τ sig) _ opsPre Cert.Proof.HostValueWord.opsPre_sub Cert.Proof.HostValueWord.opsPre_fresh (Vlaunch m d)) $$ [Hb Hheld]
  · isplitl [Hb]; · iexact Hb
    iexact Hheld
  iintro ⟨Hb, Hheld⟩
  -- the three arrays of the call, out of the TensorCore's buffers
  ihave H2 := (Entails.of_eq (held_sub_split (T d) callRefs_sub (after opsPre (Vlaunch m d)))) $$ Hheld
  icases H2 with ⟨H3, Hrest⟩
  ihave H3' := (Entails.of_eq (held_callRefs (F := F) d _)) $$ H3
  icases H3' with ⟨Hx, Hs, Ho⟩
  rw [after_x, after_s, after_o]
  -- the images' two read shares
  ihave Hx2 := (Transfers.pointsTo_toks_split fullShare 2) $$ Hx
  icases Hx2 with ⟨Hxr, Hxs⟩
  rw [wp_bind]
  iapply ((K (F := F)).wp_run (D (F := F)) 𝒱 (EH := EH) (P := P m) κ d 0) $$ [Hst Hxs Hs Ho Hb Hrest Hxr]
  isplitr; · iexact Hctx
  isplitl [Hst]; · iexact Hst
  isplitl [Hxs Hs Ho]
  · rw [st0_eq]
    isplitl [Hxs]; · iexact Hxs
    isplitl [Hs]; · iexact Hs
    iexact Ho
  iintro ⟨Hst, Hdn⟩
  ihave Hdn' := (Entails.of_eq (dn0_eq m d)) $$ Hdn
  icases Hdn' with ⟨Hxs, Hs, Ho⟩
  ihave Hx := (Transfers.pointsTo_toks_join fullShare 2) $$ [Hxr Hxs]
  · isplitl [Hxr]; · iexact Hxr
    iexact Hxs
  -- the reshape after the call, over all of the TensorCore's buffers again
  rw [show (StableHlo.seq (nD := nD) (Λ := SparseCore.Sig (ΛP (F := F)) 1) (opsPost (F := F))) = (StableHlo.seq opsPost >>= fun u => Pure.pure u) from (bind_pure _).symm]
  iapply (wp_seq 𝒱 none Set.univ d (tcRefs τ sig) (fun u => Pure.pure u) opsPost Cert.Proof.HostValueWord.opsPost_sub Cert.Proof.HostValueWord.opsPost_fresh (Vcall m d)) $$ [Hb Hx Hs Ho Hrest]
  · isplitl [Hb]; · iexact Hb
    rw [held_Vcall]
    isplitl [Hx Hs Ho]
    · isplitl [Hx]; · iexact Hx
      isplitl [Hs]; · iexact Hs
      iexact Ho
    iexact Hrest
  iintro ⟨-, Hheld⟩
  ihave H2 := (Entails.of_eq (held_sub_split (T d) finRefs_sub (after opsPost (Vcall m d)))) $$ Hheld
  icases H2 with ⟨H3, -⟩
  ihave H3' := (Entails.of_eq (held_finRefs (F := F) d _)) $$ H3
  icases H3' with ⟨Ha0, Ha1, Hr⟩
  rw [fin_a0, fin_a1, fin_r]
  rw [wp_pure]; imodintro
  isplitl [Hst]; · iexact Hst
  isplitl [Ha0]; · iexact Ha0
  isplitl [Ha1]; · iexact Ha1
  iexact Hr

/-- What the claim reads off the final memory of device `d`. -/
def fq (d : Dev nD) (s' : Phys nD τ sig (Elt F)) : Prop :=
  s'.mem.mem (a0Loc d) = m (a0Loc d) ∧ s'.mem.mem (a1Loc d) = m (a1Loc d) ∧ s'.mem.mem (rLoc d) = RES m d

theorem hfin (d : Dev nD) (s' : Phys nD τ sig (Elt F)) : iprop(FIN m d ∗ SI s') ⊢ (⌜fq m d s'⌝ : sProp 𝕄) := by
  iintro ⟨⟨Ha0, Ha1, Hr⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h1, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h2, HSI, -⟩
  ihave H := (SI_pointsTo_agree (st := s') (ℓ := rLoc d) (I := Finset.univ) (q := fullShare) (f := RES m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- The run's post: on every device the arguments as launched, the result buffer at the reshaped gathered rows. -/
def QC : PUnit × MemSt nD τ sig (Elt F) → Prop := fun r =>
  ∀ c : Dev nD, r.2.mem (a0Loc c) = m (a0Loc c) ∧ r.2.mem (a1Loc c) = m (a1Loc c) ∧ r.2.mem (rLoc c) = RES m c

/-- From the vector subcores' task (`htile`): every weakly
    fair execution of the whole family of threads ends, the arguments as launched and the result at `RES`. -/
theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => vecSplit m)
    m ρ main (fun _ => iprop(emp)) (FIN m) (u₀ (F := F)) (sep_elim_left.trans (hu₀ m)) (hmain m ρ) (fq m) (hfin m) (QC m) (fun _ h => h)

end Cert.Proof.RunWord

end
-- ==== Proof.PreDecode.lean ====
/-
  The precondition, read back.  The printed predicate ends in a conjunction of two `all`-reductions:
  every float finite, and every table word `p j` satisfying `0 ≤ p j ≤ 191` as a signed word.  The
  second conjunct says that every word, read as a natural number, is below 192.
-/
import proofs.«214331_g712964571761_cont_9to1_m_186_24_alg».proof.Pre_input_domain
import proofs.«214331_g712964571761_cont_9to1_m_186_24_alg».proof.Proof.Gen.Pre_input_domain
import Idealize.ShloMosaic.Lib.ReduceAll
import Idealize.ShloMosaic.Lib.ValueIdx

namespace Cert.Proof.PreDecode

open Idealize.ShloMosaic

/-- The rank-0 shape has one index. -/
instance subsingleton_S_ : Subsingleton Cert.Pre_input_domain.S_.Idx := ⟨fun a b => funext fun d => d.elim0⟩

/-- A word that tests `0 ≤ v` and `v ≤ 191`, both signed, is below 192 read unsigned. -/
theorem word_lt (v : BitVec 32)
    (e : IntOp.andi (IntOp.cmpi .sge v 0#32) (IntOp.cmpi .sle v 191#32) = 1#1) : v.toNat < 192 := by
  rw [IntOp.andi_eq_one, IntOp.cmpi_sge, IntOp.cmpi_sle] at e
  obtain ⟨h0, h1⟩ := e
  have z : (0#32 : BitVec 32).toInt = 0 := by decide
  have t : (191#32 : BitVec 32).toInt = 191 := by decide
  rw [z] at h0
  rw [t] at h1
  rw [BitVec.toInt_eq_toNat_cond] at h0 h1
  split at h0 <;> omega

/-- The precondition all ones: every table word is a channel number. -/
theorem perm_lt {F : FTy → Type} [FloatOps F] (x : FVec F Cert.Pre_input_domain.S8x192x224x224 .f32)
    (p : IVec Cert.Pre_input_domain.S192 32)
    (h : Cert.Pre_input_domain.fn x p = (fun _ => 1#1)) (j : Cert.Pre_input_domain.S192.Idx) :
    (p j).toNat < 192 := by
  have e := congrFun h ValueIdx.ix0
  dsimp only [Cert.Pre_input_domain.fn] at e
  have e2 := (IntOp.andi_eq_one.1 e).2
  have e3 := Host.reduce_andi_all _ _ _ _ _ e2 j
  exact word_lt _ e3

end Cert.Proof.PreDecode
-- ==== Proof.RefRun.lean ====
/-
  The reference program's run.  Its @main calls one outlined function, which calls another; with both
  unfolded at their calls the program is a straight line of twenty-three host operations.  Every weakly
  fair execution of it terminates with the result buffer at the operations' composed term of the two
  arguments, the arguments unchanged.  Under the precondition — every table word a channel number —
  that term is the channel axis re-read through the table:
      out[b, c, h, w] = x[b, perm[c], h, w].
  The negative-index wrap (`where (perm < 0) (perm + 192) perm`) keeps the word, the range mask is all
  ones, the gather's clamp of the start index into `[0, 191]` is the identity, and the final select
  never takes its constant branch.
-/
import proofs.«214331_g712964571761_cont_9to1_m_186_24_alg».proof.Defs
import proofs.«214331_g712964571761_cont_9to1_m_186_24_alg».proof.Proof.Gen.ReferenceIdeal
import proofs.«214331_g712964571761_cont_9to1_m_186_24_alg».proof.Proof.Gen.Pre_input_domain
import proofs.«214331_g712964571761_cont_9to1_m_186_24_alg».proof.Proof.Spec
import proofs.«214331_g712964571761_cont_9to1_m_186_24_alg».proof.Proof.PreDecode
import Idealize.ShloMosaic.Lib.StableHlo.Run
import Idealize.ShloMosaic.Lib.ValueIdx
import Idealize.ShloMosaic.Lib.ReduceAll
import Idealize.ShloMosaic.Lib.Pipeline.Value

noncomputable section

namespace Cert.Proof.RefRun

open Cert.ReferenceIdeal Cert.ReferenceIdeal.Facts₀ Idealize.ShloMosaic Idealize.ShloMosaic.TcCoe Idealize.SL.Sem
open Idealize.ShloMosaic.StableHlo Idealize.ShloMosaic.ValueIdx

variable {F : FTy → Type} [FloatOps F]

/-! ## The program as a list of operations -/

/-- @main's twenty-three operations, in order: the outlined functions' operations listed at their calls,
    over the calls' buffer records. -/
abbrev ops : List (HloOp τ sig (Elt F)) :=
  [ TRef.nullary main_call0.c (constantI S_ 32 0#32),
    TRef.unary main_call0.c main_call0.v0 (broadcastInDim S192 ![] bcast_S_S192),
    TRef.binary (.of main_arg1) main_call0.v0 main_call0.v1 (cmpi .slt),
    TRef.nullary main_call0.c_0 (constantI S_ 32 192#32),
    TRef.unary main_call0.c_0 main_call0.v2 (broadcastInDim S192 ![] bcast_S_S192),
    TRef.binary (.of main_arg1) main_call0.v2 main_call0.v3 addi,
    TRef.ternary main_call0.v1 main_call0.v3 (.of main_arg1) main_call0.call0.v0 select,
    TRef.unary main_call0.call0.v0 main_call0.v5 (broadcastInDim S192x1 ![0] bcast_S192_S192x1_0),
    TRef.nullary main_call0.c_1 (constantI S1 32 191#32),
    TRef.nullary main_call0.c_2 (constantI S_ 32 0#32),
    TRef.unary main_call0.c_2 main_call0.v6 (broadcastInDim S192x1 ![] bcast_S_S192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S192x1 ![0, 1] bcast_S1x1_S192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S192x1_S192_d1 h_S_),
    TRef.binary (.of main_arg0) main_call0.v5 main_call0.v13 (fun x i => Host.gather gather_S8x192x224x224_S192x1_S8x192x224x224_023_1_n_n_1_1_81224224 x i),
    TRef.unary main_call0.v12 main_call0.v14 (broadcastInDim S8x192x224x224 ![1] bcast_S192_S8x192x224x224_1),
    TRef.nullary main_call0.cst (constant S_ .f32 0x7FC00000#32),
    TRef.unary main_call0.cst main_call0.v15 (broadcastInDim S8x192x224x224 ![] bcast_S_S8x192x224x224),
    TRef.ternary main_call0.v14 main_call0.v13 main_call0.v15 main_call0.v16 select ]

set_option maxRecDepth 1024 in
/-- @main is that straight line: the functions' definitions unfolded at their calls, and sequencing
    re-associated. -/
theorem main_eq (c : Dev nD) : main (F := F) c = seq ops := by
  simp only [main, fn_take.body, fn_where.body, seq, bind_assoc, pure_bind]

/-! ## The composed term -/

/-- The table after the negative-index wrap: `where (p < 0) (p + 192) p`. -/
def wrapped (p : IVec S192 32) : IVec S192 32 :=
  select (cmpi .slt p (broadcastInDim S192 ![] bcast_S_S192 (constantI S_ 32 0#32)))
    (addi p (broadcastInDim S192 ![] bcast_S_S192 (constantI S_ 32 192#32))) p

/-- The start indices: the wrapped table as a column. -/
def starts (p : IVec S192 32) : IVec S192x1 32 :=
  broadcastInDim S192x1 ![0] bcast_S192_S192x1_0 (wrapped p)

/-- The range mask per channel: `0 ≤ start ≤ 191`, reduced by `and` over the column's one entry. -/
def mask (p : IVec S192 32) : IVec S192 1 :=
  Host.reduce IntOp.andi
    (andi (cmpi .sge (starts p) (broadcastInDim S192x1 ![] bcast_S_S192x1 (constantI S_ 32 0#32)))
      (cmpi .sle (starts p) (broadcastInDim S192x1 ![0, 1] bcast_S1x1_S192x1_0_1
        (broadcastInDim S1x1 ![1] bcast_S1_S1x1_1 (constantI S1 32 191#32)))))
    (constantI S_ 1 1#1) reducesTo_S192x1_S192_d1 h_S_

/-- What the reference computes of its two arguments. -/
def out (x : FVec F S8x192x224x224 .f32) (p : IVec S192 32) : FVec F S8x192x224x224 .f32 :=
  select (broadcastInDim S8x192x224x224 ![1] bcast_S192_S8x192x224x224_1 (mask p))
    (Host.gather gather_S8x192x224x224_S192x1_S8x192x224x224_023_1_n_n_1_1_81224224 x (starts p))
    (broadcastInDim S8x192x224x224 ![] bcast_S_S8x192x224x224 (constant S_ .f32 0x7FC00000#32))

attribute [local irreducible] Host.reduce Host.gather in
set_option maxRecDepth 8192 in
/-- The fold at the result buffer is `out` of the arguments' contents: each operation's result at its own
    buffer is its function's value, at any other buffer what was there. -/
theorem out_eq (V : Valuation τ sig (Elt F)) :
    after ops V (main_v0 : DevRef τ sig) = out (V (main_arg0 : DevRef τ sig)) (V (main_arg1 : DevRef τ sig)) := by
  after_results
  simp only [TRef.ofBuf, TRef.toBuf, cast_eq]
  rfl

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters every weakly fair execution of @main terminates, each buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The composed term under the precondition -/

/-- A channel number is not negative read signed: the negative-index wrap keeps it. -/
theorem wrap_word (w : BitVec 32) (h : w.toNat < 192) :
    Scalar.select (IntOp.cmpi .slt w 0#32) (IntOp.addi w 192#32) w = w := by
  have hn : ¬ IntOp.cmpi .slt w 0#32 = 1#1 := by
    rw [IntOp.cmpi_slt, show (0#32 : BitVec 32).toInt = 0 from by decide, BitVec.toInt_eq_toNat_cond]
    split <;> omega
  rw [eq_zero_of_ne_one hn, select_zero]

/-- A channel number passes the range test `0 ≤ w ≤ 191`. -/
theorem range_word (w : BitVec 32) (h : w.toNat < 192) :
    IntOp.andi (IntOp.cmpi .sge w 0#32) (IntOp.cmpi .sle w 191#32) = 1#1 := by
  rw [IntOp.andi_eq_one, IntOp.cmpi_sge, IntOp.cmpi_sle, show (0#32 : BitVec 32).toInt = 0 from by decide,
    show (191#32 : BitVec 32).toInt = 191 from by decide, BitVec.toInt_eq_toNat_cond]
  split <;> omega

/-- The gather's clamp of a channel number into `[0, 191]` is the identity. -/
theorem clamp_word (w : BitVec 32) (h : w.toNat < 192) : min w.toInt.toNat (192 - 1) = w.toNat := by
  rw [BitVec.toInt_eq_toNat_cond]
  split <;> omega

/-- A left fold by `and` from 1 over words that are all 1 is 1. -/
theorem foldl_andi_ones {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a List.mem_cons_self, show IntOp.andi 1#1 1#1 = 1#1 from by decide]
    exact ih fun n hn => h n (List.mem_cons_of_mem _ hn)

section Pre

variable (p : IVec S192 32) (hp : ∀ j, (p j).toNat < 192)
include hp

/-- The wrap leaves the table as it is. -/
theorem wrapped_eq : wrapped p = p := by
  funext j
  exact wrap_word (p j) (hp j)

/-- The start index of channel `c` is the table's word for it. -/
theorem starts_apply (j : S192x1.Idx) : starts p j = p (ix1 (j 0)) := by
  unfold starts
  rw [wrapped_eq p hp]
  exact broadcastInDim_apply _ _ _ j (ix1 (j 0)) (fun a => match a with | ⟨0, _⟩ => rfl)

/-- The range mask is all ones. -/
theorem mask_apply (c : S192.Idx) : mask p c = 1#1 := by
  unfold mask
  rw [Host.reduce_eq_foldl]
  refine foldl_andi_ones _ _ fun i _ => ?_
  show IntOp.andi (IntOp.cmpi .sge (starts p i) 0#32) (IntOp.cmpi .sle (starts p i) 191#32) = 1#1
  rw [starts_apply p hp]
  exact range_word _ (hp _)

end Pre

/-- The gather's dimension numbers: offset axes 0, 2, 3 of the result, the operand's channel axis collapsed
    and addressed by the start index, slices of one channel. -/
abbrev gd : GatherDims S8x192x224x224 S192x1 S8x192x224x224 :=
  gather_S8x192x224x224_S192x1_S8x192x224x224_023_1_n_n_1_1_81224224

section Pre

variable (p : IVec S192 32) (hp : ∀ j, (p j).toNat < 192)
include hp

/-- The operand index the gather reads for result index `i`: `i`'s own coordinates on the batch, row and
    column axes (the offset axes), and on the channel axis the start index — the table's word for `i`'s
    channel, which the clamp leaves alone. -/
theorem operandIdx_eq (i : S8x192x224x224.Idx) :
    gd.operandIdx i (starts p) = ix4 (i 0 : Fin 8) (Spec.chan (p (ix1 (i 1 : Fin 192)))) (i 2 : Fin 224) (i 3 : Fin 224) := by
  funext a
  refine Fin.ext ?_
  show gd.start i (starts p) a + gd.batchCoord i a + gd.offCoord i a = _
  match a with
  | ⟨0, _⟩ =>
    have h1 : gd.start i (starts p) ⟨0, by decide⟩ = 0 := rfl
    have h2 : gd.batchCoord i ⟨0, by decide⟩ = 0 := rfl
    have h3 : gd.offCoord i ⟨0, by decide⟩ = (i 0).val := rfl
    rw [h1, h2, h3]; exact Nat.zero_add _
  | ⟨1, _⟩ =>
    have h1 : gd.start i (starts p) ⟨1, by decide⟩ = min (starts p (gd.siIdx i ⟨0, by decide⟩)).toInt.toNat (192 - 1) := rfl
    have h2 : gd.batchCoord i ⟨1, by decide⟩ = 0 := rfl
    have h3 : gd.offCoord i ⟨1, by decide⟩ = 0 := rfl
    have h4 : gd.siIdx i ⟨0, by decide⟩ 0 = (i 1 : Fin 192) := rfl
    rw [h1, h2, h3, starts_apply p hp, h4, clamp_word _ (hp _)]
    exact (Spec.chan_val_of_lt (hp _)).symm
  | ⟨2, _⟩ =>
    have h1 : gd.start i (starts p) ⟨2, by decide⟩ = 0 := rfl
    have h2 : gd.batchCoord i ⟨2, by decide⟩ = 0 := rfl
    have h3 : gd.offCoord i ⟨2, by decide⟩ = (i 2).val := rfl
    rw [h1, h2, h3]; exact Nat.zero_add _
  | ⟨3, _⟩ =>
    have h1 : gd.start i (starts p) ⟨3, by decide⟩ = 0 := rfl
    have h2 : gd.batchCoord i ⟨3, by decide⟩ = 0 := rfl
    have h3 : gd.offCoord i ⟨3, by decide⟩ = (i 3).val := rfl
    rw [h1, h2, h3]; exact Nat.zero_add _

/-- Under the precondition the reference's term is the channel axis re-read through the table. -/
theorem out_eq_permuted (x : FVec F S8x192x224x224 .f32) : out x p = Spec.permuted x p := by
  funext i
  show Scalar.select (broadcastInDim S8x192x224x224 ![1] bcast_S192_S8x192x224x224_1 (mask p) i)
      (Host.gather gd x (starts p) i) _ = _
  rw [broadcastInDim_apply ![1] bcast_S192_S8x192x224x224_1 (mask p) i (ix1 (i 1)) (fun a => match a with | ⟨0, _⟩ => rfl),
    mask_apply p hp, select_one]
  show x (gd.operandIdx i (starts p)) = _
  rw [operandIdx_eq p hp]
  rfl

end Pre

/-! ## The run -/

/-- The precondition read at the reference's table: every word a channel number. -/
theorem perm_lt (m : (ℓ : Loc nD τ sig) → Buf (Elt Ideal) ℓ) (hpre : Cert.Pre_ReferenceIdeal m) (c : Dev nD)
    (j : Spec.SP.Idx) : (m ((c.tc : Thread nD τ).loc main_arg1) j).toNat < 192 :=
  Cert.Proof.PreDecode.perm_lt _ _ (hpre c) j

/-- From any memory satisfying the precondition, with zero counters: every weakly fair execution of the
    reference terminates, its result the channel axis of the first argument re-read through the second,
    the arguments unchanged. -/
theorem run (m : (ℓ : Loc Cert.ReferenceIdeal.nD Cert.ReferenceIdeal.τ Cert.ReferenceIdeal.sig) → Buf (Elt Ideal) ℓ) (g : Dev Cert.ReferenceIdeal.nD → PrngReg)
    (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v0)
            = Cert.Proof.Spec.permuted (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run defs _ _).mono
    (fun _ h c =>
      ⟨(h c main_v0).trans ((out_eq _).trans (out_eq_permuted _ (perm_lt m hpre c) _)),
        (h c main_arg0).trans (arg0_eq _),
        (h c main_arg1).trans (arg1_eq _)⟩)
    (run_main (F := Ideal) m g)

end Cert.Proof.RefRun

end
-- ==== Proof.Claims.lean ====
/-
  The certificate's claims from the two runs.  Each program's run — the kernel's at both instances from the
  vector subcores' task, the reference's — gives its frame; at the ideal instance both results are the channel
  axis of the first argument re-read through the second, which is the algebraic claim.
-/
import proofs.«214331_g712964571761_cont_9to1_m_186_24_alg».proof.Defs
import proofs.«214331_g712964571761_cont_9to1_m_186_24_alg».proof.Proof.LaunchIdeal
import proofs.«214331_g712964571761_cont_9to1_m_186_24_alg».proof.Proof.LaunchWord
import proofs.«214331_g712964571761_cont_9to1_m_186_24_alg».proof.Proof.RefRun
import proofs.«214331_g712964571761_cont_9to1_m_186_24_alg».proof.Proof.PreDecode

noncomputable section

namespace Cert.Proof.Claims

open Idealize.ShloMosaic Idealize.SL.Sem

/-! ## The kernel at the ideal instance -/

/-- The precondition gives what the run asks of the launch memory: every word of the row table names a row. -/
theorem okI (m : (ℓ : Loc Cert.KernelIdeal.nD Cert.KernelIdeal.τ Cert.KernelIdeal.sig) → Buf (Elt Ideal) ℓ)
    (h : Cert.Pre_KernelIdeal m) : Cert.Proof.RunIdeal.PreOK (F := Ideal) m :=
  fun d j => Cert.Proof.HostValueIdeal.srcOf_lt _ (fun i => Cert.Proof.PreDecode.perm_lt _ _ (h d) i) j

/-- Under the precondition what @main returns is the channel axis of the first argument re-read through the second. -/
theorem resI (m : (ℓ : Loc Cert.KernelIdeal.nD Cert.KernelIdeal.τ Cert.KernelIdeal.sig) → Buf (Elt Ideal) ℓ)
    (h : Cert.Pre_KernelIdeal m) (c : Dev Cert.KernelIdeal.nD) :
    Cert.Proof.RunIdeal.RES m c
      = Cert.Proof.Spec.permuted (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) :=
  Cert.Proof.HostValueIdeal.bridge _ _ (fun i => Cert.Proof.PreDecode.perm_lt _ _ (h c) i)

theorem frame_KernelIdeal_of
    (ht : ∀ m, Cert.Proof.RunIdeal.PreOK (F := Ideal) m →
      (Cert.Proof.RunIdeal.K (F := Ideal)).TileObl (Cert.Proof.RunIdeal.D (F := Ideal)) Cert.Proof.RunIdeal.𝒱 (Cert.Proof.RunIdeal.P m) Cert.Proof.RunIdeal.v₀ 0) :
    Cert.frame_KernelIdeal :=
  fun m g hpre => (θ_run Cert.KernelIdeal.defs _ _).mono (fun _ h c => ⟨(h c).1, (h c).2.1⟩)
    (Cert.Proof.RunIdeal.run_main (F := Ideal) m g (ht m (okI m hpre)))

/-! ## The reference -/

theorem frame_ReferenceIdeal : Cert.frame_ReferenceIdeal :=
  fun m g hpre => (θ_run Cert.ReferenceIdeal.defs _ _).mono (fun _ h c => ⟨(h c).2.1, (h c).2.2⟩) (Cert.Proof.RefRun.run m g hpre)

theorem preserves : Cert.preserves_Kernel_KernelIdeal := trivial

/-! ## The two results, equal -/

theorem algebraic_of
    (ht : ∀ m, Cert.Proof.RunIdeal.PreOK (F := Ideal) m →
      (Cert.Proof.RunIdeal.K (F := Ideal)).TileObl (Cert.Proof.RunIdeal.D (F := Ideal)) Cert.Proof.RunIdeal.𝒱 (Cert.Proof.RunIdeal.P m) Cert.Proof.RunIdeal.v₀ 0) :
    Cert.algebraic_KernelIdeal_ReferenceIdeal := by
  intro m g m' g' hpre hagree
  have hpre' : Cert.Pre_ReferenceIdeal m' := fun c => by rw [(hagree c).1, (hagree c).2]; exact hpre c
  refine ⟨fun c => Cert.Proof.Spec.permuted (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).2.2.trans (resI m hpre c), (h c).1, (h c).2.1⟩)
      (Cert.Proof.RunIdeal.run_main (F := Ideal) m g (ht m (okI m hpre)))
  · refine (θ_run Cert.ReferenceIdeal.defs _ _).mono (fun _ h c => ⟨?_, (h c).2.1, (h c).2.2⟩) (Cert.Proof.RefRun.run m' g' hpre')
    rw [(h c).1, (hagree c).1, (hagree c).2]

/-! ## The kernel as printed -/

theorem okW (m : (ℓ : Loc Cert.Kernel.nD Cert.Kernel.τ Cert.Kernel.sig) → Buf (Elt Bits) ℓ)
    (h : Cert.Pre_Kernel m) : Cert.Proof.RunWord.PreOK (F := Bits) m :=
  fun d j => Cert.Proof.HostValueWord.srcOf_lt _ (fun i => Cert.Proof.PreDecode.perm_lt _ _ (h d) i) j

theorem frame_Kernel_of
    (ht : ∀ m, Cert.Proof.RunWord.PreOK (F := Bits) m →
      (Cert.Proof.RunWord.K (F := Bits)).TileObl (Cert.Proof.RunWord.D (F := Bits)) Cert.Proof.RunWord.𝒱 (Cert.Proof.RunWord.P m) Cert.Proof.RunWord.v₀ 0) :
    Cert.frame_Kernel :=
  fun m g hpre => (θ_run Cert.Kernel.defs _ _).mono (fun _ h c => ⟨(h c).1, (h c).2.1⟩)
    (Cert.Proof.RunWord.run_main (F := Bits) m g (ht m (okW m hpre)))

/-! ## The claim -/

/-- Everything claimed, from the vector subcores' task at the two instances. -/
theorem claim_of
    (htW : ∀ m, Cert.Proof.RunWord.PreOK (F := Bits) m →
      (Cert.Proof.RunWord.K (F := Bits)).TileObl (Cert.Proof.RunWord.D (F := Bits)) Cert.Proof.RunWord.𝒱 (Cert.Proof.RunWord.P m) Cert.Proof.RunWord.v₀ 0)
    (htI : ∀ m, Cert.Proof.RunIdeal.PreOK (F := Ideal) m →
      (Cert.Proof.RunIdeal.K (F := Ideal)).TileObl (Cert.Proof.RunIdeal.D (F := Ideal)) Cert.Proof.RunIdeal.𝒱 (Cert.Proof.RunIdeal.P m) Cert.Proof.RunIdeal.v₀ 0) :
    Cert.Claim :=
  ⟨Cert.Kernel.Gen.facts, Cert.KernelIdeal.Gen.facts, Cert.ReferenceIdeal.Gen.facts, Cert.Pre_input_domain.Gen.facts,
    frame_Kernel_of htW, frame_KernelIdeal_of htI, frame_ReferenceIdeal, preserves, algebraic_of htI⟩

end Cert.Proof.Claims

end
-- ==== Proof.NamesIdeal.lean ====
/-
  The kernel's memrefs, spelt as the program spells them: the five arrays whole, a subcore's 48
  entries of the row table, its two staging slots, one row of the images and one row of the result.
-/
import proofs.«214331_g712964571761_cont_9to1_m_186_24_alg».proof.Proof.SetupIdeal

noncomputable section

namespace Cert.Proof.RunIdeal

open Cert.KernelIdeal Cert.KernelIdeal.Gen
open Idealize.ShloMosaic
open Idealize.ShloMosaic.SparseCore (S V T)
open Idealize.SL Idealize.SL.Sem

/-- The flattened images, the row table, the result; a subcore's index scratch; its SparseCore's staging memory. -/
abbrev xW : Memref sig .scVector .hbm S1536x224x224 .f32 := Memref.whole main_v0_scv
abbrev sW : Memref sig .scVector .hbm S1536 .i32 := Memref.whole main_v9_scv
abbrev oW : Memref sig .scVector .hbm S1536x224x224 .f32 := Memref.whole main_v10_scv
abbrev iW : Memref sig .scVector .vmem S48 .i32 := Memref.whole cc0_scratch0
abbrev bW : Memref sig .scVector .shared S16x2x224x224 .f32 := Memref.whole cc0_scratch1

/-- The 48 table entries of the subcore at `L`. -/
abbrev srcSl (L : grid0.Coords) : Memref sig .scVector .hbm S48 .i32 :=
  sW.slice (Rect.unit (s := S1536) (k0_off1 L) S48.size (k0_off1_inb L)) (fun _ => rfl)
/-- Its two staging slots. -/
abbrev slot0 (L : grid0.Coords) : Memref sig .scVector .shared S224x224 .f32 :=
  (bW.slice (Rect.unit (s := S16x2x224x224) (k0_off2 L) S1x1x224x224.size (k0_off2_inb L)) (fun _ => rfl)).squeeze S224x224 squeezes_S1x1x224x224_S224x224
abbrev slot1 (L : grid0.Coords) : Memref sig .scVector .shared S224x224 .f32 :=
  (bW.slice (Rect.unit (s := S16x2x224x224) (k0_off4 L) S1x1x224x224.size (k0_off4_inb L)) (fun _ => rfl)).squeeze S224x224 squeezes_S1x1x224x224_S224x224
/-- The row of a 1536-row array at offsets `off`, as one 224 × 224 image. -/
abbrev rowOf (M : Memref sig .scVector .hbm S1536x224x224 .f32) (off : Fin 3 → Nat) (h : ∀ a, off a + S1x224x224.size a ≤ S1536x224x224.size a) :
    Memref sig .scVector .hbm S224x224 .f32 :=
  (M.slice (Rect.unit (s := S1536x224x224) off S1x224x224.size h) (fun _ => rfl)).squeeze S224x224 squeezes_S1x224x224_S224x224

/-- Every word of a vector names a row. -/
def AllSmall {s : Shape} (v : s.Idx → BitVec 32) : Prop := ∀ i, (v i).toNat < 1536

end Cert.Proof.RunIdeal

end
-- ==== Proof.GeomIdeal.lean ====
/-
  What the kernel's copies read and write, as index equations.  One row of a 1536-row array, taken as
  a 224 × 224 image, sits at that row's elements: image index `(h, w)` at array index `(r, h, w)`.  A row
  of the result written from a staging slot that was last filled from row `src[r]` of the images holds
  that row of the images, which is what the row-gather function asks of row `r`.  The sixteen table words
  a subcore loads at offset `t` of its forty-eight are the table's words at its block's offset plus `t`.
-/
import proofs.«214331_g712964571761_cont_9to1_m_186_24_alg».proof.Proof.NamesIdeal

noncomputable section

namespace Cert.Proof.RunIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## One row of a 1536-row array -/

/-- An image index behind the one coordinate `0`, placed in the array at offsets `(r, 0, 0)`. -/
theorem unit_emb_cons (r : Fin 1536) (h : ∀ a, (![r.val, 0, 0] : Fin 3 → Nat) a + S1x224x224.size a ≤ S1536x224x224.size a)
    (x : S224x224.Idx) :
    (Rect.unit (s := S1536x224x224) ![r.val, 0, 0] S1x224x224.size h).emb (Fin.cons ⟨0, Nat.one_pos⟩ x : S1x224x224.Idx)
      = ix3 r (x 0 : Fin 224) (x 1 : Fin 224) := by
  funext a
  refine Fin.ext ?_
  match a with
  | ⟨0, _⟩ => show r.val + 1 * 0 = r.val; omega
  | ⟨1, _⟩ => show 0 + 1 * (x 0).val = (x 0).val; omega
  | ⟨2, _⟩ => show 0 + 1 * (x 1).val = (x 1).val; omega

/-- Where a row's image index sits in the array's buffer: at the array's index `(r, h, w)`. -/
theorem emb_rowOf (M : Memref sig .scVector .hbm S1536x224x224 .f32) (r : Fin 1536) (off : Fin 3 → Nat)
    (h : ∀ a, off a + S1x224x224.size a ≤ S1536x224x224.size a) (hoff : off = ![r.val, 0, 0]) (x : S224x224.Idx) :
    (rowOf M off h).view.emb x = M.view.emb (ix3 r (x 0 : Fin 224) (x 1 : Fin 224)) := by
  subst hoff
  show M.view.emb ((Rect.unit (s := S1536x224x224) ![r.val, 0, 0] S1x224x224.size h).emb
    (Shape.reshapeEquiv (s := S1x224x224) (s' := S224x224) (squeezes_S1x224x224_S224x224).numel_eq x)) = _
  have e : Shape.reshapeEquiv (s := S1x224x224) (s' := S224x224) (squeezes_S1x224x224_S224x224).numel_eq x
      = (Fin.cons ⟨0, Nat.one_pos⟩ x : S1x224x224.Idx) :=
    Shape.reshapeEquiv_cons_one (n := 2) (d := ![224, 224]) _ x
  rw [e, unit_emb_cons r h x]
  rfl

/-- What a row reads of the array's contents: the array's read at `(r, h, w)`. -/
theorem read_rowOf (M : Memref sig .scVector .hbm S1536x224x224 .f32) (r : Fin 1536) (off : Fin 3 → Nat)
    (h : ∀ a, off a + S1x224x224.size a ≤ S1536x224x224.size a) (hoff : off = ![r.val, 0, 0])
    (f : M.view.ty.Contents (Elt F)) (x : S224x224.Idx) :
    (rowOf M off h).view.read (Elt F) f x = M.view.read (Elt F) f (ix3 r (x 0 : Fin 224) (x 1 : Fin 224)) := by
  rw [View.read_apply, View.read_apply, emb_rowOf M r off h hoff x]

/-! ## A row of the result, written from a slot filled from a row of the images -/

/-- The buffer under a view after one whole-view write holds the payload at each of the view's elements. -/
theorem writes_whole_emb {κ : Kind} {sp : Space} {s : Shape} (v : View sig κ sp s .f32) (f : v.ty.Contents (Elt F))
    (W : s.Idx → Elt F .f32) (y : s.Idx) (he : Elt F v.ty.elt = Elt F .f32) :
    cast he (v.writes (Elt F) f [⟨Rect.whole s, W⟩] (v.emb y)) = W y := by
  have h := congrFun (View.read_writes_whole v f W) y
  rwa [View.read_apply] at h

/-- Row `r` of the result, written whole from a staging slot whose last whole write was row `src[r]` of the
    images, holds at each of its elements what the row-gather function has there. -/
theorem row_agree (X3 : (xW).view.ty.Contents (Elt F)) (SRC : S1536.Idx → BitVec 32) (fo : (oW).view.ty.Contents (Elt F))
    (r : Fin 1536) (v : BitVec 32) (offo offx : Fin 3 → Nat)
    (ho : ∀ a, offo a + S1x224x224.size a ≤ S1536x224x224.size a) (hx : ∀ a, offx a + S1x224x224.size a ≤ S1536x224x224.size a)
    (hoffo : offo = ![r.val, 0, 0]) (hoffx : offx = ![v.toNat, 0, 0]) (hv : v = SRC (ix1 r)) (hlt : v.toNat < 1536)
    {κ : Kind} {sp : Space} (sv : View sig κ sp S224x224 .f32) (fb : sv.ty.Contents (Elt F))
    (REST : List (View.Piece (Elt F) S224x224 .f32)) :
    ∀ i ∈ (rowOf oW offo ho).view.set,
      (rowOf oW offo ho).view.writes (Elt F) fo [⟨Rect.whole S224x224, ReadAs.same.apply (View.read (Elt F) sv
        (sv.writes (Elt F) fb (⟨Rect.whole S224x224, ReadAs.same.apply (View.read (Elt F) (rowOf xW offx hx).view X3)⟩ :: REST)))⟩] i
        = Cert.Proof.Spec.gathered X3 SRC i := by
  intro i hi
  obtain ⟨y, -, rfl⟩ := Finset.mem_map.mp hi
  -- the written row holds its payload: what the slot reads at `y`
  refine (writes_whole_emb (F := F) (rowOf oW offo ho).view fo _ y rfl).trans ?_
  -- the slot's last whole write is what it reads: row `src[r]` of the images at `y`
  have h2 := View.read_writes_cons_emb sv fb (Rect.whole S224x224)
    (ReadAs.same.apply (View.read (Elt F) (rowOf xW offx hx).view X3)) REST y
  rw [Rect.emb_whole_apply] at h2
  refine h2.trans ?_
  refine (read_rowOf (F := F) xW ⟨v.toNat, hlt⟩ offx hx hoffx X3 y).trans ?_
  -- and the result's element under `y` is `(r, y)`
  rw [emb_rowOf oW r offo ho hoffo y]
  have hr : Cert.Proof.Spec.row (SRC (ix1 r)) = ⟨v.toNat, hlt⟩ := by
    rw [← hv]; exact Fin.ext (Cert.Proof.Spec.row_val_of_lt hlt)
  show X3 (ix3 (⟨v.toNat, hlt⟩ : Fin 1536) (y 0 : Fin 224) (y 1 : Fin 224))
    = X3 (ix3 (Cert.Proof.Spec.row (SRC (ix1 r))) (y 0 : Fin 224) (y 1 : Fin 224))
  rw [hr]

/-! ## The table words a subcore loads -/

theorem L0_lt (L : grid0.Coords) : (L 0).val < 2 := (L 0).isLt
theorem L1_lt (L : grid0.Coords) : (L 1).val < 16 := (L 1).isLt
theorem lane_lt (lane : S16.Idx) : (lane 0).val < 16 := (lane 0).isLt

/-- Where entry `j` of a subcore's forty-eight sits in the table: at the block's offset plus `j`. -/
theorem emb_srcSl (L : grid0.Coords) (j : S48.Idx) (n : Fin 1536) (hn : n.val = 96 * (L 1).val + 48 * (L 0).val + (j 0).val) :
    (srcSl L).view.emb j = ix1 n := by
  funext a
  refine Fin.ext ?_
  match a with
  | ⟨0, _⟩ =>
    show (k0_off1 L) 0 + 1 * (j 0).val = n.val
    rw [k0_off1_eq L, hn]
    show 96 * (L 1).val + 48 * (L 0).val + 1 * (j 0).val = _
    omega

/-- The sixteen words loaded at offset `t` of the subcore's index scratch, after the scratch was filled from the
    subcore's forty-eight table entries: lane `l` is the table's word at the block's offset plus `t + l`. -/
theorem load_chunk (L : grid0.Coords) (SRC : (sW).view.ty.Contents (Elt F)) (fi : (iW).view.ty.Contents (Elt F)) (off : Fin 1 → Nat)
    (hin : ∀ a, off a + S16.size a ≤ S48.size a) (t : Nat) (hoff : off = ![t]) (ht : t + 16 ≤ 48) (lane : S16.Idx) :
    View.readAt (Elt F) (iW).view (Rect.unit (s := S48) off S16.size hin).toLoadRect
        (View.write (Elt F) (iW).view fi (ReadAs.same.apply (View.read (Elt F) (srcSl L).view SRC)) Finset.univ) lane
      = SRC (ix1 (⟨96 * (L 1).val + 48 * (L 0).val + t + (lane 0).val,
          by have := L0_lt L; have := L1_lt L; have := lane_lt lane; omega⟩ : Fin 1536)) := by
  subst hoff
  rw [View.readAt_apply, View.read_write_of_mem _ _ (Finset.mem_univ _)]
  show (srcSl L).view.read (Elt F) SRC ((Rect.unit (s := S48) ![t] S16.size hin).toLoadRect.idx lane) = _
  rw [View.read_apply, emb_srcSl L _ ⟨96 * (L 1).val + 48 * (L 0).val + t + (lane 0).val,
    by have := L0_lt L; have := L1_lt L; have := lane_lt lane; omega⟩
    (by show 96 * (L 1).val + 48 * (L 0).val + t + (lane 0).val = 96 * (L 1).val + 48 * (L 0).val + (t + 1 * (lane 0).val); omega)]
  rfl

/-- Every word loaded from the index scratch, at whatever coordinates, is a word of the table: a row number
    when every table word is. -/
theorem allSmall_load (L : grid0.Coords) (SRC : (sW).view.ty.Contents (Elt F)) (hsrc : ∀ j, (SRC j).toNat < 1536)
    (fi : (iW).view.ty.Contents (Elt F)) (R : LoadRect S48) :
    AllSmall (View.readAt (Elt F) (iW).view R
      (View.write (Elt F) (iW).view fi (ReadAs.same.apply (View.read (Elt F) (srcSl L).view SRC)) Finset.univ)) := by
  intro i
  rw [View.readAt_apply, View.read_write_of_mem _ _ (Finset.mem_univ _)]
  show ((srcSl L).view.read (Elt F) SRC (R.idx i)).toNat < 1536
  rw [View.read_apply]
  exact hsrc _

end Cert.Proof.RunIdeal

end
-- ==== Proof.PrepIdeal.lean ====
/-
  What the launch hands a vector subcore, spelt as the kernel spells it.  The subcore at grid coordinates
  `L` is subcore `L 1` of SparseCore `L 0`, and works on block `2 (L 1) + L 0` of the row table and of the
  result.  Its own semaphores are the nineteen DMA semaphores, its own buffer the index scratch; the
  forty-eight table entries the kernel slices out are the launch's block, and the two staging slots it
  squeezes out of the shared memory are the launch's slots of subcore `L 1`.
-/
import proofs.«214331_g712964571761_cont_9to1_m_186_24_alg».proof.Proof.GeomIdeal
import proofs.«214331_g712964571761_cont_9to1_m_186_24_alg».proof.Proof.SplitIdeal

noncomputable section

namespace Cert.Proof.RunIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-- The SparseCore and the subcore at grid coordinates `L`, as the launch numbers them. -/
abbrev cL (L : grid0.Coords) : Fin 2 := Fin.cast (rfl : grid0.bound 0 = 2) (L 0)
abbrev iL (L : grid0.Coords) : Fin 16 := Fin.cast (rfl : grid0.bound 1 = 16) (L 1)

/-! ## The subcore's own semaphores -/

theorem reg_not_scoped : ∀ s : Sem sig, ¬ (SemLoc.reg s : SemLoc sig).isScoped .scVector = true := by decide
theorem dma_scoped : ∀ k : DmaSem sig, (SemLoc.dma k : SemLoc sig).isScoped .scVector = true := by decide

/-- A vector subcore's own scoped cells are its nineteen DMA semaphores: every DMA semaphore of a SparseCore
    processor is scoped, no regular semaphore is. -/
theorem ownCells_V (d : Dev nD) (c : Fin τ.nSC) (i : Fin τ.nSub) :
    ownCells (V d c i) = (Finset.univ : Finset (Fin 19)).image (fun k => ((V d c i, SemLoc.dma k) : GSem nD τ sig)) := by
  ext g
  obtain ⟨thr, sl⟩ := g
  simp only [mem_ownCells, Finset.mem_image, Finset.mem_univ, true_and]
  constructor
  · rintro ⟨rfl, hs⟩
    cases sl with
    | reg s =>
      have hs' : (SemLoc.reg s : SemLoc sig).isScoped .scVector = true := hs
      exact absurd hs' (reg_not_scoped s)
    | dma k => exact ⟨k, rfl⟩
  · rintro ⟨k, hk⟩
    obtain ⟨rfl, rfl⟩ := Prod.mk.inj hk
    exact ⟨rfl, dma_scoped k⟩

/-- A family over nineteen indices, written out. -/
theorem bigSep_fin19 (Φ : Fin 19 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) := by
  rw [show (Finset.univ : Finset (Fin 19)) = {0, 1, 2, 3, 4, 5, 6, 7, 8, 9, 10, 11, 12, 13, 14, 15, 16, 17, 18} from by decide,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide),
    bigSep_singleton]
  rfl

/-- The subcore's own semaphores at zero, one by one. -/
theorem ownSems0_all (d : Dev nD) (L : grid0.Coords) :
    (ownSems0 (V d (cV L) (jV L)) : sProp 𝕄)
      = iprop(semVal (V d (cV L) (jV L), SemLoc.dma cc0_scratch2.sem) 0
          ∗ semVal (V d (cV L) (jV L), SemLoc.dma cc0_scratch3.sem) 0
          ∗ semVal (V d (cV L) (jV L), SemLoc.dma cc0_scoped0.sem) 0
          ∗ semVal (V d (cV L) (jV L), SemLoc.dma cc0_scoped1.sem) 0
          ∗ semVal (V d (cV L) (jV L), SemLoc.dma cc0_scoped2.sem) 0
          ∗ semVal (V d (cV L) (jV L), SemLoc.dma cc0_scoped3.sem) 0
          ∗ semVal (V d (cV L) (jV L), SemLoc.dma cc0_scoped4.sem) 0
          ∗ semVal (V d (cV L) (jV L), SemLoc.dma cc0_scoped5.sem) 0
          ∗ semVal (V d (cV L) (jV L), SemLoc.dma cc0_scoped6.sem) 0
          ∗ semVal (V d (cV L) (jV L), SemLoc.dma cc0_scoped7.sem) 0
          ∗ semVal (V d (cV L) (jV L), SemLoc.dma cc0_scoped8.sem) 0
          ∗ semVal (V d (cV L) (jV L), SemLoc.dma cc0_scoped9.sem) 0
          ∗ semVal (V d (cV L) (jV L), SemLoc.dma cc0_scoped10.sem) 0
          ∗ semVal (V d (cV L) (jV L), SemLoc.dma cc0_scoped11.sem) 0
          ∗ semVal (V d (cV L) (jV L), SemLoc.dma cc0_scoped12.sem) 0
          ∗ semVal (V d (cV L) (jV L), SemLoc.dma cc0_scoped13.sem) 0
          ∗ semVal (V d (cV L) (jV L), SemLoc.dma cc0_scoped14.sem) 0
          ∗ semVal (V d (cV L) (jV L), SemLoc.dma cc0_scoped15.sem) 0
          ∗ semVal (V d (cV L) (jV L), SemLoc.dma cc0_scoped16.sem) 0) := by
  unfold SparseCore.Cfg.ownSems0
  rw [ownCells_V, SparseCore.bigSep_image_of_injOn (fun a _ b _ e => SemLoc.dma.inj (Prod.mk.inj e).2), bigSep_fin19]
  rfl

/-! ## The subcore's own buffer -/

/-- A vector subcore's own buffers: its index scratch, and nothing else. -/
theorem ownRefs_V : ∀ (c : Fin τ.nSC) (i : Fin τ.nSub),
    ownRefs (τ := τ) (sig := sig) (Proc.scVector c i) = {(Proc.scVector c i).devRef cc0_scratch0} := by decide

/-- The subcore's own buffers are its index scratch whole, at some contents. -/
theorem ownBufs_V (d : Dev nD) (L : grid0.Coords) :
    (ownBufs (V d (cV L) (jV L)) : sProp 𝕄) = iprop(∃ f, (iW).view.loc (V d (cV L) (jV L)) ↦{fullShare} f) := by
  unfold SparseCore.Cfg.ownBufs
  rw [ownRefs_V, bigSep_singleton]

theorem ownBufs_V_elim (d : Dev nD) (L : grid0.Coords) :
    (ownBufs (V d (cV L) (jV L)) : sProp 𝕄) ⊢ iprop(∃ f, (iW).view.loc (V d (cV L) (jV L)) ↦{fullShare} f) :=
  Entails.of_eq (ownBufs_V d L)
theorem ownBufs_V_intro (d : Dev nD) (L : grid0.Coords) :
    (iprop(∃ f, (iW).view.loc (V d (cV L) (jV L)) ↦{fullShare} f) : sProp 𝕄) ⊢ ownBufs (V d (cV L) (jV L)) :=
  Entails.of_eq (ownBufs_V d L).symm

/-! ## The kernel's memrefs against the launch's blocks -/

/-- The forty-eight table entries the kernel slices out at its offsets are block `2 (L 1) + L 0`. -/
theorem srcRect_eq (L : grid0.Coords) :
    Rect.unit (s := S1536) (k0_off1 L) S48.size (k0_off1_inb L) = sPart (wid (cL L) (iL L)) := by
  have key : ∀ (off off' size size' : Fin 1 → Nat) (p : ∀ a, off a + size a ≤ S1536.size a) (p' : ∀ a, off' a + size' a ≤ S1536.size a),
      off = off' → size = size' → Rect.unit (s := S1536) off size p = Rect.unit off' size' p' := by
    intro off off' size size' p p' h1 h2
    subst h1; subst h2; rfl
  refine key _ _ _ _ _ _ ?_ ?_
  · rw [k0_off1_eq]
    funext a
    match a with
    | ⟨0, _⟩ =>
      show 96 * (L 1).val + 48 * (L 0).val = (2 * (L 1).val + (L 0).val) * 48
      omega
  · funext a
    match a with
    | ⟨0, _⟩ => rfl

theorem set_srcSl (L : grid0.Coords) : (srcSl L).view.set = sSet (wid (cL L) (iL L)) := by
  show ((sW : Memref sig .scVector .hbm S1536 .i32).view.slice (Rect.unit (s := S1536) (k0_off1 L) S48.size (k0_off1_inb L))).set
    = ((Memref.whole main_v9_scv : Memref sig .scVector .hbm S1536 .i32).view.slice (sPart (wid (cL L) (iL L)))).set
  rw [srcRect_eq]

/-- The kernel's forty-eight table entries are the launch's block of the table. -/
theorem pts_srcSl (d : Dev nD) (L : grid0.Coords) (f : Buf (Elt F) (sLoc d)) :
    ((srcSl L).view.loc (V d (cV L) (jV L)) ↦[(srcSl L).view.set]{fullShare} f : sProp 𝕄)
      = sLoc d ↦[sSet (wid (cL L) (iL L))]{fullShare} f := by
  rw [set_srcSl]

theorem set_slot0 (L : grid0.Coords) : (slot0 L).view.set = bSet (iL L) 0 := by
  show (((bW : Memref sig .scVector .shared S16x2x224x224 .f32).view.slice
      (Rect.unit (s := S16x2x224x224) (k0_off2 L) S1x1x224x224.size (k0_off2_inb L))).reshape S224x224 squeezes_S1x1x224x224_S224x224.numel_eq).set
    = ((Memref.whole cc0_scratch1 : Memref sig .scVector .shared S16x2x224x224 .f32).view.slice (bRect (iL L) 0)).set
  rw [View.set_reshape]
  exact @congrArg (Rect S16x2x224x224) (Finset (bW : Memref sig .scVector .shared S16x2x224x224 .f32).view.ty.Idx) _ _
    (fun r => ((bW : Memref sig .scVector .shared S16x2x224x224 .f32).view.slice r).set)
    (Rect.unit_congr (k0_off2_eq L) (k0_off2_inb L) (bRect_inb (iL L) 0))

theorem set_slot1 (L : grid0.Coords) : (slot1 L).view.set = bSet (iL L) 1 := by
  show (((bW : Memref sig .scVector .shared S16x2x224x224 .f32).view.slice
      (Rect.unit (s := S16x2x224x224) (k0_off4 L) S1x1x224x224.size (k0_off4_inb L))).reshape S224x224 squeezes_S1x1x224x224_S224x224.numel_eq).set
    = ((Memref.whole cc0_scratch1 : Memref sig .scVector .shared S16x2x224x224 .f32).view.slice (bRect (iL L) 1)).set
  rw [View.set_reshape]
  exact @congrArg (Rect S16x2x224x224) (Finset (bW : Memref sig .scVector .shared S16x2x224x224 .f32).view.ty.Idx) _ _
    (fun r => ((bW : Memref sig .scVector .shared S16x2x224x224 .f32).view.slice r).set)
    (Rect.unit_congr (k0_off4_eq L) (k0_off4_inb L) (bRect_inb (iL L) 1))

/-- The kernel's two staging slots are the launch's slots of subcore `L 1`. -/
theorem pts_slot0 (d : Dev nD) (L : grid0.Coords) (f : Buf (Elt F) (shLoc d (cV L))) :
    ((slot0 L).view.loc (V d (cV L) (jV L)) ↦[(slot0 L).view.set]{fullShare} f : sProp 𝕄)
      = shLoc d (cV L) ↦[bSet (iL L) 0]{fullShare} f := by
  rw [set_slot0]
  rfl
theorem pts_slot1 (d : Dev nD) (L : grid0.Coords) (f : Buf (Elt F) (shLoc d (cV L))) :
    ((slot1 L).view.loc (V d (cV L) (jV L)) ↦[(slot1 L).view.set]{fullShare} f : sProp 𝕄)
      = shLoc d (cV L) ↦[bSet (iL L) 1]{fullShare} f := by
  rw [set_slot1]
  rfl

/-- The images and the index scratch, as the kernel names them, are the launch's. -/
theorem pts_x (d : Dev nD) (L : grid0.Coords) (q : PosShare TreeShare) (f : Buf (Elt F) (xLoc d)) :
    ((xW).view.loc (V d (cV L) (jV L)) ↦{q} f : sProp 𝕄) = xLoc d ↦{q} f := rfl
theorem pts_i (d : Dev nD) (L : grid0.Coords) (f : Buf (Elt F) ((V d (cV L) (jV L)).loc cc0_scratch0)) :
    ((iW).view.loc (V d (cV L) (jV L)) ↦{fullShare} f : sProp 𝕄) = (V d (cV L) (jV L)).loc cc0_scratch0 ↦{fullShare} f := rfl

end Cert.Proof.RunIdeal

end
-- ==== Proof.WordsIdeal.lean ====
/-
  One table word out of the sixteen a subcore loads: the kernel casts the loaded vector to its own shape,
  slices one lane out of it and extracts that lane's word.  Lane `k` of the load at offset `t` of the
  subcore's forty-eight is the table's word at the block's offset plus `t + k`.
-/
import proofs.«214331_g712964571761_cont_9to1_m_186_24_alg».proof.Proof.GeomIdeal
import Idealize.ShloMosaic.Lib.Pipeline.Value

noncomputable section

namespace Cert.Proof.RunIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-- Lane `k` of a sixteen-word vector, through the cast to its own shape, the one-lane slice at `k` and the
    extraction of that lane's word. -/
theorem word_lane (v : S16.Idx → BitVec 32) (k : Nat) (hk : k < 16) (hc : S16.ShapeCasts S16) (hs : S16.Slices ![k] S1)
    (hp : ∀ a, (![0] : Fin 1 → Nat) a < S1.size a) :
    extractAt ![0] (extractStridedSlice S1 ![k] (shapeCast S16 v hc) hs) hp = v (ix1 (⟨k, hk⟩ : Fin 16)) := by
  rw [shapeCast_self]
  unfold extractAt extractStridedSlice
  refine congrArg v (funext fun a => Fin.ext ?_)
  match a with
  | ⟨0, _⟩ => show k + 0 = k; rfl

/-- Lane `k` of the sixteen words loaded at offset `t` of the subcore's index scratch, after the scratch was
    filled from the subcore's forty-eight table entries: the table's word at the block's offset plus `t + k`. -/
theorem word_src (L : grid0.Coords) (SRC : (sW).view.ty.Contents (Elt F)) (fi : (iW).view.ty.Contents (Elt F)) (off : Fin 1 → Nat)
    (hin : ∀ a, off a + S16.size a ≤ S48.size a) (t : Nat) (hoff : off = ![t]) (ht : t + 16 ≤ 48) (k : Nat) (hk : k < 16)
    (hc : S16.ShapeCasts S16) (hs : S16.Slices ![k] S1) (hp : ∀ a, (![0] : Fin 1 → Nat) a < S1.size a) :
    extractAt ![0] (extractStridedSlice S1 ![k] (shapeCast S16
        (View.readAt (Elt F) (iW).view (Rect.unit (s := S48) off S16.size hin).toLoadRect
          (View.write (Elt F) (iW).view fi (ReadAs.same.apply (View.read (Elt F) (srcSl L).view SRC)) Finset.univ)) hc) hs) hp
      = SRC (ix1 (⟨96 * (L 1).val + 48 * (L 0).val + (t + k), by have := L0_lt L; have := L1_lt L; omega⟩ : Fin 1536)) := by
  refine (word_lane (fun i => View.readAt (Elt F) (iW).view (Rect.unit (s := S48) off S16.size hin).toLoadRect
      (View.write (Elt F) (iW).view fi (ReadAs.same.apply (View.read (Elt F) (srcSl L).view SRC)) Finset.univ) i) k hk hc hs hp).trans ?_
  refine (load_chunk L SRC fi off hin t hoff ht (ix1 ⟨k, hk⟩)).trans ?_
  exact congrArg SRC (congrArg ix1 (Fin.ext (by
    show 96 * (L 1).val + 48 * (L 0).val + t + k = 96 * (L 1).val + 48 * (L 0).val + (t + k)
    omega)))

end Cert.Proof.RunIdeal

end
-- ==== Proof.RunTac.lean ====
/-
  Two small tactics for reading what a symbolic run of the kernel's body leaves behind: the run
  gives every value it computes a name of its own; `unfold_sl` replaces those names, wherever
  they occur in the goal, by the terms they stand for.
-/
import Lean

open Lean Elab Tactic Meta

namespace Cert.Proof.RunTac

/-- Is this one of the names a run gives the values it computes (a component `sl`)? -/
def isRunName (n : Name) : Bool := n.components.contains `sl

/-- Replace every run-given name in `e` by its definition, repeatedly. -/
def unfoldRunNames (e : Expr) : MetaM Expr :=
  Meta.transform e (pre := fun e => do
    match e.getAppFn with
    | .const n _ =>
      if isRunName n then
        match ← Meta.delta? e (fun _ => true) with
        | some e' => return .visit e'.headBeta
        | none => return .continue
      else return .continue
    | _ => return .continue)

/-- `unfold_sl`: in the goal, every name the run gave a value is replaced by the value's term. -/
elab "unfold_sl" : tactic => do
  let g ← getMainGoal
  g.withContext do
    let t ← instantiateMVars (← g.getType)
    let t' ← unfoldRunNames t
    let g' ← g.replaceTargetDefEq t'
    replaceMainGoal [g']

/-- One step towards "every word of this vector names a row", read off the vector's head: a payload function of
    another vector (its lemma `allSmall_pay…`, named after it, reduces the goal to that vector), or a load of
    the index scratch (`allSmall_load`, from the fact `h` about the row table). -/
elab "small_step " h:term : tactic => withMainContext do
  let g ← getMainGoal
  let t ← instantiateMVars (← g.getType)
  let X := t.appArg!
  match X.getAppFn with
  | .const n _ =>
    let s := n.getString!
    if s.startsWith "k0_pay" then
      let id := mkIdent (Name.mkSimple ("allSmall_" ++ s.drop 3))
      evalTactic (← `(tactic| apply $id))
    else if s == "shapeCast" then
      let id := mkIdent `allSmall_cast
      evalTactic (← `(tactic| apply $id))
    else if s == "extractStridedSlice" then
      let id := mkIdent `allSmall_slice
      evalTactic (← `(tactic| apply $id))
    else if s == "readAt" then
      let idl := mkIdent `allSmall_load
      evalTactic (← `(tactic| exact $idl _ _ $h _ _))
    else throwError "small_step: unexpected head {n}"
  | _ => throwError "small_step: the vector's head is not a constant"

end Cert.Proof.RunTac
-- ==== Proof.TileIdeal.lean ====
/-
  One vector subcore's task, run symbolically from start to end: its 48 table entries fetched,
  then 48 rows of the images fetched two ahead into two staging slots and written out, each slot's
  fetch waited for before the slot is read and re-issued only after its write-out has completed.
  What each row of the result ends at is stated beside the run: the image row its table entry names.
-/
import proofs.«214331_g712964571761_cont_9to1_m_186_24_alg».proof.Proof.NamesIdeal
import proofs.«214331_g712964571761_cont_9to1_m_186_24_alg».proof.Proof.GeomIdeal
import proofs.«214331_g712964571761_cont_9to1_m_186_24_alg».proof.Proof.WordsIdeal
import proofs.«214331_g712964571761_cont_9to1_m_186_24_alg».proof.Proof.RunTac

noncomputable section

namespace Cert.Proof.RunIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.RunTac

variable {F : FTy → Type}

local notation "𝕄" => MT nD τ sig (HIx 1) (Elt F) ℕ UU ℕ

/-- The loop's three trips. -/
abbrev tr0 : Fin k0_t1_loop.trips := ⟨0, by decide⟩
abbrev tr1 : Fin k0_t1_loop.trips := ⟨1, by decide⟩
abbrev tr2 : Fin k0_t1_loop.trips := ⟨2, by decide⟩

variable [FloatOps F]

/-! ## Every table word names a row -/

theorem vec3_congr {a b : Nat} (h : a = b) : (![a, 0, 0] : Fin 3 → Nat) = ![b, 0, 0] := by rw [h]
theorem chk_of_small {v : BitVec 32} (h : v.toNat < 1536) :
    ∀ a, (![v.toNat, 0, 0] : Fin 3 → Nat) a + S1x224x224.size a ≤ S1536x224x224.size a := by
  intro a; fin_cases a <;> simp <;> omega
theorem small_extractAt {s : Shape} {pos : Fin s.rank → Nat} {v : s.Idx → BitVec 32} {h : ∀ a, pos a < s.size a} (hv : AllSmall v) :
    (extractAt pos v h).toNat < 1536 := hv _
theorem allSmall_cast {s t : Shape} {v : s.Idx → BitVec 32} {h : s.ShapeCasts t} (hv : AllSmall v) : AllSmall (shapeCast t v h) := fun _ => hv _
theorem allSmall_slice {s t : Shape} {off : Fin s.rank → Nat} {v : s.Idx → BitVec 32} {h : s.Slices off t} (hv : AllSmall v) :
    AllSmall (extractStridedSlice t off v h) := fun _ => hv _
theorem allSmall_pay1 {v : Vec F S16 .i32} (hv : AllSmall (s := S16) v) : AllSmall (s := S16) (k0_pay1 v) := fun _ => hv _
theorem allSmall_pay2 {v : Vec F S16 .i32} (hv : AllSmall (s := S16) v) : AllSmall (s := S1) (k0_pay2 v) := fun _ => hv _
theorem allSmall_pay3 {v : Vec F S16 .i32} (hv : AllSmall (s := S16) v) : AllSmall (s := S1) (k0_pay3 v) := fun _ => hv _
theorem allSmall_pay4 {v : Vec F S16 .i32} (hv : AllSmall (s := S16) v) : AllSmall (s := S16) (k0_pay4 v) := fun _ => hv _
theorem allSmall_pay5 {v : Vec F S16 .i32} (hv : AllSmall (s := S16) v) : AllSmall (s := S16) (k0_pay5 v) := fun _ => hv _
theorem allSmall_pay6 {v : Vec F S16 .i32} (hv : AllSmall (s := S16) v) : AllSmall (s := S1) (k0_pay6 v) := fun _ => hv _
theorem allSmall_pay7 {v : IVec S16 32} (hv : AllSmall (s := S16) v) : AllSmall (s := S1) (k0_pay7 v) := fun _ => hv _
theorem allSmall_pay8 {v : IVec S16 32} (hv : AllSmall (s := S16) v) : AllSmall (s := S1) (k0_pay8 v) := fun _ => hv _
theorem allSmall_pay9 {v : IVec S16 32} (hv : AllSmall (s := S16) v) : AllSmall (s := S1) (k0_pay9 v) := fun _ => hv _
theorem allSmall_pay10 {v : IVec S16 32} (hv : AllSmall (s := S16) v) : AllSmall (s := S1) (k0_pay10 v) := fun _ => hv _
theorem allSmall_pay11 {v : IVec S16 32} (hv : AllSmall (s := S16) v) : AllSmall (s := S1) (k0_pay11 v) := fun _ => hv _
theorem allSmall_pay12 {v : IVec S16 32} (hv : AllSmall (s := S16) v) : AllSmall (s := S1) (k0_pay12 v) := fun _ => hv _
theorem allSmall_pay13 {v : IVec S16 32} (hv : AllSmall (s := S16) v) : AllSmall (s := S1) (k0_pay13 v) := fun _ => hv _
theorem allSmall_pay14 {v : IVec S16 32} (hv : AllSmall (s := S16) v) : AllSmall (s := S1) (k0_pay14 v) := fun _ => hv _
theorem allSmall_pay15 {v : IVec S16 32} (hv : AllSmall (s := S16) v) : AllSmall (s := S1) (k0_pay15 v) := fun _ => hv _
theorem allSmall_pay16 {v : IVec S16 32} (hv : AllSmall (s := S16) v) : AllSmall (s := S1) (k0_pay16 v) := fun _ => hv _
theorem allSmall_pay17 {v : IVec S16 32} (hv : AllSmall (s := S16) v) : AllSmall (s := S1) (k0_pay17 v) := fun _ => hv _
theorem allSmall_pay18 {v : IVec S16 32} (hv : AllSmall (s := S16) v) : AllSmall (s := S1) (k0_pay18 v) := fun _ => hv _
theorem allSmall_pay19 {v : IVec S16 32} (hv : AllSmall (s := S16) v) : AllSmall (s := S1) (k0_pay19 v) := fun _ => hv _
theorem allSmall_pay20 {v : IVec S16 32} (hv : AllSmall (s := S16) v) : AllSmall (s := S1) (k0_pay20 v) := fun _ => hv _
theorem allSmall_pay21 {v : IVec S16 32} (hv : AllSmall (s := S16) v) : AllSmall (s := S1) (k0_pay21 v) := fun _ => hv _

/-- The words of a vector the body extracts from what it loaded of the index scratch all name rows. -/
macro "small_vec " h:term : tactic => `(tactic| (repeat (small_step $h)))
/-- A check the body makes of such a word: the row it names lies inside the images. -/
macro "chk_tac " h:term : tactic => `(tactic| (
  unfold_sl
  simp only [k0_chk1, k0_chk2, k0_chk3, k0_chk4, k0_chk5, k0_chk6, k0_chk7, k0_chk8, k0_chk9, k0_chk10, k0_chk11, k0_chk12, k0_chk13, k0_chk14, k0_chk15, k0_chk16, k0_chk17, k0_chk18]
  intros
  refine chk_of_small (small_extractAt ?_) _
  small_vec $h))

/-! ## The task, run -/

set_option maxHeartbeats 8000000 in
set_option sl_exec.unrollTrips 3 in
theorem tile_run (d : Dev nD) (L : grid0.Coords) (O : CellTallies nD τ sig (HIx 1)) (W : Waits sig (HIx 1)) (hO : ∀ g, O g none = 0)
    (q : PosShare TreeShare)
    (X3 : Buf (Elt F) ((xW).view.loc (V d (cV L) (jV L)))) (SRC : Buf (Elt F) ((sW).view.loc (V d (cV L) (jV L))))
    (hsrc : ∀ j, (SRC j).toNat < 1536)
    (fo : Buf (Elt F) ((oW).view.loc (V d (cV L) (jV L)))) (fi : Buf (Elt F) ((iW).view.loc (V d (cV L) (jV L))))
    (fb0 fb1 : Buf (Elt F) ((bW).view.loc (V d (cV L) (jV L)))) :
    iprop(levAts (K (F := F)).L (K (F := F)).lev
        ∗ ((xW).view.loc (V d (cV L) (jV L)) ↦{Transfers.shareTokN q 0} X3 : sProp 𝕄)
        ∗ ((xW).view.loc (V d (cV L) (jV L)) ↦{Transfers.shareTokN q 1} X3)
        ∗ ((srcSl L).view.loc (V d (cV L) (jV L)) ↦[(srcSl L).view.set]{fullShare} SRC)
        ∗ ((iW).view.loc (V d (cV L) (jV L)) ↦{fullShare} fi)
        ∗ ((slot0 L).view.loc (V d (cV L) (jV L)) ↦[(slot0 L).view.set]{fullShare} fb0)
        ∗ ((slot1 L).view.loc (V d (cV L) (jV L)) ↦[(slot1 L).view.set]{fullShare} fb1)
        ∗ ((rowOf oW (k0_off9 L tr0) (k0_off9_inb L tr0)).view.loc (V d (cV L) (jV L)) ↦[(rowOf oW (k0_off9 L tr0) (k0_off9_inb L tr0)).view.set]{fullShare} fo)
        ∗ ((rowOf oW (k0_off13 L tr0) (k0_off13_inb L tr0)).view.loc (V d (cV L) (jV L)) ↦[(rowOf oW (k0_off13 L tr0) (k0_off13_inb L tr0)).view.set]{fullShare} fo)
        ∗ ((rowOf oW (k0_off17 L tr0) (k0_off17_inb L tr0)).view.loc (V d (cV L) (jV L)) ↦[(rowOf oW (k0_off17 L tr0) (k0_off17_inb L tr0)).view.set]{fullShare} fo)
        ∗ ((rowOf oW (k0_off21 L tr0) (k0_off21_inb L tr0)).view.loc (V d (cV L) (jV L)) ↦[(rowOf oW (k0_off21 L tr0) (k0_off21_inb L tr0)).view.set]{fullShare} fo)
        ∗ ((rowOf oW (k0_off25 L tr0) (k0_off25_inb L tr0)).view.loc (V d (cV L) (jV L)) ↦[(rowOf oW (k0_off25 L tr0) (k0_off25_inb L tr0)).view.set]{fullShare} fo)
        ∗ ((rowOf oW (k0_off29 L tr0) (k0_off29_inb L tr0)).view.loc (V d (cV L) (jV L)) ↦[(rowOf oW (k0_off29 L tr0) (k0_off29_inb L tr0)).view.set]{fullShare} fo)
        ∗ ((rowOf oW (k0_off33 L tr0) (k0_off33_inb L tr0)).view.loc (V d (cV L) (jV L)) ↦[(rowOf oW (k0_off33 L tr0) (k0_off33_inb L tr0)).view.set]{fullShare} fo)
        ∗ ((rowOf oW (k0_off37 L tr0) (k0_off37_inb L tr0)).view.loc (V d (cV L) (jV L)) ↦[(rowOf oW (k0_off37 L tr0) (k0_off37_inb L tr0)).view.set]{fullShare} fo)
        ∗ ((rowOf oW (k0_off41 L tr0) (k0_off41_inb L tr0)).view.loc (V d (cV L) (jV L)) ↦[(rowOf oW (k0_off41 L tr0) (k0_off41_inb L tr0)).view.set]{fullShare} fo)
        ∗ ((rowOf oW (k0_off45 L tr0) (k0_off45_inb L tr0)).view.loc (V d (cV L) (jV L)) ↦[(rowOf oW (k0_off45 L tr0) (k0_off45_inb L tr0)).view.set]{fullShare} fo)
        ∗ ((rowOf oW (k0_off49 L tr0) (k0_off49_inb L tr0)).view.loc (V d (cV L) (jV L)) ↦[(rowOf oW (k0_off49 L tr0) (k0_off49_inb L tr0)).view.set]{fullShare} fo)
        ∗ ((rowOf oW (k0_off53 L tr0) (k0_off53_inb L tr0)).view.loc (V d (cV L) (jV L)) ↦[(rowOf oW (k0_off53 L tr0) (k0_off53_inb L tr0)).view.set]{fullShare} fo)
        ∗ ((rowOf oW (k0_off57 L tr0) (k0_off57_inb L tr0)).view.loc (V d (cV L) (jV L)) ↦[(rowOf oW (k0_off57 L tr0) (k0_off57_inb L tr0)).view.set]{fullShare} fo)
        ∗ ((rowOf oW (k0_off61 L tr0) (k0_off61_inb L tr0)).view.loc (V d (cV L) (jV L)) ↦[(rowOf oW (k0_off61 L tr0) (k0_off61_inb L tr0)).view.set]{fullShare} fo)
        ∗ ((rowOf oW (k0_off65 L tr0) (k0_off65_inb L tr0)).view.loc (V d (cV L) (jV L)) ↦[(rowOf oW (k0_off65 L tr0) (k0_off65_inb L tr0)).view.set]{fullShare} fo)
        ∗ ((rowOf oW (k0_off69 L tr0) (k0_off69_inb L tr0)).view.loc (V d (cV L) (jV L)) ↦[(rowOf oW (k0_off69 L tr0) (k0_off69_inb L tr0)).view.set]{fullShare} fo)
        ∗ ((rowOf oW (k0_off9 L tr1) (k0_off9_inb L tr1)).view.loc (V d (cV L) (jV L)) ↦[(rowOf oW (k0_off9 L tr1) (k0_off9_inb L tr1)).view.set]{fullShare} fo)
        ∗ ((rowOf oW (k0_off13 L tr1) (k0_off13_inb L tr1)).view.loc (V d (cV L) (jV L)) ↦[(rowOf oW (k0_off13 L tr1) (k0_off13_inb L tr1)).view.set]{fullShare} fo)
        ∗ ((rowOf oW (k0_off17 L tr1) (k0_off17_inb L tr1)).view.loc (V d (cV L) (jV L)) ↦[(rowOf oW (k0_off17 L tr1) (k0_off17_inb L tr1)).view.set]{fullShare} fo)
        ∗ ((rowOf oW (k0_off21 L tr1) (k0_off21_inb L tr1)).view.loc (V d (cV L) (jV L)) ↦[(rowOf oW (k0_off21 L tr1) (k0_off21_inb L tr1)).view.set]{fullShare} fo)
        ∗ ((rowOf oW (k0_off25 L tr1) (k0_off25_inb L tr1)).view.loc (V d (cV L) (jV L)) ↦[(rowOf oW (k0_off25 L tr1) (k0_off25_inb L tr1)).view.set]{fullShare} fo)
        ∗ ((rowOf oW (k0_off29 L tr1) (k0_off29_inb L tr1)).view.loc (V d (cV L) (jV L)) ↦[(rowOf oW (k0_off29 L tr1) (k0_off29_inb L tr1)).view.set]{fullShare} fo)
        ∗ ((rowOf oW (k0_off33 L tr1) (k0_off33_inb L tr1)).view.loc (V d (cV L) (jV L)) ↦[(rowOf oW (k0_off33 L tr1) (k0_off33_inb L tr1)).view.set]{fullShare} fo)
        ∗ ((rowOf oW (k0_off37 L tr1) (k0_off37_inb L tr1)).view.loc (V d (cV L) (jV L)) ↦[(rowOf oW (k0_off37 L tr1) (k0_off37_inb L tr1)).view.set]{fullShare} fo)
        ∗ ((rowOf oW (k0_off41 L tr1) (k0_off41_inb L tr1)).view.loc (V d (cV L) (jV L)) ↦[(rowOf oW (k0_off41 L tr1) (k0_off41_inb L tr1)).view.set]{fullShare} fo)
        ∗ ((rowOf oW (k0_off45 L tr1) (k0_off45_inb L tr1)).view.loc (V d (cV L) (jV L)) ↦[(rowOf oW (k0_off45 L tr1) (k0_off45_inb L tr1)).view.set]{fullShare} fo)
        ∗ ((rowOf oW (k0_off49 L tr1) (k0_off49_inb L tr1)).view.loc (V d (cV L) (jV L)) ↦[(rowOf oW (k0_off49 L tr1) (k0_off49_inb L tr1)).view.set]{fullShare} fo)
        ∗ ((rowOf oW (k0_off53 L tr1) (k0_off53_inb L tr1)).view.loc (V d (cV L) (jV L)) ↦[(rowOf oW (k0_off53 L tr1) (k0_off53_inb L tr1)).view.set]{fullShare} fo)
        ∗ ((rowOf oW (k0_off57 L tr1) (k0_off57_inb L tr1)).view.loc (V d (cV L) (jV L)) ↦[(rowOf oW (k0_off57 L tr1) (k0_off57_inb L tr1)).view.set]{fullShare} fo)
        ∗ ((rowOf oW (k0_off61 L tr1) (k0_off61_inb L tr1)).view.loc (V d (cV L) (jV L)) ↦[(rowOf oW (k0_off61 L tr1) (k0_off61_inb L tr1)).view.set]{fullShare} fo)
        ∗ ((rowOf oW (k0_off65 L tr1) (k0_off65_inb L tr1)).view.loc (V d (cV L) (jV L)) ↦[(rowOf oW (k0_off65 L tr1) (k0_off65_inb L tr1)).view.set]{fullShare} fo)
        ∗ ((rowOf oW (k0_off69 L tr1) (k0_off69_inb L tr1)).view.loc (V d (cV L) (jV L)) ↦[(rowOf oW (k0_off69 L tr1) (k0_off69_inb L tr1)).view.set]{fullShare} fo)
        ∗ ((rowOf oW (k0_off9 L tr2) (k0_off9_inb L tr2)).view.loc (V d (cV L) (jV L)) ↦[(rowOf oW (k0_off9 L tr2) (k0_off9_inb L tr2)).view.set]{fullShare} fo)
        ∗ ((rowOf oW (k0_off13 L tr2) (k0_off13_inb L tr2)).view.loc (V d (cV L) (jV L)) ↦[(rowOf oW (k0_off13 L tr2) (k0_off13_inb L tr2)).view.set]{fullShare} fo)
        ∗ ((rowOf oW (k0_off17 L tr2) (k0_off17_inb L tr2)).view.loc (V d (cV L) (jV L)) ↦[(rowOf oW (k0_off17 L tr2) (k0_off17_inb L tr2)).view.set]{fullShare} fo)
        ∗ ((rowOf oW (k0_off21 L tr2) (k0_off21_inb L tr2)).view.loc (V d (cV L) (jV L)) ↦[(rowOf oW (k0_off21 L tr2) (k0_off21_inb L tr2)).view.set]{fullShare} fo)
        ∗ ((rowOf oW (k0_off25 L tr2) (k0_off25_inb L tr2)).view.loc (V d (cV L) (jV L)) ↦[(rowOf oW (k0_off25 L tr2) (k0_off25_inb L tr2)).view.set]{fullShare} fo)
        ∗ ((rowOf oW (k0_off29 L tr2) (k0_off29_inb L tr2)).view.loc (V d (cV L) (jV L)) ↦[(rowOf oW (k0_off29 L tr2) (k0_off29_inb L tr2)).view.set]{fullShare} fo)
        ∗ ((rowOf oW (k0_off33 L tr2) (k0_off33_inb L tr2)).view.loc (V d (cV L) (jV L)) ↦[(rowOf oW (k0_off33 L tr2) (k0_off33_inb L tr2)).view.set]{fullShare} fo)
        ∗ ((rowOf oW (k0_off37 L tr2) (k0_off37_inb L tr2)).view.loc (V d (cV L) (jV L)) ↦[(rowOf oW (k0_off37 L tr2) (k0_off37_inb L tr2)).view.set]{fullShare} fo)
        ∗ ((rowOf oW (k0_off41 L tr2) (k0_off41_inb L tr2)).view.loc (V d (cV L) (jV L)) ↦[(rowOf oW (k0_off41 L tr2) (k0_off41_inb L tr2)).view.set]{fullShare} fo)
        ∗ ((rowOf oW (k0_off45 L tr2) (k0_off45_inb L tr2)).view.loc (V d (cV L) (jV L)) ↦[(rowOf oW (k0_off45 L tr2) (k0_off45_inb L tr2)).view.set]{fullShare} fo)
        ∗ ((rowOf oW (k0_off49 L tr2) (k0_off49_inb L tr2)).view.loc (V d (cV L) (jV L)) ↦[(rowOf oW (k0_off49 L tr2) (k0_off49_inb L tr2)).view.set]{fullShare} fo)
        ∗ ((rowOf oW (k0_off53 L tr2) (k0_off53_inb L tr2)).view.loc (V d (cV L) (jV L)) ↦[(rowOf oW (k0_off53 L tr2) (k0_off53_inb L tr2)).view.set]{fullShare} fo)
        ∗ ((rowOf oW (k0_off57 L tr2) (k0_off57_inb L tr2)).view.loc (V d (cV L) (jV L)) ↦[(rowOf oW (k0_off57 L tr2) (k0_off57_inb L tr2)).view.set]{fullShare} fo)
        ∗ ((rowOf oW (k0_off61 L tr2) (k0_off61_inb L tr2)).view.loc (V d (cV L) (jV L)) ↦[(rowOf oW (k0_off61 L tr2) (k0_off61_inb L tr2)).view.set]{fullShare} fo)
        ∗ ((rowOf oW (k0_off65 L tr2) (k0_off65_inb L tr2)).view.loc (V d (cV L) (jV L)) ↦[(rowOf oW (k0_off65 L tr2) (k0_off65_inb L tr2)).view.set]{fullShare} fo)
        ∗ ((rowOf oW (k0_off69 L tr2) (k0_off69_inb L tr2)).view.loc (V d (cV L) (jV L)) ↦[(rowOf oW (k0_off69 L tr2) (k0_off69_inb L tr2)).view.set]{fullShare} fo)
        ∗ semVal ((V d (cV L) (jV L)), SemLoc.dma cc0_scratch2.sem) 0
        ∗ semVal ((V d (cV L) (jV L)), SemLoc.dma cc0_scratch3.sem) 0
        ∗ semVal ((V d (cV L) (jV L)), SemLoc.dma cc0_scoped0.sem) 0
        ∗ semVal ((V d (cV L) (jV L)), SemLoc.dma cc0_scoped1.sem) 0
        ∗ semVal ((V d (cV L) (jV L)), SemLoc.dma cc0_scoped2.sem) 0
        ∗ semVal ((V d (cV L) (jV L)), SemLoc.dma cc0_scoped3.sem) 0
        ∗ semVal ((V d (cV L) (jV L)), SemLoc.dma cc0_scoped4.sem) 0
        ∗ semVal ((V d (cV L) (jV L)), SemLoc.dma cc0_scoped5.sem) 0
        ∗ semVal ((V d (cV L) (jV L)), SemLoc.dma cc0_scoped6.sem) 0
        ∗ semVal ((V d (cV L) (jV L)), SemLoc.dma cc0_scoped7.sem) 0
        ∗ semVal ((V d (cV L) (jV L)), SemLoc.dma cc0_scoped8.sem) 0
        ∗ semVal ((V d (cV L) (jV L)), SemLoc.dma cc0_scoped9.sem) 0
        ∗ semVal ((V d (cV L) (jV L)), SemLoc.dma cc0_scoped10.sem) 0
        ∗ semVal ((V d (cV L) (jV L)), SemLoc.dma cc0_scoped11.sem) 0
        ∗ semVal ((V d (cV L) (jV L)), SemLoc.dma cc0_scoped12.sem) 0
        ∗ semVal ((V d (cV L) (jV L)), SemLoc.dma cc0_scoped13.sem) 0
        ∗ semVal ((V d (cV L) (jV L)), SemLoc.dma cc0_scoped14.sem) 0
        ∗ semVal ((V d (cV L) (jV L)), SemLoc.dma cc0_scoped15.sem) 0
        ∗ semVal ((V d (cV L) (jV L)), SemLoc.dma cc0_scoped16.sem) 0
        ∗ owes (V d (cV L) (jV L)) O W)
      ⊢ wp frame (wpE (defs₀ (F := F)) 𝒱₀ (V d (cV L) (jV L)) none) Set.univ
          (cc0_sc_gather L xW (Memref.isWhole_whole _) sW (Memref.isWhole_whole _) oW (Memref.isWhole_whole _)
            iW (Memref.isWhole_whole _) bW (Memref.isWhole_whole _) cc0_scratch2 cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16)
          fun _ => iprop(
            ((xW).view.loc (V d (cV L) (jV L)) ↦{Transfers.shareTokN q 0} X3 : sProp 𝕄)
            ∗ ((xW).view.loc (V d (cV L) (jV L)) ↦{Transfers.shareTokN q 1} X3)
            ∗ ((srcSl L).view.loc (V d (cV L) (jV L)) ↦[(srcSl L).view.set]{fullShare} SRC)
            ∗ (∃ f, (iW).view.loc (V d (cV L) (jV L)) ↦{fullShare} f)
            ∗ (∃ f, (slot0 L).view.loc (V d (cV L) (jV L)) ↦[(slot0 L).view.set]{fullShare} f)
            ∗ (∃ f, (slot1 L).view.loc (V d (cV L) (jV L)) ↦[(slot1 L).view.set]{fullShare} f)
            ∗ (∃ f, ((rowOf oW (k0_off9 L tr0) (k0_off9_inb L tr0)).view.loc (V d (cV L) (jV L)) ↦[(rowOf oW (k0_off9 L tr0) (k0_off9_inb L tr0)).view.set]{fullShare} f) ∗ ⌜∀ i ∈ (rowOf oW (k0_off9 L tr0) (k0_off9_inb L tr0)).view.set, f i = Cert.Proof.Spec.gathered X3 SRC i⌝)
            ∗ (∃ f, ((rowOf oW (k0_off13 L tr0) (k0_off13_inb L tr0)).view.loc (V d (cV L) (jV L)) ↦[(rowOf oW (k0_off13 L tr0) (k0_off13_inb L tr0)).view.set]{fullShare} f) ∗ ⌜∀ i ∈ (rowOf oW (k0_off13 L tr0) (k0_off13_inb L tr0)).view.set, f i = Cert.Proof.Spec.gathered X3 SRC i⌝)
            ∗ (∃ f, ((rowOf oW (k0_off17 L tr0) (k0_off17_inb L tr0)).view.loc (V d (cV L) (jV L)) ↦[(rowOf oW (k0_off17 L tr0) (k0_off17_inb L tr0)).view.set]{fullShare} f) ∗ ⌜∀ i ∈ (rowOf oW (k0_off17 L tr0) (k0_off17_inb L tr0)).view.set, f i = Cert.Proof.Spec.gathered X3 SRC i⌝)
            ∗ (∃ f, ((rowOf oW (k0_off21 L tr0) (k0_off21_inb L tr0)).view.loc (V d (cV L) (jV L)) ↦[(rowOf oW (k0_off21 L tr0) (k0_off21_inb L tr0)).view.set]{fullShare} f) ∗ ⌜∀ i ∈ (rowOf oW (k0_off21 L tr0) (k0_off21_inb L tr0)).view.set, f i = Cert.Proof.Spec.gathered X3 SRC i⌝)
            ∗ (∃ f, ((rowOf oW (k0_off25 L tr0) (k0_off25_inb L tr0)).view.loc (V d (cV L) (jV L)) ↦[(rowOf oW (k0_off25 L tr0) (k0_off25_inb L tr0)).view.set]{fullShare} f) ∗ ⌜∀ i ∈ (rowOf oW (k0_off25 L tr0) (k0_off25_inb L tr0)).view.set, f i = Cert.Proof.Spec.gathered X3 SRC i⌝)
            ∗ (∃ f, ((rowOf oW (k0_off29 L tr0) (k0_off29_inb L tr0)).view.loc (V d (cV L) (jV L)) ↦[(rowOf oW (k0_off29 L tr0) (k0_off29_inb L tr0)).view.set]{fullShare} f) ∗ ⌜∀ i ∈ (rowOf oW (k0_off29 L tr0) (k0_off29_inb L tr0)).view.set, f i = Cert.Proof.Spec.gathered X3 SRC i⌝)
            ∗ (∃ f, ((rowOf oW (k0_off33 L tr0) (k0_off33_inb L tr0)).view.loc (V d (cV L) (jV L)) ↦[(rowOf oW (k0_off33 L tr0) (k0_off33_inb L tr0)).view.set]{fullShare} f) ∗ ⌜∀ i ∈ (rowOf oW (k0_off33 L tr0) (k0_off33_inb L tr0)).view.set, f i = Cert.Proof.Spec.gathered X3 SRC i⌝)
            ∗ (∃ f, ((rowOf oW (k0_off37 L tr0) (k0_off37_inb L tr0)).view.loc (V d (cV L) (jV L)) ↦[(rowOf oW (k0_off37 L tr0) (k0_off37_inb L tr0)).view.set]{fullShare} f) ∗ ⌜∀ i ∈ (rowOf oW (k0_off37 L tr0) (k0_off37_inb L tr0)).view.set, f i = Cert.Proof.Spec.gathered X3 SRC i⌝)
            ∗ (∃ f, ((rowOf oW (k0_off41 L tr0) (k0_off41_inb L tr0)).view.loc (V d (cV L) (jV L)) ↦[(rowOf oW (k0_off41 L tr0) (k0_off41_inb L tr0)).view.set]{fullShare} f) ∗ ⌜∀ i ∈ (rowOf oW (k0_off41 L tr0) (k0_off41_inb L tr0)).view.set, f i = Cert.Proof.Spec.gathered X3 SRC i⌝)
            ∗ (∃ f, ((rowOf oW (k0_off45 L tr0) (k0_off45_inb L tr0)).view.loc (V d (cV L) (jV L)) ↦[(rowOf oW (k0_off45 L tr0) (k0_off45_inb L tr0)).view.set]{fullShare} f) ∗ ⌜∀ i ∈ (rowOf oW (k0_off45 L tr0) (k0_off45_inb L tr0)).view.set, f i = Cert.Proof.Spec.gathered X3 SRC i⌝)
            ∗ (∃ f, ((rowOf oW (k0_off49 L tr0) (k0_off49_inb L tr0)).view.loc (V d (cV L) (jV L)) ↦[(rowOf oW (k0_off49 L tr0) (k0_off49_inb L tr0)).view.set]{fullShare} f) ∗ ⌜∀ i ∈ (rowOf oW (k0_off49 L tr0) (k0_off49_inb L tr0)).view.set, f i = Cert.Proof.Spec.gathered X3 SRC i⌝)
            ∗ (∃ f, ((rowOf oW (k0_off53 L tr0) (k0_off53_inb L tr0)).view.loc (V d (cV L) (jV L)) ↦[(rowOf oW (k0_off53 L tr0) (k0_off53_inb L tr0)).view.set]{fullShare} f) ∗ ⌜∀ i ∈ (rowOf oW (k0_off53 L tr0) (k0_off53_inb L tr0)).view.set, f i = Cert.Proof.Spec.gathered X3 SRC i⌝)
            ∗ (∃ f, ((rowOf oW (k0_off57 L tr0) (k0_off57_inb L tr0)).view.loc (V d (cV L) (jV L)) ↦[(rowOf oW (k0_off57 L tr0) (k0_off57_inb L tr0)).view.set]{fullShare} f) ∗ ⌜∀ i ∈ (rowOf oW (k0_off57 L tr0) (k0_off57_inb L tr0)).view.set, f i = Cert.Proof.Spec.gathered X3 SRC i⌝)
            ∗ (∃ f, ((rowOf oW (k0_off61 L tr0) (k0_off61_inb L tr0)).view.loc (V d (cV L) (jV L)) ↦[(rowOf oW (k0_off61 L tr0) (k0_off61_inb L tr0)).view.set]{fullShare} f) ∗ ⌜∀ i ∈ (rowOf oW (k0_off61 L tr0) (k0_off61_inb L tr0)).view.set, f i = Cert.Proof.Spec.gathered X3 SRC i⌝)
            ∗ (∃ f, ((rowOf oW (k0_off65 L tr0) (k0_off65_inb L tr0)).view.loc (V d (cV L) (jV L)) ↦[(rowOf oW (k0_off65 L tr0) (k0_off65_inb L tr0)).view.set]{fullShare} f) ∗ ⌜∀ i ∈ (rowOf oW (k0_off65 L tr0) (k0_off65_inb L tr0)).view.set, f i = Cert.Proof.Spec.gathered X3 SRC i⌝)
            ∗ (∃ f, ((rowOf oW (k0_off69 L tr0) (k0_off69_inb L tr0)).view.loc (V d (cV L) (jV L)) ↦[(rowOf oW (k0_off69 L tr0) (k0_off69_inb L tr0)).view.set]{fullShare} f) ∗ ⌜∀ i ∈ (rowOf oW (k0_off69 L tr0) (k0_off69_inb L tr0)).view.set, f i = Cert.Proof.Spec.gathered X3 SRC i⌝)
            ∗ (∃ f, ((rowOf oW (k0_off9 L tr1) (k0_off9_inb L tr1)).view.loc (V d (cV L) (jV L)) ↦[(rowOf oW (k0_off9 L tr1) (k0_off9_inb L tr1)).view.set]{fullShare} f) ∗ ⌜∀ i ∈ (rowOf oW (k0_off9 L tr1) (k0_off9_inb L tr1)).view.set, f i = Cert.Proof.Spec.gathered X3 SRC i⌝)
            ∗ (∃ f, ((rowOf oW (k0_off13 L tr1) (k0_off13_inb L tr1)).view.loc (V d (cV L) (jV L)) ↦[(rowOf oW (k0_off13 L tr1) (k0_off13_inb L tr1)).view.set]{fullShare} f) ∗ ⌜∀ i ∈ (rowOf oW (k0_off13 L tr1) (k0_off13_inb L tr1)).view.set, f i = Cert.Proof.Spec.gathered X3 SRC i⌝)
            ∗ (∃ f, ((rowOf oW (k0_off17 L tr1) (k0_off17_inb L tr1)).view.loc (V d (cV L) (jV L)) ↦[(rowOf oW (k0_off17 L tr1) (k0_off17_inb L tr1)).view.set]{fullShare} f) ∗ ⌜∀ i ∈ (rowOf oW (k0_off17 L tr1) (k0_off17_inb L tr1)).view.set, f i = Cert.Proof.Spec.gathered X3 SRC i⌝)
            ∗ (∃ f, ((rowOf oW (k0_off21 L tr1) (k0_off21_inb L tr1)).view.loc (V d (cV L) (jV L)) ↦[(rowOf oW (k0_off21 L tr1) (k0_off21_inb L tr1)).view.set]{fullShare} f) ∗ ⌜∀ i ∈ (rowOf oW (k0_off21 L tr1) (k0_off21_inb L tr1)).view.set, f i = Cert.Proof.Spec.gathered X3 SRC i⌝)
            ∗ (∃ f, ((rowOf oW (k0_off25 L tr1) (k0_off25_inb L tr1)).view.loc (V d (cV L) (jV L)) ↦[(rowOf oW (k0_off25 L tr1) (k0_off25_inb L tr1)).view.set]{fullShare} f) ∗ ⌜∀ i ∈ (rowOf oW (k0_off25 L tr1) (k0_off25_inb L tr1)).view.set, f i = Cert.Proof.Spec.gathered X3 SRC i⌝)
            ∗ (∃ f, ((rowOf oW (k0_off29 L tr1) (k0_off29_inb L tr1)).view.loc (V d (cV L) (jV L)) ↦[(rowOf oW (k0_off29 L tr1) (k0_off29_inb L tr1)).view.set]{fullShare} f) ∗ ⌜∀ i ∈ (rowOf oW (k0_off29 L tr1) (k0_off29_inb L tr1)).view.set, f i = Cert.Proof.Spec.gathered X3 SRC i⌝)
            ∗ (∃ f, ((rowOf oW (k0_off33 L tr1) (k0_off33_inb L tr1)).view.loc (V d (cV L) (jV L)) ↦[(rowOf oW (k0_off33 L tr1) (k0_off33_inb L tr1)).view.set]{fullShare} f) ∗ ⌜∀ i ∈ (rowOf oW (k0_off33 L tr1) (k0_off33_inb L tr1)).view.set, f i = Cert.Proof.Spec.gathered X3 SRC i⌝)
            ∗ (∃ f, ((rowOf oW (k0_off37 L tr1) (k0_off37_inb L tr1)).view.loc (V d (cV L) (jV L)) ↦[(rowOf oW (k0_off37 L tr1) (k0_off37_inb L tr1)).view.set]{fullShare} f) ∗ ⌜∀ i ∈ (rowOf oW (k0_off37 L tr1) (k0_off37_inb L tr1)).view.set, f i = Cert.Proof.Spec.gathered X3 SRC i⌝)
            ∗ (∃ f, ((rowOf oW (k0_off41 L tr1) (k0_off41_inb L tr1)).view.loc (V d (cV L) (jV L)) ↦[(rowOf oW (k0_off41 L tr1) (k0_off41_inb L tr1)).view.set]{fullShare} f) ∗ ⌜∀ i ∈ (rowOf oW (k0_off41 L tr1) (k0_off41_inb L tr1)).view.set, f i = Cert.Proof.Spec.gathered X3 SRC i⌝)
            ∗ (∃ f, ((rowOf oW (k0_off45 L tr1) (k0_off45_inb L tr1)).view.loc (V d (cV L) (jV L)) ↦[(rowOf oW (k0_off45 L tr1) (k0_off45_inb L tr1)).view.set]{fullShare} f) ∗ ⌜∀ i ∈ (rowOf oW (k0_off45 L tr1) (k0_off45_inb L tr1)).view.set, f i = Cert.Proof.Spec.gathered X3 SRC i⌝)
            ∗ (∃ f, ((rowOf oW (k0_off49 L tr1) (k0_off49_inb L tr1)).view.loc (V d (cV L) (jV L)) ↦[(rowOf oW (k0_off49 L tr1) (k0_off49_inb L tr1)).view.set]{fullShare} f) ∗ ⌜∀ i ∈ (rowOf oW (k0_off49 L tr1) (k0_off49_inb L tr1)).view.set, f i = Cert.Proof.Spec.gathered X3 SRC i⌝)
            ∗ (∃ f, ((rowOf oW (k0_off53 L tr1) (k0_off53_inb L tr1)).view.loc (V d (cV L) (jV L)) ↦[(rowOf oW (k0_off53 L tr1) (k0_off53_inb L tr1)).view.set]{fullShare} f) ∗ ⌜∀ i ∈ (rowOf oW (k0_off53 L tr1) (k0_off53_inb L tr1)).view.set, f i = Cert.Proof.Spec.gathered X3 SRC i⌝)
            ∗ (∃ f, ((rowOf oW (k0_off57 L tr1) (k0_off57_inb L tr1)).view.loc (V d (cV L) (jV L)) ↦[(rowOf oW (k0_off57 L tr1) (k0_off57_inb L tr1)).view.set]{fullShare} f) ∗ ⌜∀ i ∈ (rowOf oW (k0_off57 L tr1) (k0_off57_inb L tr1)).view.set, f i = Cert.Proof.Spec.gathered X3 SRC i⌝)
            ∗ (∃ f, ((rowOf oW (k0_off61 L tr1) (k0_off61_inb L tr1)).view.loc (V d (cV L) (jV L)) ↦[(rowOf oW (k0_off61 L tr1) (k0_off61_inb L tr1)).view.set]{fullShare} f) ∗ ⌜∀ i ∈ (rowOf oW (k0_off61 L tr1) (k0_off61_inb L tr1)).view.set, f i = Cert.Proof.Spec.gathered X3 SRC i⌝)
            ∗ (∃ f, ((rowOf oW (k0_off65 L tr1) (k0_off65_inb L tr1)).view.loc (V d (cV L) (jV L)) ↦[(rowOf oW (k0_off65 L tr1) (k0_off65_inb L tr1)).view.set]{fullShare} f) ∗ ⌜∀ i ∈ (rowOf oW (k0_off65 L tr1) (k0_off65_inb L tr1)).view.set, f i = Cert.Proof.Spec.gathered X3 SRC i⌝)
            ∗ (∃ f, ((rowOf oW (k0_off69 L tr1) (k0_off69_inb L tr1)).view.loc (V d (cV L) (jV L)) ↦[(rowOf oW (k0_off69 L tr1) (k0_off69_inb L tr1)).view.set]{fullShare} f) ∗ ⌜∀ i ∈ (rowOf oW (k0_off69 L tr1) (k0_off69_inb L tr1)).view.set, f i = Cert.Proof.Spec.gathered X3 SRC i⌝)
            ∗ (∃ f, ((rowOf oW (k0_off9 L tr2) (k0_off9_inb L tr2)).view.loc (V d (cV L) (jV L)) ↦[(rowOf oW (k0_off9 L tr2) (k0_off9_inb L tr2)).view.set]{fullShare} f) ∗ ⌜∀ i ∈ (rowOf oW (k0_off9 L tr2) (k0_off9_inb L tr2)).view.set, f i = Cert.Proof.Spec.gathered X3 SRC i⌝)
            ∗ (∃ f, ((rowOf oW (k0_off13 L tr2) (k0_off13_inb L tr2)).view.loc (V d (cV L) (jV L)) ↦[(rowOf oW (k0_off13 L tr2) (k0_off13_inb L tr2)).view.set]{fullShare} f) ∗ ⌜∀ i ∈ (rowOf oW (k0_off13 L tr2) (k0_off13_inb L tr2)).view.set, f i = Cert.Proof.Spec.gathered X3 SRC i⌝)
            ∗ (∃ f, ((rowOf oW (k0_off17 L tr2) (k0_off17_inb L tr2)).view.loc (V d (cV L) (jV L)) ↦[(rowOf oW (k0_off17 L tr2) (k0_off17_inb L tr2)).view.set]{fullShare} f) ∗ ⌜∀ i ∈ (rowOf oW (k0_off17 L tr2) (k0_off17_inb L tr2)).view.set, f i = Cert.Proof.Spec.gathered X3 SRC i⌝)
            ∗ (∃ f, ((rowOf oW (k0_off21 L tr2) (k0_off21_inb L tr2)).view.loc (V d (cV L) (jV L)) ↦[(rowOf oW (k0_off21 L tr2) (k0_off21_inb L tr2)).view.set]{fullShare} f) ∗ ⌜∀ i ∈ (rowOf oW (k0_off21 L tr2) (k0_off21_inb L tr2)).view.set, f i = Cert.Proof.Spec.gathered X3 SRC i⌝)
            ∗ (∃ f, ((rowOf oW (k0_off25 L tr2) (k0_off25_inb L tr2)).view.loc (V d (cV L) (jV L)) ↦[(rowOf oW (k0_off25 L tr2) (k0_off25_inb L tr2)).view.set]{fullShare} f) ∗ ⌜∀ i ∈ (rowOf oW (k0_off25 L tr2) (k0_off25_inb L tr2)).view.set, f i = Cert.Proof.Spec.gathered X3 SRC i⌝)
            ∗ (∃ f, ((rowOf oW (k0_off29 L tr2) (k0_off29_inb L tr2)).view.loc (V d (cV L) (jV L)) ↦[(rowOf oW (k0_off29 L tr2) (k0_off29_inb L tr2)).view.set]{fullShare} f) ∗ ⌜∀ i ∈ (rowOf oW (k0_off29 L tr2) (k0_off29_inb L tr2)).view.set, f i = Cert.Proof.Spec.gathered X3 SRC i⌝)
            ∗ (∃ f, ((rowOf oW (k0_off33 L tr2) (k0_off33_inb L tr2)).view.loc (V d (cV L) (jV L)) ↦[(rowOf oW (k0_off33 L tr2) (k0_off33_inb L tr2)).view.set]{fullShare} f) ∗ ⌜∀ i ∈ (rowOf oW (k0_off33 L tr2) (k0_off33_inb L tr2)).view.set, f i = Cert.Proof.Spec.gathered X3 SRC i⌝)
            ∗ (∃ f, ((rowOf oW (k0_off37 L tr2) (k0_off37_inb L tr2)).view.loc (V d (cV L) (jV L)) ↦[(rowOf oW (k0_off37 L tr2) (k0_off37_inb L tr2)).view.set]{fullShare} f) ∗ ⌜∀ i ∈ (rowOf oW (k0_off37 L tr2) (k0_off37_inb L tr2)).view.set, f i = Cert.Proof.Spec.gathered X3 SRC i⌝)
            ∗ (∃ f, ((rowOf oW (k0_off41 L tr2) (k0_off41_inb L tr2)).view.loc (V d (cV L) (jV L)) ↦[(rowOf oW (k0_off41 L tr2) (k0_off41_inb L tr2)).view.set]{fullShare} f) ∗ ⌜∀ i ∈ (rowOf oW (k0_off41 L tr2) (k0_off41_inb L tr2)).view.set, f i = Cert.Proof.Spec.gathered X3 SRC i⌝)
            ∗ (∃ f, ((rowOf oW (k0_off45 L tr2) (k0_off45_inb L tr2)).view.loc (V d (cV L) (jV L)) ↦[(rowOf oW (k0_off45 L tr2) (k0_off45_inb L tr2)).view.set]{fullShare} f) ∗ ⌜∀ i ∈ (rowOf oW (k0_off45 L tr2) (k0_off45_inb L tr2)).view.set, f i = Cert.Proof.Spec.gathered X3 SRC i⌝)
            ∗ (∃ f, ((rowOf oW (k0_off49 L tr2) (k0_off49_inb L tr2)).view.loc (V d (cV L) (jV L)) ↦[(rowOf oW (k0_off49 L tr2) (k0_off49_inb L tr2)).view.set]{fullShare} f) ∗ ⌜∀ i ∈ (rowOf oW (k0_off49 L tr2) (k0_off49_inb L tr2)).view.set, f i = Cert.Proof.Spec.gathered X3 SRC i⌝)
            ∗ (∃ f, ((rowOf oW (k0_off53 L tr2) (k0_off53_inb L tr2)).view.loc (V d (cV L) (jV L)) ↦[(rowOf oW (k0_off53 L tr2) (k0_off53_inb L tr2)).view.set]{fullShare} f) ∗ ⌜∀ i ∈ (rowOf oW (k0_off53 L tr2) (k0_off53_inb L tr2)).view.set, f i = Cert.Proof.Spec.gathered X3 SRC i⌝)
            ∗ (∃ f, ((rowOf oW (k0_off57 L tr2) (k0_off57_inb L tr2)).view.loc (V d (cV L) (jV L)) ↦[(rowOf oW (k0_off57 L tr2) (k0_off57_inb L tr2)).view.set]{fullShare} f) ∗ ⌜∀ i ∈ (rowOf oW (k0_off57 L tr2) (k0_off57_inb L tr2)).view.set, f i = Cert.Proof.Spec.gathered X3 SRC i⌝)
            ∗ (∃ f, ((rowOf oW (k0_off61 L tr2) (k0_off61_inb L tr2)).view.loc (V d (cV L) (jV L)) ↦[(rowOf oW (k0_off61 L tr2) (k0_off61_inb L tr2)).view.set]{fullShare} f) ∗ ⌜∀ i ∈ (rowOf oW (k0_off61 L tr2) (k0_off61_inb L tr2)).view.set, f i = Cert.Proof.Spec.gathered X3 SRC i⌝)
            ∗ (∃ f, ((rowOf oW (k0_off65 L tr2) (k0_off65_inb L tr2)).view.loc (V d (cV L) (jV L)) ↦[(rowOf oW (k0_off65 L tr2) (k0_off65_inb L tr2)).view.set]{fullShare} f) ∗ ⌜∀ i ∈ (rowOf oW (k0_off65 L tr2) (k0_off65_inb L tr2)).view.set, f i = Cert.Proof.Spec.gathered X3 SRC i⌝)
            ∗ (∃ f, ((rowOf oW (k0_off69 L tr2) (k0_off69_inb L tr2)).view.loc (V d (cV L) (jV L)) ↦[(rowOf oW (k0_off69 L tr2) (k0_off69_inb L tr2)).view.set]{fullShare} f) ∗ ⌜∀ i ∈ (rowOf oW (k0_off69 L tr2) (k0_off69_inb L tr2)).view.set, f i = Cert.Proof.Spec.gathered X3 SRC i⌝)
            ∗ semVal ((V d (cV L) (jV L)), SemLoc.dma cc0_scratch2.sem) 0
            ∗ semVal ((V d (cV L) (jV L)), SemLoc.dma cc0_scratch3.sem) 0
            ∗ semVal ((V d (cV L) (jV L)), SemLoc.dma cc0_scoped0.sem) 0
            ∗ semVal ((V d (cV L) (jV L)), SemLoc.dma cc0_scoped1.sem) 0
            ∗ semVal ((V d (cV L) (jV L)), SemLoc.dma cc0_scoped2.sem) 0
            ∗ semVal ((V d (cV L) (jV L)), SemLoc.dma cc0_scoped3.sem) 0
            ∗ semVal ((V d (cV L) (jV L)), SemLoc.dma cc0_scoped4.sem) 0
            ∗ semVal ((V d (cV L) (jV L)), SemLoc.dma cc0_scoped5.sem) 0
            ∗ semVal ((V d (cV L) (jV L)), SemLoc.dma cc0_scoped6.sem) 0
            ∗ semVal ((V d (cV L) (jV L)), SemLoc.dma cc0_scoped7.sem) 0
            ∗ semVal ((V d (cV L) (jV L)), SemLoc.dma cc0_scoped8.sem) 0
            ∗ semVal ((V d (cV L) (jV L)), SemLoc.dma cc0_scoped9.sem) 0
            ∗ semVal ((V d (cV L) (jV L)), SemLoc.dma cc0_scoped10.sem) 0
            ∗ semVal ((V d (cV L) (jV L)), SemLoc.dma cc0_scoped11.sem) 0
            ∗ semVal ((V d (cV L) (jV L)), SemLoc.dma cc0_scoped12.sem) 0
            ∗ semVal ((V d (cV L) (jV L)), SemLoc.dma cc0_scoped13.sem) 0
            ∗ semVal ((V d (cV L) (jV L)), SemLoc.dma cc0_scoped14.sem) 0
            ∗ semVal ((V d (cV L) (jV L)), SemLoc.dma cc0_scoped15.sem) 0
            ∗ semVal ((V d (cV L) (jV L)), SemLoc.dma cc0_scoped16.sem) 0
            ∗ (∃ W', owes (V d (cV L) (jV L)) O W' ∗ ⌜∀ p ∈ W', p ∈ W ∨ p.2 = none⌝)) := by
  rw [cc0_sc_gather_eq_skeleton]; unfold cc0_sc_gather_skel
  iintro ⟨#Hlv, Hx0, Hx1, Hs, Hi, Hb0, Hb1, Hr0_0, Hr0_1, Hr0_2, Hr0_3, Hr0_4, Hr0_5, Hr0_6, Hr0_7, Hr0_8, Hr0_9, Hr0_10, Hr0_11, Hr0_12, Hr0_13, Hr0_14, Hr0_15, Hr1_0, Hr1_1, Hr1_2, Hr1_3, Hr1_4, Hr1_5, Hr1_6, Hr1_7, Hr1_8, Hr1_9, Hr1_10, Hr1_11, Hr1_12, Hr1_13, Hr1_14, Hr1_15, Hr2_0, Hr2_1, Hr2_2, Hr2_3, Hr2_4, Hr2_5, Hr2_6, Hr2_7, Hr2_8, Hr2_9, Hr2_10, Hr2_11, Hr2_12, Hr2_13, Hr2_14, Hr2_15, Hm0, Hm1, Hm2, Hm3, Hm4, Hm5, Hm6, Hm7, Hm8, Hm9, Hm10, Hm11, Hm12, Hm13, Hm14, Hm15, Hm16, Hm17, Hm18, HO⟩
  ihave Hmw := ((K (F := F)).mayWaits_none (thr := (V d (cV L) (jV L))) hO) $$ Hlv
  sl_exec (disch := first | chk_tac hsrc | decide)
  rw [wp_ret]; imodintro
  isplitl [Hx0]; · iexact Hx0
  isplitl [Hx1]; · iexact Hx1
  isplitl [Hs]; · iexact Hs
  isplitl [Hi]; · iexists _; iexact Hi
  isplitl [Hb0]; · iexists _; iexact Hb0
  isplitl [Hb1]; · iexists _; iexact Hb1
  isplitl [Hr0_0]
  · iexists _; isplitl [Hr0_0]; · iexact Hr0_0
    ipureintro
    intro i hi
    unfold_sl
    refine row_agree X3 SRC fo ⟨96 * (L 1).val + 48 * (L 0).val + (0 + 0), by have := L0_lt L; have := L1_lt L; omega⟩ _ _ _ _ _ ?hoffo rfl ?hv ?hlt _ _ _ i hi
    case hoffo => exact (k0_off9_eq L tr0).trans (vec3_congr (by simp only [tr0] <;> omega))
    case hv => exact word_src L SRC fi ![0] inb_S48_S16_0 0 rfl (by omega) 0 (by omega) shapeCasts_S16_S16 slices_S16_o0_S1 inpos_S1_p0
    case hlt => exact lt_of_eq_of_lt (congrArg BitVec.toNat (word_src L SRC fi ![0] inb_S48_S16_0 0 rfl (by omega) 0 (by omega) shapeCasts_S16_S16 slices_S16_o0_S1 inpos_S1_p0)) (hsrc _)
  isplitl [Hr0_1]
  · iexists _; isplitl [Hr0_1]; · iexact Hr0_1
    ipureintro
    intro i hi
    unfold_sl
    refine row_agree X3 SRC fo ⟨96 * (L 1).val + 48 * (L 0).val + (0 + 1), by have := L0_lt L; have := L1_lt L; omega⟩ _ _ _ _ _ ?hoffo rfl ?hv ?hlt _ _ _ i hi
    case hoffo => exact (k0_off13_eq L tr0).trans (vec3_congr (by simp only [tr0] <;> omega))
    case hv => exact word_src L SRC fi ![0] inb_S48_S16_0 0 rfl (by omega) 1 (by omega) shapeCasts_S16_S16 slices_S16_o1_S1 inpos_S1_p0
    case hlt => exact lt_of_eq_of_lt (congrArg BitVec.toNat (word_src L SRC fi ![0] inb_S48_S16_0 0 rfl (by omega) 1 (by omega) shapeCasts_S16_S16 slices_S16_o1_S1 inpos_S1_p0)) (hsrc _)
  isplitl [Hr0_2]
  · iexists _; isplitl [Hr0_2]; · iexact Hr0_2
    ipureintro
    intro i hi
    unfold_sl
    refine row_agree X3 SRC fo ⟨96 * (L 1).val + 48 * (L 0).val + (0 + 2), by have := L0_lt L; have := L1_lt L; omega⟩ _ _ _ _ _ ?hoffo rfl ?hv ?hlt _ _ _ i hi
    case hoffo => exact (k0_off17_eq L tr0).trans (vec3_congr (by simp only [tr0] <;> omega))
    case hv => exact word_src L SRC fi _ _ 0 rfl (by omega) 2 (by omega) _ _ _
    case hlt => exact lt_of_eq_of_lt (congrArg BitVec.toNat (word_src L SRC fi _ _ 0 rfl (by omega) 2 (by omega) _ _ _)) (hsrc _)
  isplitl [Hr0_3]
  · iexists _; isplitl [Hr0_3]; · iexact Hr0_3
    ipureintro
    intro i hi
    unfold_sl
    refine row_agree X3 SRC fo ⟨96 * (L 1).val + 48 * (L 0).val + (0 + 3), by have := L0_lt L; have := L1_lt L; omega⟩ _ _ _ _ _ ?hoffo rfl ?hv ?hlt _ _ _ i hi
    case hoffo => exact (k0_off21_eq L tr0).trans (vec3_congr (by simp only [tr0] <;> omega))
    case hv => exact word_src L SRC fi _ _ 0 rfl (by omega) 3 (by omega) _ _ _
    case hlt => exact lt_of_eq_of_lt (congrArg BitVec.toNat (word_src L SRC fi _ _ 0 rfl (by omega) 3 (by omega) _ _ _)) (hsrc _)
  isplitl [Hr0_4]
  · iexists _; isplitl [Hr0_4]; · iexact Hr0_4
    ipureintro
    intro i hi
    unfold_sl
    refine row_agree X3 SRC fo ⟨96 * (L 1).val + 48 * (L 0).val + (0 + 4), by have := L0_lt L; have := L1_lt L; omega⟩ _ _ _ _ _ ?hoffo rfl ?hv ?hlt _ _ _ i hi
    case hoffo => exact (k0_off25_eq L tr0).trans (vec3_congr (by simp only [tr0] <;> omega))
    case hv => exact word_src L SRC fi _ _ 0 rfl (by omega) 4 (by omega) _ _ _
    case hlt => exact lt_of_eq_of_lt (congrArg BitVec.toNat (word_src L SRC fi _ _ 0 rfl (by omega) 4 (by omega) _ _ _)) (hsrc _)
  isplitl [Hr0_5]
  · iexists _; isplitl [Hr0_5]; · iexact Hr0_5
    ipureintro
    intro i hi
    unfold_sl
    refine row_agree X3 SRC fo ⟨96 * (L 1).val + 48 * (L 0).val + (0 + 5), by have := L0_lt L; have := L1_lt L; omega⟩ _ _ _ _ _ ?hoffo rfl ?hv ?hlt _ _ _ i hi
    case hoffo => exact (k0_off29_eq L tr0).trans (vec3_congr (by simp only [tr0] <;> omega))
    case hv => exact word_src L SRC fi _ _ 0 rfl (by omega) 5 (by omega) _ _ _
    case hlt => exact lt_of_eq_of_lt (congrArg BitVec.toNat (word_src L SRC fi _ _ 0 rfl (by omega) 5 (by omega) _ _ _)) (hsrc _)
  isplitl [Hr0_6]
  · iexists _; isplitl [Hr0_6]; · iexact Hr0_6
    ipureintro
    intro i hi
    unfold_sl
    refine row_agree X3 SRC fo ⟨96 * (L 1).val + 48 * (L 0).val + (0 + 6), by have := L0_lt L; have := L1_lt L; omega⟩ _ _ _ _ _ ?hoffo rfl ?hv ?hlt _ _ _ i hi
    case hoffo => exact (k0_off33_eq L tr0).trans (vec3_congr (by simp only [tr0] <;> omega))
    case hv => exact word_src L SRC fi _ _ 0 rfl (by omega) 6 (by omega) _ _ _
    case hlt => exact lt_of_eq_of_lt (congrArg BitVec.toNat (word_src L SRC fi _ _ 0 rfl (by omega) 6 (by omega) _ _ _)) (hsrc _)
  isplitl [Hr0_7]
  · iexists _; isplitl [Hr0_7]; · iexact Hr0_7
    ipureintro
    intro i hi
    unfold_sl
    refine row_agree X3 SRC fo ⟨96 * (L 1).val + 48 * (L 0).val + (0 + 7), by have := L0_lt L; have := L1_lt L; omega⟩ _ _ _ _ _ ?hoffo rfl ?hv ?hlt _ _ _ i hi
    case hoffo => exact (k0_off37_eq L tr0).trans (vec3_congr (by simp only [tr0] <;> omega))
    case hv => exact word_src L SRC fi _ _ 0 rfl (by omega) 7 (by omega) _ _ _
    case hlt => exact lt_of_eq_of_lt (congrArg BitVec.toNat (word_src L SRC fi _ _ 0 rfl (by omega) 7 (by omega) _ _ _)) (hsrc _)
  isplitl [Hr0_8]
  · iexists _; isplitl [Hr0_8]; · iexact Hr0_8
    ipureintro
    intro i hi
    unfold_sl
    refine row_agree X3 SRC fo ⟨96 * (L 1).val + 48 * (L 0).val + (0 + 8), by have := L0_lt L; have := L1_lt L; omega⟩ _ _ _ _ _ ?hoffo rfl ?hv ?hlt _ _ _ i hi
    case hoffo => exact (k0_off41_eq L tr0).trans (vec3_congr (by simp only [tr0] <;> omega))
    case hv => exact word_src L SRC fi _ _ 0 rfl (by omega) 8 (by omega) _ _ _
    case hlt => exact lt_of_eq_of_lt (congrArg BitVec.toNat (word_src L SRC fi _ _ 0 rfl (by omega) 8 (by omega) _ _ _)) (hsrc _)
  isplitl [Hr0_9]
  · iexists _; isplitl [Hr0_9]; · iexact Hr0_9
    ipureintro
    intro i hi
    unfold_sl
    refine row_agree X3 SRC fo ⟨96 * (L 1).val + 48 * (L 0).val + (0 + 9), by have := L0_lt L; have := L1_lt L; omega⟩ _ _ _ _ _ ?hoffo rfl ?hv ?hlt _ _ _ i hi
    case hoffo => exact (k0_off45_eq L tr0).trans (vec3_congr (by simp only [tr0] <;> omega))
    case hv => exact word_src L SRC fi _ _ 0 rfl (by omega) 9 (by omega) _ _ _
    case hlt => exact lt_of_eq_of_lt (congrArg BitVec.toNat (word_src L SRC fi _ _ 0 rfl (by omega) 9 (by omega) _ _ _)) (hsrc _)
  isplitl [Hr0_10]
  · iexists _; isplitl [Hr0_10]; · iexact Hr0_10
    ipureintro
    intro i hi
    unfold_sl
    refine row_agree X3 SRC fo ⟨96 * (L 1).val + 48 * (L 0).val + (0 + 10), by have := L0_lt L; have := L1_lt L; omega⟩ _ _ _ _ _ ?hoffo rfl ?hv ?hlt _ _ _ i hi
    case hoffo => exact (k0_off49_eq L tr0).trans (vec3_congr (by simp only [tr0] <;> omega))
    case hv => exact word_src L SRC fi _ _ 0 rfl (by omega) 10 (by omega) _ _ _
    case hlt => exact lt_of_eq_of_lt (congrArg BitVec.toNat (word_src L SRC fi _ _ 0 rfl (by omega) 10 (by omega) _ _ _)) (hsrc _)
  isplitl [Hr0_11]
  · iexists _; isplitl [Hr0_11]; · iexact Hr0_11
    ipureintro
    intro i hi
    unfold_sl
    refine row_agree X3 SRC fo ⟨96 * (L 1).val + 48 * (L 0).val + (0 + 11), by have := L0_lt L; have := L1_lt L; omega⟩ _ _ _ _ _ ?hoffo rfl ?hv ?hlt _ _ _ i hi
    case hoffo => exact (k0_off53_eq L tr0).trans (vec3_congr (by simp only [tr0] <;> omega))
    case hv => exact word_src L SRC fi _ _ 0 rfl (by omega) 11 (by omega) _ _ _
    case hlt => exact lt_of_eq_of_lt (congrArg BitVec.toNat (word_src L SRC fi _ _ 0 rfl (by omega) 11 (by omega) _ _ _)) (hsrc _)
  isplitl [Hr0_12]
  · iexists _; isplitl [Hr0_12]; · iexact Hr0_12
    ipureintro
    intro i hi
    unfold_sl
    refine row_agree X3 SRC fo ⟨96 * (L 1).val + 48 * (L 0).val + (0 + 12), by have := L0_lt L; have := L1_lt L; omega⟩ _ _ _ _ _ ?hoffo rfl ?hv ?hlt _ _ _ i hi
    case hoffo => exact (k0_off57_eq L tr0).trans (vec3_congr (by simp only [tr0] <;> omega))
    case hv => exact word_src L SRC fi _ _ 0 rfl (by omega) 12 (by omega) _ _ _
    case hlt => exact lt_of_eq_of_lt (congrArg BitVec.toNat (word_src L SRC fi _ _ 0 rfl (by omega) 12 (by omega) _ _ _)) (hsrc _)
  isplitl [Hr0_13]
  · iexists _; isplitl [Hr0_13]; · iexact Hr0_13
    ipureintro
    intro i hi
    unfold_sl
    refine row_agree X3 SRC fo ⟨96 * (L 1).val + 48 * (L 0).val + (0 + 13), by have := L0_lt L; have := L1_lt L; omega⟩ _ _ _ _ _ ?hoffo rfl ?hv ?hlt _ _ _ i hi
    case hoffo => exact (k0_off61_eq L tr0).trans (vec3_congr (by simp only [tr0] <;> omega))
    case hv => exact word_src L SRC fi _ _ 0 rfl (by omega) 13 (by omega) _ _ _
    case hlt => exact lt_of_eq_of_lt (congrArg BitVec.toNat (word_src L SRC fi _ _ 0 rfl (by omega) 13 (by omega) _ _ _)) (hsrc _)
  isplitl [Hr0_14]
  · iexists _; isplitl [Hr0_14]; · iexact Hr0_14
    ipureintro
    intro i hi
    unfold_sl
    refine row_agree X3 SRC fo ⟨96 * (L 1).val + 48 * (L 0).val + (0 + 14), by have := L0_lt L; have := L1_lt L; omega⟩ _ _ _ _ _ ?hoffo rfl ?hv ?hlt _ _ _ i hi
    case hoffo => exact (k0_off65_eq L tr0).trans (vec3_congr (by simp only [tr0] <;> omega))
    case hv => exact word_src L SRC fi _ _ 0 rfl (by omega) 14 (by omega) _ _ _
    case hlt => exact lt_of_eq_of_lt (congrArg BitVec.toNat (word_src L SRC fi _ _ 0 rfl (by omega) 14 (by omega) _ _ _)) (hsrc _)
  isplitl [Hr0_15]
  · iexists _; isplitl [Hr0_15]; · iexact Hr0_15
    ipureintro
    intro i hi
    unfold_sl
    refine row_agree X3 SRC fo ⟨96 * (L 1).val + 48 * (L 0).val + (0 + 15), by have := L0_lt L; have := L1_lt L; omega⟩ _ _ _ _ _ ?hoffo rfl ?hv ?hlt _ _ _ i hi
    case hoffo => exact (k0_off69_eq L tr0).trans (vec3_congr (by simp only [tr0] <;> omega))
    case hv => exact word_src L SRC fi _ _ 0 rfl (by omega) 15 (by omega) _ _ _
    case hlt => exact lt_of_eq_of_lt (congrArg BitVec.toNat (word_src L SRC fi _ _ 0 rfl (by omega) 15 (by omega) _ _ _)) (hsrc _)
  isplitl [Hr1_0]
  · iexists _; isplitl [Hr1_0]; · iexact Hr1_0
    ipureintro
    intro i hi
    unfold_sl
    refine row_agree X3 SRC fo ⟨96 * (L 1).val + 48 * (L 0).val + (16 + 0), by have := L0_lt L; have := L1_lt L; omega⟩ _ _ _ _ _ ?hoffo rfl ?hv ?hlt _ _ _ i hi
    case hoffo => exact (k0_off9_eq L tr1).trans (vec3_congr (by simp only [tr1] <;> omega))
    case hv => exact word_src L SRC fi _ _ 16 rfl (by omega) 0 (by omega) _ _ _
    case hlt => exact lt_of_eq_of_lt (congrArg BitVec.toNat (word_src L SRC fi _ _ 16 rfl (by omega) 0 (by omega) _ _ _)) (hsrc _)
  isplitl [Hr1_1]
  · iexists _; isplitl [Hr1_1]; · iexact Hr1_1
    ipureintro
    intro i hi
    unfold_sl
    refine row_agree X3 SRC fo ⟨96 * (L 1).val + 48 * (L 0).val + (16 + 1), by have := L0_lt L; have := L1_lt L; omega⟩ _ _ _ _ _ ?hoffo rfl ?hv ?hlt _ _ _ i hi
    case hoffo => exact (k0_off13_eq L tr1).trans (vec3_congr (by simp only [tr1] <;> omega))
    case hv => exact word_src L SRC fi _ _ 16 rfl (by omega) 1 (by omega) _ _ _
    case hlt => exact lt_of_eq_of_lt (congrArg BitVec.toNat (word_src L SRC fi _ _ 16 rfl (by omega) 1 (by omega) _ _ _)) (hsrc _)
  isplitl [Hr1_2]
  · iexists _; isplitl [Hr1_2]; · iexact Hr1_2
    ipureintro
    intro i hi
    unfold_sl
    refine row_agree X3 SRC fo ⟨96 * (L 1).val + 48 * (L 0).val + (16 + 2), by have := L0_lt L; have := L1_lt L; omega⟩ _ _ _ _ _ ?hoffo rfl ?hv ?hlt _ _ _ i hi
    case hoffo => exact (k0_off17_eq L tr1).trans (vec3_congr (by simp only [tr1] <;> omega))
    case hv => exact word_src L SRC fi _ _ 16 rfl (by omega) 2 (by omega) _ _ _
    case hlt => exact lt_of_eq_of_lt (congrArg BitVec.toNat (word_src L SRC fi _ _ 16 rfl (by omega) 2 (by omega) _ _ _)) (hsrc _)
  isplitl [Hr1_3]
  · iexists _; isplitl [Hr1_3]; · iexact Hr1_3
    ipureintro
    intro i hi
    unfold_sl
    refine row_agree X3 SRC fo ⟨96 * (L 1).val + 48 * (L 0).val + (16 + 3), by have := L0_lt L; have := L1_lt L; omega⟩ _ _ _ _ _ ?hoffo rfl ?hv ?hlt _ _ _ i hi
    case hoffo => exact (k0_off21_eq L tr1).trans (vec3_congr (by simp only [tr1] <;> omega))
    case hv => exact word_src L SRC fi _ _ 16 rfl (by omega) 3 (by omega) _ _ _
    case hlt => exact lt_of_eq_of_lt (congrArg BitVec.toNat (word_src L SRC fi _ _ 16 rfl (by omega) 3 (by omega) _ _ _)) (hsrc _)
  isplitl [Hr1_4]
  · iexists _; isplitl [Hr1_4]; · iexact Hr1_4
    ipureintro
    intro i hi
    unfold_sl
    refine row_agree X3 SRC fo ⟨96 * (L 1).val + 48 * (L 0).val + (16 + 4), by have := L0_lt L; have := L1_lt L; omega⟩ _ _ _ _ _ ?hoffo rfl ?hv ?hlt _ _ _ i hi
    case hoffo => exact (k0_off25_eq L tr1).trans (vec3_congr (by simp only [tr1] <;> omega))
    case hv => exact word_src L SRC fi _ _ 16 rfl (by omega) 4 (by omega) _ _ _
    case hlt => exact lt_of_eq_of_lt (congrArg BitVec.toNat (word_src L SRC fi _ _ 16 rfl (by omega) 4 (by omega) _ _ _)) (hsrc _)
  isplitl [Hr1_5]
  · iexists _; isplitl [Hr1_5]; · iexact Hr1_5
    ipureintro
    intro i hi
    unfold_sl
    refine row_agree X3 SRC fo ⟨96 * (L 1).val + 48 * (L 0).val + (16 + 5), by have := L0_lt L; have := L1_lt L; omega⟩ _ _ _ _ _ ?hoffo rfl ?hv ?hlt _ _ _ i hi
    case hoffo => exact (k0_off29_eq L tr1).trans (vec3_congr (by simp only [tr1] <;> omega))
    case hv => exact word_src L SRC fi _ _ 16 rfl (by omega) 5 (by omega) _ _ _
    case hlt => exact lt_of_eq_of_lt (congrArg BitVec.toNat (word_src L SRC fi _ _ 16 rfl (by omega) 5 (by omega) _ _ _)) (hsrc _)
  isplitl [Hr1_6]
  · iexists _; isplitl [Hr1_6]; · iexact Hr1_6
    ipureintro
    intro i hi
    unfold_sl
    refine row_agree X3 SRC fo ⟨96 * (L 1).val + 48 * (L 0).val + (16 + 6), by have := L0_lt L; have := L1_lt L; omega⟩ _ _ _ _ _ ?hoffo rfl ?hv ?hlt _ _ _ i hi
    case hoffo => exact (k0_off33_eq L tr1).trans (vec3_congr (by simp only [tr1] <;> omega))
    case hv => exact word_src L SRC fi _ _ 16 rfl (by omega) 6 (by omega) _ _ _
    case hlt => exact lt_of_eq_of_lt (congrArg BitVec.toNat (word_src L SRC fi _ _ 16 rfl (by omega) 6 (by omega) _ _ _)) (hsrc _)
  isplitl [Hr1_7]
  · iexists _; isplitl [Hr1_7]; · iexact Hr1_7
    ipureintro
    intro i hi
    unfold_sl
    refine row_agree X3 SRC fo ⟨96 * (L 1).val + 48 * (L 0).val + (16 + 7), by have := L0_lt L; have := L1_lt L; omega⟩ _ _ _ _ _ ?hoffo rfl ?hv ?hlt _ _ _ i hi
    case hoffo => exact (k0_off37_eq L tr1).trans (vec3_congr (by simp only [tr1] <;> omega))
    case hv => exact word_src L SRC fi _ _ 16 rfl (by omega) 7 (by omega) _ _ _
    case hlt => exact lt_of_eq_of_lt (congrArg BitVec.toNat (word_src L SRC fi _ _ 16 rfl (by omega) 7 (by omega) _ _ _)) (hsrc _)
  isplitl [Hr1_8]
  · iexists _; isplitl [Hr1_8]; · iexact Hr1_8
    ipureintro
    intro i hi
    unfold_sl
    refine row_agree X3 SRC fo ⟨96 * (L 1).val + 48 * (L 0).val + (16 + 8), by have := L0_lt L; have := L1_lt L; omega⟩ _ _ _ _ _ ?hoffo rfl ?hv ?hlt _ _ _ i hi
    case hoffo => exact (k0_off41_eq L tr1).trans (vec3_congr (by simp only [tr1] <;> omega))
    case hv => exact word_src L SRC fi _ _ 16 rfl (by omega) 8 (by omega) _ _ _
    case hlt => exact lt_of_eq_of_lt (congrArg BitVec.toNat (word_src L SRC fi _ _ 16 rfl (by omega) 8 (by omega) _ _ _)) (hsrc _)
  isplitl [Hr1_9]
  · iexists _; isplitl [Hr1_9]; · iexact Hr1_9
    ipureintro
    intro i hi
    unfold_sl
    refine row_agree X3 SRC fo ⟨96 * (L 1).val + 48 * (L 0).val + (16 + 9), by have := L0_lt L; have := L1_lt L; omega⟩ _ _ _ _ _ ?hoffo rfl ?hv ?hlt _ _ _ i hi
    case hoffo => exact (k0_off45_eq L tr1).trans (vec3_congr (by simp only [tr1] <;> omega))
    case hv => exact word_src L SRC fi _ _ 16 rfl (by omega) 9 (by omega) _ _ _
    case hlt => exact lt_of_eq_of_lt (congrArg BitVec.toNat (word_src L SRC fi _ _ 16 rfl (by omega) 9 (by omega) _ _ _)) (hsrc _)
  isplitl [Hr1_10]
  · iexists _; isplitl [Hr1_10]; · iexact Hr1_10
    ipureintro
    intro i hi
    unfold_sl
    refine row_agree X3 SRC fo ⟨96 * (L 1).val + 48 * (L 0).val + (16 + 10), by have := L0_lt L; have := L1_lt L; omega⟩ _ _ _ _ _ ?hoffo rfl ?hv ?hlt _ _ _ i hi
    case hoffo => exact (k0_off49_eq L tr1).trans (vec3_congr (by simp only [tr1] <;> omega))
    case hv => exact word_src L SRC fi _ _ 16 rfl (by omega) 10 (by omega) _ _ _
    case hlt => exact lt_of_eq_of_lt (congrArg BitVec.toNat (word_src L SRC fi _ _ 16 rfl (by omega) 10 (by omega) _ _ _)) (hsrc _)
  isplitl [Hr1_11]
  · iexists _; isplitl [Hr1_11]; · iexact Hr1_11
    ipureintro
    intro i hi
    unfold_sl
    refine row_agree X3 SRC fo ⟨96 * (L 1).val + 48 * (L 0).val + (16 + 11), by have := L0_lt L; have := L1_lt L; omega⟩ _ _ _ _ _ ?hoffo rfl ?hv ?hlt _ _ _ i hi
    case hoffo => exact (k0_off53_eq L tr1).trans (vec3_congr (by simp only [tr1] <;> omega))
    case hv => exact word_src L SRC fi _ _ 16 rfl (by omega) 11 (by omega) _ _ _
    case hlt => exact lt_of_eq_of_lt (congrArg BitVec.toNat (word_src L SRC fi _ _ 16 rfl (by omega) 11 (by omega) _ _ _)) (hsrc _)
  isplitl [Hr1_12]
  · iexists _; isplitl [Hr1_12]; · iexact Hr1_12
    ipureintro
    intro i hi
    unfold_sl
    refine row_agree X3 SRC fo ⟨96 * (L 1).val + 48 * (L 0).val + (16 + 12), by have := L0_lt L; have := L1_lt L; omega⟩ _ _ _ _ _ ?hoffo rfl ?hv ?hlt _ _ _ i hi
    case hoffo => exact (k0_off57_eq L tr1).trans (vec3_congr (by simp only [tr1] <;> omega))
    case hv => exact word_src L SRC fi _ _ 16 rfl (by omega) 12 (by omega) _ _ _
    case hlt => exact lt_of_eq_of_lt (congrArg BitVec.toNat (word_src L SRC fi _ _ 16 rfl (by omega) 12 (by omega) _ _ _)) (hsrc _)
  isplitl [Hr1_13]
  · iexists _; isplitl [Hr1_13]; · iexact Hr1_13
    ipureintro
    intro i hi
    unfold_sl
    refine row_agree X3 SRC fo ⟨96 * (L 1).val + 48 * (L 0).val + (16 + 13), by have := L0_lt L; have := L1_lt L; omega⟩ _ _ _ _ _ ?hoffo rfl ?hv ?hlt _ _ _ i hi
    case hoffo => exact (k0_off61_eq L tr1).trans (vec3_congr (by simp only [tr1] <;> omega))
    case hv => exact word_src L SRC fi _ _ 16 rfl (by omega) 13 (by omega) _ _ _
    case hlt => exact lt_of_eq_of_lt (congrArg BitVec.toNat (word_src L SRC fi _ _ 16 rfl (by omega) 13 (by omega) _ _ _)) (hsrc _)
  isplitl [Hr1_14]
  · iexists _; isplitl [Hr1_14]; · iexact Hr1_14
    ipureintro
    intro i hi
    unfold_sl
    refine row_agree X3 SRC fo ⟨96 * (L 1).val + 48 * (L 0).val + (16 + 14), by have := L0_lt L; have := L1_lt L; omega⟩ _ _ _ _ _ ?hoffo rfl ?hv ?hlt _ _ _ i hi
    case hoffo => exact (k0_off65_eq L tr1).trans (vec3_congr (by simp only [tr1] <;> omega))
    case hv => exact word_src L SRC fi _ _ 16 rfl (by omega) 14 (by omega) _ _ _
    case hlt => exact lt_of_eq_of_lt (congrArg BitVec.toNat (word_src L SRC fi _ _ 16 rfl (by omega) 14 (by omega) _ _ _)) (hsrc _)
  isplitl [Hr1_15]
  · iexists _; isplitl [Hr1_15]; · iexact Hr1_15
    ipureintro
    intro i hi
    unfold_sl
    refine row_agree X3 SRC fo ⟨96 * (L 1).val + 48 * (L 0).val + (16 + 15), by have := L0_lt L; have := L1_lt L; omega⟩ _ _ _ _ _ ?hoffo rfl ?hv ?hlt _ _ _ i hi
    case hoffo => exact (k0_off69_eq L tr1).trans (vec3_congr (by simp only [tr1] <;> omega))
    case hv => exact word_src L SRC fi _ _ 16 rfl (by omega) 15 (by omega) _ _ _
    case hlt => exact lt_of_eq_of_lt (congrArg BitVec.toNat (word_src L SRC fi _ _ 16 rfl (by omega) 15 (by omega) _ _ _)) (hsrc _)
  isplitl [Hr2_0]
  · iexists _; isplitl [Hr2_0]; · iexact Hr2_0
    ipureintro
    intro i hi
    unfold_sl
    refine row_agree X3 SRC fo ⟨96 * (L 1).val + 48 * (L 0).val + (32 + 0), by have := L0_lt L; have := L1_lt L; omega⟩ _ _ _ _ _ ?hoffo rfl ?hv ?hlt _ _ _ i hi
    case hoffo => exact (k0_off9_eq L tr2).trans (vec3_congr (by simp only [tr2] <;> omega))
    case hv => exact word_src L SRC fi _ _ 32 rfl (by omega) 0 (by omega) _ _ _
    case hlt => exact lt_of_eq_of_lt (congrArg BitVec.toNat (word_src L SRC fi _ _ 32 rfl (by omega) 0 (by omega) _ _ _)) (hsrc _)
  isplitl [Hr2_1]
  · iexists _; isplitl [Hr2_1]; · iexact Hr2_1
    ipureintro
    intro i hi
    unfold_sl
    refine row_agree X3 SRC fo ⟨96 * (L 1).val + 48 * (L 0).val + (32 + 1), by have := L0_lt L; have := L1_lt L; omega⟩ _ _ _ _ _ ?hoffo rfl ?hv ?hlt _ _ _ i hi
    case hoffo => exact (k0_off13_eq L tr2).trans (vec3_congr (by simp only [tr2] <;> omega))
    case hv => exact word_src L SRC fi _ _ 32 rfl (by omega) 1 (by omega) _ _ _
    case hlt => exact lt_of_eq_of_lt (congrArg BitVec.toNat (word_src L SRC fi _ _ 32 rfl (by omega) 1 (by omega) _ _ _)) (hsrc _)
  isplitl [Hr2_2]
  · iexists _; isplitl [Hr2_2]; · iexact Hr2_2
    ipureintro
    intro i hi
    unfold_sl
    refine row_agree X3 SRC fo ⟨96 * (L 1).val + 48 * (L 0).val + (32 + 2), by have := L0_lt L; have := L1_lt L; omega⟩ _ _ _ _ _ ?hoffo rfl ?hv ?hlt _ _ _ i hi
    case hoffo => exact (k0_off17_eq L tr2).trans (vec3_congr (by simp only [tr2] <;> omega))
    case hv => exact word_src L SRC fi _ _ 32 rfl (by omega) 2 (by omega) _ _ _
    case hlt => exact lt_of_eq_of_lt (congrArg BitVec.toNat (word_src L SRC fi _ _ 32 rfl (by omega) 2 (by omega) _ _ _)) (hsrc _)
  isplitl [Hr2_3]
  · iexists _; isplitl [Hr2_3]; · iexact Hr2_3
    ipureintro
    intro i hi
    unfold_sl
    refine row_agree X3 SRC fo ⟨96 * (L 1).val + 48 * (L 0).val + (32 + 3), by have := L0_lt L; have := L1_lt L; omega⟩ _ _ _ _ _ ?hoffo rfl ?hv ?hlt _ _ _ i hi
    case hoffo => exact (k0_off21_eq L tr2).trans (vec3_congr (by simp only [tr2] <;> omega))
    case hv => exact word_src L SRC fi _ _ 32 rfl (by omega) 3 (by omega) _ _ _
    case hlt => exact lt_of_eq_of_lt (congrArg BitVec.toNat (word_src L SRC fi _ _ 32 rfl (by omega) 3 (by omega) _ _ _)) (hsrc _)
  isplitl [Hr2_4]
  · iexists _; isplitl [Hr2_4]; · iexact Hr2_4
    ipureintro
    intro i hi
    unfold_sl
    refine row_agree X3 SRC fo ⟨96 * (L 1).val + 48 * (L 0).val + (32 + 4), by have := L0_lt L; have := L1_lt L; omega⟩ _ _ _ _ _ ?hoffo rfl ?hv ?hlt _ _ _ i hi
    case hoffo => exact (k0_off25_eq L tr2).trans (vec3_congr (by simp only [tr2] <;> omega))
    case hv => exact word_src L SRC fi _ _ 32 rfl (by omega) 4 (by omega) _ _ _
    case hlt => exact lt_of_eq_of_lt (congrArg BitVec.toNat (word_src L SRC fi _ _ 32 rfl (by omega) 4 (by omega) _ _ _)) (hsrc _)
  isplitl [Hr2_5]
  · iexists _; isplitl [Hr2_5]; · iexact Hr2_5
    ipureintro
    intro i hi
    unfold_sl
    refine row_agree X3 SRC fo ⟨96 * (L 1).val + 48 * (L 0).val + (32 + 5), by have := L0_lt L; have := L1_lt L; omega⟩ _ _ _ _ _ ?hoffo rfl ?hv ?hlt _ _ _ i hi
    case hoffo => exact (k0_off29_eq L tr2).trans (vec3_congr (by simp only [tr2] <;> omega))
    case hv => exact word_src L SRC fi _ _ 32 rfl (by omega) 5 (by omega) _ _ _
    case hlt => exact lt_of_eq_of_lt (congrArg BitVec.toNat (word_src L SRC fi _ _ 32 rfl (by omega) 5 (by omega) _ _ _)) (hsrc _)
  isplitl [Hr2_6]
  · iexists _; isplitl [Hr2_6]; · iexact Hr2_6
    ipureintro
    intro i hi
    unfold_sl
    refine row_agree X3 SRC fo ⟨96 * (L 1).val + 48 * (L 0).val + (32 + 6), by have := L0_lt L; have := L1_lt L; omega⟩ _ _ _ _ _ ?hoffo rfl ?hv ?hlt _ _ _ i hi
    case hoffo => exact (k0_off33_eq L tr2).trans (vec3_congr (by simp only [tr2] <;> omega))
    case hv => exact word_src L SRC fi _ _ 32 rfl (by omega) 6 (by omega) _ _ _
    case hlt => exact lt_of_eq_of_lt (congrArg BitVec.toNat (word_src L SRC fi _ _ 32 rfl (by omega) 6 (by omega) _ _ _)) (hsrc _)
  isplitl [Hr2_7]
  · iexists _; isplitl [Hr2_7]; · iexact Hr2_7
    ipureintro
    intro i hi
    unfold_sl
    refine row_agree X3 SRC fo ⟨96 * (L 1).val + 48 * (L 0).val + (32 + 7), by have := L0_lt L; have := L1_lt L; omega⟩ _ _ _ _ _ ?hoffo rfl ?hv ?hlt _ _ _ i hi
    case hoffo => exact (k0_off37_eq L tr2).trans (vec3_congr (by simp only [tr2] <;> omega))
    case hv => exact word_src L SRC fi _ _ 32 rfl (by omega) 7 (by omega) _ _ _
    case hlt => exact lt_of_eq_of_lt (congrArg BitVec.toNat (word_src L SRC fi _ _ 32 rfl (by omega) 7 (by omega) _ _ _)) (hsrc _)
  isplitl [Hr2_8]
  · iexists _; isplitl [Hr2_8]; · iexact Hr2_8
    ipureintro
    intro i hi
    unfold_sl
    refine row_agree X3 SRC fo ⟨96 * (L 1).val + 48 * (L 0).val + (32 + 8), by have := L0_lt L; have := L1_lt L; omega⟩ _ _ _ _ _ ?hoffo rfl ?hv ?hlt _ _ _ i hi
    case hoffo => exact (k0_off41_eq L tr2).trans (vec3_congr (by simp only [tr2] <;> omega))
    case hv => exact word_src L SRC fi _ _ 32 rfl (by omega) 8 (by omega) _ _ _
    case hlt => exact lt_of_eq_of_lt (congrArg BitVec.toNat (word_src L SRC fi _ _ 32 rfl (by omega) 8 (by omega) _ _ _)) (hsrc _)
  isplitl [Hr2_9]
  · iexists _; isplitl [Hr2_9]; · iexact Hr2_9
    ipureintro
    intro i hi
    unfold_sl
    refine row_agree X3 SRC fo ⟨96 * (L 1).val + 48 * (L 0).val + (32 + 9), by have := L0_lt L; have := L1_lt L; omega⟩ _ _ _ _ _ ?hoffo rfl ?hv ?hlt _ _ _ i hi
    case hoffo => exact (k0_off45_eq L tr2).trans (vec3_congr (by simp only [tr2] <;> omega))
    case hv => exact word_src L SRC fi _ _ 32 rfl (by omega) 9 (by omega) _ _ _
    case hlt => exact lt_of_eq_of_lt (congrArg BitVec.toNat (word_src L SRC fi _ _ 32 rfl (by omega) 9 (by omega) _ _ _)) (hsrc _)
  isplitl [Hr2_10]
  · iexists _; isplitl [Hr2_10]; · iexact Hr2_10
    ipureintro
    intro i hi
    unfold_sl
    refine row_agree X3 SRC fo ⟨96 * (L 1).val + 48 * (L 0).val + (32 + 10), by have := L0_lt L; have := L1_lt L; omega⟩ _ _ _ _ _ ?hoffo rfl ?hv ?hlt _ _ _ i hi
    case hoffo => exact (k0_off49_eq L tr2).trans (vec3_congr (by simp only [tr2] <;> omega))
    case hv => exact word_src L SRC fi _ _ 32 rfl (by omega) 10 (by omega) _ _ _
    case hlt => exact lt_of_eq_of_lt (congrArg BitVec.toNat (word_src L SRC fi _ _ 32 rfl (by omega) 10 (by omega) _ _ _)) (hsrc _)
  isplitl [Hr2_11]
  · iexists _; isplitl [Hr2_11]; · iexact Hr2_11
    ipureintro
    intro i hi
    unfold_sl
    refine row_agree X3 SRC fo ⟨96 * (L 1).val + 48 * (L 0).val + (32 + 11), by have := L0_lt L; have := L1_lt L; omega⟩ _ _ _ _ _ ?hoffo rfl ?hv ?hlt _ _ _ i hi
    case hoffo => exact (k0_off53_eq L tr2).trans (vec3_congr (by simp only [tr2] <;> omega))
    case hv => exact word_src L SRC fi _ _ 32 rfl (by omega) 11 (by omega) _ _ _
    case hlt => exact lt_of_eq_of_lt (congrArg BitVec.toNat (word_src L SRC fi _ _ 32 rfl (by omega) 11 (by omega) _ _ _)) (hsrc _)
  isplitl [Hr2_12]
  · iexists _; isplitl [Hr2_12]; · iexact Hr2_12
    ipureintro
    intro i hi
    unfold_sl
    refine row_agree X3 SRC fo ⟨96 * (L 1).val + 48 * (L 0).val + (32 + 12), by have := L0_lt L; have := L1_lt L; omega⟩ _ _ _ _ _ ?hoffo rfl ?hv ?hlt _ _ _ i hi
    case hoffo => exact (k0_off57_eq L tr2).trans (vec3_congr (by simp only [tr2] <;> omega))
    case hv => exact word_src L SRC fi _ _ 32 rfl (by omega) 12 (by omega) _ _ _
    case hlt => exact lt_of_eq_of_lt (congrArg BitVec.toNat (word_src L SRC fi _ _ 32 rfl (by omega) 12 (by omega) _ _ _)) (hsrc _)
  isplitl [Hr2_13]
  · iexists _; isplitl [Hr2_13]; · iexact Hr2_13
    ipureintro
    intro i hi
    unfold_sl
    refine row_agree X3 SRC fo ⟨96 * (L 1).val + 48 * (L 0).val + (32 + 13), by have := L0_lt L; have := L1_lt L; omega⟩ _ _ _ _ _ ?hoffo rfl ?hv ?hlt _ _ _ i hi
    case hoffo => exact (k0_off61_eq L tr2).trans (vec3_congr (by simp only [tr2] <;> omega))
    case hv => exact word_src L SRC fi _ _ 32 rfl (by omega) 13 (by omega) _ _ _
    case hlt => exact lt_of_eq_of_lt (congrArg BitVec.toNat (word_src L SRC fi _ _ 32 rfl (by omega) 13 (by omega) _ _ _)) (hsrc _)
  isplitl [Hr2_14]
  · iexists _; isplitl [Hr2_14]; · iexact Hr2_14
    ipureintro
    intro i hi
    unfold_sl
    refine row_agree X3 SRC fo ⟨96 * (L 1).val + 48 * (L 0).val + (32 + 14), by have := L0_lt L; have := L1_lt L; omega⟩ _ _ _ _ _ ?hoffo rfl ?hv ?hlt _ _ _ i hi
    case hoffo => exact (k0_off65_eq L tr2).trans (vec3_congr (by simp only [tr2] <;> omega))
    case hv => exact word_src L SRC fi _ _ 32 rfl (by omega) 14 (by omega) _ _ _
    case hlt => exact lt_of_eq_of_lt (congrArg BitVec.toNat (word_src L SRC fi _ _ 32 rfl (by omega) 14 (by omega) _ _ _)) (hsrc _)
  isplitl [Hr2_15]
  · iexists _; isplitl [Hr2_15]; · iexact Hr2_15
    ipureintro
    intro i hi
    unfold_sl
    refine row_agree X3 SRC fo ⟨96 * (L 1).val + 48 * (L 0).val + (32 + 15), by have := L0_lt L; have := L1_lt L; omega⟩ _ _ _ _ _ ?hoffo rfl ?hv ?hlt _ _ _ i hi
    case hoffo => exact (k0_off69_eq L tr2).trans (vec3_congr (by simp only [tr2] <;> omega))
    case hv => exact word_src L SRC fi _ _ 32 rfl (by omega) 15 (by omega) _ _ _
    case hlt => exact lt_of_eq_of_lt (congrArg BitVec.toNat (word_src L SRC fi _ _ 32 rfl (by omega) 15 (by omega) _ _ _)) (hsrc _)
  isplitl [Hm0]; · iexact Hm0
  isplitl [Hm1]; · iexact Hm1
  isplitl [Hm2]; · iexact Hm2
  isplitl [Hm3]; · iexact Hm3
  isplitl [Hm4]; · iexact Hm4
  isplitl [Hm5]; · iexact Hm5
  isplitl [Hm6]; · iexact Hm6
  isplitl [Hm7]; · iexact Hm7
  isplitl [Hm8]; · iexact Hm8
  isplitl [Hm9]; · iexact Hm9
  isplitl [Hm10]; · iexact Hm10
  isplitl [Hm11]; · iexact Hm11
  isplitl [Hm12]; · iexact Hm12
  isplitl [Hm13]; · iexact Hm13
  isplitl [Hm14]; · iexact Hm14
  isplitl [Hm15]; · iexact Hm15
  isplitl [Hm16]; · iexact Hm16
  isplitl [Hm17]; · iexact Hm17
  isplitl [Hm18]; · iexact Hm18
  iexists _; isplitl [HO]; · iexact HO
  ipureintro
  intro p hp
  simp only [Finset.mem_insert] at hp
  repeat (rcases hp with rfl | hp; · exact Or.inr rfl)
  exact Or.inl hp

end Cert.Proof.RunIdeal

end
-- ==== Proof.TileObIdeal.lean ====
/-
  The vector subcores' task as the launch theorem asks for it.  A subcore's block of the result is the
  forty-eight rows its task writes, each row a 224 × 224 image of the 1536-row array; the task's run,
  stated row by row and semaphore by semaphore, regroups into the launch's block, slots and shares; and
  the regrouped run is the launch theorem's obligation at every subcore of the grid.
-/
import proofs.«214331_g712964571761_cont_9to1_m_186_24_alg».proof.Proof.PrepIdeal
import proofs.«214331_g712964571761_cont_9to1_m_186_24_alg».proof.Proof.TileIdeal

noncomputable section

namespace Cert.Proof.RunIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## A subcore's block of the result, row by row -/

/-- Row `r` of a 1536-row array: the elements whose first coordinate is `r`. -/
def rowSetNat (r : Nat) : Finset S1536x224x224.Idx := Finset.univ.filter fun i => (i 0).val = r

theorem vec3_eq {a b : Nat} (h : a = b) : (![a, 0, 0] : Fin 3 → Nat) = ![b, 0, 0] := by rw [h]

/-- The elements of row `r` of the result taken as one image are the elements of the result on row `r`. -/
theorem set_rowOf (off : Fin 3 → Nat) (h : ∀ a, off a + S1x224x224.size a ≤ S1536x224x224.size a) (r : Nat)
    (hoff : off = ![r, 0, 0]) : (rowOf oW off h).view.set = rowSetNat r := by
  subst hoff
  have hr : r < 1536 := by have := h 0; simpa using this
  ext i
  simp only [rowSetNat, Finset.mem_filter, Finset.mem_univ, true_and]
  constructor
  · intro hi
    obtain ⟨y, -, rfl⟩ := Finset.mem_map.mp hi
    rw [emb_rowOf oW ⟨r, hr⟩ _ h rfl y]
    rfl
  · intro hi
    refine Finset.mem_map.mpr ⟨ix2 (i 1 : Fin 224) (i 2 : Fin 224), Finset.mem_univ _, ?_⟩
    rw [emb_rowOf oW ⟨r, hr⟩ _ h rfl]
    show ix3 (⟨r, hr⟩ : Fin 1536) (i 1 : Fin 224) (i 2 : Fin 224) = i
    rw [eq_ix3 i]
    exact congrArg (fun z => ix3 z (i 1 : Fin 224) (i 2 : Fin 224)) (Fin.ext hi.symm)

/-- Block `w` of the result is its forty-eight rows. -/
theorem oSet_rows (w : Fin 32) : oSet w = (Finset.univ : Finset (Fin 48)).biUnion fun n => rowSetNat (48 * w.val + n.val) := by
  rw [oSet_eq]
  ext i
  simp only [Finset.mem_biUnion, Finset.mem_univ, true_and, rowSetNat, Finset.mem_filter]
  rw [Rect.mem_set_unit]
  have hw := w.isLt
  have hi := (i 0).isLt
  constructor
  · intro h
    have h0 := h 0
    simp only [Shape.partIx, Shape.partSize] at h0
    refine ⟨⟨(i 0).val - 48 * w.val, ?_⟩, ?_⟩ <;> simp at h0 ⊢ <;> omega
  · rintro ⟨n, hn⟩ a
    have := n.isLt
    match a with
    | ⟨0, _⟩ => simp [Shape.partIx, Shape.partSize]; omega
    | ⟨1, _⟩ => simp [Shape.partIx, Shape.partSize]; exact (i 1).isLt
    | ⟨2, _⟩ => simp [Shape.partIx, Shape.partSize]; exact (i 2).isLt

theorem rowSetNat_disjoint {r r' : Nat} (h : r ≠ r') : Disjoint (rowSetNat r) (rowSetNat r') :=
  Finset.disjoint_filter.mpr fun _ _ h1 h2 => h (h1.symm.trans h2)

theorem oBlock_big (d : Dev nD) (w : Fin 32) (f : Buf (Elt F) (oLoc d)) :
    (oLoc d ↦[oSet w]{fullShare} f : sProp 𝕄) = bigSep Finset.univ fun n : Fin 48 => oLoc d ↦[rowSetNat (48 * w.val + n.val)]{fullShare} f := by
  rw [oSet_rows, pointsTo_biUnion Finset.univ (ℓ := oLoc d) (fun n : Fin 48 => rowSetNat (48 * w.val + n.val))
    (fun i _ j _ hij => rowSetNat_disjoint (fun e => hij (Fin.ext (by omega))))]

theorem bigSep_fin_succ {n : Nat} (Φ : Fin (n + 2) → sProp 𝕄) :
    bigSep Finset.univ Φ = iprop(Φ 0 ∗ bigSep Finset.univ fun i : Fin (n + 1) => Φ i.succ) := by
  unfold bigSep
  rw [Fin.univ_succ, Finset.fold_cons, Finset.fold_map]
  rfl

theorem bigSep_fin_one (Φ : Fin 1 → sProp 𝕄) : bigSep Finset.univ Φ = Φ 0 := bigSep_univ_of_subsingleton 0

theorem rowPts_eq (d : Dev nD) (L : grid0.Coords) (f : Buf (Elt F) (oLoc d)) (off : Fin 3 → Nat)
    (h : ∀ a, off a + S1x224x224.size a ≤ S1536x224x224.size a) (r : Nat) (hoff : off = ![r, 0, 0]) :
    ((rowOf oW off h).view.loc (V d (cV L) (jV L)) ↦[(rowOf oW off h).view.set]{fullShare} f : sProp 𝕄)
      = (oLoc d ↦[rowSetNat r]{fullShare} f) := by
  rw [set_rowOf off h r hoff]

set_option maxHeartbeats 4000000 in
/-- A subcore's block of the result is the forty-eight rows its task writes, in the order it writes them. -/
theorem oBlock_rows (d : Dev nD) (L : grid0.Coords) (w : Fin 32) (hw : w.val = 2 * (L 1).val + (L 0).val) (f : Buf (Elt F) (oLoc d)) :
    (oLoc d ↦[oSet w]{fullShare} f : sProp 𝕄)
      = iprop(((rowOf oW (k0_off9 L tr0) (k0_off9_inb L tr0)).view.loc (V d (cV L) (jV L)) ↦[(rowOf oW (k0_off9 L tr0) (k0_off9_inb L tr0)).view.set]{fullShare} f)
        ∗ ((rowOf oW (k0_off13 L tr0) (k0_off13_inb L tr0)).view.loc (V d (cV L) (jV L)) ↦[(rowOf oW (k0_off13 L tr0) (k0_off13_inb L tr0)).view.set]{fullShare} f)
        ∗ ((rowOf oW (k0_off17 L tr0) (k0_off17_inb L tr0)).view.loc (V d (cV L) (jV L)) ↦[(rowOf oW (k0_off17 L tr0) (k0_off17_inb L tr0)).view.set]{fullShare} f)
        ∗ ((rowOf oW (k0_off21 L tr0) (k0_off21_inb L tr0)).view.loc (V d (cV L) (jV L)) ↦[(rowOf oW (k0_off21 L tr0) (k0_off21_inb L tr0)).view.set]{fullShare} f)
        ∗ ((rowOf oW (k0_off25 L tr0) (k0_off25_inb L tr0)).view.loc (V d (cV L) (jV L)) ↦[(rowOf oW (k0_off25 L tr0) (k0_off25_inb L tr0)).view.set]{fullShare} f)
        ∗ ((rowOf oW (k0_off29 L tr0) (k0_off29_inb L tr0)).view.loc (V d (cV L) (jV L)) ↦[(rowOf oW (k0_off29 L tr0) (k0_off29_inb L tr0)).view.set]{fullShare} f)
        ∗ ((rowOf oW (k0_off33 L tr0) (k0_off33_inb L tr0)).view.loc (V d (cV L) (jV L)) ↦[(rowOf oW (k0_off33 L tr0) (k0_off33_inb L tr0)).view.set]{fullShare} f)
        ∗ ((rowOf oW (k0_off37 L tr0) (k0_off37_inb L tr0)).view.loc (V d (cV L) (jV L)) ↦[(rowOf oW (k0_off37 L tr0) (k0_off37_inb L tr0)).view.set]{fullShare} f)
        ∗ ((rowOf oW (k0_off41 L tr0) (k0_off41_inb L tr0)).view.loc (V d (cV L) (jV L)) ↦[(rowOf oW (k0_off41 L tr0) (k0_off41_inb L tr0)).view.set]{fullShare} f)
        ∗ ((rowOf oW (k0_off45 L tr0) (k0_off45_inb L tr0)).view.loc (V d (cV L) (jV L)) ↦[(rowOf oW (k0_off45 L tr0) (k0_off45_inb L tr0)).view.set]{fullShare} f)
        ∗ ((rowOf oW (k0_off49 L tr0) (k0_off49_inb L tr0)).view.loc (V d (cV L) (jV L)) ↦[(rowOf oW (k0_off49 L tr0) (k0_off49_inb L tr0)).view.set]{fullShare} f)
        ∗ ((rowOf oW (k0_off53 L tr0) (k0_off53_inb L tr0)).view.loc (V d (cV L) (jV L)) ↦[(rowOf oW (k0_off53 L tr0) (k0_off53_inb L tr0)).view.set]{fullShare} f)
        ∗ ((rowOf oW (k0_off57 L tr0) (k0_off57_inb L tr0)).view.loc (V d (cV L) (jV L)) ↦[(rowOf oW (k0_off57 L tr0) (k0_off57_inb L tr0)).view.set]{fullShare} f)
        ∗ ((rowOf oW (k0_off61 L tr0) (k0_off61_inb L tr0)).view.loc (V d (cV L) (jV L)) ↦[(rowOf oW (k0_off61 L tr0) (k0_off61_inb L tr0)).view.set]{fullShare} f)
        ∗ ((rowOf oW (k0_off65 L tr0) (k0_off65_inb L tr0)).view.loc (V d (cV L) (jV L)) ↦[(rowOf oW (k0_off65 L tr0) (k0_off65_inb L tr0)).view.set]{fullShare} f)
        ∗ ((rowOf oW (k0_off69 L tr0) (k0_off69_inb L tr0)).view.loc (V d (cV L) (jV L)) ↦[(rowOf oW (k0_off69 L tr0) (k0_off69_inb L tr0)).view.set]{fullShare} f)
        ∗ ((rowOf oW (k0_off9 L tr1) (k0_off9_inb L tr1)).view.loc (V d (cV L) (jV L)) ↦[(rowOf oW (k0_off9 L tr1) (k0_off9_inb L tr1)).view.set]{fullShare} f)
        ∗ ((rowOf oW (k0_off13 L tr1) (k0_off13_inb L tr1)).view.loc (V d (cV L) (jV L)) ↦[(rowOf oW (k0_off13 L tr1) (k0_off13_inb L tr1)).view.set]{fullShare} f)
        ∗ ((rowOf oW (k0_off17 L tr1) (k0_off17_inb L tr1)).view.loc (V d (cV L) (jV L)) ↦[(rowOf oW (k0_off17 L tr1) (k0_off17_inb L tr1)).view.set]{fullShare} f)
        ∗ ((rowOf oW (k0_off21 L tr1) (k0_off21_inb L tr1)).view.loc (V d (cV L) (jV L)) ↦[(rowOf oW (k0_off21 L tr1) (k0_off21_inb L tr1)).view.set]{fullShare} f)
        ∗ ((rowOf oW (k0_off25 L tr1) (k0_off25_inb L tr1)).view.loc (V d (cV L) (jV L)) ↦[(rowOf oW (k0_off25 L tr1) (k0_off25_inb L tr1)).view.set]{fullShare} f)
        ∗ ((rowOf oW (k0_off29 L tr1) (k0_off29_inb L tr1)).view.loc (V d (cV L) (jV L)) ↦[(rowOf oW (k0_off29 L tr1) (k0_off29_inb L tr1)).view.set]{fullShare} f)
        ∗ ((rowOf oW (k0_off33 L tr1) (k0_off33_inb L tr1)).view.loc (V d (cV L) (jV L)) ↦[(rowOf oW (k0_off33 L tr1) (k0_off33_inb L tr1)).view.set]{fullShare} f)
        ∗ ((rowOf oW (k0_off37 L tr1) (k0_off37_inb L tr1)).view.loc (V d (cV L) (jV L)) ↦[(rowOf oW (k0_off37 L tr1) (k0_off37_inb L tr1)).view.set]{fullShare} f)
        ∗ ((rowOf oW (k0_off41 L tr1) (k0_off41_inb L tr1)).view.loc (V d (cV L) (jV L)) ↦[(rowOf oW (k0_off41 L tr1) (k0_off41_inb L tr1)).view.set]{fullShare} f)
        ∗ ((rowOf oW (k0_off45 L tr1) (k0_off45_inb L tr1)).view.loc (V d (cV L) (jV L)) ↦[(rowOf oW (k0_off45 L tr1) (k0_off45_inb L tr1)).view.set]{fullShare} f)
        ∗ ((rowOf oW (k0_off49 L tr1) (k0_off49_inb L tr1)).view.loc (V d (cV L) (jV L)) ↦[(rowOf oW (k0_off49 L tr1) (k0_off49_inb L tr1)).view.set]{fullShare} f)
        ∗ ((rowOf oW (k0_off53 L tr1) (k0_off53_inb L tr1)).view.loc (V d (cV L) (jV L)) ↦[(rowOf oW (k0_off53 L tr1) (k0_off53_inb L tr1)).view.set]{fullShare} f)
        ∗ ((rowOf oW (k0_off57 L tr1) (k0_off57_inb L tr1)).view.loc (V d (cV L) (jV L)) ↦[(rowOf oW (k0_off57 L tr1) (k0_off57_inb L tr1)).view.set]{fullShare} f)
        ∗ ((rowOf oW (k0_off61 L tr1) (k0_off61_inb L tr1)).view.loc (V d (cV L) (jV L)) ↦[(rowOf oW (k0_off61 L tr1) (k0_off61_inb L tr1)).view.set]{fullShare} f)
        ∗ ((rowOf oW (k0_off65 L tr1) (k0_off65_inb L tr1)).view.loc (V d (cV L) (jV L)) ↦[(rowOf oW (k0_off65 L tr1) (k0_off65_inb L tr1)).view.set]{fullShare} f)
        ∗ ((rowOf oW (k0_off69 L tr1) (k0_off69_inb L tr1)).view.loc (V d (cV L) (jV L)) ↦[(rowOf oW (k0_off69 L tr1) (k0_off69_inb L tr1)).view.set]{fullShare} f)
        ∗ ((rowOf oW (k0_off9 L tr2) (k0_off9_inb L tr2)).view.loc (V d (cV L) (jV L)) ↦[(rowOf oW (k0_off9 L tr2) (k0_off9_inb L tr2)).view.set]{fullShare} f)
        ∗ ((rowOf oW (k0_off13 L tr2) (k0_off13_inb L tr2)).view.loc (V d (cV L) (jV L)) ↦[(rowOf oW (k0_off13 L tr2) (k0_off13_inb L tr2)).view.set]{fullShare} f)
        ∗ ((rowOf oW (k0_off17 L tr2) (k0_off17_inb L tr2)).view.loc (V d (cV L) (jV L)) ↦[(rowOf oW (k0_off17 L tr2) (k0_off17_inb L tr2)).view.set]{fullShare} f)
        ∗ ((rowOf oW (k0_off21 L tr2) (k0_off21_inb L tr2)).view.loc (V d (cV L) (jV L)) ↦[(rowOf oW (k0_off21 L tr2) (k0_off21_inb L tr2)).view.set]{fullShare} f)
        ∗ ((rowOf oW (k0_off25 L tr2) (k0_off25_inb L tr2)).view.loc (V d (cV L) (jV L)) ↦[(rowOf oW (k0_off25 L tr2) (k0_off25_inb L tr2)).view.set]{fullShare} f)
        ∗ ((rowOf oW (k0_off29 L tr2) (k0_off29_inb L tr2)).view.loc (V d (cV L) (jV L)) ↦[(rowOf oW (k0_off29 L tr2) (k0_off29_inb L tr2)).view.set]{fullShare} f)
        ∗ ((rowOf oW (k0_off33 L tr2) (k0_off33_inb L tr2)).view.loc (V d (cV L) (jV L)) ↦[(rowOf oW (k0_off33 L tr2) (k0_off33_inb L tr2)).view.set]{fullShare} f)
        ∗ ((rowOf oW (k0_off37 L tr2) (k0_off37_inb L tr2)).view.loc (V d (cV L) (jV L)) ↦[(rowOf oW (k0_off37 L tr2) (k0_off37_inb L tr2)).view.set]{fullShare} f)
        ∗ ((rowOf oW (k0_off41 L tr2) (k0_off41_inb L tr2)).view.loc (V d (cV L) (jV L)) ↦[(rowOf oW (k0_off41 L tr2) (k0_off41_inb L tr2)).view.set]{fullShare} f)
        ∗ ((rowOf oW (k0_off45 L tr2) (k0_off45_inb L tr2)).view.loc (V d (cV L) (jV L)) ↦[(rowOf oW (k0_off45 L tr2) (k0_off45_inb L tr2)).view.set]{fullShare} f)
        ∗ ((rowOf oW (k0_off49 L tr2) (k0_off49_inb L tr2)).view.loc (V d (cV L) (jV L)) ↦[(rowOf oW (k0_off49 L tr2) (k0_off49_inb L tr2)).view.set]{fullShare} f)
        ∗ ((rowOf oW (k0_off53 L tr2) (k0_off53_inb L tr2)).view.loc (V d (cV L) (jV L)) ↦[(rowOf oW (k0_off53 L tr2) (k0_off53_inb L tr2)).view.set]{fullShare} f)
        ∗ ((rowOf oW (k0_off57 L tr2) (k0_off57_inb L tr2)).view.loc (V d (cV L) (jV L)) ↦[(rowOf oW (k0_off57 L tr2) (k0_off57_inb L tr2)).view.set]{fullShare} f)
        ∗ ((rowOf oW (k0_off61 L tr2) (k0_off61_inb L tr2)).view.loc (V d (cV L) (jV L)) ↦[(rowOf oW (k0_off61 L tr2) (k0_off61_inb L tr2)).view.set]{fullShare} f)
        ∗ ((rowOf oW (k0_off65 L tr2) (k0_off65_inb L tr2)).view.loc (V d (cV L) (jV L)) ↦[(rowOf oW (k0_off65 L tr2) (k0_off65_inb L tr2)).view.set]{fullShare} f)
        ∗ ((rowOf oW (k0_off69 L tr2) (k0_off69_inb L tr2)).view.loc (V d (cV L) (jV L)) ↦[(rowOf oW (k0_off69 L tr2) (k0_off69_inb L tr2)).view.set]{fullShare} f)) := by
  rw [oBlock_big d w f]
  simp only [bigSep_fin_succ, bigSep_fin_one, Fin.val_succ, Fin.val_zero, Nat.reduceAdd]
  exact Eq.symm (congrArg₂ BI.sep (rowPts_eq d L f (k0_off9 L tr0) (k0_off9_inb L tr0) (48 * w.val + 0) ((k0_off9_eq L tr0).trans (vec3_eq (by show 96 * (L 1).val + 48 * (L 0).val + 16 * 0 = 48 * w.val + 0; omega))))
    (congrArg₂ BI.sep (rowPts_eq d L f (k0_off13 L tr0) (k0_off13_inb L tr0) (48 * w.val + 1) ((k0_off13_eq L tr0).trans (vec3_eq (by show 96 * (L 1).val + 48 * (L 0).val + 16 * 0 + 1 = 48 * w.val + 1; omega))))
    (congrArg₂ BI.sep (rowPts_eq d L f (k0_off17 L tr0) (k0_off17_inb L tr0) (48 * w.val + 2) ((k0_off17_eq L tr0).trans (vec3_eq (by show 96 * (L 1).val + 48 * (L 0).val + 16 * 0 + 2 = 48 * w.val + 2; omega))))
    (congrArg₂ BI.sep (rowPts_eq d L f (k0_off21 L tr0) (k0_off21_inb L tr0) (48 * w.val + 3) ((k0_off21_eq L tr0).trans (vec3_eq (by show 96 * (L 1).val + 48 * (L 0).val + 16 * 0 + 3 = 48 * w.val + 3; omega))))
    (congrArg₂ BI.sep (rowPts_eq d L f (k0_off25 L tr0) (k0_off25_inb L tr0) (48 * w.val + 4) ((k0_off25_eq L tr0).trans (vec3_eq (by show 96 * (L 1).val + 48 * (L 0).val + 16 * 0 + 4 = 48 * w.val + 4; omega))))
    (congrArg₂ BI.sep (rowPts_eq d L f (k0_off29 L tr0) (k0_off29_inb L tr0) (48 * w.val + 5) ((k0_off29_eq L tr0).trans (vec3_eq (by show 96 * (L 1).val + 48 * (L 0).val + 16 * 0 + 5 = 48 * w.val + 5; omega))))
    (congrArg₂ BI.sep (rowPts_eq d L f (k0_off33 L tr0) (k0_off33_inb L tr0) (48 * w.val + 6) ((k0_off33_eq L tr0).trans (vec3_eq (by show 96 * (L 1).val + 48 * (L 0).val + 16 * 0 + 6 = 48 * w.val + 6; omega))))
    (congrArg₂ BI.sep (rowPts_eq d L f (k0_off37 L tr0) (k0_off37_inb L tr0) (48 * w.val + 7) ((k0_off37_eq L tr0).trans (vec3_eq (by show 96 * (L 1).val + 48 * (L 0).val + 16 * 0 + 7 = 48 * w.val + 7; omega))))
    (congrArg₂ BI.sep (rowPts_eq d L f (k0_off41 L tr0) (k0_off41_inb L tr0) (48 * w.val + 8) ((k0_off41_eq L tr0).trans (vec3_eq (by show 96 * (L 1).val + 48 * (L 0).val + 16 * 0 + 8 = 48 * w.val + 8; omega))))
    (congrArg₂ BI.sep (rowPts_eq d L f (k0_off45 L tr0) (k0_off45_inb L tr0) (48 * w.val + 9) ((k0_off45_eq L tr0).trans (vec3_eq (by show 96 * (L 1).val + 48 * (L 0).val + 16 * 0 + 9 = 48 * w.val + 9; omega))))
    (congrArg₂ BI.sep (rowPts_eq d L f (k0_off49 L tr0) (k0_off49_inb L tr0) (48 * w.val + 10) ((k0_off49_eq L tr0).trans (vec3_eq (by show 96 * (L 1).val + 48 * (L 0).val + 16 * 0 + 10 = 48 * w.val + 10; omega))))
    (congrArg₂ BI.sep (rowPts_eq d L f (k0_off53 L tr0) (k0_off53_inb L tr0) (48 * w.val + 11) ((k0_off53_eq L tr0).trans (vec3_eq (by show 96 * (L 1).val + 48 * (L 0).val + 16 * 0 + 11 = 48 * w.val + 11; omega))))
    (congrArg₂ BI.sep (rowPts_eq d L f (k0_off57 L tr0) (k0_off57_inb L tr0) (48 * w.val + 12) ((k0_off57_eq L tr0).trans (vec3_eq (by show 96 * (L 1).val + 48 * (L 0).val + 16 * 0 + 12 = 48 * w.val + 12; omega))))
    (congrArg₂ BI.sep (rowPts_eq d L f (k0_off61 L tr0) (k0_off61_inb L tr0) (48 * w.val + 13) ((k0_off61_eq L tr0).trans (vec3_eq (by show 96 * (L 1).val + 48 * (L 0).val + 16 * 0 + 13 = 48 * w.val + 13; omega))))
    (congrArg₂ BI.sep (rowPts_eq d L f (k0_off65 L tr0) (k0_off65_inb L tr0) (48 * w.val + 14) ((k0_off65_eq L tr0).trans (vec3_eq (by show 96 * (L 1).val + 48 * (L 0).val + 16 * 0 + 14 = 48 * w.val + 14; omega))))
    (congrArg₂ BI.sep (rowPts_eq d L f (k0_off69 L tr0) (k0_off69_inb L tr0) (48 * w.val + 15) ((k0_off69_eq L tr0).trans (vec3_eq (by show 96 * (L 1).val + 48 * (L 0).val + 16 * 0 + 15 = 48 * w.val + 15; omega))))
    (congrArg₂ BI.sep (rowPts_eq d L f (k0_off9 L tr1) (k0_off9_inb L tr1) (48 * w.val + 16) ((k0_off9_eq L tr1).trans (vec3_eq (by show 96 * (L 1).val + 48 * (L 0).val + 16 * 1 = 48 * w.val + 16; omega))))
    (congrArg₂ BI.sep (rowPts_eq d L f (k0_off13 L tr1) (k0_off13_inb L tr1) (48 * w.val + 17) ((k0_off13_eq L tr1).trans (vec3_eq (by show 96 * (L 1).val + 48 * (L 0).val + 16 * 1 + 1 = 48 * w.val + 17; omega))))
    (congrArg₂ BI.sep (rowPts_eq d L f (k0_off17 L tr1) (k0_off17_inb L tr1) (48 * w.val + 18) ((k0_off17_eq L tr1).trans (vec3_eq (by show 96 * (L 1).val + 48 * (L 0).val + 16 * 1 + 2 = 48 * w.val + 18; omega))))
    (congrArg₂ BI.sep (rowPts_eq d L f (k0_off21 L tr1) (k0_off21_inb L tr1) (48 * w.val + 19) ((k0_off21_eq L tr1).trans (vec3_eq (by show 96 * (L 1).val + 48 * (L 0).val + 16 * 1 + 3 = 48 * w.val + 19; omega))))
    (congrArg₂ BI.sep (rowPts_eq d L f (k0_off25 L tr1) (k0_off25_inb L tr1) (48 * w.val + 20) ((k0_off25_eq L tr1).trans (vec3_eq (by show 96 * (L 1).val + 48 * (L 0).val + 16 * 1 + 4 = 48 * w.val + 20; omega))))
    (congrArg₂ BI.sep (rowPts_eq d L f (k0_off29 L tr1) (k0_off29_inb L tr1) (48 * w.val + 21) ((k0_off29_eq L tr1).trans (vec3_eq (by show 96 * (L 1).val + 48 * (L 0).val + 16 * 1 + 5 = 48 * w.val + 21; omega))))
    (congrArg₂ BI.sep (rowPts_eq d L f (k0_off33 L tr1) (k0_off33_inb L tr1) (48 * w.val + 22) ((k0_off33_eq L tr1).trans (vec3_eq (by show 96 * (L 1).val + 48 * (L 0).val + 16 * 1 + 6 = 48 * w.val + 22; omega))))
    (congrArg₂ BI.sep (rowPts_eq d L f (k0_off37 L tr1) (k0_off37_inb L tr1) (48 * w.val + 23) ((k0_off37_eq L tr1).trans (vec3_eq (by show 96 * (L 1).val + 48 * (L 0).val + 16 * 1 + 7 = 48 * w.val + 23; omega))))
    (congrArg₂ BI.sep (rowPts_eq d L f (k0_off41 L tr1) (k0_off41_inb L tr1) (48 * w.val + 24) ((k0_off41_eq L tr1).trans (vec3_eq (by show 96 * (L 1).val + 48 * (L 0).val + 16 * 1 + 8 = 48 * w.val + 24; omega))))
    (congrArg₂ BI.sep (rowPts_eq d L f (k0_off45 L tr1) (k0_off45_inb L tr1) (48 * w.val + 25) ((k0_off45_eq L tr1).trans (vec3_eq (by show 96 * (L 1).val + 48 * (L 0).val + 16 * 1 + 9 = 48 * w.val + 25; omega))))
    (congrArg₂ BI.sep (rowPts_eq d L f (k0_off49 L tr1) (k0_off49_inb L tr1) (48 * w.val + 26) ((k0_off49_eq L tr1).trans (vec3_eq (by show 96 * (L 1).val + 48 * (L 0).val + 16 * 1 + 10 = 48 * w.val + 26; omega))))
    (congrArg₂ BI.sep (rowPts_eq d L f (k0_off53 L tr1) (k0_off53_inb L tr1) (48 * w.val + 27) ((k0_off53_eq L tr1).trans (vec3_eq (by show 96 * (L 1).val + 48 * (L 0).val + 16 * 1 + 11 = 48 * w.val + 27; omega))))
    (congrArg₂ BI.sep (rowPts_eq d L f (k0_off57 L tr1) (k0_off57_inb L tr1) (48 * w.val + 28) ((k0_off57_eq L tr1).trans (vec3_eq (by show 96 * (L 1).val + 48 * (L 0).val + 16 * 1 + 12 = 48 * w.val + 28; omega))))
    (congrArg₂ BI.sep (rowPts_eq d L f (k0_off61 L tr1) (k0_off61_inb L tr1) (48 * w.val + 29) ((k0_off61_eq L tr1).trans (vec3_eq (by show 96 * (L 1).val + 48 * (L 0).val + 16 * 1 + 13 = 48 * w.val + 29; omega))))
    (congrArg₂ BI.sep (rowPts_eq d L f (k0_off65 L tr1) (k0_off65_inb L tr1) (48 * w.val + 30) ((k0_off65_eq L tr1).trans (vec3_eq (by show 96 * (L 1).val + 48 * (L 0).val + 16 * 1 + 14 = 48 * w.val + 30; omega))))
    (congrArg₂ BI.sep (rowPts_eq d L f (k0_off69 L tr1) (k0_off69_inb L tr1) (48 * w.val + 31) ((k0_off69_eq L tr1).trans (vec3_eq (by show 96 * (L 1).val + 48 * (L 0).val + 16 * 1 + 15 = 48 * w.val + 31; omega))))
    (congrArg₂ BI.sep (rowPts_eq d L f (k0_off9 L tr2) (k0_off9_inb L tr2) (48 * w.val + 32) ((k0_off9_eq L tr2).trans (vec3_eq (by show 96 * (L 1).val + 48 * (L 0).val + 16 * 2 = 48 * w.val + 32; omega))))
    (congrArg₂ BI.sep (rowPts_eq d L f (k0_off13 L tr2) (k0_off13_inb L tr2) (48 * w.val + 33) ((k0_off13_eq L tr2).trans (vec3_eq (by show 96 * (L 1).val + 48 * (L 0).val + 16 * 2 + 1 = 48 * w.val + 33; omega))))
    (congrArg₂ BI.sep (rowPts_eq d L f (k0_off17 L tr2) (k0_off17_inb L tr2) (48 * w.val + 34) ((k0_off17_eq L tr2).trans (vec3_eq (by show 96 * (L 1).val + 48 * (L 0).val + 16 * 2 + 2 = 48 * w.val + 34; omega))))
    (congrArg₂ BI.sep (rowPts_eq d L f (k0_off21 L tr2) (k0_off21_inb L tr2) (48 * w.val + 35) ((k0_off21_eq L tr2).trans (vec3_eq (by show 96 * (L 1).val + 48 * (L 0).val + 16 * 2 + 3 = 48 * w.val + 35; omega))))
    (congrArg₂ BI.sep (rowPts_eq d L f (k0_off25 L tr2) (k0_off25_inb L tr2) (48 * w.val + 36) ((k0_off25_eq L tr2).trans (vec3_eq (by show 96 * (L 1).val + 48 * (L 0).val + 16 * 2 + 4 = 48 * w.val + 36; omega))))
    (congrArg₂ BI.sep (rowPts_eq d L f (k0_off29 L tr2) (k0_off29_inb L tr2) (48 * w.val + 37) ((k0_off29_eq L tr2).trans (vec3_eq (by show 96 * (L 1).val + 48 * (L 0).val + 16 * 2 + 5 = 48 * w.val + 37; omega))))
    (congrArg₂ BI.sep (rowPts_eq d L f (k0_off33 L tr2) (k0_off33_inb L tr2) (48 * w.val + 38) ((k0_off33_eq L tr2).trans (vec3_eq (by show 96 * (L 1).val + 48 * (L 0).val + 16 * 2 + 6 = 48 * w.val + 38; omega))))
    (congrArg₂ BI.sep (rowPts_eq d L f (k0_off37 L tr2) (k0_off37_inb L tr2) (48 * w.val + 39) ((k0_off37_eq L tr2).trans (vec3_eq (by show 96 * (L 1).val + 48 * (L 0).val + 16 * 2 + 7 = 48 * w.val + 39; omega))))
    (congrArg₂ BI.sep (rowPts_eq d L f (k0_off41 L tr2) (k0_off41_inb L tr2) (48 * w.val + 40) ((k0_off41_eq L tr2).trans (vec3_eq (by show 96 * (L 1).val + 48 * (L 0).val + 16 * 2 + 8 = 48 * w.val + 40; omega))))
    (congrArg₂ BI.sep (rowPts_eq d L f (k0_off45 L tr2) (k0_off45_inb L tr2) (48 * w.val + 41) ((k0_off45_eq L tr2).trans (vec3_eq (by show 96 * (L 1).val + 48 * (L 0).val + 16 * 2 + 9 = 48 * w.val + 41; omega))))
    (congrArg₂ BI.sep (rowPts_eq d L f (k0_off49 L tr2) (k0_off49_inb L tr2) (48 * w.val + 42) ((k0_off49_eq L tr2).trans (vec3_eq (by show 96 * (L 1).val + 48 * (L 0).val + 16 * 2 + 10 = 48 * w.val + 42; omega))))
    (congrArg₂ BI.sep (rowPts_eq d L f (k0_off53 L tr2) (k0_off53_inb L tr2) (48 * w.val + 43) ((k0_off53_eq L tr2).trans (vec3_eq (by show 96 * (L 1).val + 48 * (L 0).val + 16 * 2 + 11 = 48 * w.val + 43; omega))))
    (congrArg₂ BI.sep (rowPts_eq d L f (k0_off57 L tr2) (k0_off57_inb L tr2) (48 * w.val + 44) ((k0_off57_eq L tr2).trans (vec3_eq (by show 96 * (L 1).val + 48 * (L 0).val + 16 * 2 + 12 = 48 * w.val + 44; omega))))
    (congrArg₂ BI.sep (rowPts_eq d L f (k0_off61 L tr2) (k0_off61_inb L tr2) (48 * w.val + 45) ((k0_off61_eq L tr2).trans (vec3_eq (by show 96 * (L 1).val + 48 * (L 0).val + 16 * 2 + 13 = 48 * w.val + 45; omega))))
    (congrArg₂ BI.sep (rowPts_eq d L f (k0_off65 L tr2) (k0_off65_inb L tr2) (48 * w.val + 46) ((k0_off65_eq L tr2).trans (vec3_eq (by show 96 * (L 1).val + 48 * (L 0).val + 16 * 2 + 14 = 48 * w.val + 46; omega))))
    (rowPts_eq d L f (k0_off69 L tr2) (k0_off69_inb L tr2) (48 * w.val + 47) ((k0_off69_eq L tr2).trans (vec3_eq (by show 96 * (L 1).val + 48 * (L 0).val + 16 * 2 + 15 = 48 * w.val + 47; omega)))))))))))))))))))))))))))))))))))))))))))))))))))

/-! ## Regrouping: the rows and the semaphores in front of a remainder -/

theorem sepm {A A' B B' : sProp 𝕄} (h1 : A ⊢ A') (h2 : B ⊢ B') : iprop(A ∗ B) ⊢ iprop(A' ∗ B') := by
  iintro ⟨HA, HB⟩
  isplitl [HA]
  · iapply h1; iexact HA
  · iapply h2; iexact HB

theorem sep_assoc_eq (A B C : sProp 𝕄) : iprop((A ∗ B) ∗ C) = iprop(A ∗ B ∗ C) := by
  have h1 : iprop((A ∗ B) ∗ C) ⊢ iprop(A ∗ B ∗ C) := by
    iintro ⟨⟨HA, HB⟩, HC⟩
    isplitl [HA]; · iexact HA
    isplitl [HB]; · iexact HB
    iexact HC
  have h2 : iprop(A ∗ B ∗ C) ⊢ iprop((A ∗ B) ∗ C) := by
    iintro ⟨HA, HB, HC⟩
    isplitr [HC]
    · isplitl [HA]; · iexact HA
      iexact HB
    iexact HC
  exact BI.equiv_iff.mp ⟨h1, h2⟩

set_option maxHeartbeats 4000000 in
theorem oBlock_rows_tail (d : Dev nD) (L : grid0.Coords) (w : Fin 32) (hw : w.val = 2 * (L 1).val + (L 0).val) (f : Buf (Elt F) (oLoc d)) (T : sProp 𝕄) :
    iprop((oLoc d ↦[oSet w]{fullShare} f) ∗ T)
      = iprop(((rowOf oW (k0_off9 L tr0) (k0_off9_inb L tr0)).view.loc (V d (cV L) (jV L)) ↦[(rowOf oW (k0_off9 L tr0) (k0_off9_inb L tr0)).view.set]{fullShare} f)
        ∗ ((rowOf oW (k0_off13 L tr0) (k0_off13_inb L tr0)).view.loc (V d (cV L) (jV L)) ↦[(rowOf oW (k0_off13 L tr0) (k0_off13_inb L tr0)).view.set]{fullShare} f)
        ∗ ((rowOf oW (k0_off17 L tr0) (k0_off17_inb L tr0)).view.loc (V d (cV L) (jV L)) ↦[(rowOf oW (k0_off17 L tr0) (k0_off17_inb L tr0)).view.set]{fullShare} f)
        ∗ ((rowOf oW (k0_off21 L tr0) (k0_off21_inb L tr0)).view.loc (V d (cV L) (jV L)) ↦[(rowOf oW (k0_off21 L tr0) (k0_off21_inb L tr0)).view.set]{fullShare} f)
        ∗ ((rowOf oW (k0_off25 L tr0) (k0_off25_inb L tr0)).view.loc (V d (cV L) (jV L)) ↦[(rowOf oW (k0_off25 L tr0) (k0_off25_inb L tr0)).view.set]{fullShare} f)
        ∗ ((rowOf oW (k0_off29 L tr0) (k0_off29_inb L tr0)).view.loc (V d (cV L) (jV L)) ↦[(rowOf oW (k0_off29 L tr0) (k0_off29_inb L tr0)).view.set]{fullShare} f)
        ∗ ((rowOf oW (k0_off33 L tr0) (k0_off33_inb L tr0)).view.loc (V d (cV L) (jV L)) ↦[(rowOf oW (k0_off33 L tr0) (k0_off33_inb L tr0)).view.set]{fullShare} f)
        ∗ ((rowOf oW (k0_off37 L tr0) (k0_off37_inb L tr0)).view.loc (V d (cV L) (jV L)) ↦[(rowOf oW (k0_off37 L tr0) (k0_off37_inb L tr0)).view.set]{fullShare} f)
        ∗ ((rowOf oW (k0_off41 L tr0) (k0_off41_inb L tr0)).view.loc (V d (cV L) (jV L)) ↦[(rowOf oW (k0_off41 L tr0) (k0_off41_inb L tr0)).view.set]{fullShare} f)
        ∗ ((rowOf oW (k0_off45 L tr0) (k0_off45_inb L tr0)).view.loc (V d (cV L) (jV L)) ↦[(rowOf oW (k0_off45 L tr0) (k0_off45_inb L tr0)).view.set]{fullShare} f)
        ∗ ((rowOf oW (k0_off49 L tr0) (k0_off49_inb L tr0)).view.loc (V d (cV L) (jV L)) ↦[(rowOf oW (k0_off49 L tr0) (k0_off49_inb L tr0)).view.set]{fullShare} f)
        ∗ ((rowOf oW (k0_off53 L tr0) (k0_off53_inb L tr0)).view.loc (V d (cV L) (jV L)) ↦[(rowOf oW (k0_off53 L tr0) (k0_off53_inb L tr0)).view.set]{fullShare} f)
        ∗ ((rowOf oW (k0_off57 L tr0) (k0_off57_inb L tr0)).view.loc (V d (cV L) (jV L)) ↦[(rowOf oW (k0_off57 L tr0) (k0_off57_inb L tr0)).view.set]{fullShare} f)
        ∗ ((rowOf oW (k0_off61 L tr0) (k0_off61_inb L tr0)).view.loc (V d (cV L) (jV L)) ↦[(rowOf oW (k0_off61 L tr0) (k0_off61_inb L tr0)).view.set]{fullShare} f)
        ∗ ((rowOf oW (k0_off65 L tr0) (k0_off65_inb L tr0)).view.loc (V d (cV L) (jV L)) ↦[(rowOf oW (k0_off65 L tr0) (k0_off65_inb L tr0)).view.set]{fullShare} f)
        ∗ ((rowOf oW (k0_off69 L tr0) (k0_off69_inb L tr0)).view.loc (V d (cV L) (jV L)) ↦[(rowOf oW (k0_off69 L tr0) (k0_off69_inb L tr0)).view.set]{fullShare} f)
        ∗ ((rowOf oW (k0_off9 L tr1) (k0_off9_inb L tr1)).view.loc (V d (cV L) (jV L)) ↦[(rowOf oW (k0_off9 L tr1) (k0_off9_inb L tr1)).view.set]{fullShare} f)
        ∗ ((rowOf oW (k0_off13 L tr1) (k0_off13_inb L tr1)).view.loc (V d (cV L) (jV L)) ↦[(rowOf oW (k0_off13 L tr1) (k0_off13_inb L tr1)).view.set]{fullShare} f)
        ∗ ((rowOf oW (k0_off17 L tr1) (k0_off17_inb L tr1)).view.loc (V d (cV L) (jV L)) ↦[(rowOf oW (k0_off17 L tr1) (k0_off17_inb L tr1)).view.set]{fullShare} f)
        ∗ ((rowOf oW (k0_off21 L tr1) (k0_off21_inb L tr1)).view.loc (V d (cV L) (jV L)) ↦[(rowOf oW (k0_off21 L tr1) (k0_off21_inb L tr1)).view.set]{fullShare} f)
        ∗ ((rowOf oW (k0_off25 L tr1) (k0_off25_inb L tr1)).view.loc (V d (cV L) (jV L)) ↦[(rowOf oW (k0_off25 L tr1) (k0_off25_inb L tr1)).view.set]{fullShare} f)
        ∗ ((rowOf oW (k0_off29 L tr1) (k0_off29_inb L tr1)).view.loc (V d (cV L) (jV L)) ↦[(rowOf oW (k0_off29 L tr1) (k0_off29_inb L tr1)).view.set]{fullShare} f)
        ∗ ((rowOf oW (k0_off33 L tr1) (k0_off33_inb L tr1)).view.loc (V d (cV L) (jV L)) ↦[(rowOf oW (k0_off33 L tr1) (k0_off33_inb L tr1)).view.set]{fullShare} f)
        ∗ ((rowOf oW (k0_off37 L tr1) (k0_off37_inb L tr1)).view.loc (V d (cV L) (jV L)) ↦[(rowOf oW (k0_off37 L tr1) (k0_off37_inb L tr1)).view.set]{fullShare} f)
        ∗ ((rowOf oW (k0_off41 L tr1) (k0_off41_inb L tr1)).view.loc (V d (cV L) (jV L)) ↦[(rowOf oW (k0_off41 L tr1) (k0_off41_inb L tr1)).view.set]{fullShare} f)
        ∗ ((rowOf oW (k0_off45 L tr1) (k0_off45_inb L tr1)).view.loc (V d (cV L) (jV L)) ↦[(rowOf oW (k0_off45 L tr1) (k0_off45_inb L tr1)).view.set]{fullShare} f)
        ∗ ((rowOf oW (k0_off49 L tr1) (k0_off49_inb L tr1)).view.loc (V d (cV L) (jV L)) ↦[(rowOf oW (k0_off49 L tr1) (k0_off49_inb L tr1)).view.set]{fullShare} f)
        ∗ ((rowOf oW (k0_off53 L tr1) (k0_off53_inb L tr1)).view.loc (V d (cV L) (jV L)) ↦[(rowOf oW (k0_off53 L tr1) (k0_off53_inb L tr1)).view.set]{fullShare} f)
        ∗ ((rowOf oW (k0_off57 L tr1) (k0_off57_inb L tr1)).view.loc (V d (cV L) (jV L)) ↦[(rowOf oW (k0_off57 L tr1) (k0_off57_inb L tr1)).view.set]{fullShare} f)
        ∗ ((rowOf oW (k0_off61 L tr1) (k0_off61_inb L tr1)).view.loc (V d (cV L) (jV L)) ↦[(rowOf oW (k0_off61 L tr1) (k0_off61_inb L tr1)).view.set]{fullShare} f)
        ∗ ((rowOf oW (k0_off65 L tr1) (k0_off65_inb L tr1)).view.loc (V d (cV L) (jV L)) ↦[(rowOf oW (k0_off65 L tr1) (k0_off65_inb L tr1)).view.set]{fullShare} f)
        ∗ ((rowOf oW (k0_off69 L tr1) (k0_off69_inb L tr1)).view.loc (V d (cV L) (jV L)) ↦[(rowOf oW (k0_off69 L tr1) (k0_off69_inb L tr1)).view.set]{fullShare} f)
        ∗ ((rowOf oW (k0_off9 L tr2) (k0_off9_inb L tr2)).view.loc (V d (cV L) (jV L)) ↦[(rowOf oW (k0_off9 L tr2) (k0_off9_inb L tr2)).view.set]{fullShare} f)
        ∗ ((rowOf oW (k0_off13 L tr2) (k0_off13_inb L tr2)).view.loc (V d (cV L) (jV L)) ↦[(rowOf oW (k0_off13 L tr2) (k0_off13_inb L tr2)).view.set]{fullShare} f)
        ∗ ((rowOf oW (k0_off17 L tr2) (k0_off17_inb L tr2)).view.loc (V d (cV L) (jV L)) ↦[(rowOf oW (k0_off17 L tr2) (k0_off17_inb L tr2)).view.set]{fullShare} f)
        ∗ ((rowOf oW (k0_off21 L tr2) (k0_off21_inb L tr2)).view.loc (V d (cV L) (jV L)) ↦[(rowOf oW (k0_off21 L tr2) (k0_off21_inb L tr2)).view.set]{fullShare} f)
        ∗ ((rowOf oW (k0_off25 L tr2) (k0_off25_inb L tr2)).view.loc (V d (cV L) (jV L)) ↦[(rowOf oW (k0_off25 L tr2) (k0_off25_inb L tr2)).view.set]{fullShare} f)
        ∗ ((rowOf oW (k0_off29 L tr2) (k0_off29_inb L tr2)).view.loc (V d (cV L) (jV L)) ↦[(rowOf oW (k0_off29 L tr2) (k0_off29_inb L tr2)).view.set]{fullShare} f)
        ∗ ((rowOf oW (k0_off33 L tr2) (k0_off33_inb L tr2)).view.loc (V d (cV L) (jV L)) ↦[(rowOf oW (k0_off33 L tr2) (k0_off33_inb L tr2)).view.set]{fullShare} f)
        ∗ ((rowOf oW (k0_off37 L tr2) (k0_off37_inb L tr2)).view.loc (V d (cV L) (jV L)) ↦[(rowOf oW (k0_off37 L tr2) (k0_off37_inb L tr2)).view.set]{fullShare} f)
        ∗ ((rowOf oW (k0_off41 L tr2) (k0_off41_inb L tr2)).view.loc (V d (cV L) (jV L)) ↦[(rowOf oW (k0_off41 L tr2) (k0_off41_inb L tr2)).view.set]{fullShare} f)
        ∗ ((rowOf oW (k0_off45 L tr2) (k0_off45_inb L tr2)).view.loc (V d (cV L) (jV L)) ↦[(rowOf oW (k0_off45 L tr2) (k0_off45_inb L tr2)).view.set]{fullShare} f)
        ∗ ((rowOf oW (k0_off49 L tr2) (k0_off49_inb L tr2)).view.loc (V d (cV L) (jV L)) ↦[(rowOf oW (k0_off49 L tr2) (k0_off49_inb L tr2)).view.set]{fullShare} f)
        ∗ ((rowOf oW (k0_off53 L tr2) (k0_off53_inb L tr2)).view.loc (V d (cV L) (jV L)) ↦[(rowOf oW (k0_off53 L tr2) (k0_off53_inb L tr2)).view.set]{fullShare} f)
        ∗ ((rowOf oW (k0_off57 L tr2) (k0_off57_inb L tr2)).view.loc (V d (cV L) (jV L)) ↦[(rowOf oW (k0_off57 L tr2) (k0_off57_inb L tr2)).view.set]{fullShare} f)
        ∗ ((rowOf oW (k0_off61 L tr2) (k0_off61_inb L tr2)).view.loc (V d (cV L) (jV L)) ↦[(rowOf oW (k0_off61 L tr2) (k0_off61_inb L tr2)).view.set]{fullShare} f)
        ∗ ((rowOf oW (k0_off65 L tr2) (k0_off65_inb L tr2)).view.loc (V d (cV L) (jV L)) ↦[(rowOf oW (k0_off65 L tr2) (k0_off65_inb L tr2)).view.set]{fullShare} f)
        ∗ ((rowOf oW (k0_off69 L tr2) (k0_off69_inb L tr2)).view.loc (V d (cV L) (jV L)) ↦[(rowOf oW (k0_off69 L tr2) (k0_off69_inb L tr2)).view.set]{fullShare} f)
        ∗ T) := by
  rw [oBlock_rows d L w hw f]
  simp only [sep_assoc_eq]

theorem ownSems0_tail (d : Dev nD) (L : grid0.Coords) (T : sProp 𝕄) :
    iprop(ownSems0 (V d (cV L) (jV L)) ∗ T)
      = iprop(semVal ((V d (cV L) (jV L)), SemLoc.dma cc0_scratch2.sem) 0
        ∗ semVal ((V d (cV L) (jV L)), SemLoc.dma cc0_scratch3.sem) 0
        ∗ semVal ((V d (cV L) (jV L)), SemLoc.dma cc0_scoped0.sem) 0
        ∗ semVal ((V d (cV L) (jV L)), SemLoc.dma cc0_scoped1.sem) 0
        ∗ semVal ((V d (cV L) (jV L)), SemLoc.dma cc0_scoped2.sem) 0
        ∗ semVal ((V d (cV L) (jV L)), SemLoc.dma cc0_scoped3.sem) 0
        ∗ semVal ((V d (cV L) (jV L)), SemLoc.dma cc0_scoped4.sem) 0
        ∗ semVal ((V d (cV L) (jV L)), SemLoc.dma cc0_scoped5.sem) 0
        ∗ semVal ((V d (cV L) (jV L)), SemLoc.dma cc0_scoped6.sem) 0
        ∗ semVal ((V d (cV L) (jV L)), SemLoc.dma cc0_scoped7.sem) 0
        ∗ semVal ((V d (cV L) (jV L)), SemLoc.dma cc0_scoped8.sem) 0
        ∗ semVal ((V d (cV L) (jV L)), SemLoc.dma cc0_scoped9.sem) 0
        ∗ semVal ((V d (cV L) (jV L)), SemLoc.dma cc0_scoped10.sem) 0
        ∗ semVal ((V d (cV L) (jV L)), SemLoc.dma cc0_scoped11.sem) 0
        ∗ semVal ((V d (cV L) (jV L)), SemLoc.dma cc0_scoped12.sem) 0
        ∗ semVal ((V d (cV L) (jV L)), SemLoc.dma cc0_scoped13.sem) 0
        ∗ semVal ((V d (cV L) (jV L)), SemLoc.dma cc0_scoped14.sem) 0
        ∗ semVal ((V d (cV L) (jV L)), SemLoc.dma cc0_scoped15.sem) 0
        ∗ semVal ((V d (cV L) (jV L)), SemLoc.dma cc0_scoped16.sem) 0
        ∗ T) := by
  rw [ownSems0_all d L]
  simp only [sep_assoc_eq]

/-- A buffer's elements held at contents that agree there with `g` are held at `g`. -/
theorem row_post (ℓ : Loc nD τ sig) (I : Finset (Idx ℓ)) (g : Buf (Elt F) ℓ) :
    (iprop(∃ f, (ℓ ↦[I]{fullShare} f) ∗ ⌜∀ i ∈ I, f i = g i⌝) : sProp 𝕄) ⊢ ℓ ↦[I]{fullShare} g := by
  iintro ⟨%f, H, %h⟩
  rw [← pointsTo_congr h]
  iexact H

set_option maxHeartbeats 4000000 in
/-- The forty-eight rows, each at contents that agree with `g` on it, are the block at `g`. -/
theorem rows_post_tail (d : Dev nD) (L : grid0.Coords) (w : Fin 32) (hw : w.val = 2 * (L 1).val + (L 0).val) (g : Buf (Elt F) (oLoc d)) (T : sProp 𝕄) :
    iprop((∃ f, ((rowOf oW (k0_off9 L tr0) (k0_off9_inb L tr0)).view.loc (V d (cV L) (jV L)) ↦[(rowOf oW (k0_off9 L tr0) (k0_off9_inb L tr0)).view.set]{fullShare} f) ∗ ⌜∀ i ∈ (rowOf oW (k0_off9 L tr0) (k0_off9_inb L tr0)).view.set, f i = g i⌝)
        ∗ (∃ f, ((rowOf oW (k0_off13 L tr0) (k0_off13_inb L tr0)).view.loc (V d (cV L) (jV L)) ↦[(rowOf oW (k0_off13 L tr0) (k0_off13_inb L tr0)).view.set]{fullShare} f) ∗ ⌜∀ i ∈ (rowOf oW (k0_off13 L tr0) (k0_off13_inb L tr0)).view.set, f i = g i⌝)
        ∗ (∃ f, ((rowOf oW (k0_off17 L tr0) (k0_off17_inb L tr0)).view.loc (V d (cV L) (jV L)) ↦[(rowOf oW (k0_off17 L tr0) (k0_off17_inb L tr0)).view.set]{fullShare} f) ∗ ⌜∀ i ∈ (rowOf oW (k0_off17 L tr0) (k0_off17_inb L tr0)).view.set, f i = g i⌝)
        ∗ (∃ f, ((rowOf oW (k0_off21 L tr0) (k0_off21_inb L tr0)).view.loc (V d (cV L) (jV L)) ↦[(rowOf oW (k0_off21 L tr0) (k0_off21_inb L tr0)).view.set]{fullShare} f) ∗ ⌜∀ i ∈ (rowOf oW (k0_off21 L tr0) (k0_off21_inb L tr0)).view.set, f i = g i⌝)
        ∗ (∃ f, ((rowOf oW (k0_off25 L tr0) (k0_off25_inb L tr0)).view.loc (V d (cV L) (jV L)) ↦[(rowOf oW (k0_off25 L tr0) (k0_off25_inb L tr0)).view.set]{fullShare} f) ∗ ⌜∀ i ∈ (rowOf oW (k0_off25 L tr0) (k0_off25_inb L tr0)).view.set, f i = g i⌝)
        ∗ (∃ f, ((rowOf oW (k0_off29 L tr0) (k0_off29_inb L tr0)).view.loc (V d (cV L) (jV L)) ↦[(rowOf oW (k0_off29 L tr0) (k0_off29_inb L tr0)).view.set]{fullShare} f) ∗ ⌜∀ i ∈ (rowOf oW (k0_off29 L tr0) (k0_off29_inb L tr0)).view.set, f i = g i⌝)
        ∗ (∃ f, ((rowOf oW (k0_off33 L tr0) (k0_off33_inb L tr0)).view.loc (V d (cV L) (jV L)) ↦[(rowOf oW (k0_off33 L tr0) (k0_off33_inb L tr0)).view.set]{fullShare} f) ∗ ⌜∀ i ∈ (rowOf oW (k0_off33 L tr0) (k0_off33_inb L tr0)).view.set, f i = g i⌝)
        ∗ (∃ f, ((rowOf oW (k0_off37 L tr0) (k0_off37_inb L tr0)).view.loc (V d (cV L) (jV L)) ↦[(rowOf oW (k0_off37 L tr0) (k0_off37_inb L tr0)).view.set]{fullShare} f) ∗ ⌜∀ i ∈ (rowOf oW (k0_off37 L tr0) (k0_off37_inb L tr0)).view.set, f i = g i⌝)
        ∗ (∃ f, ((rowOf oW (k0_off41 L tr0) (k0_off41_inb L tr0)).view.loc (V d (cV L) (jV L)) ↦[(rowOf oW (k0_off41 L tr0) (k0_off41_inb L tr0)).view.set]{fullShare} f) ∗ ⌜∀ i ∈ (rowOf oW (k0_off41 L tr0) (k0_off41_inb L tr0)).view.set, f i = g i⌝)
        ∗ (∃ f, ((rowOf oW (k0_off45 L tr0) (k0_off45_inb L tr0)).view.loc (V d (cV L) (jV L)) ↦[(rowOf oW (k0_off45 L tr0) (k0_off45_inb L tr0)).view.set]{fullShare} f) ∗ ⌜∀ i ∈ (rowOf oW (k0_off45 L tr0) (k0_off45_inb L tr0)).view.set, f i = g i⌝)
        ∗ (∃ f, ((rowOf oW (k0_off49 L tr0) (k0_off49_inb L tr0)).view.loc (V d (cV L) (jV L)) ↦[(rowOf oW (k0_off49 L tr0) (k0_off49_inb L tr0)).view.set]{fullShare} f) ∗ ⌜∀ i ∈ (rowOf oW (k0_off49 L tr0) (k0_off49_inb L tr0)).view.set, f i = g i⌝)
        ∗ (∃ f, ((rowOf oW (k0_off53 L tr0) (k0_off53_inb L tr0)).view.loc (V d (cV L) (jV L)) ↦[(rowOf oW (k0_off53 L tr0) (k0_off53_inb L tr0)).view.set]{fullShare} f) ∗ ⌜∀ i ∈ (rowOf oW (k0_off53 L tr0) (k0_off53_inb L tr0)).view.set, f i = g i⌝)
        ∗ (∃ f, ((rowOf oW (k0_off57 L tr0) (k0_off57_inb L tr0)).view.loc (V d (cV L) (jV L)) ↦[(rowOf oW (k0_off57 L tr0) (k0_off57_inb L tr0)).view.set]{fullShare} f) ∗ ⌜∀ i ∈ (rowOf oW (k0_off57 L tr0) (k0_off57_inb L tr0)).view.set, f i = g i⌝)
        ∗ (∃ f, ((rowOf oW (k0_off61 L tr0) (k0_off61_inb L tr0)).view.loc (V d (cV L) (jV L)) ↦[(rowOf oW (k0_off61 L tr0) (k0_off61_inb L tr0)).view.set]{fullShare} f) ∗ ⌜∀ i ∈ (rowOf oW (k0_off61 L tr0) (k0_off61_inb L tr0)).view.set, f i = g i⌝)
        ∗ (∃ f, ((rowOf oW (k0_off65 L tr0) (k0_off65_inb L tr0)).view.loc (V d (cV L) (jV L)) ↦[(rowOf oW (k0_off65 L tr0) (k0_off65_inb L tr0)).view.set]{fullShare} f) ∗ ⌜∀ i ∈ (rowOf oW (k0_off65 L tr0) (k0_off65_inb L tr0)).view.set, f i = g i⌝)
        ∗ (∃ f, ((rowOf oW (k0_off69 L tr0) (k0_off69_inb L tr0)).view.loc (V d (cV L) (jV L)) ↦[(rowOf oW (k0_off69 L tr0) (k0_off69_inb L tr0)).view.set]{fullShare} f) ∗ ⌜∀ i ∈ (rowOf oW (k0_off69 L tr0) (k0_off69_inb L tr0)).view.set, f i = g i⌝)
        ∗ (∃ f, ((rowOf oW (k0_off9 L tr1) (k0_off9_inb L tr1)).view.loc (V d (cV L) (jV L)) ↦[(rowOf oW (k0_off9 L tr1) (k0_off9_inb L tr1)).view.set]{fullShare} f) ∗ ⌜∀ i ∈ (rowOf oW (k0_off9 L tr1) (k0_off9_inb L tr1)).view.set, f i = g i⌝)
        ∗ (∃ f, ((rowOf oW (k0_off13 L tr1) (k0_off13_inb L tr1)).view.loc (V d (cV L) (jV L)) ↦[(rowOf oW (k0_off13 L tr1) (k0_off13_inb L tr1)).view.set]{fullShare} f) ∗ ⌜∀ i ∈ (rowOf oW (k0_off13 L tr1) (k0_off13_inb L tr1)).view.set, f i = g i⌝)
        ∗ (∃ f, ((rowOf oW (k0_off17 L tr1) (k0_off17_inb L tr1)).view.loc (V d (cV L) (jV L)) ↦[(rowOf oW (k0_off17 L tr1) (k0_off17_inb L tr1)).view.set]{fullShare} f) ∗ ⌜∀ i ∈ (rowOf oW (k0_off17 L tr1) (k0_off17_inb L tr1)).view.set, f i = g i⌝)
        ∗ (∃ f, ((rowOf oW (k0_off21 L tr1) (k0_off21_inb L tr1)).view.loc (V d (cV L) (jV L)) ↦[(rowOf oW (k0_off21 L tr1) (k0_off21_inb L tr1)).view.set]{fullShare} f) ∗ ⌜∀ i ∈ (rowOf oW (k0_off21 L tr1) (k0_off21_inb L tr1)).view.set, f i = g i⌝)
        ∗ (∃ f, ((rowOf oW (k0_off25 L tr1) (k0_off25_inb L tr1)).view.loc (V d (cV L) (jV L)) ↦[(rowOf oW (k0_off25 L tr1) (k0_off25_inb L tr1)).view.set]{fullShare} f) ∗ ⌜∀ i ∈ (rowOf oW (k0_off25 L tr1) (k0_off25_inb L tr1)).view.set, f i = g i⌝)
        ∗ (∃ f, ((rowOf oW (k0_off29 L tr1) (k0_off29_inb L tr1)).view.loc (V d (cV L) (jV L)) ↦[(rowOf oW (k0_off29 L tr1) (k0_off29_inb L tr1)).view.set]{fullShare} f) ∗ ⌜∀ i ∈ (rowOf oW (k0_off29 L tr1) (k0_off29_inb L tr1)).view.set, f i = g i⌝)
        ∗ (∃ f, ((rowOf oW (k0_off33 L tr1) (k0_off33_inb L tr1)).view.loc (V d (cV L) (jV L)) ↦[(rowOf oW (k0_off33 L tr1) (k0_off33_inb L tr1)).view.set]{fullShare} f) ∗ ⌜∀ i ∈ (rowOf oW (k0_off33 L tr1) (k0_off33_inb L tr1)).view.set, f i = g i⌝)
        ∗ (∃ f, ((rowOf oW (k0_off37 L tr1) (k0_off37_inb L tr1)).view.loc (V d (cV L) (jV L)) ↦[(rowOf oW (k0_off37 L tr1) (k0_off37_inb L tr1)).view.set]{fullShare} f) ∗ ⌜∀ i ∈ (rowOf oW (k0_off37 L tr1) (k0_off37_inb L tr1)).view.set, f i = g i⌝)
        ∗ (∃ f, ((rowOf oW (k0_off41 L tr1) (k0_off41_inb L tr1)).view.loc (V d (cV L) (jV L)) ↦[(rowOf oW (k0_off41 L tr1) (k0_off41_inb L tr1)).view.set]{fullShare} f) ∗ ⌜∀ i ∈ (rowOf oW (k0_off41 L tr1) (k0_off41_inb L tr1)).view.set, f i = g i⌝)
        ∗ (∃ f, ((rowOf oW (k0_off45 L tr1) (k0_off45_inb L tr1)).view.loc (V d (cV L) (jV L)) ↦[(rowOf oW (k0_off45 L tr1) (k0_off45_inb L tr1)).view.set]{fullShare} f) ∗ ⌜∀ i ∈ (rowOf oW (k0_off45 L tr1) (k0_off45_inb L tr1)).view.set, f i = g i⌝)
        ∗ (∃ f, ((rowOf oW (k0_off49 L tr1) (k0_off49_inb L tr1)).view.loc (V d (cV L) (jV L)) ↦[(rowOf oW (k0_off49 L tr1) (k0_off49_inb L tr1)).view.set]{fullShare} f) ∗ ⌜∀ i ∈ (rowOf oW (k0_off49 L tr1) (k0_off49_inb L tr1)).view.set, f i = g i⌝)
        ∗ (∃ f, ((rowOf oW (k0_off53 L tr1) (k0_off53_inb L tr1)).view.loc (V d (cV L) (jV L)) ↦[(rowOf oW (k0_off53 L tr1) (k0_off53_inb L tr1)).view.set]{fullShare} f) ∗ ⌜∀ i ∈ (rowOf oW (k0_off53 L tr1) (k0_off53_inb L tr1)).view.set, f i = g i⌝)
        ∗ (∃ f, ((rowOf oW (k0_off57 L tr1) (k0_off57_inb L tr1)).view.loc (V d (cV L) (jV L)) ↦[(rowOf oW (k0_off57 L tr1) (k0_off57_inb L tr1)).view.set]{fullShare} f) ∗ ⌜∀ i ∈ (rowOf oW (k0_off57 L tr1) (k0_off57_inb L tr1)).view.set, f i = g i⌝)
        ∗ (∃ f, ((rowOf oW (k0_off61 L tr1) (k0_off61_inb L tr1)).view.loc (V d (cV L) (jV L)) ↦[(rowOf oW (k0_off61 L tr1) (k0_off61_inb L tr1)).view.set]{fullShare} f) ∗ ⌜∀ i ∈ (rowOf oW (k0_off61 L tr1) (k0_off61_inb L tr1)).view.set, f i = g i⌝)
        ∗ (∃ f, ((rowOf oW (k0_off65 L tr1) (k0_off65_inb L tr1)).view.loc (V d (cV L) (jV L)) ↦[(rowOf oW (k0_off65 L tr1) (k0_off65_inb L tr1)).view.set]{fullShare} f) ∗ ⌜∀ i ∈ (rowOf oW (k0_off65 L tr1) (k0_off65_inb L tr1)).view.set, f i = g i⌝)
        ∗ (∃ f, ((rowOf oW (k0_off69 L tr1) (k0_off69_inb L tr1)).view.loc (V d (cV L) (jV L)) ↦[(rowOf oW (k0_off69 L tr1) (k0_off69_inb L tr1)).view.set]{fullShare} f) ∗ ⌜∀ i ∈ (rowOf oW (k0_off69 L tr1) (k0_off69_inb L tr1)).view.set, f i = g i⌝)
        ∗ (∃ f, ((rowOf oW (k0_off9 L tr2) (k0_off9_inb L tr2)).view.loc (V d (cV L) (jV L)) ↦[(rowOf oW (k0_off9 L tr2) (k0_off9_inb L tr2)).view.set]{fullShare} f) ∗ ⌜∀ i ∈ (rowOf oW (k0_off9 L tr2) (k0_off9_inb L tr2)).view.set, f i = g i⌝)
        ∗ (∃ f, ((rowOf oW (k0_off13 L tr2) (k0_off13_inb L tr2)).view.loc (V d (cV L) (jV L)) ↦[(rowOf oW (k0_off13 L tr2) (k0_off13_inb L tr2)).view.set]{fullShare} f) ∗ ⌜∀ i ∈ (rowOf oW (k0_off13 L tr2) (k0_off13_inb L tr2)).view.set, f i = g i⌝)
        ∗ (∃ f, ((rowOf oW (k0_off17 L tr2) (k0_off17_inb L tr2)).view.loc (V d (cV L) (jV L)) ↦[(rowOf oW (k0_off17 L tr2) (k0_off17_inb L tr2)).view.set]{fullShare} f) ∗ ⌜∀ i ∈ (rowOf oW (k0_off17 L tr2) (k0_off17_inb L tr2)).view.set, f i = g i⌝)
        ∗ (∃ f, ((rowOf oW (k0_off21 L tr2) (k0_off21_inb L tr2)).view.loc (V d (cV L) (jV L)) ↦[(rowOf oW (k0_off21 L tr2) (k0_off21_inb L tr2)).view.set]{fullShare} f) ∗ ⌜∀ i ∈ (rowOf oW (k0_off21 L tr2) (k0_off21_inb L tr2)).view.set, f i = g i⌝)
        ∗ (∃ f, ((rowOf oW (k0_off25 L tr2) (k0_off25_inb L tr2)).view.loc (V d (cV L) (jV L)) ↦[(rowOf oW (k0_off25 L tr2) (k0_off25_inb L tr2)).view.set]{fullShare} f) ∗ ⌜∀ i ∈ (rowOf oW (k0_off25 L tr2) (k0_off25_inb L tr2)).view.set, f i = g i⌝)
        ∗ (∃ f, ((rowOf oW (k0_off29 L tr2) (k0_off29_inb L tr2)).view.loc (V d (cV L) (jV L)) ↦[(rowOf oW (k0_off29 L tr2) (k0_off29_inb L tr2)).view.set]{fullShare} f) ∗ ⌜∀ i ∈ (rowOf oW (k0_off29 L tr2) (k0_off29_inb L tr2)).view.set, f i = g i⌝)
        ∗ (∃ f, ((rowOf oW (k0_off33 L tr2) (k0_off33_inb L tr2)).view.loc (V d (cV L) (jV L)) ↦[(rowOf oW (k0_off33 L tr2) (k0_off33_inb L tr2)).view.set]{fullShare} f) ∗ ⌜∀ i ∈ (rowOf oW (k0_off33 L tr2) (k0_off33_inb L tr2)).view.set, f i = g i⌝)
        ∗ (∃ f, ((rowOf oW (k0_off37 L tr2) (k0_off37_inb L tr2)).view.loc (V d (cV L) (jV L)) ↦[(rowOf oW (k0_off37 L tr2) (k0_off37_inb L tr2)).view.set]{fullShare} f) ∗ ⌜∀ i ∈ (rowOf oW (k0_off37 L tr2) (k0_off37_inb L tr2)).view.set, f i = g i⌝)
        ∗ (∃ f, ((rowOf oW (k0_off41 L tr2) (k0_off41_inb L tr2)).view.loc (V d (cV L) (jV L)) ↦[(rowOf oW (k0_off41 L tr2) (k0_off41_inb L tr2)).view.set]{fullShare} f) ∗ ⌜∀ i ∈ (rowOf oW (k0_off41 L tr2) (k0_off41_inb L tr2)).view.set, f i = g i⌝)
        ∗ (∃ f, ((rowOf oW (k0_off45 L tr2) (k0_off45_inb L tr2)).view.loc (V d (cV L) (jV L)) ↦[(rowOf oW (k0_off45 L tr2) (k0_off45_inb L tr2)).view.set]{fullShare} f) ∗ ⌜∀ i ∈ (rowOf oW (k0_off45 L tr2) (k0_off45_inb L tr2)).view.set, f i = g i⌝)
        ∗ (∃ f, ((rowOf oW (k0_off49 L tr2) (k0_off49_inb L tr2)).view.loc (V d (cV L) (jV L)) ↦[(rowOf oW (k0_off49 L tr2) (k0_off49_inb L tr2)).view.set]{fullShare} f) ∗ ⌜∀ i ∈ (rowOf oW (k0_off49 L tr2) (k0_off49_inb L tr2)).view.set, f i = g i⌝)
        ∗ (∃ f, ((rowOf oW (k0_off53 L tr2) (k0_off53_inb L tr2)).view.loc (V d (cV L) (jV L)) ↦[(rowOf oW (k0_off53 L tr2) (k0_off53_inb L tr2)).view.set]{fullShare} f) ∗ ⌜∀ i ∈ (rowOf oW (k0_off53 L tr2) (k0_off53_inb L tr2)).view.set, f i = g i⌝)
        ∗ (∃ f, ((rowOf oW (k0_off57 L tr2) (k0_off57_inb L tr2)).view.loc (V d (cV L) (jV L)) ↦[(rowOf oW (k0_off57 L tr2) (k0_off57_inb L tr2)).view.set]{fullShare} f) ∗ ⌜∀ i ∈ (rowOf oW (k0_off57 L tr2) (k0_off57_inb L tr2)).view.set, f i = g i⌝)
        ∗ (∃ f, ((rowOf oW (k0_off61 L tr2) (k0_off61_inb L tr2)).view.loc (V d (cV L) (jV L)) ↦[(rowOf oW (k0_off61 L tr2) (k0_off61_inb L tr2)).view.set]{fullShare} f) ∗ ⌜∀ i ∈ (rowOf oW (k0_off61 L tr2) (k0_off61_inb L tr2)).view.set, f i = g i⌝)
        ∗ (∃ f, ((rowOf oW (k0_off65 L tr2) (k0_off65_inb L tr2)).view.loc (V d (cV L) (jV L)) ↦[(rowOf oW (k0_off65 L tr2) (k0_off65_inb L tr2)).view.set]{fullShare} f) ∗ ⌜∀ i ∈ (rowOf oW (k0_off65 L tr2) (k0_off65_inb L tr2)).view.set, f i = g i⌝)
        ∗ (∃ f, ((rowOf oW (k0_off69 L tr2) (k0_off69_inb L tr2)).view.loc (V d (cV L) (jV L)) ↦[(rowOf oW (k0_off69 L tr2) (k0_off69_inb L tr2)).view.set]{fullShare} f) ∗ ⌜∀ i ∈ (rowOf oW (k0_off69 L tr2) (k0_off69_inb L tr2)).view.set, f i = g i⌝)
        ∗ T)
      ⊢ iprop((oLoc d ↦[oSet w]{fullShare} g) ∗ T) :=
  BI.Entails.trans (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) .rfl))))))))))))))))))))))))))))))))))))))))))))))))
    (Entails.of_eq (oBlock_rows_tail d L w hw g T).symm)

/-! ## The task, over the launch's names -/

variable [FloatOps F]

set_option maxHeartbeats 4000000 in
/-- The task's run with the rows and the semaphores regrouped, over the launch's blocks and slots. -/
theorem tile_run' (d : Dev nD) (L : grid0.Coords) (O : CellTallies nD τ sig (HIx 1)) (W : Waits sig (HIx 1)) (hO : ∀ g, O g none = 0)
    (q : PosShare TreeShare) (X3 : Buf (Elt F) (xLoc d)) (SRC : Buf (Elt F) (sLoc d)) (hsrc : ∀ j, (SRC j).toNat < 1536)
    (fo : Buf (Elt F) (oLoc d)) (fi : Buf (Elt F) ((iW).view.loc (V d (cV L) (jV L)))) (fb0 fb1 : Buf (Elt F) (shLoc d (cV L))) :
    iprop(levAts (K (F := F)).L (K (F := F)).lev
        ∗ (xLoc d ↦{Transfers.shareTokN q 0} X3 : sProp 𝕄)
        ∗ (xLoc d ↦{Transfers.shareTokN q 1} X3)
        ∗ (sLoc d ↦[sSet (wid (cL L) (iL L))]{fullShare} SRC)
        ∗ ((iW).view.loc (V d (cV L) (jV L)) ↦{fullShare} fi)
        ∗ (shLoc d (cV L) ↦[bSet (iL L) 0]{fullShare} fb0)
        ∗ (shLoc d (cV L) ↦[bSet (iL L) 1]{fullShare} fb1)
        ∗ (oLoc d ↦[oSet (wid (cL L) (iL L))]{fullShare} fo)
        ∗ ownSems0 (V d (cV L) (jV L))
        ∗ owes (V d (cV L) (jV L)) O W)
      ⊢ wp frame (wpE (defs₀ (F := F)) 𝒱₀ (V d (cV L) (jV L)) none) Set.univ
          (cc0_sc_gather L xW (Memref.isWhole_whole _) sW (Memref.isWhole_whole _) oW (Memref.isWhole_whole _)
            iW (Memref.isWhole_whole _) bW (Memref.isWhole_whole _) cc0_scratch2 cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16)
          fun _ => iprop(
            (xLoc d ↦{Transfers.shareTokN q 0} X3 : sProp 𝕄)
            ∗ (xLoc d ↦{Transfers.shareTokN q 1} X3)
            ∗ (sLoc d ↦[sSet (wid (cL L) (iL L))]{fullShare} SRC)
            ∗ (∃ f, (iW).view.loc (V d (cV L) (jV L)) ↦{fullShare} f)
            ∗ (∃ f, shLoc d (cV L) ↦[bSet (iL L) 0]{fullShare} f)
            ∗ (∃ f, shLoc d (cV L) ↦[bSet (iL L) 1]{fullShare} f)
            ∗ (oLoc d ↦[oSet (wid (cL L) (iL L))]{fullShare} Cert.Proof.Spec.gathered X3 SRC)
            ∗ ownSems0 (V d (cV L) (jV L))
            ∗ (∃ W', owes (V d (cV L) (jV L)) O W' ∗ ⌜∀ p ∈ W', p ∈ W ∨ p.2 = none⌝)) := by
  refine (Entails.of_eq ?_).trans ((tile_run d L O W hO q X3 SRC hsrc fo fi fb0 fb1).trans (wp_mono frame _ _ fun _ => ?_))
  · rw [oBlock_rows_tail d L (wid (cL L) (iL L)) rfl fo, ownSems0_tail d L, set_srcSl L, set_slot0 L, set_slot1 L]
    rfl
  · rw [set_srcSl L, set_slot0 L, set_slot1 L]
    refine sepm .rfl (sepm .rfl (sepm .rfl (sepm .rfl (sepm .rfl (sepm .rfl ?_)))))
    exact (rows_post_tail d L (wid (cL L) (iL L)) rfl (Cert.Proof.Spec.gathered X3 SRC) _).trans
      (sepm .rfl (Entails.of_eq (ownSems0_tail d L _).symm))

variable (m : (ℓ : Loc nD τ sig) → Buf (Elt F) ℓ)

omit [FloatOps F] in
theorem bigSep_two (Φ : Fin 2 → sProp 𝕄) : bigSep Finset.univ Φ = iprop(Φ 0 ∗ Φ 1) := bigSep_fin_two Φ

/-- The task on the vector subcore at `L`, from what the launch hands it to what it hands back. -/
theorem tile_body (hpre : PreOK m) (d : Dev nD) (L : grid0.Coords) (O : CellTallies nD τ sig (HIx 1)) (W : Waits sig (HIx 1)) (hO : ∀ g, O g none = 0) :
    iprop(levAts (K (F := F)).L (K (F := F)).lev ∗ emp
        ∗ tileIn m d (cL L) (iL L) (cV L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_gather L xW (Memref.isWhole_whole _) sW (Memref.isWhole_whole _) oW (Memref.isWhole_whole _)
            iW (Memref.isWhole_whole _) bW (Memref.isWhole_whole _) cc0_scratch2 cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16)
          fun _ => iprop(tileIn m d (cL L) (iL L) (cV L) (OUT m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V facts d (cV L) (jV L), SparseCore.Cfg.scopedSems0_V (Val := Elt F) d (cV L) (jV L), ownBufs_V d L]
  iintro ⟨#Hlv, -, ⟨Hx, Hs, Ho, ⟨%fb0, Hb0⟩, ⟨%fb1, Hb1⟩⟩, ⟨%fi, Hi⟩, Hsem, HO⟩
  -- the subcore's read share of the images: two tokens for its two copies in flight, and a remainder kept aside
  ihave Hx2 := (Transfers.pointsTo_toks_split (qT (cL L) (iL L)) 2) $$ Hx
  icases Hx2 with ⟨Hxr, Hxs⟩
  ihave Hxs' := (Entails.of_eq (bigSep_two (F := F) _)) $$ Hxs
  icases Hxs' with ⟨Hx0, Hx1⟩
  iapply (wp_wand_r frame _ Set.univ) $$ [Hx0 Hx1 Hs Hi Hb0 Hb1 Ho Hsem HO Hxr]
  isplitl [Hx0 Hx1 Hs Hi Hb0 Hb1 Ho Hsem HO]
  · iapply (tile_run' d L O W hO (qT (cL L) (iL L)) (X3 m d) (SRC m d) (hpre d) (m (oLoc d)) fi fb0 fb1)
    isplitr; · iexact Hlv
    isplitl [Hx0]; · iexact Hx0
    isplitl [Hx1]; · iexact Hx1
    isplitl [Hs]; · iexact Hs
    isplitl [Hi]; · iexact Hi
    isplitl [Hb0]; · iexact Hb0
    isplitl [Hb1]; · iexact Hb1
    isplitl [Ho]; · iexact Ho
    isplitl [Hsem]; · iexact Hsem
    iexact HO
  iintro %_ ⟨Hx0, Hx1, Hs, Hi, Hb0, Hb1, Ho, Hsem, ⟨%W', HO, %hW'⟩⟩
  ihave Hx := (Transfers.pointsTo_toks_join (qT (cL L) (iL L)) 2) $$ [Hxr Hx0 Hx1]
  · isplitl [Hxr]; · iexact Hxr
    rw [bigSep_two]
    isplitl [Hx0]; · iexact Hx0
    iexact Hx1
  isplitl [Hx Hs Ho Hb0 Hb1]
  · isplitl [Hx]; · iexact Hx
    isplitl [Hs]; · iexact Hs
    isplitl [Ho]; · iexact Ho
    isplitl [Hb0]; · iexact Hb0
    iexact Hb1
  isplitl [Hi]; · iexact Hi
  isplitl [Hsem]; · iexact Hsem
  iexists W'
  isplitr; · ipureintro; exact hW'
  iexact HO

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_gather (coordsV c s) xW (Memref.isWhole_whole _) sW (Memref.isWhole_whole _) oW (Memref.isWhole_whole _)
          iW (Memref.isWhole_whole _) bW (Memref.isWhole_whole _) cc0_scratch2 cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hpre d (coordsV ⟨_, hc.1⟩ ⟨_, hc.2⟩) O W hO).trans (wp_mono frame _ _ fun _ => obl_post)

end Cert.Proof.RunIdeal

end
-- ==== Proof.NamesWord.lean ====
/-
  The kernel's memrefs, spelt as the program spells them: the five arrays whole, a subcore's 48
  entries of the row table, its two staging slots, one row of the images and one row of the result.
-/
import proofs.«214331_g712964571761_cont_9to1_m_186_24_alg».proof.Proof.SetupWord

noncomputable section

namespace Cert.Proof.RunWord

open Cert.Kernel Cert.Kernel.Gen
open Idealize.ShloMosaic
open Idealize.ShloMosaic.SparseCore (S V T)
open Idealize.SL Idealize.SL.Sem

/-- The flattened images, the row table, the result; a subcore's index scratch; its SparseCore's staging memory. -/
abbrev xW : Memref sig .scVector .hbm S1536x224x224 .f32 := Memref.whole main_v0_scv
abbrev sW : Memref sig .scVector .hbm S1536 .i32 := Memref.whole main_v9_scv
abbrev oW : Memref sig .scVector .hbm S1536x224x224 .f32 := Memref.whole main_v10_scv
abbrev iW : Memref sig .scVector .vmem S48 .i32 := Memref.whole cc0_scratch0
abbrev bW : Memref sig .scVector .shared S16x2x224x224 .f32 := Memref.whole cc0_scratch1

/-- The 48 table entries of the subcore at `L`. -/
abbrev srcSl (L : grid0.Coords) : Memref sig .scVector .hbm S48 .i32 :=
  sW.slice (Rect.unit (s := S1536) (k0_off1 L) S48.size (k0_off1_inb L)) (fun _ => rfl)
/-- Its two staging slots. -/
abbrev slot0 (L : grid0.Coords) : Memref sig .scVector .shared S224x224 .f32 :=
  (bW.slice (Rect.unit (s := S16x2x224x224) (k0_off2 L) S1x1x224x224.size (k0_off2_inb L)) (fun _ => rfl)).squeeze S224x224 squeezes_S1x1x224x224_S224x224
abbrev slot1 (L : grid0.Coords) : Memref sig .scVector .shared S224x224 .f32 :=
  (bW.slice (Rect.unit (s := S16x2x224x224) (k0_off4 L) S1x1x224x224.size (k0_off4_inb L)) (fun _ => rfl)).squeeze S224x224 squeezes_S1x1x224x224_S224x224
/-- The row of a 1536-row array at offsets `off`, as one 224 × 224 image. -/
abbrev rowOf (M : Memref sig .scVector .hbm S1536x224x224 .f32) (off : Fin 3 → Nat) (h : ∀ a, off a + S1x224x224.size a ≤ S1536x224x224.size a) :
    Memref sig .scVector .hbm S224x224 .f32 :=
  (M.slice (Rect.unit (s := S1536x224x224) off S1x224x224.size h) (fun _ => rfl)).squeeze S224x224 squeezes_S1x224x224_S224x224

/-- Every word of a vector names a row. -/
def AllSmall {s : Shape} (v : s.Idx → BitVec 32) : Prop := ∀ i, (v i).toNat < 1536

end Cert.Proof.RunWord

end
-- ==== Proof.GeomWord.lean ====
/-
  What the kernel's copies read and write, as index equations.  One row of a 1536-row array, taken as
  a 224 × 224 image, sits at that row's elements: image index `(h, w)` at array index `(r, h, w)`.  A row
  of the result written from a staging slot that was last filled from row `src[r]` of the images holds
  that row of the images, which is what the row-gather function asks of row `r`.  The sixteen table words
  a subcore loads at offset `t` of its forty-eight are the table's words at its block's offset plus `t`.
-/
import proofs.«214331_g712964571761_cont_9to1_m_186_24_alg».proof.Proof.NamesWord

noncomputable section

namespace Cert.Proof.RunWord

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## One row of a 1536-row array -/

/-- An image index behind the one coordinate `0`, placed in the array at offsets `(r, 0, 0)`. -/
theorem unit_emb_cons (r : Fin 1536) (h : ∀ a, (![r.val, 0, 0] : Fin 3 → Nat) a + S1x224x224.size a ≤ S1536x224x224.size a)
    (x : S224x224.Idx) :
    (Rect.unit (s := S1536x224x224) ![r.val, 0, 0] S1x224x224.size h).emb (Fin.cons ⟨0, Nat.one_pos⟩ x : S1x224x224.Idx)
      = ix3 r (x 0 : Fin 224) (x 1 : Fin 224) := by
  funext a
  refine Fin.ext ?_
  match a with
  | ⟨0, _⟩ => show r.val + 1 * 0 = r.val; omega
  | ⟨1, _⟩ => show 0 + 1 * (x 0).val = (x 0).val; omega
  | ⟨2, _⟩ => show 0 + 1 * (x 1).val = (x 1).val; omega

/-- Where a row's image index sits in the array's buffer: at the array's index `(r, h, w)`. -/
theorem emb_rowOf (M : Memref sig .scVector .hbm S1536x224x224 .f32) (r : Fin 1536) (off : Fin 3 → Nat)
    (h : ∀ a, off a + S1x224x224.size a ≤ S1536x224x224.size a) (hoff : off = ![r.val, 0, 0]) (x : S224x224.Idx) :
    (rowOf M off h).view.emb x = M.view.emb (ix3 r (x 0 : Fin 224) (x 1 : Fin 224)) := by
  subst hoff
  show M.view.emb ((Rect.unit (s := S1536x224x224) ![r.val, 0, 0] S1x224x224.size h).emb
    (Shape.reshapeEquiv (s := S1x224x224) (s' := S224x224) (squeezes_S1x224x224_S224x224).numel_eq x)) = _
  have e : Shape.reshapeEquiv (s := S1x224x224) (s' := S224x224) (squeezes_S1x224x224_S224x224).numel_eq x
      = (Fin.cons ⟨0, Nat.one_pos⟩ x : S1x224x224.Idx) :=
    Shape.reshapeEquiv_cons_one (n := 2) (d := ![224, 224]) _ x
  rw [e, unit_emb_cons r h x]
  rfl

/-- What a row reads of the array's contents: the array's read at `(r, h, w)`. -/
theorem read_rowOf (M : Memref sig .scVector .hbm S1536x224x224 .f32) (r : Fin 1536) (off : Fin 3 → Nat)
    (h : ∀ a, off a + S1x224x224.size a ≤ S1536x224x224.size a) (hoff : off = ![r.val, 0, 0])
    (f : M.view.ty.Contents (Elt F)) (x : S224x224.Idx) :
    (rowOf M off h).view.read (Elt F) f x = M.view.read (Elt F) f (ix3 r (x 0 : Fin 224) (x 1 : Fin 224)) := by
  rw [View.read_apply, View.read_apply, emb_rowOf M r off h hoff x]

/-! ## A row of the result, written from a slot filled from a row of the images -/

/-- The buffer under a view after one whole-view write holds the payload at each of the view's elements. -/
theorem writes_whole_emb {κ : Kind} {sp : Space} {s : Shape} (v : View sig κ sp s .f32) (f : v.ty.Contents (Elt F))
    (W : s.Idx → Elt F .f32) (y : s.Idx) (he : Elt F v.ty.elt = Elt F .f32) :
    cast he (v.writes (Elt F) f [⟨Rect.whole s, W⟩] (v.emb y)) = W y := by
  have h := congrFun (View.read_writes_whole v f W) y
  rwa [View.read_apply] at h

/-- Row `r` of the result, written whole from a staging slot whose last whole write was row `src[r]` of the
    images, holds at each of its elements what the row-gather function has there. -/
theorem row_agree (X3 : (xW).view.ty.Contents (Elt F)) (SRC : S1536.Idx → BitVec 32) (fo : (oW).view.ty.Contents (Elt F))
    (r : Fin 1536) (v : BitVec 32) (offo offx : Fin 3 → Nat)
    (ho : ∀ a, offo a + S1x224x224.size a ≤ S1536x224x224.size a) (hx : ∀ a, offx a + S1x224x224.size a ≤ S1536x224x224.size a)
    (hoffo : offo = ![r.val, 0, 0]) (hoffx : offx = ![v.toNat, 0, 0]) (hv : v = SRC (ix1 r)) (hlt : v.toNat < 1536)
    {κ : Kind} {sp : Space} (sv : View sig κ sp S224x224 .f32) (fb : sv.ty.Contents (Elt F))
    (REST : List (View.Piece (Elt F) S224x224 .f32)) :
    ∀ i ∈ (rowOf oW offo ho).view.set,
      (rowOf oW offo ho).view.writes (Elt F) fo [⟨Rect.whole S224x224, ReadAs.same.apply (View.read (Elt F) sv
        (sv.writes (Elt F) fb (⟨Rect.whole S224x224, ReadAs.same.apply (View.read (Elt F) (rowOf xW offx hx).view X3)⟩ :: REST)))⟩] i
        = Cert.Proof.Spec.gathered X3 SRC i := by
  intro i hi
  obtain ⟨y, -, rfl⟩ := Finset.mem_map.mp hi
  -- the written row holds its payload: what the slot reads at `y`
  refine (writes_whole_emb (F := F) (rowOf oW offo ho).view fo _ y rfl).trans ?_
  -- the slot's last whole write is what it reads: row `src[r]` of the images at `y`
  have h2 := View.read_writes_cons_emb sv fb (Rect.whole S224x224)
    (ReadAs.same.apply (View.read (Elt F) (rowOf xW offx hx).view X3)) REST y
  rw [Rect.emb_whole_apply] at h2
  refine h2.trans ?_
  refine (read_rowOf (F := F) xW ⟨v.toNat, hlt⟩ offx hx hoffx X3 y).trans ?_
  -- and the result's element under `y` is `(r, y)`
  rw [emb_rowOf oW r offo ho hoffo y]
  have hr : Cert.Proof.Spec.row (SRC (ix1 r)) = ⟨v.toNat, hlt⟩ := by
    rw [← hv]; exact Fin.ext (Cert.Proof.Spec.row_val_of_lt hlt)
  show X3 (ix3 (⟨v.toNat, hlt⟩ : Fin 1536) (y 0 : Fin 224) (y 1 : Fin 224))
    = X3 (ix3 (Cert.Proof.Spec.row (SRC (ix1 r))) (y 0 : Fin 224) (y 1 : Fin 224))
  rw [hr]

/-! ## The table words a subcore loads -/

theorem L0_lt (L : grid0.Coords) : (L 0).val < 2 := (L 0).isLt
theorem L1_lt (L : grid0.Coords) : (L 1).val < 16 := (L 1).isLt
theorem lane_lt (lane : S16.Idx) : (lane 0).val < 16 := (lane 0).isLt

/-- Where entry `j` of a subcore's forty-eight sits in the table: at the block's offset plus `j`. -/
theorem emb_srcSl (L : grid0.Coords) (j : S48.Idx) (n : Fin 1536) (hn : n.val = 96 * (L 1).val + 48 * (L 0).val + (j 0).val) :
    (srcSl L).view.emb j = ix1 n := by
  funext a
  refine Fin.ext ?_
  match a with
  | ⟨0, _⟩ =>
    show (k0_off1 L) 0 + 1 * (j 0).val = n.val
    rw [k0_off1_eq L, hn]
    show 96 * (L 1).val + 48 * (L 0).val + 1 * (j 0).val = _
    omega

/-- The sixteen words loaded at offset `t` of the subcore's index scratch, after the scratch was filled from the
    subcore's forty-eight table entries: lane `l` is the table's word at the block's offset plus `t + l`. -/
theorem load_chunk (L : grid0.Coords) (SRC : (sW).view.ty.Contents (Elt F)) (fi : (iW).view.ty.Contents (Elt F)) (off : Fin 1 → Nat)
    (hin : ∀ a, off a + S16.size a ≤ S48.size a) (t : Nat) (hoff : off = ![t]) (ht : t + 16 ≤ 48) (lane : S16.Idx) :
    View.readAt (Elt F) (iW).view (Rect.unit (s := S48) off S16.size hin).toLoadRect
        (View.write (Elt F) (iW).view fi (ReadAs.same.apply (View.read (Elt F) (srcSl L).view SRC)) Finset.univ) lane
      = SRC (ix1 (⟨96 * (L 1).val + 48 * (L 0).val + t + (lane 0).val,
          by have := L0_lt L; have := L1_lt L; have := lane_lt lane; omega⟩ : Fin 1536)) := by
  subst hoff
  rw [View.readAt_apply, View.read_write_of_mem _ _ (Finset.mem_univ _)]
  show (srcSl L).view.read (Elt F) SRC ((Rect.unit (s := S48) ![t] S16.size hin).toLoadRect.idx lane) = _
  rw [View.read_apply, emb_srcSl L _ ⟨96 * (L 1).val + 48 * (L 0).val + t + (lane 0).val,
    by have := L0_lt L; have := L1_lt L; have := lane_lt lane; omega⟩
    (by show 96 * (L 1).val + 48 * (L 0).val + t + (lane 0).val = 96 * (L 1).val + 48 * (L 0).val + (t + 1 * (lane 0).val); omega)]
  rfl

/-- Every word loaded from the index scratch, at whatever coordinates, is a word of the table: a row number
    when every table word is. -/
theorem allSmall_load (L : grid0.Coords) (SRC : (sW).view.ty.Contents (Elt F)) (hsrc : ∀ j, (SRC j).toNat < 1536)
    (fi : (iW).view.ty.Contents (Elt F)) (R : LoadRect S48) :
    AllSmall (View.readAt (Elt F) (iW).view R
      (View.write (Elt F) (iW).view fi (ReadAs.same.apply (View.read (Elt F) (srcSl L).view SRC)) Finset.univ)) := by
  intro i
  rw [View.readAt_apply, View.read_write_of_mem _ _ (Finset.mem_univ _)]
  show ((srcSl L).view.read (Elt F) SRC (R.idx i)).toNat < 1536
  rw [View.read_apply]
  exact hsrc _

end Cert.Proof.RunWord

end
-- ==== Proof.PrepWord.lean ====
/-
  What the launch hands a vector subcore, spelt as the kernel spells it.  The subcore at grid coordinates
  `L` is subcore `L 1` of SparseCore `L 0`, and works on block `2 (L 1) + L 0` of the row table and of the
  result.  Its own semaphores are the nineteen DMA semaphores, its own buffer the index scratch; the
  forty-eight table entries the kernel slices out are the launch's block, and the two staging slots it
  squeezes out of the shared memory are the launch's slots of subcore `L 1`.
-/
import proofs.«214331_g712964571761_cont_9to1_m_186_24_alg».proof.Proof.GeomWord
import proofs.«214331_g712964571761_cont_9to1_m_186_24_alg».proof.Proof.SplitWord

noncomputable section

namespace Cert.Proof.RunWord

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-- The SparseCore and the subcore at grid coordinates `L`, as the launch numbers them. -/
abbrev cL (L : grid0.Coords) : Fin 2 := Fin.cast (rfl : grid0.bound 0 = 2) (L 0)
abbrev iL (L : grid0.Coords) : Fin 16 := Fin.cast (rfl : grid0.bound 1 = 16) (L 1)

/-! ## The subcore's own semaphores -/

theorem reg_not_scoped : ∀ s : Sem sig, ¬ (SemLoc.reg s : SemLoc sig).isScoped .scVector = true := by decide
theorem dma_scoped : ∀ k : DmaSem sig, (SemLoc.dma k : SemLoc sig).isScoped .scVector = true := by decide

/-- A vector subcore's own scoped cells are its nineteen DMA semaphores: every DMA semaphore of a SparseCore
    processor is scoped, no regular semaphore is. -/
theorem ownCells_V (d : Dev nD) (c : Fin τ.nSC) (i : Fin τ.nSub) :
    ownCells (V d c i) = (Finset.univ : Finset (Fin 19)).image (fun k => ((V d c i, SemLoc.dma k) : GSem nD τ sig)) := by
  ext g
  obtain ⟨thr, sl⟩ := g
  simp only [mem_ownCells, Finset.mem_image, Finset.mem_univ, true_and]
  constructor
  · rintro ⟨rfl, hs⟩
    cases sl with
    | reg s =>
      have hs' : (SemLoc.reg s : SemLoc sig).isScoped .scVector = true := hs
      exact absurd hs' (reg_not_scoped s)
    | dma k => exact ⟨k, rfl⟩
  · rintro ⟨k, hk⟩
    obtain ⟨rfl, rfl⟩ := Prod.mk.inj hk
    exact ⟨rfl, dma_scoped k⟩

/-- A family over nineteen indices, written out. -/
theorem bigSep_fin19 (Φ : Fin 19 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) := by
  rw [show (Finset.univ : Finset (Fin 19)) = {0, 1, 2, 3, 4, 5, 6, 7, 8, 9, 10, 11, 12, 13, 14, 15, 16, 17, 18} from by decide,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide),
    bigSep_singleton]
  rfl

/-- The subcore's own semaphores at zero, one by one. -/
theorem ownSems0_all (d : Dev nD) (L : grid0.Coords) :
    (ownSems0 (V d (cV L) (jV L)) : sProp 𝕄)
      = iprop(semVal (V d (cV L) (jV L), SemLoc.dma cc0_scratch2.sem) 0
          ∗ semVal (V d (cV L) (jV L), SemLoc.dma cc0_scratch3.sem) 0
          ∗ semVal (V d (cV L) (jV L), SemLoc.dma cc0_scoped0.sem) 0
          ∗ semVal (V d (cV L) (jV L), SemLoc.dma cc0_scoped1.sem) 0
          ∗ semVal (V d (cV L) (jV L), SemLoc.dma cc0_scoped2.sem) 0
          ∗ semVal (V d (cV L) (jV L), SemLoc.dma cc0_scoped3.sem) 0
          ∗ semVal (V d (cV L) (jV L), SemLoc.dma cc0_scoped4.sem) 0
          ∗ semVal (V d (cV L) (jV L), SemLoc.dma cc0_scoped5.sem) 0
          ∗ semVal (V d (cV L) (jV L), SemLoc.dma cc0_scoped6.sem) 0
          ∗ semVal (V d (cV L) (jV L), SemLoc.dma cc0_scoped7.sem) 0
          ∗ semVal (V d (cV L) (jV L), SemLoc.dma cc0_scoped8.sem) 0
          ∗ semVal (V d (cV L) (jV L), SemLoc.dma cc0_scoped9.sem) 0
          ∗ semVal (V d (cV L) (jV L), SemLoc.dma cc0_scoped10.sem) 0
          ∗ semVal (V d (cV L) (jV L), SemLoc.dma cc0_scoped11.sem) 0
          ∗ semVal (V d (cV L) (jV L), SemLoc.dma cc0_scoped12.sem) 0
          ∗ semVal (V d (cV L) (jV L), SemLoc.dma cc0_scoped13.sem) 0
          ∗ semVal (V d (cV L) (jV L), SemLoc.dma cc0_scoped14.sem) 0
          ∗ semVal (V d (cV L) (jV L), SemLoc.dma cc0_scoped15.sem) 0
          ∗ semVal (V d (cV L) (jV L), SemLoc.dma cc0_scoped16.sem) 0) := by
  unfold SparseCore.Cfg.ownSems0
  rw [ownCells_V, SparseCore.bigSep_image_of_injOn (fun a _ b _ e => SemLoc.dma.inj (Prod.mk.inj e).2), bigSep_fin19]
  rfl

/-! ## The subcore's own buffer -/

/-- A vector subcore's own buffers: its index scratch, and nothing else. -/
theorem ownRefs_V : ∀ (c : Fin τ.nSC) (i : Fin τ.nSub),
    ownRefs (τ := τ) (sig := sig) (Proc.scVector c i) = {(Proc.scVector c i).devRef cc0_scratch0} := by decide

/-- The subcore's own buffers are its index scratch whole, at some contents. -/
theorem ownBufs_V (d : Dev nD) (L : grid0.Coords) :
    (ownBufs (V d (cV L) (jV L)) : sProp 𝕄) = iprop(∃ f, (iW).view.loc (V d (cV L) (jV L)) ↦{fullShare} f) := by
  unfold SparseCore.Cfg.ownBufs
  rw [ownRefs_V, bigSep_singleton]

theorem ownBufs_V_elim (d : Dev nD) (L : grid0.Coords) :
    (ownBufs (V d (cV L) (jV L)) : sProp 𝕄) ⊢ iprop(∃ f, (iW).view.loc (V d (cV L) (jV L)) ↦{fullShare} f) :=
  Entails.of_eq (ownBufs_V d L)
theorem ownBufs_V_intro (d : Dev nD) (L : grid0.Coords) :
    (iprop(∃ f, (iW).view.loc (V d (cV L) (jV L)) ↦{fullShare} f) : sProp 𝕄) ⊢ ownBufs (V d (cV L) (jV L)) :=
  Entails.of_eq (ownBufs_V d L).symm

/-! ## The kernel's memrefs against the launch's blocks -/

/-- The forty-eight table entries the kernel slices out at its offsets are block `2 (L 1) + L 0`. -/
theorem srcRect_eq (L : grid0.Coords) :
    Rect.unit (s := S1536) (k0_off1 L) S48.size (k0_off1_inb L) = sPart (wid (cL L) (iL L)) := by
  have key : ∀ (off off' size size' : Fin 1 → Nat) (p : ∀ a, off a + size a ≤ S1536.size a) (p' : ∀ a, off' a + size' a ≤ S1536.size a),
      off = off' → size = size' → Rect.unit (s := S1536) off size p = Rect.unit off' size' p' := by
    intro off off' size size' p p' h1 h2
    subst h1; subst h2; rfl
  refine key _ _ _ _ _ _ ?_ ?_
  · rw [k0_off1_eq]
    funext a
    match a with
    | ⟨0, _⟩ =>
      show 96 * (L 1).val + 48 * (L 0).val = (2 * (L 1).val + (L 0).val) * 48
      omega
  · funext a
    match a with
    | ⟨0, _⟩ => rfl

theorem set_srcSl (L : grid0.Coords) : (srcSl L).view.set = sSet (wid (cL L) (iL L)) := by
  show ((sW : Memref sig .scVector .hbm S1536 .i32).view.slice (Rect.unit (s := S1536) (k0_off1 L) S48.size (k0_off1_inb L))).set
    = ((Memref.whole main_v9_scv : Memref sig .scVector .hbm S1536 .i32).view.slice (sPart (wid (cL L) (iL L)))).set
  rw [srcRect_eq]

/-- The kernel's forty-eight table entries are the launch's block of the table. -/
theorem pts_srcSl (d : Dev nD) (L : grid0.Coords) (f : Buf (Elt F) (sLoc d)) :
    ((srcSl L).view.loc (V d (cV L) (jV L)) ↦[(srcSl L).view.set]{fullShare} f : sProp 𝕄)
      = sLoc d ↦[sSet (wid (cL L) (iL L))]{fullShare} f := by
  rw [set_srcSl]

theorem set_slot0 (L : grid0.Coords) : (slot0 L).view.set = bSet (iL L) 0 := by
  show (((bW : Memref sig .scVector .shared S16x2x224x224 .f32).view.slice
      (Rect.unit (s := S16x2x224x224) (k0_off2 L) S1x1x224x224.size (k0_off2_inb L))).reshape S224x224 squeezes_S1x1x224x224_S224x224.numel_eq).set
    = ((Memref.whole cc0_scratch1 : Memref sig .scVector .shared S16x2x224x224 .f32).view.slice (bRect (iL L) 0)).set
  rw [View.set_reshape]
  exact @congrArg (Rect S16x2x224x224) (Finset (bW : Memref sig .scVector .shared S16x2x224x224 .f32).view.ty.Idx) _ _
    (fun r => ((bW : Memref sig .scVector .shared S16x2x224x224 .f32).view.slice r).set)
    (Rect.unit_congr (k0_off2_eq L) (k0_off2_inb L) (bRect_inb (iL L) 0))

theorem set_slot1 (L : grid0.Coords) : (slot1 L).view.set = bSet (iL L) 1 := by
  show (((bW : Memref sig .scVector .shared S16x2x224x224 .f32).view.slice
      (Rect.unit (s := S16x2x224x224) (k0_off4 L) S1x1x224x224.size (k0_off4_inb L))).reshape S224x224 squeezes_S1x1x224x224_S224x224.numel_eq).set
    = ((Memref.whole cc0_scratch1 : Memref sig .scVector .shared S16x2x224x224 .f32).view.slice (bRect (iL L) 1)).set
  rw [View.set_reshape]
  exact @congrArg (Rect S16x2x224x224) (Finset (bW : Memref sig .scVector .shared S16x2x224x224 .f32).view.ty.Idx) _ _
    (fun r => ((bW : Memref sig .scVector .shared S16x2x224x224 .f32).view.slice r).set)
    (Rect.unit_congr (k0_off4_eq L) (k0_off4_inb L) (bRect_inb (iL L) 1))

/-- The kernel's two staging slots are the launch's slots of subcore `L 1`. -/
theorem pts_slot0 (d : Dev nD) (L : grid0.Coords) (f : Buf (Elt F) (shLoc d (cV L))) :
    ((slot0 L).view.loc (V d (cV L) (jV L)) ↦[(slot0 L).view.set]{fullShare} f : sProp 𝕄)
      = shLoc d (cV L) ↦[bSet (iL L) 0]{fullShare} f := by
  rw [set_slot0]
  rfl
theorem pts_slot1 (d : Dev nD) (L : grid0.Coords) (f : Buf (Elt F) (shLoc d (cV L))) :
    ((slot1 L).view.loc (V d (cV L) (jV L)) ↦[(slot1 L).view.set]{fullShare} f : sProp 𝕄)
      = shLoc d (cV L) ↦[bSet (iL L) 1]{fullShare} f := by
  rw [set_slot1]
  rfl

/-- The images and the index scratch, as the kernel names them, are the launch's. -/
theorem pts_x (d : Dev nD) (L : grid0.Coords) (q : PosShare TreeShare) (f : Buf (Elt F) (xLoc d)) :
    ((xW).view.loc (V d (cV L) (jV L)) ↦{q} f : sProp 𝕄) = xLoc d ↦{q} f := rfl
theorem pts_i (d : Dev nD) (L : grid0.Coords) (f : Buf (Elt F) ((V d (cV L) (jV L)).loc cc0_scratch0)) :
    ((iW).view.loc (V d (cV L) (jV L)) ↦{fullShare} f : sProp 𝕄) = (V d (cV L) (jV L)).loc cc0_scratch0 ↦{fullShare} f := rfl

end Cert.Proof.RunWord

end
-- ==== Proof.WordsWord.lean ====
/-
  One table word out of the sixteen a subcore loads: the kernel casts the loaded vector to its own shape,
  slices one lane out of it and extracts that lane's word.  Lane `k` of the load at offset `t` of the
  subcore's forty-eight is the table's word at the block's offset plus `t + k`.
-/
import proofs.«214331_g712964571761_cont_9to1_m_186_24_alg».proof.Proof.GeomWord
import Idealize.ShloMosaic.Lib.Pipeline.Value

noncomputable section

namespace Cert.Proof.RunWord

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-- Lane `k` of a sixteen-word vector, through the cast to its own shape, the one-lane slice at `k` and the
    extraction of that lane's word. -/
theorem word_lane (v : S16.Idx → BitVec 32) (k : Nat) (hk : k < 16) (hc : S16.ShapeCasts S16) (hs : S16.Slices ![k] S1)
    (hp : ∀ a, (![0] : Fin 1 → Nat) a < S1.size a) :
    extractAt ![0] (extractStridedSlice S1 ![k] (shapeCast S16 v hc) hs) hp = v (ix1 (⟨k, hk⟩ : Fin 16)) := by
  rw [shapeCast_self]
  unfold extractAt extractStridedSlice
  refine congrArg v (funext fun a => Fin.ext ?_)
  match a with
  | ⟨0, _⟩ => show k + 0 = k; rfl

/-- Lane `k` of the sixteen words loaded at offset `t` of the subcore's index scratch, after the scratch was
    filled from the subcore's forty-eight table entries: the table's word at the block's offset plus `t + k`. -/
theorem word_src (L : grid0.Coords) (SRC : (sW).view.ty.Contents (Elt F)) (fi : (iW).view.ty.Contents (Elt F)) (off : Fin 1 → Nat)
    (hin : ∀ a, off a + S16.size a ≤ S48.size a) (t : Nat) (hoff : off = ![t]) (ht : t + 16 ≤ 48) (k : Nat) (hk : k < 16)
    (hc : S16.ShapeCasts S16) (hs : S16.Slices ![k] S1) (hp : ∀ a, (![0] : Fin 1 → Nat) a < S1.size a) :
    extractAt ![0] (extractStridedSlice S1 ![k] (shapeCast S16
        (View.readAt (Elt F) (iW).view (Rect.unit (s := S48) off S16.size hin).toLoadRect
          (View.write (Elt F) (iW).view fi (ReadAs.same.apply (View.read (Elt F) (srcSl L).view SRC)) Finset.univ)) hc) hs) hp
      = SRC (ix1 (⟨96 * (L 1).val + 48 * (L 0).val + (t + k), by have := L0_lt L; have := L1_lt L; omega⟩ : Fin 1536)) := by
  refine (word_lane (fun i => View.readAt (Elt F) (iW).view (Rect.unit (s := S48) off S16.size hin).toLoadRect
      (View.write (Elt F) (iW).view fi (ReadAs.same.apply (View.read (Elt F) (srcSl L).view SRC)) Finset.univ) i) k hk hc hs hp).trans ?_
  refine (load_chunk L SRC fi off hin t hoff ht (ix1 ⟨k, hk⟩)).trans ?_
  exact congrArg SRC (congrArg ix1 (Fin.ext (by
    show 96 * (L 1).val + 48 * (L 0).val + t + k = 96 * (L 1).val + 48 * (L 0).val + (t + k)
    omega)))

end Cert.Proof.RunWord

end
-- ==== Proof.TileWord.lean ====
/-
  One vector subcore's task, run symbolically from start to end: its 48 table entries fetched,
  then 48 rows of the images fetched two ahead into two staging slots and written out, each slot's
  fetch waited for before the slot is read and re-issued only after its write-out has completed.
  What each row of the result ends at is stated beside the run: the image row its table entry names.
-/
import proofs.«214331_g712964571761_cont_9to1_m_186_24_alg».proof.Proof.NamesWord
import proofs.«214331_g712964571761_cont_9to1_m_186_24_alg».proof.Proof.GeomWord
import proofs.«214331_g712964571761_cont_9to1_m_186_24_alg».proof.Proof.WordsWord
import proofs.«214331_g712964571761_cont_9to1_m_186_24_alg».proof.Proof.RunTac

noncomputable section

namespace Cert.Proof.RunWord

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.RunTac

variable {F : FTy → Type}

local notation "𝕄" => MT nD τ sig (HIx 1) (Elt F) ℕ UU ℕ

/-- The loop's three trips. -/
abbrev tr0 : Fin k0_t1_loop.trips := ⟨0, by decide⟩
abbrev tr1 : Fin k0_t1_loop.trips := ⟨1, by decide⟩
abbrev tr2 : Fin k0_t1_loop.trips := ⟨2, by decide⟩

variable [FloatOps F]

/-! ## Every table word names a row -/

theorem vec3_congr {a b : Nat} (h : a = b) : (![a, 0, 0] : Fin 3 → Nat) = ![b, 0, 0] := by rw [h]
theorem chk_of_small {v : BitVec 32} (h : v.toNat < 1536) :
    ∀ a, (![v.toNat, 0, 0] : Fin 3 → Nat) a + S1x224x224.size a ≤ S1536x224x224.size a := by
  intro a; fin_cases a <;> simp <;> omega
theorem small_extractAt {s : Shape} {pos : Fin s.rank → Nat} {v : s.Idx → BitVec 32} {h : ∀ a, pos a < s.size a} (hv : AllSmall v) :
    (extractAt pos v h).toNat < 1536 := hv _
theorem allSmall_cast {s t : Shape} {v : s.Idx → BitVec 32} {h : s.ShapeCasts t} (hv : AllSmall v) : AllSmall (shapeCast t v h) := fun _ => hv _
theorem allSmall_slice {s t : Shape} {off : Fin s.rank → Nat} {v : s.Idx → BitVec 32} {h : s.Slices off t} (hv : AllSmall v) :
    AllSmall (extractStridedSlice t off v h) := fun _ => hv _
theorem allSmall_pay1 {v : Vec F S16 .i32} (hv : AllSmall (s := S16) v) : AllSmall (s := S16) (k0_pay1 v) := fun _ => hv _
theorem allSmall_pay2 {v : Vec F S16 .i32} (hv : AllSmall (s := S16) v) : AllSmall (s := S1) (k0_pay2 v) := fun _ => hv _
theorem allSmall_pay3 {v : Vec F S16 .i32} (hv : AllSmall (s := S16) v) : AllSmall (s := S1) (k0_pay3 v) := fun _ => hv _
theorem allSmall_pay4 {v : Vec F S16 .i32} (hv : AllSmall (s := S16) v) : AllSmall (s := S16) (k0_pay4 v) := fun _ => hv _
theorem allSmall_pay5 {v : Vec F S16 .i32} (hv : AllSmall (s := S16) v) : AllSmall (s := S16) (k0_pay5 v) := fun _ => hv _
theorem allSmall_pay6 {v : Vec F S16 .i32} (hv : AllSmall (s := S16) v) : AllSmall (s := S1) (k0_pay6 v) := fun _ => hv _
theorem allSmall_pay7 {v : IVec S16 32} (hv : AllSmall (s := S16) v) : AllSmall (s := S1) (k0_pay7 v) := fun _ => hv _
theorem allSmall_pay8 {v : IVec S16 32} (hv : AllSmall (s := S16) v) : AllSmall (s := S1) (k0_pay8 v) := fun _ => hv _
theorem allSmall_pay9 {v : IVec S16 32} (hv : AllSmall (s := S16) v) : AllSmall (s := S1) (k0_pay9 v) := fun _ => hv _
theorem allSmall_pay10 {v : IVec S16 32} (hv : AllSmall (s := S16) v) : AllSmall (s := S1) (k0_pay10 v) := fun _ => hv _
theorem allSmall_pay11 {v : IVec S16 32} (hv : AllSmall (s := S16) v) : AllSmall (s := S1) (k0_pay11 v) := fun _ => hv _
theorem allSmall_pay12 {v : IVec S16 32} (hv : AllSmall (s := S16) v) : AllSmall (s := S1) (k0_pay12 v) := fun _ => hv _
theorem allSmall_pay13 {v : IVec S16 32} (hv : AllSmall (s := S16) v) : AllSmall (s := S1) (k0_pay13 v) := fun _ => hv _
theorem allSmall_pay14 {v : IVec S16 32} (hv : AllSmall (s := S16) v) : AllSmall (s := S1) (k0_pay14 v) := fun _ => hv _
theorem allSmall_pay15 {v : IVec S16 32} (hv : AllSmall (s := S16) v) : AllSmall (s := S1) (k0_pay15 v) := fun _ => hv _
theorem allSmall_pay16 {v : IVec S16 32} (hv : AllSmall (s := S16) v) : AllSmall (s := S1) (k0_pay16 v) := fun _ => hv _
theorem allSmall_pay17 {v : IVec S16 32} (hv : AllSmall (s := S16) v) : AllSmall (s := S1) (k0_pay17 v) := fun _ => hv _
theorem allSmall_pay18 {v : IVec S16 32} (hv : AllSmall (s := S16) v) : AllSmall (s := S1) (k0_pay18 v) := fun _ => hv _
theorem allSmall_pay19 {v : IVec S16 32} (hv : AllSmall (s := S16) v) : AllSmall (s := S1) (k0_pay19 v) := fun _ => hv _
theorem allSmall_pay20 {v : IVec S16 32} (hv : AllSmall (s := S16) v) : AllSmall (s := S1) (k0_pay20 v) := fun _ => hv _
theorem allSmall_pay21 {v : IVec S16 32} (hv : AllSmall (s := S16) v) : AllSmall (s := S1) (k0_pay21 v) := fun _ => hv _

/-- The words of a vector the body extracts from what it loaded of the index scratch all name rows. -/
macro "small_vec " h:term : tactic => `(tactic| (repeat (small_step $h)))
/-- A check the body makes of such a word: the row it names lies inside the images. -/
macro "chk_tac " h:term : tactic => `(tactic| (
  unfold_sl
  simp only [k0_chk1, k0_chk2, k0_chk3, k0_chk4, k0_chk5, k0_chk6, k0_chk7, k0_chk8, k0_chk9, k0_chk10, k0_chk11, k0_chk12, k0_chk13, k0_chk14, k0_chk15, k0_chk16, k0_chk17, k0_chk18]
  intros
  refine chk_of_small (small_extractAt ?_) _
  small_vec $h))

/-! ## The task, run -/

set_option maxHeartbeats 8000000 in
set_option sl_exec.unrollTrips 3 in
theorem tile_run (d : Dev nD) (L : grid0.Coords) (O : CellTallies nD τ sig (HIx 1)) (W : Waits sig (HIx 1)) (hO : ∀ g, O g none = 0)
    (q : PosShare TreeShare)
    (X3 : Buf (Elt F) ((xW).view.loc (V d (cV L) (jV L)))) (SRC : Buf (Elt F) ((sW).view.loc (V d (cV L) (jV L))))
    (hsrc : ∀ j, (SRC j).toNat < 1536)
    (fo : Buf (Elt F) ((oW).view.loc (V d (cV L) (jV L)))) (fi : Buf (Elt F) ((iW).view.loc (V d (cV L) (jV L))))
    (fb0 fb1 : Buf (Elt F) ((bW).view.loc (V d (cV L) (jV L)))) :
    iprop(levAts (K (F := F)).L (K (F := F)).lev
        ∗ ((xW).view.loc (V d (cV L) (jV L)) ↦{Transfers.shareTokN q 0} X3 : sProp 𝕄)
        ∗ ((xW).view.loc (V d (cV L) (jV L)) ↦{Transfers.shareTokN q 1} X3)
        ∗ ((srcSl L).view.loc (V d (cV L) (jV L)) ↦[(srcSl L).view.set]{fullShare} SRC)
        ∗ ((iW).view.loc (V d (cV L) (jV L)) ↦{fullShare} fi)
        ∗ ((slot0 L).view.loc (V d (cV L) (jV L)) ↦[(slot0 L).view.set]{fullShare} fb0)
        ∗ ((slot1 L).view.loc (V d (cV L) (jV L)) ↦[(slot1 L).view.set]{fullShare} fb1)
        ∗ ((rowOf oW (k0_off9 L tr0) (k0_off9_inb L tr0)).view.loc (V d (cV L) (jV L)) ↦[(rowOf oW (k0_off9 L tr0) (k0_off9_inb L tr0)).view.set]{fullShare} fo)
        ∗ ((rowOf oW (k0_off13 L tr0) (k0_off13_inb L tr0)).view.loc (V d (cV L) (jV L)) ↦[(rowOf oW (k0_off13 L tr0) (k0_off13_inb L tr0)).view.set]{fullShare} fo)
        ∗ ((rowOf oW (k0_off17 L tr0) (k0_off17_inb L tr0)).view.loc (V d (cV L) (jV L)) ↦[(rowOf oW (k0_off17 L tr0) (k0_off17_inb L tr0)).view.set]{fullShare} fo)
        ∗ ((rowOf oW (k0_off21 L tr0) (k0_off21_inb L tr0)).view.loc (V d (cV L) (jV L)) ↦[(rowOf oW (k0_off21 L tr0) (k0_off21_inb L tr0)).view.set]{fullShare} fo)
        ∗ ((rowOf oW (k0_off25 L tr0) (k0_off25_inb L tr0)).view.loc (V d (cV L) (jV L)) ↦[(rowOf oW (k0_off25 L tr0) (k0_off25_inb L tr0)).view.set]{fullShare} fo)
        ∗ ((rowOf oW (k0_off29 L tr0) (k0_off29_inb L tr0)).view.loc (V d (cV L) (jV L)) ↦[(rowOf oW (k0_off29 L tr0) (k0_off29_inb L tr0)).view.set]{fullShare} fo)
        ∗ ((rowOf oW (k0_off33 L tr0) (k0_off33_inb L tr0)).view.loc (V d (cV L) (jV L)) ↦[(rowOf oW (k0_off33 L tr0) (k0_off33_inb L tr0)).view.set]{fullShare} fo)
        ∗ ((rowOf oW (k0_off37 L tr0) (k0_off37_inb L tr0)).view.loc (V d (cV L) (jV L)) ↦[(rowOf oW (k0_off37 L tr0) (k0_off37_inb L tr0)).view.set]{fullShare} fo)
        ∗ ((rowOf oW (k0_off41 L tr0) (k0_off41_inb L tr0)).view.loc (V d (cV L) (jV L)) ↦[(rowOf oW (k0_off41 L tr0) (k0_off41_inb L tr0)).view.set]{fullShare} fo)
        ∗ ((rowOf oW (k0_off45 L tr0) (k0_off45_inb L tr0)).view.loc (V d (cV L) (jV L)) ↦[(rowOf oW (k0_off45 L tr0) (k0_off45_inb L tr0)).view.set]{fullShare} fo)
        ∗ ((rowOf oW (k0_off49 L tr0) (k0_off49_inb L tr0)).view.loc (V d (cV L) (jV L)) ↦[(rowOf oW (k0_off49 L tr0) (k0_off49_inb L tr0)).view.set]{fullShare} fo)
        ∗ ((rowOf oW (k0_off53 L tr0) (k0_off53_inb L tr0)).view.loc (V d (cV L) (jV L)) ↦[(rowOf oW (k0_off53 L tr0) (k0_off53_inb L tr0)).view.set]{fullShare} fo)
        ∗ ((rowOf oW (k0_off57 L tr0) (k0_off57_inb L tr0)).view.loc (V d (cV L) (jV L)) ↦[(rowOf oW (k0_off57 L tr0) (k0_off57_inb L tr0)).view.set]{fullShare} fo)
        ∗ ((rowOf oW (k0_off61 L tr0) (k0_off61_inb L tr0)).view.loc (V d (cV L) (jV L)) ↦[(rowOf oW (k0_off61 L tr0) (k0_off61_inb L tr0)).view.set]{fullShare} fo)
        ∗ ((rowOf oW (k0_off65 L tr0) (k0_off65_inb L tr0)).view.loc (V d (cV L) (jV L)) ↦[(rowOf oW (k0_off65 L tr0) (k0_off65_inb L tr0)).view.set]{fullShare} fo)
        ∗ ((rowOf oW (k0_off69 L tr0) (k0_off69_inb L tr0)).view.loc (V d (cV L) (jV L)) ↦[(rowOf oW (k0_off69 L tr0) (k0_off69_inb L tr0)).view.set]{fullShare} fo)
        ∗ ((rowOf oW (k0_off9 L tr1) (k0_off9_inb L tr1)).view.loc (V d (cV L) (jV L)) ↦[(rowOf oW (k0_off9 L tr1) (k0_off9_inb L tr1)).view.set]{fullShare} fo)
        ∗ ((rowOf oW (k0_off13 L tr1) (k0_off13_inb L tr1)).view.loc (V d (cV L) (jV L)) ↦[(rowOf oW (k0_off13 L tr1) (k0_off13_inb L tr1)).view.set]{fullShare} fo)
        ∗ ((rowOf oW (k0_off17 L tr1) (k0_off17_inb L tr1)).view.loc (V d (cV L) (jV L)) ↦[(rowOf oW (k0_off17 L tr1) (k0_off17_inb L tr1)).view.set]{fullShare} fo)
        ∗ ((rowOf oW (k0_off21 L tr1) (k0_off21_inb L tr1)).view.loc (V d (cV L) (jV L)) ↦[(rowOf oW (k0_off21 L tr1) (k0_off21_inb L tr1)).view.set]{fullShare} fo)
        ∗ ((rowOf oW (k0_off25 L tr1) (k0_off25_inb L tr1)).view.loc (V d (cV L) (jV L)) ↦[(rowOf oW (k0_off25 L tr1) (k0_off25_inb L tr1)).view.set]{fullShare} fo)
        ∗ ((rowOf oW (k0_off29 L tr1) (k0_off29_inb L tr1)).view.loc (V d (cV L) (jV L)) ↦[(rowOf oW (k0_off29 L tr1) (k0_off29_inb L tr1)).view.set]{fullShare} fo)
        ∗ ((rowOf oW (k0_off33 L tr1) (k0_off33_inb L tr1)).view.loc (V d (cV L) (jV L)) ↦[(rowOf oW (k0_off33 L tr1) (k0_off33_inb L tr1)).view.set]{fullShare} fo)
        ∗ ((rowOf oW (k0_off37 L tr1) (k0_off37_inb L tr1)).view.loc (V d (cV L) (jV L)) ↦[(rowOf oW (k0_off37 L tr1) (k0_off37_inb L tr1)).view.set]{fullShare} fo)
        ∗ ((rowOf oW (k0_off41 L tr1) (k0_off41_inb L tr1)).view.loc (V d (cV L) (jV L)) ↦[(rowOf oW (k0_off41 L tr1) (k0_off41_inb L tr1)).view.set]{fullShare} fo)
        ∗ ((rowOf oW (k0_off45 L tr1) (k0_off45_inb L tr1)).view.loc (V d (cV L) (jV L)) ↦[(rowOf oW (k0_off45 L tr1) (k0_off45_inb L tr1)).view.set]{fullShare} fo)
        ∗ ((rowOf oW (k0_off49 L tr1) (k0_off49_inb L tr1)).view.loc (V d (cV L) (jV L)) ↦[(rowOf oW (k0_off49 L tr1) (k0_off49_inb L tr1)).view.set]{fullShare} fo)
        ∗ ((rowOf oW (k0_off53 L tr1) (k0_off53_inb L tr1)).view.loc (V d (cV L) (jV L)) ↦[(rowOf oW (k0_off53 L tr1) (k0_off53_inb L tr1)).view.set]{fullShare} fo)
        ∗ ((rowOf oW (k0_off57 L tr1) (k0_off57_inb L tr1)).view.loc (V d (cV L) (jV L)) ↦[(rowOf oW (k0_off57 L tr1) (k0_off57_inb L tr1)).view.set]{fullShare} fo)
        ∗ ((rowOf oW (k0_off61 L tr1) (k0_off61_inb L tr1)).view.loc (V d (cV L) (jV L)) ↦[(rowOf oW (k0_off61 L tr1) (k0_off61_inb L tr1)).view.set]{fullShare} fo)
        ∗ ((rowOf oW (k0_off65 L tr1) (k0_off65_inb L tr1)).view.loc (V d (cV L) (jV L)) ↦[(rowOf oW (k0_off65 L tr1) (k0_off65_inb L tr1)).view.set]{fullShare} fo)
        ∗ ((rowOf oW (k0_off69 L tr1) (k0_off69_inb L tr1)).view.loc (V d (cV L) (jV L)) ↦[(rowOf oW (k0_off69 L tr1) (k0_off69_inb L tr1)).view.set]{fullShare} fo)
        ∗ ((rowOf oW (k0_off9 L tr2) (k0_off9_inb L tr2)).view.loc (V d (cV L) (jV L)) ↦[(rowOf oW (k0_off9 L tr2) (k0_off9_inb L tr2)).view.set]{fullShare} fo)
        ∗ ((rowOf oW (k0_off13 L tr2) (k0_off13_inb L tr2)).view.loc (V d (cV L) (jV L)) ↦[(rowOf oW (k0_off13 L tr2) (k0_off13_inb L tr2)).view.set]{fullShare} fo)
        ∗ ((rowOf oW (k0_off17 L tr2) (k0_off17_inb L tr2)).view.loc (V d (cV L) (jV L)) ↦[(rowOf oW (k0_off17 L tr2) (k0_off17_inb L tr2)).view.set]{fullShare} fo)
        ∗ ((rowOf oW (k0_off21 L tr2) (k0_off21_inb L tr2)).view.loc (V d (cV L) (jV L)) ↦[(rowOf oW (k0_off21 L tr2) (k0_off21_inb L tr2)).view.set]{fullShare} fo)
        ∗ ((rowOf oW (k0_off25 L tr2) (k0_off25_inb L tr2)).view.loc (V d (cV L) (jV L)) ↦[(rowOf oW (k0_off25 L tr2) (k0_off25_inb L tr2)).view.set]{fullShare} fo)
        ∗ ((rowOf oW (k0_off29 L tr2) (k0_off29_inb L tr2)).view.loc (V d (cV L) (jV L)) ↦[(rowOf oW (k0_off29 L tr2) (k0_off29_inb L tr2)).view.set]{fullShare} fo)
        ∗ ((rowOf oW (k0_off33 L tr2) (k0_off33_inb L tr2)).view.loc (V d (cV L) (jV L)) ↦[(rowOf oW (k0_off33 L tr2) (k0_off33_inb L tr2)).view.set]{fullShare} fo)
        ∗ ((rowOf oW (k0_off37 L tr2) (k0_off37_inb L tr2)).view.loc (V d (cV L) (jV L)) ↦[(rowOf oW (k0_off37 L tr2) (k0_off37_inb L tr2)).view.set]{fullShare} fo)
        ∗ ((rowOf oW (k0_off41 L tr2) (k0_off41_inb L tr2)).view.loc (V d (cV L) (jV L)) ↦[(rowOf oW (k0_off41 L tr2) (k0_off41_inb L tr2)).view.set]{fullShare} fo)
        ∗ ((rowOf oW (k0_off45 L tr2) (k0_off45_inb L tr2)).view.loc (V d (cV L) (jV L)) ↦[(rowOf oW (k0_off45 L tr2) (k0_off45_inb L tr2)).view.set]{fullShare} fo)
        ∗ ((rowOf oW (k0_off49 L tr2) (k0_off49_inb L tr2)).view.loc (V d (cV L) (jV L)) ↦[(rowOf oW (k0_off49 L tr2) (k0_off49_inb L tr2)).view.set]{fullShare} fo)
        ∗ ((rowOf oW (k0_off53 L tr2) (k0_off53_inb L tr2)).view.loc (V d (cV L) (jV L)) ↦[(rowOf oW (k0_off53 L tr2) (k0_off53_inb L tr2)).view.set]{fullShare} fo)
        ∗ ((rowOf oW (k0_off57 L tr2) (k0_off57_inb L tr2)).view.loc (V d (cV L) (jV L)) ↦[(rowOf oW (k0_off57 L tr2) (k0_off57_inb L tr2)).view.set]{fullShare} fo)
        ∗ ((rowOf oW (k0_off61 L tr2) (k0_off61_inb L tr2)).view.loc (V d (cV L) (jV L)) ↦[(rowOf oW (k0_off61 L tr2) (k0_off61_inb L tr2)).view.set]{fullShare} fo)
        ∗ ((rowOf oW (k0_off65 L tr2) (k0_off65_inb L tr2)).view.loc (V d (cV L) (jV L)) ↦[(rowOf oW (k0_off65 L tr2) (k0_off65_inb L tr2)).view.set]{fullShare} fo)
        ∗ ((rowOf oW (k0_off69 L tr2) (k0_off69_inb L tr2)).view.loc (V d (cV L) (jV L)) ↦[(rowOf oW (k0_off69 L tr2) (k0_off69_inb L tr2)).view.set]{fullShare} fo)
        ∗ semVal ((V d (cV L) (jV L)), SemLoc.dma cc0_scratch2.sem) 0
        ∗ semVal ((V d (cV L) (jV L)), SemLoc.dma cc0_scratch3.sem) 0
        ∗ semVal ((V d (cV L) (jV L)), SemLoc.dma cc0_scoped0.sem) 0
        ∗ semVal ((V d (cV L) (jV L)), SemLoc.dma cc0_scoped1.sem) 0
        ∗ semVal ((V d (cV L) (jV L)), SemLoc.dma cc0_scoped2.sem) 0
        ∗ semVal ((V d (cV L) (jV L)), SemLoc.dma cc0_scoped3.sem) 0
        ∗ semVal ((V d (cV L) (jV L)), SemLoc.dma cc0_scoped4.sem) 0
        ∗ semVal ((V d (cV L) (jV L)), SemLoc.dma cc0_scoped5.sem) 0
        ∗ semVal ((V d (cV L) (jV L)), SemLoc.dma cc0_scoped6.sem) 0
        ∗ semVal ((V d (cV L) (jV L)), SemLoc.dma cc0_scoped7.sem) 0
        ∗ semVal ((V d (cV L) (jV L)), SemLoc.dma cc0_scoped8.sem) 0
        ∗ semVal ((V d (cV L) (jV L)), SemLoc.dma cc0_scoped9.sem) 0
        ∗ semVal ((V d (cV L) (jV L)), SemLoc.dma cc0_scoped10.sem) 0
        ∗ semVal ((V d (cV L) (jV L)), SemLoc.dma cc0_scoped11.sem) 0
        ∗ semVal ((V d (cV L) (jV L)), SemLoc.dma cc0_scoped12.sem) 0
        ∗ semVal ((V d (cV L) (jV L)), SemLoc.dma cc0_scoped13.sem) 0
        ∗ semVal ((V d (cV L) (jV L)), SemLoc.dma cc0_scoped14.sem) 0
        ∗ semVal ((V d (cV L) (jV L)), SemLoc.dma cc0_scoped15.sem) 0
        ∗ semVal ((V d (cV L) (jV L)), SemLoc.dma cc0_scoped16.sem) 0
        ∗ owes (V d (cV L) (jV L)) O W)
      ⊢ wp frame (wpE (defs₀ (F := F)) 𝒱₀ (V d (cV L) (jV L)) none) Set.univ
          (cc0_sc_gather L xW (Memref.isWhole_whole _) sW (Memref.isWhole_whole _) oW (Memref.isWhole_whole _)
            iW (Memref.isWhole_whole _) bW (Memref.isWhole_whole _) cc0_scratch2 cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16)
          fun _ => iprop(
            ((xW).view.loc (V d (cV L) (jV L)) ↦{Transfers.shareTokN q 0} X3 : sProp 𝕄)
            ∗ ((xW).view.loc (V d (cV L) (jV L)) ↦{Transfers.shareTokN q 1} X3)
            ∗ ((srcSl L).view.loc (V d (cV L) (jV L)) ↦[(srcSl L).view.set]{fullShare} SRC)
            ∗ (∃ f, (iW).view.loc (V d (cV L) (jV L)) ↦{fullShare} f)
            ∗ (∃ f, (slot0 L).view.loc (V d (cV L) (jV L)) ↦[(slot0 L).view.set]{fullShare} f)
            ∗ (∃ f, (slot1 L).view.loc (V d (cV L) (jV L)) ↦[(slot1 L).view.set]{fullShare} f)
            ∗ (∃ f, ((rowOf oW (k0_off9 L tr0) (k0_off9_inb L tr0)).view.loc (V d (cV L) (jV L)) ↦[(rowOf oW (k0_off9 L tr0) (k0_off9_inb L tr0)).view.set]{fullShare} f) ∗ ⌜∀ i ∈ (rowOf oW (k0_off9 L tr0) (k0_off9_inb L tr0)).view.set, f i = Cert.Proof.Spec.gathered X3 SRC i⌝)
            ∗ (∃ f, ((rowOf oW (k0_off13 L tr0) (k0_off13_inb L tr0)).view.loc (V d (cV L) (jV L)) ↦[(rowOf oW (k0_off13 L tr0) (k0_off13_inb L tr0)).view.set]{fullShare} f) ∗ ⌜∀ i ∈ (rowOf oW (k0_off13 L tr0) (k0_off13_inb L tr0)).view.set, f i = Cert.Proof.Spec.gathered X3 SRC i⌝)
            ∗ (∃ f, ((rowOf oW (k0_off17 L tr0) (k0_off17_inb L tr0)).view.loc (V d (cV L) (jV L)) ↦[(rowOf oW (k0_off17 L tr0) (k0_off17_inb L tr0)).view.set]{fullShare} f) ∗ ⌜∀ i ∈ (rowOf oW (k0_off17 L tr0) (k0_off17_inb L tr0)).view.set, f i = Cert.Proof.Spec.gathered X3 SRC i⌝)
            ∗ (∃ f, ((rowOf oW (k0_off21 L tr0) (k0_off21_inb L tr0)).view.loc (V d (cV L) (jV L)) ↦[(rowOf oW (k0_off21 L tr0) (k0_off21_inb L tr0)).view.set]{fullShare} f) ∗ ⌜∀ i ∈ (rowOf oW (k0_off21 L tr0) (k0_off21_inb L tr0)).view.set, f i = Cert.Proof.Spec.gathered X3 SRC i⌝)
            ∗ (∃ f, ((rowOf oW (k0_off25 L tr0) (k0_off25_inb L tr0)).view.loc (V d (cV L) (jV L)) ↦[(rowOf oW (k0_off25 L tr0) (k0_off25_inb L tr0)).view.set]{fullShare} f) ∗ ⌜∀ i ∈ (rowOf oW (k0_off25 L tr0) (k0_off25_inb L tr0)).view.set, f i = Cert.Proof.Spec.gathered X3 SRC i⌝)
            ∗ (∃ f, ((rowOf oW (k0_off29 L tr0) (k0_off29_inb L tr0)).view.loc (V d (cV L) (jV L)) ↦[(rowOf oW (k0_off29 L tr0) (k0_off29_inb L tr0)).view.set]{fullShare} f) ∗ ⌜∀ i ∈ (rowOf oW (k0_off29 L tr0) (k0_off29_inb L tr0)).view.set, f i = Cert.Proof.Spec.gathered X3 SRC i⌝)
            ∗ (∃ f, ((rowOf oW (k0_off33 L tr0) (k0_off33_inb L tr0)).view.loc (V d (cV L) (jV L)) ↦[(rowOf oW (k0_off33 L tr0) (k0_off33_inb L tr0)).view.set]{fullShare} f) ∗ ⌜∀ i ∈ (rowOf oW (k0_off33 L tr0) (k0_off33_inb L tr0)).view.set, f i = Cert.Proof.Spec.gathered X3 SRC i⌝)
            ∗ (∃ f, ((rowOf oW (k0_off37 L tr0) (k0_off37_inb L tr0)).view.loc (V d (cV L) (jV L)) ↦[(rowOf oW (k0_off37 L tr0) (k0_off37_inb L tr0)).view.set]{fullShare} f) ∗ ⌜∀ i ∈ (rowOf oW (k0_off37 L tr0) (k0_off37_inb L tr0)).view.set, f i = Cert.Proof.Spec.gathered X3 SRC i⌝)
            ∗ (∃ f, ((rowOf oW (k0_off41 L tr0) (k0_off41_inb L tr0)).view.loc (V d (cV L) (jV L)) ↦[(rowOf oW (k0_off41 L tr0) (k0_off41_inb L tr0)).view.set]{fullShare} f) ∗ ⌜∀ i ∈ (rowOf oW (k0_off41 L tr0) (k0_off41_inb L tr0)).view.set, f i = Cert.Proof.Spec.gathered X3 SRC i⌝)
            ∗ (∃ f, ((rowOf oW (k0_off45 L tr0) (k0_off45_inb L tr0)).view.loc (V d (cV L) (jV L)) ↦[(rowOf oW (k0_off45 L tr0) (k0_off45_inb L tr0)).view.set]{fullShare} f) ∗ ⌜∀ i ∈ (rowOf oW (k0_off45 L tr0) (k0_off45_inb L tr0)).view.set, f i = Cert.Proof.Spec.gathered X3 SRC i⌝)
            ∗ (∃ f, ((rowOf oW (k0_off49 L tr0) (k0_off49_inb L tr0)).view.loc (V d (cV L) (jV L)) ↦[(rowOf oW (k0_off49 L tr0) (k0_off49_inb L tr0)).view.set]{fullShare} f) ∗ ⌜∀ i ∈ (rowOf oW (k0_off49 L tr0) (k0_off49_inb L tr0)).view.set, f i = Cert.Proof.Spec.gathered X3 SRC i⌝)
            ∗ (∃ f, ((rowOf oW (k0_off53 L tr0) (k0_off53_inb L tr0)).view.loc (V d (cV L) (jV L)) ↦[(rowOf oW (k0_off53 L tr0) (k0_off53_inb L tr0)).view.set]{fullShare} f) ∗ ⌜∀ i ∈ (rowOf oW (k0_off53 L tr0) (k0_off53_inb L tr0)).view.set, f i = Cert.Proof.Spec.gathered X3 SRC i⌝)
            ∗ (∃ f, ((rowOf oW (k0_off57 L tr0) (k0_off57_inb L tr0)).view.loc (V d (cV L) (jV L)) ↦[(rowOf oW (k0_off57 L tr0) (k0_off57_inb L tr0)).view.set]{fullShare} f) ∗ ⌜∀ i ∈ (rowOf oW (k0_off57 L tr0) (k0_off57_inb L tr0)).view.set, f i = Cert.Proof.Spec.gathered X3 SRC i⌝)
            ∗ (∃ f, ((rowOf oW (k0_off61 L tr0) (k0_off61_inb L tr0)).view.loc (V d (cV L) (jV L)) ↦[(rowOf oW (k0_off61 L tr0) (k0_off61_inb L tr0)).view.set]{fullShare} f) ∗ ⌜∀ i ∈ (rowOf oW (k0_off61 L tr0) (k0_off61_inb L tr0)).view.set, f i = Cert.Proof.Spec.gathered X3 SRC i⌝)
            ∗ (∃ f, ((rowOf oW (k0_off65 L tr0) (k0_off65_inb L tr0)).view.loc (V d (cV L) (jV L)) ↦[(rowOf oW (k0_off65 L tr0) (k0_off65_inb L tr0)).view.set]{fullShare} f) ∗ ⌜∀ i ∈ (rowOf oW (k0_off65 L tr0) (k0_off65_inb L tr0)).view.set, f i = Cert.Proof.Spec.gathered X3 SRC i⌝)
            ∗ (∃ f, ((rowOf oW (k0_off69 L tr0) (k0_off69_inb L tr0)).view.loc (V d (cV L) (jV L)) ↦[(rowOf oW (k0_off69 L tr0) (k0_off69_inb L tr0)).view.set]{fullShare} f) ∗ ⌜∀ i ∈ (rowOf oW (k0_off69 L tr0) (k0_off69_inb L tr0)).view.set, f i = Cert.Proof.Spec.gathered X3 SRC i⌝)
            ∗ (∃ f, ((rowOf oW (k0_off9 L tr1) (k0_off9_inb L tr1)).view.loc (V d (cV L) (jV L)) ↦[(rowOf oW (k0_off9 L tr1) (k0_off9_inb L tr1)).view.set]{fullShare} f) ∗ ⌜∀ i ∈ (rowOf oW (k0_off9 L tr1) (k0_off9_inb L tr1)).view.set, f i = Cert.Proof.Spec.gathered X3 SRC i⌝)
            ∗ (∃ f, ((rowOf oW (k0_off13 L tr1) (k0_off13_inb L tr1)).view.loc (V d (cV L) (jV L)) ↦[(rowOf oW (k0_off13 L tr1) (k0_off13_inb L tr1)).view.set]{fullShare} f) ∗ ⌜∀ i ∈ (rowOf oW (k0_off13 L tr1) (k0_off13_inb L tr1)).view.set, f i = Cert.Proof.Spec.gathered X3 SRC i⌝)
            ∗ (∃ f, ((rowOf oW (k0_off17 L tr1) (k0_off17_inb L tr1)).view.loc (V d (cV L) (jV L)) ↦[(rowOf oW (k0_off17 L tr1) (k0_off17_inb L tr1)).view.set]{fullShare} f) ∗ ⌜∀ i ∈ (rowOf oW (k0_off17 L tr1) (k0_off17_inb L tr1)).view.set, f i = Cert.Proof.Spec.gathered X3 SRC i⌝)
            ∗ (∃ f, ((rowOf oW (k0_off21 L tr1) (k0_off21_inb L tr1)).view.loc (V d (cV L) (jV L)) ↦[(rowOf oW (k0_off21 L tr1) (k0_off21_inb L tr1)).view.set]{fullShare} f) ∗ ⌜∀ i ∈ (rowOf oW (k0_off21 L tr1) (k0_off21_inb L tr1)).view.set, f i = Cert.Proof.Spec.gathered X3 SRC i⌝)
            ∗ (∃ f, ((rowOf oW (k0_off25 L tr1) (k0_off25_inb L tr1)).view.loc (V d (cV L) (jV L)) ↦[(rowOf oW (k0_off25 L tr1) (k0_off25_inb L tr1)).view.set]{fullShare} f) ∗ ⌜∀ i ∈ (rowOf oW (k0_off25 L tr1) (k0_off25_inb L tr1)).view.set, f i = Cert.Proof.Spec.gathered X3 SRC i⌝)
            ∗ (∃ f, ((rowOf oW (k0_off29 L tr1) (k0_off29_inb L tr1)).view.loc (V d (cV L) (jV L)) ↦[(rowOf oW (k0_off29 L tr1) (k0_off29_inb L tr1)).view.set]{fullShare} f) ∗ ⌜∀ i ∈ (rowOf oW (k0_off29 L tr1) (k0_off29_inb L tr1)).view.set, f i = Cert.Proof.Spec.gathered X3 SRC i⌝)
            ∗ (∃ f, ((rowOf oW (k0_off33 L tr1) (k0_off33_inb L tr1)).view.loc (V d (cV L) (jV L)) ↦[(rowOf oW (k0_off33 L tr1) (k0_off33_inb L tr1)).view.set]{fullShare} f) ∗ ⌜∀ i ∈ (rowOf oW (k0_off33 L tr1) (k0_off33_inb L tr1)).view.set, f i = Cert.Proof.Spec.gathered X3 SRC i⌝)
            ∗ (∃ f, ((rowOf oW (k0_off37 L tr1) (k0_off37_inb L tr1)).view.loc (V d (cV L) (jV L)) ↦[(rowOf oW (k0_off37 L tr1) (k0_off37_inb L tr1)).view.set]{fullShare} f) ∗ ⌜∀ i ∈ (rowOf oW (k0_off37 L tr1) (k0_off37_inb L tr1)).view.set, f i = Cert.Proof.Spec.gathered X3 SRC i⌝)
            ∗ (∃ f, ((rowOf oW (k0_off41 L tr1) (k0_off41_inb L tr1)).view.loc (V d (cV L) (jV L)) ↦[(rowOf oW (k0_off41 L tr1) (k0_off41_inb L tr1)).view.set]{fullShare} f) ∗ ⌜∀ i ∈ (rowOf oW (k0_off41 L tr1) (k0_off41_inb L tr1)).view.set, f i = Cert.Proof.Spec.gathered X3 SRC i⌝)
            ∗ (∃ f, ((rowOf oW (k0_off45 L tr1) (k0_off45_inb L tr1)).view.loc (V d (cV L) (jV L)) ↦[(rowOf oW (k0_off45 L tr1) (k0_off45_inb L tr1)).view.set]{fullShare} f) ∗ ⌜∀ i ∈ (rowOf oW (k0_off45 L tr1) (k0_off45_inb L tr1)).view.set, f i = Cert.Proof.Spec.gathered X3 SRC i⌝)
            ∗ (∃ f, ((rowOf oW (k0_off49 L tr1) (k0_off49_inb L tr1)).view.loc (V d (cV L) (jV L)) ↦[(rowOf oW (k0_off49 L tr1) (k0_off49_inb L tr1)).view.set]{fullShare} f) ∗ ⌜∀ i ∈ (rowOf oW (k0_off49 L tr1) (k0_off49_inb L tr1)).view.set, f i = Cert.Proof.Spec.gathered X3 SRC i⌝)
            ∗ (∃ f, ((rowOf oW (k0_off53 L tr1) (k0_off53_inb L tr1)).view.loc (V d (cV L) (jV L)) ↦[(rowOf oW (k0_off53 L tr1) (k0_off53_inb L tr1)).view.set]{fullShare} f) ∗ ⌜∀ i ∈ (rowOf oW (k0_off53 L tr1) (k0_off53_inb L tr1)).view.set, f i = Cert.Proof.Spec.gathered X3 SRC i⌝)
            ∗ (∃ f, ((rowOf oW (k0_off57 L tr1) (k0_off57_inb L tr1)).view.loc (V d (cV L) (jV L)) ↦[(rowOf oW (k0_off57 L tr1) (k0_off57_inb L tr1)).view.set]{fullShare} f) ∗ ⌜∀ i ∈ (rowOf oW (k0_off57 L tr1) (k0_off57_inb L tr1)).view.set, f i = Cert.Proof.Spec.gathered X3 SRC i⌝)
            ∗ (∃ f, ((rowOf oW (k0_off61 L tr1) (k0_off61_inb L tr1)).view.loc (V d (cV L) (jV L)) ↦[(rowOf oW (k0_off61 L tr1) (k0_off61_inb L tr1)).view.set]{fullShare} f) ∗ ⌜∀ i ∈ (rowOf oW (k0_off61 L tr1) (k0_off61_inb L tr1)).view.set, f i = Cert.Proof.Spec.gathered X3 SRC i⌝)
            ∗ (∃ f, ((rowOf oW (k0_off65 L tr1) (k0_off65_inb L tr1)).view.loc (V d (cV L) (jV L)) ↦[(rowOf oW (k0_off65 L tr1) (k0_off65_inb L tr1)).view.set]{fullShare} f) ∗ ⌜∀ i ∈ (rowOf oW (k0_off65 L tr1) (k0_off65_inb L tr1)).view.set, f i = Cert.Proof.Spec.gathered X3 SRC i⌝)
            ∗ (∃ f, ((rowOf oW (k0_off69 L tr1) (k0_off69_inb L tr1)).view.loc (V d (cV L) (jV L)) ↦[(rowOf oW (k0_off69 L tr1) (k0_off69_inb L tr1)).view.set]{fullShare} f) ∗ ⌜∀ i ∈ (rowOf oW (k0_off69 L tr1) (k0_off69_inb L tr1)).view.set, f i = Cert.Proof.Spec.gathered X3 SRC i⌝)
            ∗ (∃ f, ((rowOf oW (k0_off9 L tr2) (k0_off9_inb L tr2)).view.loc (V d (cV L) (jV L)) ↦[(rowOf oW (k0_off9 L tr2) (k0_off9_inb L tr2)).view.set]{fullShare} f) ∗ ⌜∀ i ∈ (rowOf oW (k0_off9 L tr2) (k0_off9_inb L tr2)).view.set, f i = Cert.Proof.Spec.gathered X3 SRC i⌝)
            ∗ (∃ f, ((rowOf oW (k0_off13 L tr2) (k0_off13_inb L tr2)).view.loc (V d (cV L) (jV L)) ↦[(rowOf oW (k0_off13 L tr2) (k0_off13_inb L tr2)).view.set]{fullShare} f) ∗ ⌜∀ i ∈ (rowOf oW (k0_off13 L tr2) (k0_off13_inb L tr2)).view.set, f i = Cert.Proof.Spec.gathered X3 SRC i⌝)
            ∗ (∃ f, ((rowOf oW (k0_off17 L tr2) (k0_off17_inb L tr2)).view.loc (V d (cV L) (jV L)) ↦[(rowOf oW (k0_off17 L tr2) (k0_off17_inb L tr2)).view.set]{fullShare} f) ∗ ⌜∀ i ∈ (rowOf oW (k0_off17 L tr2) (k0_off17_inb L tr2)).view.set, f i = Cert.Proof.Spec.gathered X3 SRC i⌝)
            ∗ (∃ f, ((rowOf oW (k0_off21 L tr2) (k0_off21_inb L tr2)).view.loc (V d (cV L) (jV L)) ↦[(rowOf oW (k0_off21 L tr2) (k0_off21_inb L tr2)).view.set]{fullShare} f) ∗ ⌜∀ i ∈ (rowOf oW (k0_off21 L tr2) (k0_off21_inb L tr2)).view.set, f i = Cert.Proof.Spec.gathered X3 SRC i⌝)
            ∗ (∃ f, ((rowOf oW (k0_off25 L tr2) (k0_off25_inb L tr2)).view.loc (V d (cV L) (jV L)) ↦[(rowOf oW (k0_off25 L tr2) (k0_off25_inb L tr2)).view.set]{fullShare} f) ∗ ⌜∀ i ∈ (rowOf oW (k0_off25 L tr2) (k0_off25_inb L tr2)).view.set, f i = Cert.Proof.Spec.gathered X3 SRC i⌝)
            ∗ (∃ f, ((rowOf oW (k0_off29 L tr2) (k0_off29_inb L tr2)).view.loc (V d (cV L) (jV L)) ↦[(rowOf oW (k0_off29 L tr2) (k0_off29_inb L tr2)).view.set]{fullShare} f) ∗ ⌜∀ i ∈ (rowOf oW (k0_off29 L tr2) (k0_off29_inb L tr2)).view.set, f i = Cert.Proof.Spec.gathered X3 SRC i⌝)
            ∗ (∃ f, ((rowOf oW (k0_off33 L tr2) (k0_off33_inb L tr2)).view.loc (V d (cV L) (jV L)) ↦[(rowOf oW (k0_off33 L tr2) (k0_off33_inb L tr2)).view.set]{fullShare} f) ∗ ⌜∀ i ∈ (rowOf oW (k0_off33 L tr2) (k0_off33_inb L tr2)).view.set, f i = Cert.Proof.Spec.gathered X3 SRC i⌝)
            ∗ (∃ f, ((rowOf oW (k0_off37 L tr2) (k0_off37_inb L tr2)).view.loc (V d (cV L) (jV L)) ↦[(rowOf oW (k0_off37 L tr2) (k0_off37_inb L tr2)).view.set]{fullShare} f) ∗ ⌜∀ i ∈ (rowOf oW (k0_off37 L tr2) (k0_off37_inb L tr2)).view.set, f i = Cert.Proof.Spec.gathered X3 SRC i⌝)
            ∗ (∃ f, ((rowOf oW (k0_off41 L tr2) (k0_off41_inb L tr2)).view.loc (V d (cV L) (jV L)) ↦[(rowOf oW (k0_off41 L tr2) (k0_off41_inb L tr2)).view.set]{fullShare} f) ∗ ⌜∀ i ∈ (rowOf oW (k0_off41 L tr2) (k0_off41_inb L tr2)).view.set, f i = Cert.Proof.Spec.gathered X3 SRC i⌝)
            ∗ (∃ f, ((rowOf oW (k0_off45 L tr2) (k0_off45_inb L tr2)).view.loc (V d (cV L) (jV L)) ↦[(rowOf oW (k0_off45 L tr2) (k0_off45_inb L tr2)).view.set]{fullShare} f) ∗ ⌜∀ i ∈ (rowOf oW (k0_off45 L tr2) (k0_off45_inb L tr2)).view.set, f i = Cert.Proof.Spec.gathered X3 SRC i⌝)
            ∗ (∃ f, ((rowOf oW (k0_off49 L tr2) (k0_off49_inb L tr2)).view.loc (V d (cV L) (jV L)) ↦[(rowOf oW (k0_off49 L tr2) (k0_off49_inb L tr2)).view.set]{fullShare} f) ∗ ⌜∀ i ∈ (rowOf oW (k0_off49 L tr2) (k0_off49_inb L tr2)).view.set, f i = Cert.Proof.Spec.gathered X3 SRC i⌝)
            ∗ (∃ f, ((rowOf oW (k0_off53 L tr2) (k0_off53_inb L tr2)).view.loc (V d (cV L) (jV L)) ↦[(rowOf oW (k0_off53 L tr2) (k0_off53_inb L tr2)).view.set]{fullShare} f) ∗ ⌜∀ i ∈ (rowOf oW (k0_off53 L tr2) (k0_off53_inb L tr2)).view.set, f i = Cert.Proof.Spec.gathered X3 SRC i⌝)
            ∗ (∃ f, ((rowOf oW (k0_off57 L tr2) (k0_off57_inb L tr2)).view.loc (V d (cV L) (jV L)) ↦[(rowOf oW (k0_off57 L tr2) (k0_off57_inb L tr2)).view.set]{fullShare} f) ∗ ⌜∀ i ∈ (rowOf oW (k0_off57 L tr2) (k0_off57_inb L tr2)).view.set, f i = Cert.Proof.Spec.gathered X3 SRC i⌝)
            ∗ (∃ f, ((rowOf oW (k0_off61 L tr2) (k0_off61_inb L tr2)).view.loc (V d (cV L) (jV L)) ↦[(rowOf oW (k0_off61 L tr2) (k0_off61_inb L tr2)).view.set]{fullShare} f) ∗ ⌜∀ i ∈ (rowOf oW (k0_off61 L tr2) (k0_off61_inb L tr2)).view.set, f i = Cert.Proof.Spec.gathered X3 SRC i⌝)
            ∗ (∃ f, ((rowOf oW (k0_off65 L tr2) (k0_off65_inb L tr2)).view.loc (V d (cV L) (jV L)) ↦[(rowOf oW (k0_off65 L tr2) (k0_off65_inb L tr2)).view.set]{fullShare} f) ∗ ⌜∀ i ∈ (rowOf oW (k0_off65 L tr2) (k0_off65_inb L tr2)).view.set, f i = Cert.Proof.Spec.gathered X3 SRC i⌝)
            ∗ (∃ f, ((rowOf oW (k0_off69 L tr2) (k0_off69_inb L tr2)).view.loc (V d (cV L) (jV L)) ↦[(rowOf oW (k0_off69 L tr2) (k0_off69_inb L tr2)).view.set]{fullShare} f) ∗ ⌜∀ i ∈ (rowOf oW (k0_off69 L tr2) (k0_off69_inb L tr2)).view.set, f i = Cert.Proof.Spec.gathered X3 SRC i⌝)
            ∗ semVal ((V d (cV L) (jV L)), SemLoc.dma cc0_scratch2.sem) 0
            ∗ semVal ((V d (cV L) (jV L)), SemLoc.dma cc0_scratch3.sem) 0
            ∗ semVal ((V d (cV L) (jV L)), SemLoc.dma cc0_scoped0.sem) 0
            ∗ semVal ((V d (cV L) (jV L)), SemLoc.dma cc0_scoped1.sem) 0
            ∗ semVal ((V d (cV L) (jV L)), SemLoc.dma cc0_scoped2.sem) 0
            ∗ semVal ((V d (cV L) (jV L)), SemLoc.dma cc0_scoped3.sem) 0
            ∗ semVal ((V d (cV L) (jV L)), SemLoc.dma cc0_scoped4.sem) 0
            ∗ semVal ((V d (cV L) (jV L)), SemLoc.dma cc0_scoped5.sem) 0
            ∗ semVal ((V d (cV L) (jV L)), SemLoc.dma cc0_scoped6.sem) 0
            ∗ semVal ((V d (cV L) (jV L)), SemLoc.dma cc0_scoped7.sem) 0
            ∗ semVal ((V d (cV L) (jV L)), SemLoc.dma cc0_scoped8.sem) 0
            ∗ semVal ((V d (cV L) (jV L)), SemLoc.dma cc0_scoped9.sem) 0
            ∗ semVal ((V d (cV L) (jV L)), SemLoc.dma cc0_scoped10.sem) 0
            ∗ semVal ((V d (cV L) (jV L)), SemLoc.dma cc0_scoped11.sem) 0
            ∗ semVal ((V d (cV L) (jV L)), SemLoc.dma cc0_scoped12.sem) 0
            ∗ semVal ((V d (cV L) (jV L)), SemLoc.dma cc0_scoped13.sem) 0
            ∗ semVal ((V d (cV L) (jV L)), SemLoc.dma cc0_scoped14.sem) 0
            ∗ semVal ((V d (cV L) (jV L)), SemLoc.dma cc0_scoped15.sem) 0
            ∗ semVal ((V d (cV L) (jV L)), SemLoc.dma cc0_scoped16.sem) 0
            ∗ (∃ W', owes (V d (cV L) (jV L)) O W' ∗ ⌜∀ p ∈ W', p ∈ W ∨ p.2 = none⌝)) := by
  rw [cc0_sc_gather_eq_skeleton]; unfold cc0_sc_gather_skel
  iintro ⟨#Hlv, Hx0, Hx1, Hs, Hi, Hb0, Hb1, Hr0_0, Hr0_1, Hr0_2, Hr0_3, Hr0_4, Hr0_5, Hr0_6, Hr0_7, Hr0_8, Hr0_9, Hr0_10, Hr0_11, Hr0_12, Hr0_13, Hr0_14, Hr0_15, Hr1_0, Hr1_1, Hr1_2, Hr1_3, Hr1_4, Hr1_5, Hr1_6, Hr1_7, Hr1_8, Hr1_9, Hr1_10, Hr1_11, Hr1_12, Hr1_13, Hr1_14, Hr1_15, Hr2_0, Hr2_1, Hr2_2, Hr2_3, Hr2_4, Hr2_5, Hr2_6, Hr2_7, Hr2_8, Hr2_9, Hr2_10, Hr2_11, Hr2_12, Hr2_13, Hr2_14, Hr2_15, Hm0, Hm1, Hm2, Hm3, Hm4, Hm5, Hm6, Hm7, Hm8, Hm9, Hm10, Hm11, Hm12, Hm13, Hm14, Hm15, Hm16, Hm17, Hm18, HO⟩
  ihave Hmw := ((K (F := F)).mayWaits_none (thr := (V d (cV L) (jV L))) hO) $$ Hlv
  sl_exec (disch := first | chk_tac hsrc | decide)
  rw [wp_ret]; imodintro
  isplitl [Hx0]; · iexact Hx0
  isplitl [Hx1]; · iexact Hx1
  isplitl [Hs]; · iexact Hs
  isplitl [Hi]; · iexists _; iexact Hi
  isplitl [Hb0]; · iexists _; iexact Hb0
  isplitl [Hb1]; · iexists _; iexact Hb1
  isplitl [Hr0_0]
  · iexists _; isplitl [Hr0_0]; · iexact Hr0_0
    ipureintro
    intro i hi
    unfold_sl
    refine row_agree X3 SRC fo ⟨96 * (L 1).val + 48 * (L 0).val + (0 + 0), by have := L0_lt L; have := L1_lt L; omega⟩ _ _ _ _ _ ?hoffo rfl ?hv ?hlt _ _ _ i hi
    case hoffo => exact (k0_off9_eq L tr0).trans (vec3_congr (by simp only [tr0] <;> omega))
    case hv => exact word_src L SRC fi ![0] inb_S48_S16_0 0 rfl (by omega) 0 (by omega) shapeCasts_S16_S16 slices_S16_o0_S1 inpos_S1_p0
    case hlt => exact lt_of_eq_of_lt (congrArg BitVec.toNat (word_src L SRC fi ![0] inb_S48_S16_0 0 rfl (by omega) 0 (by omega) shapeCasts_S16_S16 slices_S16_o0_S1 inpos_S1_p0)) (hsrc _)
  isplitl [Hr0_1]
  · iexists _; isplitl [Hr0_1]; · iexact Hr0_1
    ipureintro
    intro i hi
    unfold_sl
    refine row_agree X3 SRC fo ⟨96 * (L 1).val + 48 * (L 0).val + (0 + 1), by have := L0_lt L; have := L1_lt L; omega⟩ _ _ _ _ _ ?hoffo rfl ?hv ?hlt _ _ _ i hi
    case hoffo => exact (k0_off13_eq L tr0).trans (vec3_congr (by simp only [tr0] <;> omega))
    case hv => exact word_src L SRC fi ![0] inb_S48_S16_0 0 rfl (by omega) 1 (by omega) shapeCasts_S16_S16 slices_S16_o1_S1 inpos_S1_p0
    case hlt => exact lt_of_eq_of_lt (congrArg BitVec.toNat (word_src L SRC fi ![0] inb_S48_S16_0 0 rfl (by omega) 1 (by omega) shapeCasts_S16_S16 slices_S16_o1_S1 inpos_S1_p0)) (hsrc _)
  isplitl [Hr0_2]
  · iexists _; isplitl [Hr0_2]; · iexact Hr0_2
    ipureintro
    intro i hi
    unfold_sl
    refine row_agree X3 SRC fo ⟨96 * (L 1).val + 48 * (L 0).val + (0 + 2), by have := L0_lt L; have := L1_lt L; omega⟩ _ _ _ _ _ ?hoffo rfl ?hv ?hlt _ _ _ i hi
    case hoffo => exact (k0_off17_eq L tr0).trans (vec3_congr (by simp only [tr0] <;> omega))
    case hv => exact word_src L SRC fi _ _ 0 rfl (by omega) 2 (by omega) _ _ _
    case hlt => exact lt_of_eq_of_lt (congrArg BitVec.toNat (word_src L SRC fi _ _ 0 rfl (by omega) 2 (by omega) _ _ _)) (hsrc _)
  isplitl [Hr0_3]
  · iexists _; isplitl [Hr0_3]; · iexact Hr0_3
    ipureintro
    intro i hi
    unfold_sl
    refine row_agree X3 SRC fo ⟨96 * (L 1).val + 48 * (L 0).val + (0 + 3), by have := L0_lt L; have := L1_lt L; omega⟩ _ _ _ _ _ ?hoffo rfl ?hv ?hlt _ _ _ i hi
    case hoffo => exact (k0_off21_eq L tr0).trans (vec3_congr (by simp only [tr0] <;> omega))
    case hv => exact word_src L SRC fi _ _ 0 rfl (by omega) 3 (by omega) _ _ _
    case hlt => exact lt_of_eq_of_lt (congrArg BitVec.toNat (word_src L SRC fi _ _ 0 rfl (by omega) 3 (by omega) _ _ _)) (hsrc _)
  isplitl [Hr0_4]
  · iexists _; isplitl [Hr0_4]; · iexact Hr0_4
    ipureintro
    intro i hi
    unfold_sl
    refine row_agree X3 SRC fo ⟨96 * (L 1).val + 48 * (L 0).val + (0 + 4), by have := L0_lt L; have := L1_lt L; omega⟩ _ _ _ _ _ ?hoffo rfl ?hv ?hlt _ _ _ i hi
    case hoffo => exact (k0_off25_eq L tr0).trans (vec3_congr (by simp only [tr0] <;> omega))
    case hv => exact word_src L SRC fi _ _ 0 rfl (by omega) 4 (by omega) _ _ _
    case hlt => exact lt_of_eq_of_lt (congrArg BitVec.toNat (word_src L SRC fi _ _ 0 rfl (by omega) 4 (by omega) _ _ _)) (hsrc _)
  isplitl [Hr0_5]
  · iexists _; isplitl [Hr0_5]; · iexact Hr0_5
    ipureintro
    intro i hi
    unfold_sl
    refine row_agree X3 SRC fo ⟨96 * (L 1).val + 48 * (L 0).val + (0 + 5), by have := L0_lt L; have := L1_lt L; omega⟩ _ _ _ _ _ ?hoffo rfl ?hv ?hlt _ _ _ i hi
    case hoffo => exact (k0_off29_eq L tr0).trans (vec3_congr (by simp only [tr0] <;> omega))
    case hv => exact word_src L SRC fi _ _ 0 rfl (by omega) 5 (by omega) _ _ _
    case hlt => exact lt_of_eq_of_lt (congrArg BitVec.toNat (word_src L SRC fi _ _ 0 rfl (by omega) 5 (by omega) _ _ _)) (hsrc _)
  isplitl [Hr0_6]
  · iexists _; isplitl [Hr0_6]; · iexact Hr0_6
    ipureintro
    intro i hi
    unfold_sl
    refine row_agree X3 SRC fo ⟨96 * (L 1).val + 48 * (L 0).val + (0 + 6), by have := L0_lt L; have := L1_lt L; omega⟩ _ _ _ _ _ ?hoffo rfl ?hv ?hlt _ _ _ i hi
    case hoffo => exact (k0_off33_eq L tr0).trans (vec3_congr (by simp only [tr0] <;> omega))
    case hv => exact word_src L SRC fi _ _ 0 rfl (by omega) 6 (by omega) _ _ _
    case hlt => exact lt_of_eq_of_lt (congrArg BitVec.toNat (word_src L SRC fi _ _ 0 rfl (by omega) 6 (by omega) _ _ _)) (hsrc _)
  isplitl [Hr0_7]
  · iexists _; isplitl [Hr0_7]; · iexact Hr0_7
    ipureintro
    intro i hi
    unfold_sl
    refine row_agree X3 SRC fo ⟨96 * (L 1).val + 48 * (L 0).val + (0 + 7), by have := L0_lt L; have := L1_lt L; omega⟩ _ _ _ _ _ ?hoffo rfl ?hv ?hlt _ _ _ i hi
    case hoffo => exact (k0_off37_eq L tr0).trans (vec3_congr (by simp only [tr0] <;> omega))
    case hv => exact word_src L SRC fi _ _ 0 rfl (by omega) 7 (by omega) _ _ _
    case hlt => exact lt_of_eq_of_lt (congrArg BitVec.toNat (word_src L SRC fi _ _ 0 rfl (by omega) 7 (by omega) _ _ _)) (hsrc _)
  isplitl [Hr0_8]
  · iexists _; isplitl [Hr0_8]; · iexact Hr0_8
    ipureintro
    intro i hi
    unfold_sl
    refine row_agree X3 SRC fo ⟨96 * (L 1).val + 48 * (L 0).val + (0 + 8), by have := L0_lt L; have := L1_lt L; omega⟩ _ _ _ _ _ ?hoffo rfl ?hv ?hlt _ _ _ i hi
    case hoffo => exact (k0_off41_eq L tr0).trans (vec3_congr (by simp only [tr0] <;> omega))
    case hv => exact word_src L SRC fi _ _ 0 rfl (by omega) 8 (by omega) _ _ _
    case hlt => exact lt_of_eq_of_lt (congrArg BitVec.toNat (word_src L SRC fi _ _ 0 rfl (by omega) 8 (by omega) _ _ _)) (hsrc _)
  isplitl [Hr0_9]
  · iexists _; isplitl [Hr0_9]; · iexact Hr0_9
    ipureintro
    intro i hi
    unfold_sl
    refine row_agree X3 SRC fo ⟨96 * (L 1).val + 48 * (L 0).val + (0 + 9), by have := L0_lt L; have := L1_lt L; omega⟩ _ _ _ _ _ ?hoffo rfl ?hv ?hlt _ _ _ i hi
    case hoffo => exact (k0_off45_eq L tr0).trans (vec3_congr (by simp only [tr0] <;> omega))
    case hv => exact word_src L SRC fi _ _ 0 rfl (by omega) 9 (by omega) _ _ _
    case hlt => exact lt_of_eq_of_lt (congrArg BitVec.toNat (word_src L SRC fi _ _ 0 rfl (by omega) 9 (by omega) _ _ _)) (hsrc _)
  isplitl [Hr0_10]
  · iexists _; isplitl [Hr0_10]; · iexact Hr0_10
    ipureintro
    intro i hi
    unfold_sl
    refine row_agree X3 SRC fo ⟨96 * (L 1).val + 48 * (L 0).val + (0 + 10), by have := L0_lt L; have := L1_lt L; omega⟩ _ _ _ _ _ ?hoffo rfl ?hv ?hlt _ _ _ i hi
    case hoffo => exact (k0_off49_eq L tr0).trans (vec3_congr (by simp only [tr0] <;> omega))
    case hv => exact word_src L SRC fi _ _ 0 rfl (by omega) 10 (by omega) _ _ _
    case hlt => exact lt_of_eq_of_lt (congrArg BitVec.toNat (word_src L SRC fi _ _ 0 rfl (by omega) 10 (by omega) _ _ _)) (hsrc _)
  isplitl [Hr0_11]
  · iexists _; isplitl [Hr0_11]; · iexact Hr0_11
    ipureintro
    intro i hi
    unfold_sl
    refine row_agree X3 SRC fo ⟨96 * (L 1).val + 48 * (L 0).val + (0 + 11), by have := L0_lt L; have := L1_lt L; omega⟩ _ _ _ _ _ ?hoffo rfl ?hv ?hlt _ _ _ i hi
    case hoffo => exact (k0_off53_eq L tr0).trans (vec3_congr (by simp only [tr0] <;> omega))
    case hv => exact word_src L SRC fi _ _ 0 rfl (by omega) 11 (by omega) _ _ _
    case hlt => exact lt_of_eq_of_lt (congrArg BitVec.toNat (word_src L SRC fi _ _ 0 rfl (by omega) 11 (by omega) _ _ _)) (hsrc _)
  isplitl [Hr0_12]
  · iexists _; isplitl [Hr0_12]; · iexact Hr0_12
    ipureintro
    intro i hi
    unfold_sl
    refine row_agree X3 SRC fo ⟨96 * (L 1).val + 48 * (L 0).val + (0 + 12), by have := L0_lt L; have := L1_lt L; omega⟩ _ _ _ _ _ ?hoffo rfl ?hv ?hlt _ _ _ i hi
    case hoffo => exact (k0_off57_eq L tr0).trans (vec3_congr (by simp only [tr0] <;> omega))
    case hv => exact word_src L SRC fi _ _ 0 rfl (by omega) 12 (by omega) _ _ _
    case hlt => exact lt_of_eq_of_lt (congrArg BitVec.toNat (word_src L SRC fi _ _ 0 rfl (by omega) 12 (by omega) _ _ _)) (hsrc _)
  isplitl [Hr0_13]
  · iexists _; isplitl [Hr0_13]; · iexact Hr0_13
    ipureintro
    intro i hi
    unfold_sl
    refine row_agree X3 SRC fo ⟨96 * (L 1).val + 48 * (L 0).val + (0 + 13), by have := L0_lt L; have := L1_lt L; omega⟩ _ _ _ _ _ ?hoffo rfl ?hv ?hlt _ _ _ i hi
    case hoffo => exact (k0_off61_eq L tr0).trans (vec3_congr (by simp only [tr0] <;> omega))
    case hv => exact word_src L SRC fi _ _ 0 rfl (by omega) 13 (by omega) _ _ _
    case hlt => exact lt_of_eq_of_lt (congrArg BitVec.toNat (word_src L SRC fi _ _ 0 rfl (by omega) 13 (by omega) _ _ _)) (hsrc _)
  isplitl [Hr0_14]
  · iexists _; isplitl [Hr0_14]; · iexact Hr0_14
    ipureintro
    intro i hi
    unfold_sl
    refine row_agree X3 SRC fo ⟨96 * (L 1).val + 48 * (L 0).val + (0 + 14), by have := L0_lt L; have := L1_lt L; omega⟩ _ _ _ _ _ ?hoffo rfl ?hv ?hlt _ _ _ i hi
    case hoffo => exact (k0_off65_eq L tr0).trans (vec3_congr (by simp only [tr0] <;> omega))
    case hv => exact word_src L SRC fi _ _ 0 rfl (by omega) 14 (by omega) _ _ _
    case hlt => exact lt_of_eq_of_lt (congrArg BitVec.toNat (word_src L SRC fi _ _ 0 rfl (by omega) 14 (by omega) _ _ _)) (hsrc _)
  isplitl [Hr0_15]
  · iexists _; isplitl [Hr0_15]; · iexact Hr0_15
    ipureintro
    intro i hi
    unfold_sl
    refine row_agree X3 SRC fo ⟨96 * (L 1).val + 48 * (L 0).val + (0 + 15), by have := L0_lt L; have := L1_lt L; omega⟩ _ _ _ _ _ ?hoffo rfl ?hv ?hlt _ _ _ i hi
    case hoffo => exact (k0_off69_eq L tr0).trans (vec3_congr (by simp only [tr0] <;> omega))
    case hv => exact word_src L SRC fi _ _ 0 rfl (by omega) 15 (by omega) _ _ _
    case hlt => exact lt_of_eq_of_lt (congrArg BitVec.toNat (word_src L SRC fi _ _ 0 rfl (by omega) 15 (by omega) _ _ _)) (hsrc _)
  isplitl [Hr1_0]
  · iexists _; isplitl [Hr1_0]; · iexact Hr1_0
    ipureintro
    intro i hi
    unfold_sl
    refine row_agree X3 SRC fo ⟨96 * (L 1).val + 48 * (L 0).val + (16 + 0), by have := L0_lt L; have := L1_lt L; omega⟩ _ _ _ _ _ ?hoffo rfl ?hv ?hlt _ _ _ i hi
    case hoffo => exact (k0_off9_eq L tr1).trans (vec3_congr (by simp only [tr1] <;> omega))
    case hv => exact word_src L SRC fi _ _ 16 rfl (by omega) 0 (by omega) _ _ _
    case hlt => exact lt_of_eq_of_lt (congrArg BitVec.toNat (word_src L SRC fi _ _ 16 rfl (by omega) 0 (by omega) _ _ _)) (hsrc _)
  isplitl [Hr1_1]
  · iexists _; isplitl [Hr1_1]; · iexact Hr1_1
    ipureintro
    intro i hi
    unfold_sl
    refine row_agree X3 SRC fo ⟨96 * (L 1).val + 48 * (L 0).val + (16 + 1), by have := L0_lt L; have := L1_lt L; omega⟩ _ _ _ _ _ ?hoffo rfl ?hv ?hlt _ _ _ i hi
    case hoffo => exact (k0_off13_eq L tr1).trans (vec3_congr (by simp only [tr1] <;> omega))
    case hv => exact word_src L SRC fi _ _ 16 rfl (by omega) 1 (by omega) _ _ _
    case hlt => exact lt_of_eq_of_lt (congrArg BitVec.toNat (word_src L SRC fi _ _ 16 rfl (by omega) 1 (by omega) _ _ _)) (hsrc _)
  isplitl [Hr1_2]
  · iexists _; isplitl [Hr1_2]; · iexact Hr1_2
    ipureintro
    intro i hi
    unfold_sl
    refine row_agree X3 SRC fo ⟨96 * (L 1).val + 48 * (L 0).val + (16 + 2), by have := L0_lt L; have := L1_lt L; omega⟩ _ _ _ _ _ ?hoffo rfl ?hv ?hlt _ _ _ i hi
    case hoffo => exact (k0_off17_eq L tr1).trans (vec3_congr (by simp only [tr1] <;> omega))
    case hv => exact word_src L SRC fi _ _ 16 rfl (by omega) 2 (by omega) _ _ _
    case hlt => exact lt_of_eq_of_lt (congrArg BitVec.toNat (word_src L SRC fi _ _ 16 rfl (by omega) 2 (by omega) _ _ _)) (hsrc _)
  isplitl [Hr1_3]
  · iexists _; isplitl [Hr1_3]; · iexact Hr1_3
    ipureintro
    intro i hi
    unfold_sl
    refine row_agree X3 SRC fo ⟨96 * (L 1).val + 48 * (L 0).val + (16 + 3), by have := L0_lt L; have := L1_lt L; omega⟩ _ _ _ _ _ ?hoffo rfl ?hv ?hlt _ _ _ i hi
    case hoffo => exact (k0_off21_eq L tr1).trans (vec3_congr (by simp only [tr1] <;> omega))
    case hv => exact word_src L SRC fi _ _ 16 rfl (by omega) 3 (by omega) _ _ _
    case hlt => exact lt_of_eq_of_lt (congrArg BitVec.toNat (word_src L SRC fi _ _ 16 rfl (by omega) 3 (by omega) _ _ _)) (hsrc _)
  isplitl [Hr1_4]
  · iexists _; isplitl [Hr1_4]; · iexact Hr1_4
    ipureintro
    intro i hi
    unfold_sl
    refine row_agree X3 SRC fo ⟨96 * (L 1).val + 48 * (L 0).val + (16 + 4), by have := L0_lt L; have := L1_lt L; omega⟩ _ _ _ _ _ ?hoffo rfl ?hv ?hlt _ _ _ i hi
    case hoffo => exact (k0_off25_eq L tr1).trans (vec3_congr (by simp only [tr1] <;> omega))
    case hv => exact word_src L SRC fi _ _ 16 rfl (by omega) 4 (by omega) _ _ _
    case hlt => exact lt_of_eq_of_lt (congrArg BitVec.toNat (word_src L SRC fi _ _ 16 rfl (by omega) 4 (by omega) _ _ _)) (hsrc _)
  isplitl [Hr1_5]
  · iexists _; isplitl [Hr1_5]; · iexact Hr1_5
    ipureintro
    intro i hi
    unfold_sl
    refine row_agree X3 SRC fo ⟨96 * (L 1).val + 48 * (L 0).val + (16 + 5), by have := L0_lt L; have := L1_lt L; omega⟩ _ _ _ _ _ ?hoffo rfl ?hv ?hlt _ _ _ i hi
    case hoffo => exact (k0_off29_eq L tr1).trans (vec3_congr (by simp only [tr1] <;> omega))
    case hv => exact word_src L SRC fi _ _ 16 rfl (by omega) 5 (by omega) _ _ _
    case hlt => exact lt_of_eq_of_lt (congrArg BitVec.toNat (word_src L SRC fi _ _ 16 rfl (by omega) 5 (by omega) _ _ _)) (hsrc _)
  isplitl [Hr1_6]
  · iexists _; isplitl [Hr1_6]; · iexact Hr1_6
    ipureintro
    intro i hi
    unfold_sl
    refine row_agree X3 SRC fo ⟨96 * (L 1).val + 48 * (L 0).val + (16 + 6), by have := L0_lt L; have := L1_lt L; omega⟩ _ _ _ _ _ ?hoffo rfl ?hv ?hlt _ _ _ i hi
    case hoffo => exact (k0_off33_eq L tr1).trans (vec3_congr (by simp only [tr1] <;> omega))
    case hv => exact word_src L SRC fi _ _ 16 rfl (by omega) 6 (by omega) _ _ _
    case hlt => exact lt_of_eq_of_lt (congrArg BitVec.toNat (word_src L SRC fi _ _ 16 rfl (by omega) 6 (by omega) _ _ _)) (hsrc _)
  isplitl [Hr1_7]
  · iexists _; isplitl [Hr1_7]; · iexact Hr1_7
    ipureintro
    intro i hi
    unfold_sl
    refine row_agree X3 SRC fo ⟨96 * (L 1).val + 48 * (L 0).val + (16 + 7), by have := L0_lt L; have := L1_lt L; omega⟩ _ _ _ _ _ ?hoffo rfl ?hv ?hlt _ _ _ i hi
    case hoffo => exact (k0_off37_eq L tr1).trans (vec3_congr (by simp only [tr1] <;> omega))
    case hv => exact word_src L SRC fi _ _ 16 rfl (by omega) 7 (by omega) _ _ _
    case hlt => exact lt_of_eq_of_lt (congrArg BitVec.toNat (word_src L SRC fi _ _ 16 rfl (by omega) 7 (by omega) _ _ _)) (hsrc _)
  isplitl [Hr1_8]
  · iexists _; isplitl [Hr1_8]; · iexact Hr1_8
    ipureintro
    intro i hi
    unfold_sl
    refine row_agree X3 SRC fo ⟨96 * (L 1).val + 48 * (L 0).val + (16 + 8), by have := L0_lt L; have := L1_lt L; omega⟩ _ _ _ _ _ ?hoffo rfl ?hv ?hlt _ _ _ i hi
    case hoffo => exact (k0_off41_eq L tr1).trans (vec3_congr (by simp only [tr1] <;> omega))
    case hv => exact word_src L SRC fi _ _ 16 rfl (by omega) 8 (by omega) _ _ _
    case hlt => exact lt_of_eq_of_lt (congrArg BitVec.toNat (word_src L SRC fi _ _ 16 rfl (by omega) 8 (by omega) _ _ _)) (hsrc _)
  isplitl [Hr1_9]
  · iexists _; isplitl [Hr1_9]; · iexact Hr1_9
    ipureintro
    intro i hi
    unfold_sl
    refine row_agree X3 SRC fo ⟨96 * (L 1).val + 48 * (L 0).val + (16 + 9), by have := L0_lt L; have := L1_lt L; omega⟩ _ _ _ _ _ ?hoffo rfl ?hv ?hlt _ _ _ i hi
    case hoffo => exact (k0_off45_eq L tr1).trans (vec3_congr (by simp only [tr1] <;> omega))
    case hv => exact word_src L SRC fi _ _ 16 rfl (by omega) 9 (by omega) _ _ _
    case hlt => exact lt_of_eq_of_lt (congrArg BitVec.toNat (word_src L SRC fi _ _ 16 rfl (by omega) 9 (by omega) _ _ _)) (hsrc _)
  isplitl [Hr1_10]
  · iexists _; isplitl [Hr1_10]; · iexact Hr1_10
    ipureintro
    intro i hi
    unfold_sl
    refine row_agree X3 SRC fo ⟨96 * (L 1).val + 48 * (L 0).val + (16 + 10), by have := L0_lt L; have := L1_lt L; omega⟩ _ _ _ _ _ ?hoffo rfl ?hv ?hlt _ _ _ i hi
    case hoffo => exact (k0_off49_eq L tr1).trans (vec3_congr (by simp only [tr1] <;> omega))
    case hv => exact word_src L SRC fi _ _ 16 rfl (by omega) 10 (by omega) _ _ _
    case hlt => exact lt_of_eq_of_lt (congrArg BitVec.toNat (word_src L SRC fi _ _ 16 rfl (by omega) 10 (by omega) _ _ _)) (hsrc _)
  isplitl [Hr1_11]
  · iexists _; isplitl [Hr1_11]; · iexact Hr1_11
    ipureintro
    intro i hi
    unfold_sl
    refine row_agree X3 SRC fo ⟨96 * (L 1).val + 48 * (L 0).val + (16 + 11), by have := L0_lt L; have := L1_lt L; omega⟩ _ _ _ _ _ ?hoffo rfl ?hv ?hlt _ _ _ i hi
    case hoffo => exact (k0_off53_eq L tr1).trans (vec3_congr (by simp only [tr1] <;> omega))
    case hv => exact word_src L SRC fi _ _ 16 rfl (by omega) 11 (by omega) _ _ _
    case hlt => exact lt_of_eq_of_lt (congrArg BitVec.toNat (word_src L SRC fi _ _ 16 rfl (by omega) 11 (by omega) _ _ _)) (hsrc _)
  isplitl [Hr1_12]
  · iexists _; isplitl [Hr1_12]; · iexact Hr1_12
    ipureintro
    intro i hi
    unfold_sl
    refine row_agree X3 SRC fo ⟨96 * (L 1).val + 48 * (L 0).val + (16 + 12), by have := L0_lt L; have := L1_lt L; omega⟩ _ _ _ _ _ ?hoffo rfl ?hv ?hlt _ _ _ i hi
    case hoffo => exact (k0_off57_eq L tr1).trans (vec3_congr (by simp only [tr1] <;> omega))
    case hv => exact word_src L SRC fi _ _ 16 rfl (by omega) 12 (by omega) _ _ _
    case hlt => exact lt_of_eq_of_lt (congrArg BitVec.toNat (word_src L SRC fi _ _ 16 rfl (by omega) 12 (by omega) _ _ _)) (hsrc _)
  isplitl [Hr1_13]
  · iexists _; isplitl [Hr1_13]; · iexact Hr1_13
    ipureintro
    intro i hi
    unfold_sl
    refine row_agree X3 SRC fo ⟨96 * (L 1).val + 48 * (L 0).val + (16 + 13), by have := L0_lt L; have := L1_lt L; omega⟩ _ _ _ _ _ ?hoffo rfl ?hv ?hlt _ _ _ i hi
    case hoffo => exact (k0_off61_eq L tr1).trans (vec3_congr (by simp only [tr1] <;> omega))
    case hv => exact word_src L SRC fi _ _ 16 rfl (by omega) 13 (by omega) _ _ _
    case hlt => exact lt_of_eq_of_lt (congrArg BitVec.toNat (word_src L SRC fi _ _ 16 rfl (by omega) 13 (by omega) _ _ _)) (hsrc _)
  isplitl [Hr1_14]
  · iexists _; isplitl [Hr1_14]; · iexact Hr1_14
    ipureintro
    intro i hi
    unfold_sl
    refine row_agree X3 SRC fo ⟨96 * (L 1).val + 48 * (L 0).val + (16 + 14), by have := L0_lt L; have := L1_lt L; omega⟩ _ _ _ _ _ ?hoffo rfl ?hv ?hlt _ _ _ i hi
    case hoffo => exact (k0_off65_eq L tr1).trans (vec3_congr (by simp only [tr1] <;> omega))
    case hv => exact word_src L SRC fi _ _ 16 rfl (by omega) 14 (by omega) _ _ _
    case hlt => exact lt_of_eq_of_lt (congrArg BitVec.toNat (word_src L SRC fi _ _ 16 rfl (by omega) 14 (by omega) _ _ _)) (hsrc _)
  isplitl [Hr1_15]
  · iexists _; isplitl [Hr1_15]; · iexact Hr1_15
    ipureintro
    intro i hi
    unfold_sl
    refine row_agree X3 SRC fo ⟨96 * (L 1).val + 48 * (L 0).val + (16 + 15), by have := L0_lt L; have := L1_lt L; omega⟩ _ _ _ _ _ ?hoffo rfl ?hv ?hlt _ _ _ i hi
    case hoffo => exact (k0_off69_eq L tr1).trans (vec3_congr (by simp only [tr1] <;> omega))
    case hv => exact word_src L SRC fi _ _ 16 rfl (by omega) 15 (by omega) _ _ _
    case hlt => exact lt_of_eq_of_lt (congrArg BitVec.toNat (word_src L SRC fi _ _ 16 rfl (by omega) 15 (by omega) _ _ _)) (hsrc _)
  isplitl [Hr2_0]
  · iexists _; isplitl [Hr2_0]; · iexact Hr2_0
    ipureintro
    intro i hi
    unfold_sl
    refine row_agree X3 SRC fo ⟨96 * (L 1).val + 48 * (L 0).val + (32 + 0), by have := L0_lt L; have := L1_lt L; omega⟩ _ _ _ _ _ ?hoffo rfl ?hv ?hlt _ _ _ i hi
    case hoffo => exact (k0_off9_eq L tr2).trans (vec3_congr (by simp only [tr2] <;> omega))
    case hv => exact word_src L SRC fi _ _ 32 rfl (by omega) 0 (by omega) _ _ _
    case hlt => exact lt_of_eq_of_lt (congrArg BitVec.toNat (word_src L SRC fi _ _ 32 rfl (by omega) 0 (by omega) _ _ _)) (hsrc _)
  isplitl [Hr2_1]
  · iexists _; isplitl [Hr2_1]; · iexact Hr2_1
    ipureintro
    intro i hi
    unfold_sl
    refine row_agree X3 SRC fo ⟨96 * (L 1).val + 48 * (L 0).val + (32 + 1), by have := L0_lt L; have := L1_lt L; omega⟩ _ _ _ _ _ ?hoffo rfl ?hv ?hlt _ _ _ i hi
    case hoffo => exact (k0_off13_eq L tr2).trans (vec3_congr (by simp only [tr2] <;> omega))
    case hv => exact word_src L SRC fi _ _ 32 rfl (by omega) 1 (by omega) _ _ _
    case hlt => exact lt_of_eq_of_lt (congrArg BitVec.toNat (word_src L SRC fi _ _ 32 rfl (by omega) 1 (by omega) _ _ _)) (hsrc _)
  isplitl [Hr2_2]
  · iexists _; isplitl [Hr2_2]; · iexact Hr2_2
    ipureintro
    intro i hi
    unfold_sl
    refine row_agree X3 SRC fo ⟨96 * (L 1).val + 48 * (L 0).val + (32 + 2), by have := L0_lt L; have := L1_lt L; omega⟩ _ _ _ _ _ ?hoffo rfl ?hv ?hlt _ _ _ i hi
    case hoffo => exact (k0_off17_eq L tr2).trans (vec3_congr (by simp only [tr2] <;> omega))
    case hv => exact word_src L SRC fi _ _ 32 rfl (by omega) 2 (by omega) _ _ _
    case hlt => exact lt_of_eq_of_lt (congrArg BitVec.toNat (word_src L SRC fi _ _ 32 rfl (by omega) 2 (by omega) _ _ _)) (hsrc _)
  isplitl [Hr2_3]
  · iexists _; isplitl [Hr2_3]; · iexact Hr2_3
    ipureintro
    intro i hi
    unfold_sl
    refine row_agree X3 SRC fo ⟨96 * (L 1).val + 48 * (L 0).val + (32 + 3), by have := L0_lt L; have := L1_lt L; omega⟩ _ _ _ _ _ ?hoffo rfl ?hv ?hlt _ _ _ i hi
    case hoffo => exact (k0_off21_eq L tr2).trans (vec3_congr (by simp only [tr2] <;> omega))
    case hv => exact word_src L SRC fi _ _ 32 rfl (by omega) 3 (by omega) _ _ _
    case hlt => exact lt_of_eq_of_lt (congrArg BitVec.toNat (word_src L SRC fi _ _ 32 rfl (by omega) 3 (by omega) _ _ _)) (hsrc _)
  isplitl [Hr2_4]
  · iexists _; isplitl [Hr2_4]; · iexact Hr2_4
    ipureintro
    intro i hi
    unfold_sl
    refine row_agree X3 SRC fo ⟨96 * (L 1).val + 48 * (L 0).val + (32 + 4), by have := L0_lt L; have := L1_lt L; omega⟩ _ _ _ _ _ ?hoffo rfl ?hv ?hlt _ _ _ i hi
    case hoffo => exact (k0_off25_eq L tr2).trans (vec3_congr (by simp only [tr2] <;> omega))
    case hv => exact word_src L SRC fi _ _ 32 rfl (by omega) 4 (by omega) _ _ _
    case hlt => exact lt_of_eq_of_lt (congrArg BitVec.toNat (word_src L SRC fi _ _ 32 rfl (by omega) 4 (by omega) _ _ _)) (hsrc _)
  isplitl [Hr2_5]
  · iexists _; isplitl [Hr2_5]; · iexact Hr2_5
    ipureintro
    intro i hi
    unfold_sl
    refine row_agree X3 SRC fo ⟨96 * (L 1).val + 48 * (L 0).val + (32 + 5), by have := L0_lt L; have := L1_lt L; omega⟩ _ _ _ _ _ ?hoffo rfl ?hv ?hlt _ _ _ i hi
    case hoffo => exact (k0_off29_eq L tr2).trans (vec3_congr (by simp only [tr2] <;> omega))
    case hv => exact word_src L SRC fi _ _ 32 rfl (by omega) 5 (by omega) _ _ _
    case hlt => exact lt_of_eq_of_lt (congrArg BitVec.toNat (word_src L SRC fi _ _ 32 rfl (by omega) 5 (by omega) _ _ _)) (hsrc _)
  isplitl [Hr2_6]
  · iexists _; isplitl [Hr2_6]; · iexact Hr2_6
    ipureintro
    intro i hi
    unfold_sl
    refine row_agree X3 SRC fo ⟨96 * (L 1).val + 48 * (L 0).val + (32 + 6), by have := L0_lt L; have := L1_lt L; omega⟩ _ _ _ _ _ ?hoffo rfl ?hv ?hlt _ _ _ i hi
    case hoffo => exact (k0_off33_eq L tr2).trans (vec3_congr (by simp only [tr2] <;> omega))
    case hv => exact word_src L SRC fi _ _ 32 rfl (by omega) 6 (by omega) _ _ _
    case hlt => exact lt_of_eq_of_lt (congrArg BitVec.toNat (word_src L SRC fi _ _ 32 rfl (by omega) 6 (by omega) _ _ _)) (hsrc _)
  isplitl [Hr2_7]
  · iexists _; isplitl [Hr2_7]; · iexact Hr2_7
    ipureintro
    intro i hi
    unfold_sl
    refine row_agree X3 SRC fo ⟨96 * (L 1).val + 48 * (L 0).val + (32 + 7), by have := L0_lt L; have := L1_lt L; omega⟩ _ _ _ _ _ ?hoffo rfl ?hv ?hlt _ _ _ i hi
    case hoffo => exact (k0_off37_eq L tr2).trans (vec3_congr (by simp only [tr2] <;> omega))
    case hv => exact word_src L SRC fi _ _ 32 rfl (by omega) 7 (by omega) _ _ _
    case hlt => exact lt_of_eq_of_lt (congrArg BitVec.toNat (word_src L SRC fi _ _ 32 rfl (by omega) 7 (by omega) _ _ _)) (hsrc _)
  isplitl [Hr2_8]
  · iexists _; isplitl [Hr2_8]; · iexact Hr2_8
    ipureintro
    intro i hi
    unfold_sl
    refine row_agree X3 SRC fo ⟨96 * (L 1).val + 48 * (L 0).val + (32 + 8), by have := L0_lt L; have := L1_lt L; omega⟩ _ _ _ _ _ ?hoffo rfl ?hv ?hlt _ _ _ i hi
    case hoffo => exact (k0_off41_eq L tr2).trans (vec3_congr (by simp only [tr2] <;> omega))
    case hv => exact word_src L SRC fi _ _ 32 rfl (by omega) 8 (by omega) _ _ _
    case hlt => exact lt_of_eq_of_lt (congrArg BitVec.toNat (word_src L SRC fi _ _ 32 rfl (by omega) 8 (by omega) _ _ _)) (hsrc _)
  isplitl [Hr2_9]
  · iexists _; isplitl [Hr2_9]; · iexact Hr2_9
    ipureintro
    intro i hi
    unfold_sl
    refine row_agree X3 SRC fo ⟨96 * (L 1).val + 48 * (L 0).val + (32 + 9), by have := L0_lt L; have := L1_lt L; omega⟩ _ _ _ _ _ ?hoffo rfl ?hv ?hlt _ _ _ i hi
    case hoffo => exact (k0_off45_eq L tr2).trans (vec3_congr (by simp only [tr2] <;> omega))
    case hv => exact word_src L SRC fi _ _ 32 rfl (by omega) 9 (by omega) _ _ _
    case hlt => exact lt_of_eq_of_lt (congrArg BitVec.toNat (word_src L SRC fi _ _ 32 rfl (by omega) 9 (by omega) _ _ _)) (hsrc _)
  isplitl [Hr2_10]
  · iexists _; isplitl [Hr2_10]; · iexact Hr2_10
    ipureintro
    intro i hi
    unfold_sl
    refine row_agree X3 SRC fo ⟨96 * (L 1).val + 48 * (L 0).val + (32 + 10), by have := L0_lt L; have := L1_lt L; omega⟩ _ _ _ _ _ ?hoffo rfl ?hv ?hlt _ _ _ i hi
    case hoffo => exact (k0_off49_eq L tr2).trans (vec3_congr (by simp only [tr2] <;> omega))
    case hv => exact word_src L SRC fi _ _ 32 rfl (by omega) 10 (by omega) _ _ _
    case hlt => exact lt_of_eq_of_lt (congrArg BitVec.toNat (word_src L SRC fi _ _ 32 rfl (by omega) 10 (by omega) _ _ _)) (hsrc _)
  isplitl [Hr2_11]
  · iexists _; isplitl [Hr2_11]; · iexact Hr2_11
    ipureintro
    intro i hi
    unfold_sl
    refine row_agree X3 SRC fo ⟨96 * (L 1).val + 48 * (L 0).val + (32 + 11), by have := L0_lt L; have := L1_lt L; omega⟩ _ _ _ _ _ ?hoffo rfl ?hv ?hlt _ _ _ i hi
    case hoffo => exact (k0_off53_eq L tr2).trans (vec3_congr (by simp only [tr2] <;> omega))
    case hv => exact word_src L SRC fi _ _ 32 rfl (by omega) 11 (by omega) _ _ _
    case hlt => exact lt_of_eq_of_lt (congrArg BitVec.toNat (word_src L SRC fi _ _ 32 rfl (by omega) 11 (by omega) _ _ _)) (hsrc _)
  isplitl [Hr2_12]
  · iexists _; isplitl [Hr2_12]; · iexact Hr2_12
    ipureintro
    intro i hi
    unfold_sl
    refine row_agree X3 SRC fo ⟨96 * (L 1).val + 48 * (L 0).val + (32 + 12), by have := L0_lt L; have := L1_lt L; omega⟩ _ _ _ _ _ ?hoffo rfl ?hv ?hlt _ _ _ i hi
    case hoffo => exact (k0_off57_eq L tr2).trans (vec3_congr (by simp only [tr2] <;> omega))
    case hv => exact word_src L SRC fi _ _ 32 rfl (by omega) 12 (by omega) _ _ _
    case hlt => exact lt_of_eq_of_lt (congrArg BitVec.toNat (word_src L SRC fi _ _ 32 rfl (by omega) 12 (by omega) _ _ _)) (hsrc _)
  isplitl [Hr2_13]
  · iexists _; isplitl [Hr2_13]; · iexact Hr2_13
    ipureintro
    intro i hi
    unfold_sl
    refine row_agree X3 SRC fo ⟨96 * (L 1).val + 48 * (L 0).val + (32 + 13), by have := L0_lt L; have := L1_lt L; omega⟩ _ _ _ _ _ ?hoffo rfl ?hv ?hlt _ _ _ i hi
    case hoffo => exact (k0_off61_eq L tr2).trans (vec3_congr (by simp only [tr2] <;> omega))
    case hv => exact word_src L SRC fi _ _ 32 rfl (by omega) 13 (by omega) _ _ _
    case hlt => exact lt_of_eq_of_lt (congrArg BitVec.toNat (word_src L SRC fi _ _ 32 rfl (by omega) 13 (by omega) _ _ _)) (hsrc _)
  isplitl [Hr2_14]
  · iexists _; isplitl [Hr2_14]; · iexact Hr2_14
    ipureintro
    intro i hi
    unfold_sl
    refine row_agree X3 SRC fo ⟨96 * (L 1).val + 48 * (L 0).val + (32 + 14), by have := L0_lt L; have := L1_lt L; omega⟩ _ _ _ _ _ ?hoffo rfl ?hv ?hlt _ _ _ i hi
    case hoffo => exact (k0_off65_eq L tr2).trans (vec3_congr (by simp only [tr2] <;> omega))
    case hv => exact word_src L SRC fi _ _ 32 rfl (by omega) 14 (by omega) _ _ _
    case hlt => exact lt_of_eq_of_lt (congrArg BitVec.toNat (word_src L SRC fi _ _ 32 rfl (by omega) 14 (by omega) _ _ _)) (hsrc _)
  isplitl [Hr2_15]
  · iexists _; isplitl [Hr2_15]; · iexact Hr2_15
    ipureintro
    intro i hi
    unfold_sl
    refine row_agree X3 SRC fo ⟨96 * (L 1).val + 48 * (L 0).val + (32 + 15), by have := L0_lt L; have := L1_lt L; omega⟩ _ _ _ _ _ ?hoffo rfl ?hv ?hlt _ _ _ i hi
    case hoffo => exact (k0_off69_eq L tr2).trans (vec3_congr (by simp only [tr2] <;> omega))
    case hv => exact word_src L SRC fi _ _ 32 rfl (by omega) 15 (by omega) _ _ _
    case hlt => exact lt_of_eq_of_lt (congrArg BitVec.toNat (word_src L SRC fi _ _ 32 rfl (by omega) 15 (by omega) _ _ _)) (hsrc _)
  isplitl [Hm0]; · iexact Hm0
  isplitl [Hm1]; · iexact Hm1
  isplitl [Hm2]; · iexact Hm2
  isplitl [Hm3]; · iexact Hm3
  isplitl [Hm4]; · iexact Hm4
  isplitl [Hm5]; · iexact Hm5
  isplitl [Hm6]; · iexact Hm6
  isplitl [Hm7]; · iexact Hm7
  isplitl [Hm8]; · iexact Hm8
  isplitl [Hm9]; · iexact Hm9
  isplitl [Hm10]; · iexact Hm10
  isplitl [Hm11]; · iexact Hm11
  isplitl [Hm12]; · iexact Hm12
  isplitl [Hm13]; · iexact Hm13
  isplitl [Hm14]; · iexact Hm14
  isplitl [Hm15]; · iexact Hm15
  isplitl [Hm16]; · iexact Hm16
  isplitl [Hm17]; · iexact Hm17
  isplitl [Hm18]; · iexact Hm18
  iexists _; isplitl [HO]; · iexact HO
  ipureintro
  intro p hp
  simp only [Finset.mem_insert] at hp
  repeat (rcases hp with rfl | hp; · exact Or.inr rfl)
  exact Or.inl hp

end Cert.Proof.RunWord

end
-- ==== Proof.TileObWord.lean ====
/-
  The vector subcores' task as the launch theorem asks for it.  A subcore's block of the result is the
  forty-eight rows its task writes, each row a 224 × 224 image of the 1536-row array; the task's run,
  stated row by row and semaphore by semaphore, regroups into the launch's block, slots and shares; and
  the regrouped run is the launch theorem's obligation at every subcore of the grid.
-/
import proofs.«214331_g712964571761_cont_9to1_m_186_24_alg».proof.Proof.PrepWord
import proofs.«214331_g712964571761_cont_9to1_m_186_24_alg».proof.Proof.TileWord

noncomputable section

namespace Cert.Proof.RunWord

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## A subcore's block of the result, row by row -/

/-- Row `r` of a 1536-row array: the elements whose first coordinate is `r`. -/
def rowSetNat (r : Nat) : Finset S1536x224x224.Idx := Finset.univ.filter fun i => (i 0).val = r

theorem vec3_eq {a b : Nat} (h : a = b) : (![a, 0, 0] : Fin 3 → Nat) = ![b, 0, 0] := by rw [h]

/-- The elements of row `r` of the result taken as one image are the elements of the result on row `r`. -/
theorem set_rowOf (off : Fin 3 → Nat) (h : ∀ a, off a + S1x224x224.size a ≤ S1536x224x224.size a) (r : Nat)
    (hoff : off = ![r, 0, 0]) : (rowOf oW off h).view.set = rowSetNat r := by
  subst hoff
  have hr : r < 1536 := by have := h 0; simpa using this
  ext i
  simp only [rowSetNat, Finset.mem_filter, Finset.mem_univ, true_and]
  constructor
  · intro hi
    obtain ⟨y, -, rfl⟩ := Finset.mem_map.mp hi
    rw [emb_rowOf oW ⟨r, hr⟩ _ h rfl y]
    rfl
  · intro hi
    refine Finset.mem_map.mpr ⟨ix2 (i 1 : Fin 224) (i 2 : Fin 224), Finset.mem_univ _, ?_⟩
    rw [emb_rowOf oW ⟨r, hr⟩ _ h rfl]
    show ix3 (⟨r, hr⟩ : Fin 1536) (i 1 : Fin 224) (i 2 : Fin 224) = i
    rw [eq_ix3 i]
    exact congrArg (fun z => ix3 z (i 1 : Fin 224) (i 2 : Fin 224)) (Fin.ext hi.symm)

/-- Block `w` of the result is its forty-eight rows. -/
theorem oSet_rows (w : Fin 32) : oSet w = (Finset.univ : Finset (Fin 48)).biUnion fun n => rowSetNat (48 * w.val + n.val) := by
  rw [oSet_eq]
  ext i
  simp only [Finset.mem_biUnion, Finset.mem_univ, true_and, rowSetNat, Finset.mem_filter]
  rw [Rect.mem_set_unit]
  have hw := w.isLt
  have hi := (i 0).isLt
  constructor
  · intro h
    have h0 := h 0
    simp only [Shape.partIx, Shape.partSize] at h0
    refine ⟨⟨(i 0).val - 48 * w.val, ?_⟩, ?_⟩ <;> simp at h0 ⊢ <;> omega
  · rintro ⟨n, hn⟩ a
    have := n.isLt
    match a with
    | ⟨0, _⟩ => simp [Shape.partIx, Shape.partSize]; omega
    | ⟨1, _⟩ => simp [Shape.partIx, Shape.partSize]; exact (i 1).isLt
    | ⟨2, _⟩ => simp [Shape.partIx, Shape.partSize]; exact (i 2).isLt

theorem rowSetNat_disjoint {r r' : Nat} (h : r ≠ r') : Disjoint (rowSetNat r) (rowSetNat r') :=
  Finset.disjoint_filter.mpr fun _ _ h1 h2 => h (h1.symm.trans h2)

theorem oBlock_big (d : Dev nD) (w : Fin 32) (f : Buf (Elt F) (oLoc d)) :
    (oLoc d ↦[oSet w]{fullShare} f : sProp 𝕄) = bigSep Finset.univ fun n : Fin 48 => oLoc d ↦[rowSetNat (48 * w.val + n.val)]{fullShare} f := by
  rw [oSet_rows, pointsTo_biUnion Finset.univ (ℓ := oLoc d) (fun n : Fin 48 => rowSetNat (48 * w.val + n.val))
    (fun i _ j _ hij => rowSetNat_disjoint (fun e => hij (Fin.ext (by omega))))]

theorem bigSep_fin_succ {n : Nat} (Φ : Fin (n + 2) → sProp 𝕄) :
    bigSep Finset.univ Φ = iprop(Φ 0 ∗ bigSep Finset.univ fun i : Fin (n + 1) => Φ i.succ) := by
  unfold bigSep
  rw [Fin.univ_succ, Finset.fold_cons, Finset.fold_map]
  rfl

theorem bigSep_fin_one (Φ : Fin 1 → sProp 𝕄) : bigSep Finset.univ Φ = Φ 0 := bigSep_univ_of_subsingleton 0

theorem rowPts_eq (d : Dev nD) (L : grid0.Coords) (f : Buf (Elt F) (oLoc d)) (off : Fin 3 → Nat)
    (h : ∀ a, off a + S1x224x224.size a ≤ S1536x224x224.size a) (r : Nat) (hoff : off = ![r, 0, 0]) :
    ((rowOf oW off h).view.loc (V d (cV L) (jV L)) ↦[(rowOf oW off h).view.set]{fullShare} f : sProp 𝕄)
      = (oLoc d ↦[rowSetNat r]{fullShare} f) := by
  rw [set_rowOf off h r hoff]

set_option maxHeartbeats 4000000 in
/-- A subcore's block of the result is the forty-eight rows its task writes, in the order it writes them. -/
theorem oBlock_rows (d : Dev nD) (L : grid0.Coords) (w : Fin 32) (hw : w.val = 2 * (L 1).val + (L 0).val) (f : Buf (Elt F) (oLoc d)) :
    (oLoc d ↦[oSet w]{fullShare} f : sProp 𝕄)
      = iprop(((rowOf oW (k0_off9 L tr0) (k0_off9_inb L tr0)).view.loc (V d (cV L) (jV L)) ↦[(rowOf oW (k0_off9 L tr0) (k0_off9_inb L tr0)).view.set]{fullShare} f)
        ∗ ((rowOf oW (k0_off13 L tr0) (k0_off13_inb L tr0)).view.loc (V d (cV L) (jV L)) ↦[(rowOf oW (k0_off13 L tr0) (k0_off13_inb L tr0)).view.set]{fullShare} f)
        ∗ ((rowOf oW (k0_off17 L tr0) (k0_off17_inb L tr0)).view.loc (V d (cV L) (jV L)) ↦[(rowOf oW (k0_off17 L tr0) (k0_off17_inb L tr0)).view.set]{fullShare} f)
        ∗ ((rowOf oW (k0_off21 L tr0) (k0_off21_inb L tr0)).view.loc (V d (cV L) (jV L)) ↦[(rowOf oW (k0_off21 L tr0) (k0_off21_inb L tr0)).view.set]{fullShare} f)
        ∗ ((rowOf oW (k0_off25 L tr0) (k0_off25_inb L tr0)).view.loc (V d (cV L) (jV L)) ↦[(rowOf oW (k0_off25 L tr0) (k0_off25_inb L tr0)).view.set]{fullShare} f)
        ∗ ((rowOf oW (k0_off29 L tr0) (k0_off29_inb L tr0)).view.loc (V d (cV L) (jV L)) ↦[(rowOf oW (k0_off29 L tr0) (k0_off29_inb L tr0)).view.set]{fullShare} f)
        ∗ ((rowOf oW (k0_off33 L tr0) (k0_off33_inb L tr0)).view.loc (V d (cV L) (jV L)) ↦[(rowOf oW (k0_off33 L tr0) (k0_off33_inb L tr0)).view.set]{fullShare} f)
        ∗ ((rowOf oW (k0_off37 L tr0) (k0_off37_inb L tr0)).view.loc (V d (cV L) (jV L)) ↦[(rowOf oW (k0_off37 L tr0) (k0_off37_inb L tr0)).view.set]{fullShare} f)
        ∗ ((rowOf oW (k0_off41 L tr0) (k0_off41_inb L tr0)).view.loc (V d (cV L) (jV L)) ↦[(rowOf oW (k0_off41 L tr0) (k0_off41_inb L tr0)).view.set]{fullShare} f)
        ∗ ((rowOf oW (k0_off45 L tr0) (k0_off45_inb L tr0)).view.loc (V d (cV L) (jV L)) ↦[(rowOf oW (k0_off45 L tr0) (k0_off45_inb L tr0)).view.set]{fullShare} f)
        ∗ ((rowOf oW (k0_off49 L tr0) (k0_off49_inb L tr0)).view.loc (V d (cV L) (jV L)) ↦[(rowOf oW (k0_off49 L tr0) (k0_off49_inb L tr0)).view.set]{fullShare} f)
        ∗ ((rowOf oW (k0_off53 L tr0) (k0_off53_inb L tr0)).view.loc (V d (cV L) (jV L)) ↦[(rowOf oW (k0_off53 L tr0) (k0_off53_inb L tr0)).view.set]{fullShare} f)
        ∗ ((rowOf oW (k0_off57 L tr0) (k0_off57_inb L tr0)).view.loc (V d (cV L) (jV L)) ↦[(rowOf oW (k0_off57 L tr0) (k0_off57_inb L tr0)).view.set]{fullShare} f)
        ∗ ((rowOf oW (k0_off61 L tr0) (k0_off61_inb L tr0)).view.loc (V d (cV L) (jV L)) ↦[(rowOf oW (k0_off61 L tr0) (k0_off61_inb L tr0)).view.set]{fullShare} f)
        ∗ ((rowOf oW (k0_off65 L tr0) (k0_off65_inb L tr0)).view.loc (V d (cV L) (jV L)) ↦[(rowOf oW (k0_off65 L tr0) (k0_off65_inb L tr0)).view.set]{fullShare} f)
        ∗ ((rowOf oW (k0_off69 L tr0) (k0_off69_inb L tr0)).view.loc (V d (cV L) (jV L)) ↦[(rowOf oW (k0_off69 L tr0) (k0_off69_inb L tr0)).view.set]{fullShare} f)
        ∗ ((rowOf oW (k0_off9 L tr1) (k0_off9_inb L tr1)).view.loc (V d (cV L) (jV L)) ↦[(rowOf oW (k0_off9 L tr1) (k0_off9_inb L tr1)).view.set]{fullShare} f)
        ∗ ((rowOf oW (k0_off13 L tr1) (k0_off13_inb L tr1)).view.loc (V d (cV L) (jV L)) ↦[(rowOf oW (k0_off13 L tr1) (k0_off13_inb L tr1)).view.set]{fullShare} f)
        ∗ ((rowOf oW (k0_off17 L tr1) (k0_off17_inb L tr1)).view.loc (V d (cV L) (jV L)) ↦[(rowOf oW (k0_off17 L tr1) (k0_off17_inb L tr1)).view.set]{fullShare} f)
        ∗ ((rowOf oW (k0_off21 L tr1) (k0_off21_inb L tr1)).view.loc (V d (cV L) (jV L)) ↦[(rowOf oW (k0_off21 L tr1) (k0_off21_inb L tr1)).view.set]{fullShare} f)
        ∗ ((rowOf oW (k0_off25 L tr1) (k0_off25_inb L tr1)).view.loc (V d (cV L) (jV L)) ↦[(rowOf oW (k0_off25 L tr1) (k0_off25_inb L tr1)).view.set]{fullShare} f)
        ∗ ((rowOf oW (k0_off29 L tr1) (k0_off29_inb L tr1)).view.loc (V d (cV L) (jV L)) ↦[(rowOf oW (k0_off29 L tr1) (k0_off29_inb L tr1)).view.set]{fullShare} f)
        ∗ ((rowOf oW (k0_off33 L tr1) (k0_off33_inb L tr1)).view.loc (V d (cV L) (jV L)) ↦[(rowOf oW (k0_off33 L tr1) (k0_off33_inb L tr1)).view.set]{fullShare} f)
        ∗ ((rowOf oW (k0_off37 L tr1) (k0_off37_inb L tr1)).view.loc (V d (cV L) (jV L)) ↦[(rowOf oW (k0_off37 L tr1) (k0_off37_inb L tr1)).view.set]{fullShare} f)
        ∗ ((rowOf oW (k0_off41 L tr1) (k0_off41_inb L tr1)).view.loc (V d (cV L) (jV L)) ↦[(rowOf oW (k0_off41 L tr1) (k0_off41_inb L tr1)).view.set]{fullShare} f)
        ∗ ((rowOf oW (k0_off45 L tr1) (k0_off45_inb L tr1)).view.loc (V d (cV L) (jV L)) ↦[(rowOf oW (k0_off45 L tr1) (k0_off45_inb L tr1)).view.set]{fullShare} f)
        ∗ ((rowOf oW (k0_off49 L tr1) (k0_off49_inb L tr1)).view.loc (V d (cV L) (jV L)) ↦[(rowOf oW (k0_off49 L tr1) (k0_off49_inb L tr1)).view.set]{fullShare} f)
        ∗ ((rowOf oW (k0_off53 L tr1) (k0_off53_inb L tr1)).view.loc (V d (cV L) (jV L)) ↦[(rowOf oW (k0_off53 L tr1) (k0_off53_inb L tr1)).view.set]{fullShare} f)
        ∗ ((rowOf oW (k0_off57 L tr1) (k0_off57_inb L tr1)).view.loc (V d (cV L) (jV L)) ↦[(rowOf oW (k0_off57 L tr1) (k0_off57_inb L tr1)).view.set]{fullShare} f)
        ∗ ((rowOf oW (k0_off61 L tr1) (k0_off61_inb L tr1)).view.loc (V d (cV L) (jV L)) ↦[(rowOf oW (k0_off61 L tr1) (k0_off61_inb L tr1)).view.set]{fullShare} f)
        ∗ ((rowOf oW (k0_off65 L tr1) (k0_off65_inb L tr1)).view.loc (V d (cV L) (jV L)) ↦[(rowOf oW (k0_off65 L tr1) (k0_off65_inb L tr1)).view.set]{fullShare} f)
        ∗ ((rowOf oW (k0_off69 L tr1) (k0_off69_inb L tr1)).view.loc (V d (cV L) (jV L)) ↦[(rowOf oW (k0_off69 L tr1) (k0_off69_inb L tr1)).view.set]{fullShare} f)
        ∗ ((rowOf oW (k0_off9 L tr2) (k0_off9_inb L tr2)).view.loc (V d (cV L) (jV L)) ↦[(rowOf oW (k0_off9 L tr2) (k0_off9_inb L tr2)).view.set]{fullShare} f)
        ∗ ((rowOf oW (k0_off13 L tr2) (k0_off13_inb L tr2)).view.loc (V d (cV L) (jV L)) ↦[(rowOf oW (k0_off13 L tr2) (k0_off13_inb L tr2)).view.set]{fullShare} f)
        ∗ ((rowOf oW (k0_off17 L tr2) (k0_off17_inb L tr2)).view.loc (V d (cV L) (jV L)) ↦[(rowOf oW (k0_off17 L tr2) (k0_off17_inb L tr2)).view.set]{fullShare} f)
        ∗ ((rowOf oW (k0_off21 L tr2) (k0_off21_inb L tr2)).view.loc (V d (cV L) (jV L)) ↦[(rowOf oW (k0_off21 L tr2) (k0_off21_inb L tr2)).view.set]{fullShare} f)
        ∗ ((rowOf oW (k0_off25 L tr2) (k0_off25_inb L tr2)).view.loc (V d (cV L) (jV L)) ↦[(rowOf oW (k0_off25 L tr2) (k0_off25_inb L tr2)).view.set]{fullShare} f)
        ∗ ((rowOf oW (k0_off29 L tr2) (k0_off29_inb L tr2)).view.loc (V d (cV L) (jV L)) ↦[(rowOf oW (k0_off29 L tr2) (k0_off29_inb L tr2)).view.set]{fullShare} f)
        ∗ ((rowOf oW (k0_off33 L tr2) (k0_off33_inb L tr2)).view.loc (V d (cV L) (jV L)) ↦[(rowOf oW (k0_off33 L tr2) (k0_off33_inb L tr2)).view.set]{fullShare} f)
        ∗ ((rowOf oW (k0_off37 L tr2) (k0_off37_inb L tr2)).view.loc (V d (cV L) (jV L)) ↦[(rowOf oW (k0_off37 L tr2) (k0_off37_inb L tr2)).view.set]{fullShare} f)
        ∗ ((rowOf oW (k0_off41 L tr2) (k0_off41_inb L tr2)).view.loc (V d (cV L) (jV L)) ↦[(rowOf oW (k0_off41 L tr2) (k0_off41_inb L tr2)).view.set]{fullShare} f)
        ∗ ((rowOf oW (k0_off45 L tr2) (k0_off45_inb L tr2)).view.loc (V d (cV L) (jV L)) ↦[(rowOf oW (k0_off45 L tr2) (k0_off45_inb L tr2)).view.set]{fullShare} f)
        ∗ ((rowOf oW (k0_off49 L tr2) (k0_off49_inb L tr2)).view.loc (V d (cV L) (jV L)) ↦[(rowOf oW (k0_off49 L tr2) (k0_off49_inb L tr2)).view.set]{fullShare} f)
        ∗ ((rowOf oW (k0_off53 L tr2) (k0_off53_inb L tr2)).view.loc (V d (cV L) (jV L)) ↦[(rowOf oW (k0_off53 L tr2) (k0_off53_inb L tr2)).view.set]{fullShare} f)
        ∗ ((rowOf oW (k0_off57 L tr2) (k0_off57_inb L tr2)).view.loc (V d (cV L) (jV L)) ↦[(rowOf oW (k0_off57 L tr2) (k0_off57_inb L tr2)).view.set]{fullShare} f)
        ∗ ((rowOf oW (k0_off61 L tr2) (k0_off61_inb L tr2)).view.loc (V d (cV L) (jV L)) ↦[(rowOf oW (k0_off61 L tr2) (k0_off61_inb L tr2)).view.set]{fullShare} f)
        ∗ ((rowOf oW (k0_off65 L tr2) (k0_off65_inb L tr2)).view.loc (V d (cV L) (jV L)) ↦[(rowOf oW (k0_off65 L tr2) (k0_off65_inb L tr2)).view.set]{fullShare} f)
        ∗ ((rowOf oW (k0_off69 L tr2) (k0_off69_inb L tr2)).view.loc (V d (cV L) (jV L)) ↦[(rowOf oW (k0_off69 L tr2) (k0_off69_inb L tr2)).view.set]{fullShare} f)) := by
  rw [oBlock_big d w f]
  simp only [bigSep_fin_succ, bigSep_fin_one, Fin.val_succ, Fin.val_zero, Nat.reduceAdd]
  exact Eq.symm (congrArg₂ BI.sep (rowPts_eq d L f (k0_off9 L tr0) (k0_off9_inb L tr0) (48 * w.val + 0) ((k0_off9_eq L tr0).trans (vec3_eq (by show 96 * (L 1).val + 48 * (L 0).val + 16 * 0 = 48 * w.val + 0; omega))))
    (congrArg₂ BI.sep (rowPts_eq d L f (k0_off13 L tr0) (k0_off13_inb L tr0) (48 * w.val + 1) ((k0_off13_eq L tr0).trans (vec3_eq (by show 96 * (L 1).val + 48 * (L 0).val + 16 * 0 + 1 = 48 * w.val + 1; omega))))
    (congrArg₂ BI.sep (rowPts_eq d L f (k0_off17 L tr0) (k0_off17_inb L tr0) (48 * w.val + 2) ((k0_off17_eq L tr0).trans (vec3_eq (by show 96 * (L 1).val + 48 * (L 0).val + 16 * 0 + 2 = 48 * w.val + 2; omega))))
    (congrArg₂ BI.sep (rowPts_eq d L f (k0_off21 L tr0) (k0_off21_inb L tr0) (48 * w.val + 3) ((k0_off21_eq L tr0).trans (vec3_eq (by show 96 * (L 1).val + 48 * (L 0).val + 16 * 0 + 3 = 48 * w.val + 3; omega))))
    (congrArg₂ BI.sep (rowPts_eq d L f (k0_off25 L tr0) (k0_off25_inb L tr0) (48 * w.val + 4) ((k0_off25_eq L tr0).trans (vec3_eq (by show 96 * (L 1).val + 48 * (L 0).val + 16 * 0 + 4 = 48 * w.val + 4; omega))))
    (congrArg₂ BI.sep (rowPts_eq d L f (k0_off29 L tr0) (k0_off29_inb L tr0) (48 * w.val + 5) ((k0_off29_eq L tr0).trans (vec3_eq (by show 96 * (L 1).val + 48 * (L 0).val + 16 * 0 + 5 = 48 * w.val + 5; omega))))
    (congrArg₂ BI.sep (rowPts_eq d L f (k0_off33 L tr0) (k0_off33_inb L tr0) (48 * w.val + 6) ((k0_off33_eq L tr0).trans (vec3_eq (by show 96 * (L 1).val + 48 * (L 0).val + 16 * 0 + 6 = 48 * w.val + 6; omega))))
    (congrArg₂ BI.sep (rowPts_eq d L f (k0_off37 L tr0) (k0_off37_inb L tr0) (48 * w.val + 7) ((k0_off37_eq L tr0).trans (vec3_eq (by show 96 * (L 1).val + 48 * (L 0).val + 16 * 0 + 7 = 48 * w.val + 7; omega))))
    (congrArg₂ BI.sep (rowPts_eq d L f (k0_off41 L tr0) (k0_off41_inb L tr0) (48 * w.val + 8) ((k0_off41_eq L tr0).trans (vec3_eq (by show 96 * (L 1).val + 48 * (L 0).val + 16 * 0 + 8 = 48 * w.val + 8; omega))))
    (congrArg₂ BI.sep (rowPts_eq d L f (k0_off45 L tr0) (k0_off45_inb L tr0) (48 * w.val + 9) ((k0_off45_eq L tr0).trans (vec3_eq (by show 96 * (L 1).val + 48 * (L 0).val + 16 * 0 + 9 = 48 * w.val + 9; omega))))
    (congrArg₂ BI.sep (rowPts_eq d L f (k0_off49 L tr0) (k0_off49_inb L tr0) (48 * w.val + 10) ((k0_off49_eq L tr0).trans (vec3_eq (by show 96 * (L 1).val + 48 * (L 0).val + 16 * 0 + 10 = 48 * w.val + 10; omega))))
    (congrArg₂ BI.sep (rowPts_eq d L f (k0_off53 L tr0) (k0_off53_inb L tr0) (48 * w.val + 11) ((k0_off53_eq L tr0).trans (vec3_eq (by show 96 * (L 1).val + 48 * (L 0).val + 16 * 0 + 11 = 48 * w.val + 11; omega))))
    (congrArg₂ BI.sep (rowPts_eq d L f (k0_off57 L tr0) (k0_off57_inb L tr0) (48 * w.val + 12) ((k0_off57_eq L tr0).trans (vec3_eq (by show 96 * (L 1).val + 48 * (L 0).val + 16 * 0 + 12 = 48 * w.val + 12; omega))))
    (congrArg₂ BI.sep (rowPts_eq d L f (k0_off61 L tr0) (k0_off61_inb L tr0) (48 * w.val + 13) ((k0_off61_eq L tr0).trans (vec3_eq (by show 96 * (L 1).val + 48 * (L 0).val + 16 * 0 + 13 = 48 * w.val + 13; omega))))
    (congrArg₂ BI.sep (rowPts_eq d L f (k0_off65 L tr0) (k0_off65_inb L tr0) (48 * w.val + 14) ((k0_off65_eq L tr0).trans (vec3_eq (by show 96 * (L 1).val + 48 * (L 0).val + 16 * 0 + 14 = 48 * w.val + 14; omega))))
    (congrArg₂ BI.sep (rowPts_eq d L f (k0_off69 L tr0) (k0_off69_inb L tr0) (48 * w.val + 15) ((k0_off69_eq L tr0).trans (vec3_eq (by show 96 * (L 1).val + 48 * (L 0).val + 16 * 0 + 15 = 48 * w.val + 15; omega))))
    (congrArg₂ BI.sep (rowPts_eq d L f (k0_off9 L tr1) (k0_off9_inb L tr1) (48 * w.val + 16) ((k0_off9_eq L tr1).trans (vec3_eq (by show 96 * (L 1).val + 48 * (L 0).val + 16 * 1 = 48 * w.val + 16; omega))))
    (congrArg₂ BI.sep (rowPts_eq d L f (k0_off13 L tr1) (k0_off13_inb L tr1) (48 * w.val + 17) ((k0_off13_eq L tr1).trans (vec3_eq (by show 96 * (L 1).val + 48 * (L 0).val + 16 * 1 + 1 = 48 * w.val + 17; omega))))
    (congrArg₂ BI.sep (rowPts_eq d L f (k0_off17 L tr1) (k0_off17_inb L tr1) (48 * w.val + 18) ((k0_off17_eq L tr1).trans (vec3_eq (by show 96 * (L 1).val + 48 * (L 0).val + 16 * 1 + 2 = 48 * w.val + 18; omega))))
    (congrArg₂ BI.sep (rowPts_eq d L f (k0_off21 L tr1) (k0_off21_inb L tr1) (48 * w.val + 19) ((k0_off21_eq L tr1).trans (vec3_eq (by show 96 * (L 1).val + 48 * (L 0).val + 16 * 1 + 3 = 48 * w.val + 19; omega))))
    (congrArg₂ BI.sep (rowPts_eq d L f (k0_off25 L tr1) (k0_off25_inb L tr1) (48 * w.val + 20) ((k0_off25_eq L tr1).trans (vec3_eq (by show 96 * (L 1).val + 48 * (L 0).val + 16 * 1 + 4 = 48 * w.val + 20; omega))))
    (congrArg₂ BI.sep (rowPts_eq d L f (k0_off29 L tr1) (k0_off29_inb L tr1) (48 * w.val + 21) ((k0_off29_eq L tr1).trans (vec3_eq (by show 96 * (L 1).val + 48 * (L 0).val + 16 * 1 + 5 = 48 * w.val + 21; omega))))
    (congrArg₂ BI.sep (rowPts_eq d L f (k0_off33 L tr1) (k0_off33_inb L tr1) (48 * w.val + 22) ((k0_off33_eq L tr1).trans (vec3_eq (by show 96 * (L 1).val + 48 * (L 0).val + 16 * 1 + 6 = 48 * w.val + 22; omega))))
    (congrArg₂ BI.sep (rowPts_eq d L f (k0_off37 L tr1) (k0_off37_inb L tr1) (48 * w.val + 23) ((k0_off37_eq L tr1).trans (vec3_eq (by show 96 * (L 1).val + 48 * (L 0).val + 16 * 1 + 7 = 48 * w.val + 23; omega))))
    (congrArg₂ BI.sep (rowPts_eq d L f (k0_off41 L tr1) (k0_off41_inb L tr1) (48 * w.val + 24) ((k0_off41_eq L tr1).trans (vec3_eq (by show 96 * (L 1).val + 48 * (L 0).val + 16 * 1 + 8 = 48 * w.val + 24; omega))))
    (congrArg₂ BI.sep (rowPts_eq d L f (k0_off45 L tr1) (k0_off45_inb L tr1) (48 * w.val + 25) ((k0_off45_eq L tr1).trans (vec3_eq (by show 96 * (L 1).val + 48 * (L 0).val + 16 * 1 + 9 = 48 * w.val + 25; omega))))
    (congrArg₂ BI.sep (rowPts_eq d L f (k0_off49 L tr1) (k0_off49_inb L tr1) (48 * w.val + 26) ((k0_off49_eq L tr1).trans (vec3_eq (by show 96 * (L 1).val + 48 * (L 0).val + 16 * 1 + 10 = 48 * w.val + 26; omega))))
    (congrArg₂ BI.sep (rowPts_eq d L f (k0_off53 L tr1) (k0_off53_inb L tr1) (48 * w.val + 27) ((k0_off53_eq L tr1).trans (vec3_eq (by show 96 * (L 1).val + 48 * (L 0).val + 16 * 1 + 11 = 48 * w.val + 27; omega))))
    (congrArg₂ BI.sep (rowPts_eq d L f (k0_off57 L tr1) (k0_off57_inb L tr1) (48 * w.val + 28) ((k0_off57_eq L tr1).trans (vec3_eq (by show 96 * (L 1).val + 48 * (L 0).val + 16 * 1 + 12 = 48 * w.val + 28; omega))))
    (congrArg₂ BI.sep (rowPts_eq d L f (k0_off61 L tr1) (k0_off61_inb L tr1) (48 * w.val + 29) ((k0_off61_eq L tr1).trans (vec3_eq (by show 96 * (L 1).val + 48 * (L 0).val + 16 * 1 + 13 = 48 * w.val + 29; omega))))
    (congrArg₂ BI.sep (rowPts_eq d L f (k0_off65 L tr1) (k0_off65_inb L tr1) (48 * w.val + 30) ((k0_off65_eq L tr1).trans (vec3_eq (by show 96 * (L 1).val + 48 * (L 0).val + 16 * 1 + 14 = 48 * w.val + 30; omega))))
    (congrArg₂ BI.sep (rowPts_eq d L f (k0_off69 L tr1) (k0_off69_inb L tr1) (48 * w.val + 31) ((k0_off69_eq L tr1).trans (vec3_eq (by show 96 * (L 1).val + 48 * (L 0).val + 16 * 1 + 15 = 48 * w.val + 31; omega))))
    (congrArg₂ BI.sep (rowPts_eq d L f (k0_off9 L tr2) (k0_off9_inb L tr2) (48 * w.val + 32) ((k0_off9_eq L tr2).trans (vec3_eq (by show 96 * (L 1).val + 48 * (L 0).val + 16 * 2 = 48 * w.val + 32; omega))))
    (congrArg₂ BI.sep (rowPts_eq d L f (k0_off13 L tr2) (k0_off13_inb L tr2) (48 * w.val + 33) ((k0_off13_eq L tr2).trans (vec3_eq (by show 96 * (L 1).val + 48 * (L 0).val + 16 * 2 + 1 = 48 * w.val + 33; omega))))
    (congrArg₂ BI.sep (rowPts_eq d L f (k0_off17 L tr2) (k0_off17_inb L tr2) (48 * w.val + 34) ((k0_off17_eq L tr2).trans (vec3_eq (by show 96 * (L 1).val + 48 * (L 0).val + 16 * 2 + 2 = 48 * w.val + 34; omega))))
    (congrArg₂ BI.sep (rowPts_eq d L f (k0_off21 L tr2) (k0_off21_inb L tr2) (48 * w.val + 35) ((k0_off21_eq L tr2).trans (vec3_eq (by show 96 * (L 1).val + 48 * (L 0).val + 16 * 2 + 3 = 48 * w.val + 35; omega))))
    (congrArg₂ BI.sep (rowPts_eq d L f (k0_off25 L tr2) (k0_off25_inb L tr2) (48 * w.val + 36) ((k0_off25_eq L tr2).trans (vec3_eq (by show 96 * (L 1).val + 48 * (L 0).val + 16 * 2 + 4 = 48 * w.val + 36; omega))))
    (congrArg₂ BI.sep (rowPts_eq d L f (k0_off29 L tr2) (k0_off29_inb L tr2) (48 * w.val + 37) ((k0_off29_eq L tr2).trans (vec3_eq (by show 96 * (L 1).val + 48 * (L 0).val + 16 * 2 + 5 = 48 * w.val + 37; omega))))
    (congrArg₂ BI.sep (rowPts_eq d L f (k0_off33 L tr2) (k0_off33_inb L tr2) (48 * w.val + 38) ((k0_off33_eq L tr2).trans (vec3_eq (by show 96 * (L 1).val + 48 * (L 0).val + 16 * 2 + 6 = 48 * w.val + 38; omega))))
    (congrArg₂ BI.sep (rowPts_eq d L f (k0_off37 L tr2) (k0_off37_inb L tr2) (48 * w.val + 39) ((k0_off37_eq L tr2).trans (vec3_eq (by show 96 * (L 1).val + 48 * (L 0).val + 16 * 2 + 7 = 48 * w.val + 39; omega))))
    (congrArg₂ BI.sep (rowPts_eq d L f (k0_off41 L tr2) (k0_off41_inb L tr2) (48 * w.val + 40) ((k0_off41_eq L tr2).trans (vec3_eq (by show 96 * (L 1).val + 48 * (L 0).val + 16 * 2 + 8 = 48 * w.val + 40; omega))))
    (congrArg₂ BI.sep (rowPts_eq d L f (k0_off45 L tr2) (k0_off45_inb L tr2) (48 * w.val + 41) ((k0_off45_eq L tr2).trans (vec3_eq (by show 96 * (L 1).val + 48 * (L 0).val + 16 * 2 + 9 = 48 * w.val + 41; omega))))
    (congrArg₂ BI.sep (rowPts_eq d L f (k0_off49 L tr2) (k0_off49_inb L tr2) (48 * w.val + 42) ((k0_off49_eq L tr2).trans (vec3_eq (by show 96 * (L 1).val + 48 * (L 0).val + 16 * 2 + 10 = 48 * w.val + 42; omega))))
    (congrArg₂ BI.sep (rowPts_eq d L f (k0_off53 L tr2) (k0_off53_inb L tr2) (48 * w.val + 43) ((k0_off53_eq L tr2).trans (vec3_eq (by show 96 * (L 1).val + 48 * (L 0).val + 16 * 2 + 11 = 48 * w.val + 43; omega))))
    (congrArg₂ BI.sep (rowPts_eq d L f (k0_off57 L tr2) (k0_off57_inb L tr2) (48 * w.val + 44) ((k0_off57_eq L tr2).trans (vec3_eq (by show 96 * (L 1).val + 48 * (L 0).val + 16 * 2 + 12 = 48 * w.val + 44; omega))))
    (congrArg₂ BI.sep (rowPts_eq d L f (k0_off61 L tr2) (k0_off61_inb L tr2) (48 * w.val + 45) ((k0_off61_eq L tr2).trans (vec3_eq (by show 96 * (L 1).val + 48 * (L 0).val + 16 * 2 + 13 = 48 * w.val + 45; omega))))
    (congrArg₂ BI.sep (rowPts_eq d L f (k0_off65 L tr2) (k0_off65_inb L tr2) (48 * w.val + 46) ((k0_off65_eq L tr2).trans (vec3_eq (by show 96 * (L 1).val + 48 * (L 0).val + 16 * 2 + 14 = 48 * w.val + 46; omega))))
    (rowPts_eq d L f (k0_off69 L tr2) (k0_off69_inb L tr2) (48 * w.val + 47) ((k0_off69_eq L tr2).trans (vec3_eq (by show 96 * (L 1).val + 48 * (L 0).val + 16 * 2 + 15 = 48 * w.val + 47; omega)))))))))))))))))))))))))))))))))))))))))))))))))))

/-! ## Regrouping: the rows and the semaphores in front of a remainder -/

theorem sepm {A A' B B' : sProp 𝕄} (h1 : A ⊢ A') (h2 : B ⊢ B') : iprop(A ∗ B) ⊢ iprop(A' ∗ B') := by
  iintro ⟨HA, HB⟩
  isplitl [HA]
  · iapply h1; iexact HA
  · iapply h2; iexact HB

theorem sep_assoc_eq (A B C : sProp 𝕄) : iprop((A ∗ B) ∗ C) = iprop(A ∗ B ∗ C) := by
  have h1 : iprop((A ∗ B) ∗ C) ⊢ iprop(A ∗ B ∗ C) := by
    iintro ⟨⟨HA, HB⟩, HC⟩
    isplitl [HA]; · iexact HA
    isplitl [HB]; · iexact HB
    iexact HC
  have h2 : iprop(A ∗ B ∗ C) ⊢ iprop((A ∗ B) ∗ C) := by
    iintro ⟨HA, HB, HC⟩
    isplitr [HC]
    · isplitl [HA]; · iexact HA
      iexact HB
    iexact HC
  exact BI.equiv_iff.mp ⟨h1, h2⟩

set_option maxHeartbeats 4000000 in
theorem oBlock_rows_tail (d : Dev nD) (L : grid0.Coords) (w : Fin 32) (hw : w.val = 2 * (L 1).val + (L 0).val) (f : Buf (Elt F) (oLoc d)) (T : sProp 𝕄) :
    iprop((oLoc d ↦[oSet w]{fullShare} f) ∗ T)
      = iprop(((rowOf oW (k0_off9 L tr0) (k0_off9_inb L tr0)).view.loc (V d (cV L) (jV L)) ↦[(rowOf oW (k0_off9 L tr0) (k0_off9_inb L tr0)).view.set]{fullShare} f)
        ∗ ((rowOf oW (k0_off13 L tr0) (k0_off13_inb L tr0)).view.loc (V d (cV L) (jV L)) ↦[(rowOf oW (k0_off13 L tr0) (k0_off13_inb L tr0)).view.set]{fullShare} f)
        ∗ ((rowOf oW (k0_off17 L tr0) (k0_off17_inb L tr0)).view.loc (V d (cV L) (jV L)) ↦[(rowOf oW (k0_off17 L tr0) (k0_off17_inb L tr0)).view.set]{fullShare} f)
        ∗ ((rowOf oW (k0_off21 L tr0) (k0_off21_inb L tr0)).view.loc (V d (cV L) (jV L)) ↦[(rowOf oW (k0_off21 L tr0) (k0_off21_inb L tr0)).view.set]{fullShare} f)
        ∗ ((rowOf oW (k0_off25 L tr0) (k0_off25_inb L tr0)).view.loc (V d (cV L) (jV L)) ↦[(rowOf oW (k0_off25 L tr0) (k0_off25_inb L tr0)).view.set]{fullShare} f)
        ∗ ((rowOf oW (k0_off29 L tr0) (k0_off29_inb L tr0)).view.loc (V d (cV L) (jV L)) ↦[(rowOf oW (k0_off29 L tr0) (k0_off29_inb L tr0)).view.set]{fullShare} f)
        ∗ ((rowOf oW (k0_off33 L tr0) (k0_off33_inb L tr0)).view.loc (V d (cV L) (jV L)) ↦[(rowOf oW (k0_off33 L tr0) (k0_off33_inb L tr0)).view.set]{fullShare} f)
        ∗ ((rowOf oW (k0_off37 L tr0) (k0_off37_inb L tr0)).view.loc (V d (cV L) (jV L)) ↦[(rowOf oW (k0_off37 L tr0) (k0_off37_inb L tr0)).view.set]{fullShare} f)
        ∗ ((rowOf oW (k0_off41 L tr0) (k0_off41_inb L tr0)).view.loc (V d (cV L) (jV L)) ↦[(rowOf oW (k0_off41 L tr0) (k0_off41_inb L tr0)).view.set]{fullShare} f)
        ∗ ((rowOf oW (k0_off45 L tr0) (k0_off45_inb L tr0)).view.loc (V d (cV L) (jV L)) ↦[(rowOf oW (k0_off45 L tr0) (k0_off45_inb L tr0)).view.set]{fullShare} f)
        ∗ ((rowOf oW (k0_off49 L tr0) (k0_off49_inb L tr0)).view.loc (V d (cV L) (jV L)) ↦[(rowOf oW (k0_off49 L tr0) (k0_off49_inb L tr0)).view.set]{fullShare} f)
        ∗ ((rowOf oW (k0_off53 L tr0) (k0_off53_inb L tr0)).view.loc (V d (cV L) (jV L)) ↦[(rowOf oW (k0_off53 L tr0) (k0_off53_inb L tr0)).view.set]{fullShare} f)
        ∗ ((rowOf oW (k0_off57 L tr0) (k0_off57_inb L tr0)).view.loc (V d (cV L) (jV L)) ↦[(rowOf oW (k0_off57 L tr0) (k0_off57_inb L tr0)).view.set]{fullShare} f)
        ∗ ((rowOf oW (k0_off61 L tr0) (k0_off61_inb L tr0)).view.loc (V d (cV L) (jV L)) ↦[(rowOf oW (k0_off61 L tr0) (k0_off61_inb L tr0)).view.set]{fullShare} f)
        ∗ ((rowOf oW (k0_off65 L tr0) (k0_off65_inb L tr0)).view.loc (V d (cV L) (jV L)) ↦[(rowOf oW (k0_off65 L tr0) (k0_off65_inb L tr0)).view.set]{fullShare} f)
        ∗ ((rowOf oW (k0_off69 L tr0) (k0_off69_inb L tr0)).view.loc (V d (cV L) (jV L)) ↦[(rowOf oW (k0_off69 L tr0) (k0_off69_inb L tr0)).view.set]{fullShare} f)
        ∗ ((rowOf oW (k0_off9 L tr1) (k0_off9_inb L tr1)).view.loc (V d (cV L) (jV L)) ↦[(rowOf oW (k0_off9 L tr1) (k0_off9_inb L tr1)).view.set]{fullShare} f)
        ∗ ((rowOf oW (k0_off13 L tr1) (k0_off13_inb L tr1)).view.loc (V d (cV L) (jV L)) ↦[(rowOf oW (k0_off13 L tr1) (k0_off13_inb L tr1)).view.set]{fullShare} f)
        ∗ ((rowOf oW (k0_off17 L tr1) (k0_off17_inb L tr1)).view.loc (V d (cV L) (jV L)) ↦[(rowOf oW (k0_off17 L tr1) (k0_off17_inb L tr1)).view.set]{fullShare} f)
        ∗ ((rowOf oW (k0_off21 L tr1) (k0_off21_inb L tr1)).view.loc (V d (cV L) (jV L)) ↦[(rowOf oW (k0_off21 L tr1) (k0_off21_inb L tr1)).view.set]{fullShare} f)
        ∗ ((rowOf oW (k0_off25 L tr1) (k0_off25_inb L tr1)).view.loc (V d (cV L) (jV L)) ↦[(rowOf oW (k0_off25 L tr1) (k0_off25_inb L tr1)).view.set]{fullShare} f)
        ∗ ((rowOf oW (k0_off29 L tr1) (k0_off29_inb L tr1)).view.loc (V d (cV L) (jV L)) ↦[(rowOf oW (k0_off29 L tr1) (k0_off29_inb L tr1)).view.set]{fullShare} f)
        ∗ ((rowOf oW (k0_off33 L tr1) (k0_off33_inb L tr1)).view.loc (V d (cV L) (jV L)) ↦[(rowOf oW (k0_off33 L tr1) (k0_off33_inb L tr1)).view.set]{fullShare} f)
        ∗ ((rowOf oW (k0_off37 L tr1) (k0_off37_inb L tr1)).view.loc (V d (cV L) (jV L)) ↦[(rowOf oW (k0_off37 L tr1) (k0_off37_inb L tr1)).view.set]{fullShare} f)
        ∗ ((rowOf oW (k0_off41 L tr1) (k0_off41_inb L tr1)).view.loc (V d (cV L) (jV L)) ↦[(rowOf oW (k0_off41 L tr1) (k0_off41_inb L tr1)).view.set]{fullShare} f)
        ∗ ((rowOf oW (k0_off45 L tr1) (k0_off45_inb L tr1)).view.loc (V d (cV L) (jV L)) ↦[(rowOf oW (k0_off45 L tr1) (k0_off45_inb L tr1)).view.set]{fullShare} f)
        ∗ ((rowOf oW (k0_off49 L tr1) (k0_off49_inb L tr1)).view.loc (V d (cV L) (jV L)) ↦[(rowOf oW (k0_off49 L tr1) (k0_off49_inb L tr1)).view.set]{fullShare} f)
        ∗ ((rowOf oW (k0_off53 L tr1) (k0_off53_inb L tr1)).view.loc (V d (cV L) (jV L)) ↦[(rowOf oW (k0_off53 L tr1) (k0_off53_inb L tr1)).view.set]{fullShare} f)
        ∗ ((rowOf oW (k0_off57 L tr1) (k0_off57_inb L tr1)).view.loc (V d (cV L) (jV L)) ↦[(rowOf oW (k0_off57 L tr1) (k0_off57_inb L tr1)).view.set]{fullShare} f)
        ∗ ((rowOf oW (k0_off61 L tr1) (k0_off61_inb L tr1)).view.loc (V d (cV L) (jV L)) ↦[(rowOf oW (k0_off61 L tr1) (k0_off61_inb L tr1)).view.set]{fullShare} f)
        ∗ ((rowOf oW (k0_off65 L tr1) (k0_off65_inb L tr1)).view.loc (V d (cV L) (jV L)) ↦[(rowOf oW (k0_off65 L tr1) (k0_off65_inb L tr1)).view.set]{fullShare} f)
        ∗ ((rowOf oW (k0_off69 L tr1) (k0_off69_inb L tr1)).view.loc (V d (cV L) (jV L)) ↦[(rowOf oW (k0_off69 L tr1) (k0_off69_inb L tr1)).view.set]{fullShare} f)
        ∗ ((rowOf oW (k0_off9 L tr2) (k0_off9_inb L tr2)).view.loc (V d (cV L) (jV L)) ↦[(rowOf oW (k0_off9 L tr2) (k0_off9_inb L tr2)).view.set]{fullShare} f)
        ∗ ((rowOf oW (k0_off13 L tr2) (k0_off13_inb L tr2)).view.loc (V d (cV L) (jV L)) ↦[(rowOf oW (k0_off13 L tr2) (k0_off13_inb L tr2)).view.set]{fullShare} f)
        ∗ ((rowOf oW (k0_off17 L tr2) (k0_off17_inb L tr2)).view.loc (V d (cV L) (jV L)) ↦[(rowOf oW (k0_off17 L tr2) (k0_off17_inb L tr2)).view.set]{fullShare} f)
        ∗ ((rowOf oW (k0_off21 L tr2) (k0_off21_inb L tr2)).view.loc (V d (cV L) (jV L)) ↦[(rowOf oW (k0_off21 L tr2) (k0_off21_inb L tr2)).view.set]{fullShare} f)
        ∗ ((rowOf oW (k0_off25 L tr2) (k0_off25_inb L tr2)).view.loc (V d (cV L) (jV L)) ↦[(rowOf oW (k0_off25 L tr2) (k0_off25_inb L tr2)).view.set]{fullShare} f)
        ∗ ((rowOf oW (k0_off29 L tr2) (k0_off29_inb L tr2)).view.loc (V d (cV L) (jV L)) ↦[(rowOf oW (k0_off29 L tr2) (k0_off29_inb L tr2)).view.set]{fullShare} f)
        ∗ ((rowOf oW (k0_off33 L tr2) (k0_off33_inb L tr2)).view.loc (V d (cV L) (jV L)) ↦[(rowOf oW (k0_off33 L tr2) (k0_off33_inb L tr2)).view.set]{fullShare} f)
        ∗ ((rowOf oW (k0_off37 L tr2) (k0_off37_inb L tr2)).view.loc (V d (cV L) (jV L)) ↦[(rowOf oW (k0_off37 L tr2) (k0_off37_inb L tr2)).view.set]{fullShare} f)
        ∗ ((rowOf oW (k0_off41 L tr2) (k0_off41_inb L tr2)).view.loc (V d (cV L) (jV L)) ↦[(rowOf oW (k0_off41 L tr2) (k0_off41_inb L tr2)).view.set]{fullShare} f)
        ∗ ((rowOf oW (k0_off45 L tr2) (k0_off45_inb L tr2)).view.loc (V d (cV L) (jV L)) ↦[(rowOf oW (k0_off45 L tr2) (k0_off45_inb L tr2)).view.set]{fullShare} f)
        ∗ ((rowOf oW (k0_off49 L tr2) (k0_off49_inb L tr2)).view.loc (V d (cV L) (jV L)) ↦[(rowOf oW (k0_off49 L tr2) (k0_off49_inb L tr2)).view.set]{fullShare} f)
        ∗ ((rowOf oW (k0_off53 L tr2) (k0_off53_inb L tr2)).view.loc (V d (cV L) (jV L)) ↦[(rowOf oW (k0_off53 L tr2) (k0_off53_inb L tr2)).view.set]{fullShare} f)
        ∗ ((rowOf oW (k0_off57 L tr2) (k0_off57_inb L tr2)).view.loc (V d (cV L) (jV L)) ↦[(rowOf oW (k0_off57 L tr2) (k0_off57_inb L tr2)).view.set]{fullShare} f)
        ∗ ((rowOf oW (k0_off61 L tr2) (k0_off61_inb L tr2)).view.loc (V d (cV L) (jV L)) ↦[(rowOf oW (k0_off61 L tr2) (k0_off61_inb L tr2)).view.set]{fullShare} f)
        ∗ ((rowOf oW (k0_off65 L tr2) (k0_off65_inb L tr2)).view.loc (V d (cV L) (jV L)) ↦[(rowOf oW (k0_off65 L tr2) (k0_off65_inb L tr2)).view.set]{fullShare} f)
        ∗ ((rowOf oW (k0_off69 L tr2) (k0_off69_inb L tr2)).view.loc (V d (cV L) (jV L)) ↦[(rowOf oW (k0_off69 L tr2) (k0_off69_inb L tr2)).view.set]{fullShare} f)
        ∗ T) := by
  rw [oBlock_rows d L w hw f]
  simp only [sep_assoc_eq]

theorem ownSems0_tail (d : Dev nD) (L : grid0.Coords) (T : sProp 𝕄) :
    iprop(ownSems0 (V d (cV L) (jV L)) ∗ T)
      = iprop(semVal ((V d (cV L) (jV L)), SemLoc.dma cc0_scratch2.sem) 0
        ∗ semVal ((V d (cV L) (jV L)), SemLoc.dma cc0_scratch3.sem) 0
        ∗ semVal ((V d (cV L) (jV L)), SemLoc.dma cc0_scoped0.sem) 0
        ∗ semVal ((V d (cV L) (jV L)), SemLoc.dma cc0_scoped1.sem) 0
        ∗ semVal ((V d (cV L) (jV L)), SemLoc.dma cc0_scoped2.sem) 0
        ∗ semVal ((V d (cV L) (jV L)), SemLoc.dma cc0_scoped3.sem) 0
        ∗ semVal ((V d (cV L) (jV L)), SemLoc.dma cc0_scoped4.sem) 0
        ∗ semVal ((V d (cV L) (jV L)), SemLoc.dma cc0_scoped5.sem) 0
        ∗ semVal ((V d (cV L) (jV L)), SemLoc.dma cc0_scoped6.sem) 0
        ∗ semVal ((V d (cV L) (jV L)), SemLoc.dma cc0_scoped7.sem) 0
        ∗ semVal ((V d (cV L) (jV L)), SemLoc.dma cc0_scoped8.sem) 0
        ∗ semVal ((V d (cV L) (jV L)), SemLoc.dma cc0_scoped9.sem) 0
        ∗ semVal ((V d (cV L) (jV L)), SemLoc.dma cc0_scoped10.sem) 0
        ∗ semVal ((V d (cV L) (jV L)), SemLoc.dma cc0_scoped11.sem) 0
        ∗ semVal ((V d (cV L) (jV L)), SemLoc.dma cc0_scoped12.sem) 0
        ∗ semVal ((V d (cV L) (jV L)), SemLoc.dma cc0_scoped13.sem) 0
        ∗ semVal ((V d (cV L) (jV L)), SemLoc.dma cc0_scoped14.sem) 0
        ∗ semVal ((V d (cV L) (jV L)), SemLoc.dma cc0_scoped15.sem) 0
        ∗ semVal ((V d (cV L) (jV L)), SemLoc.dma cc0_scoped16.sem) 0
        ∗ T) := by
  rw [ownSems0_all d L]
  simp only [sep_assoc_eq]

/-- A buffer's elements held at contents that agree there with `g` are held at `g`. -/
theorem row_post (ℓ : Loc nD τ sig) (I : Finset (Idx ℓ)) (g : Buf (Elt F) ℓ) :
    (iprop(∃ f, (ℓ ↦[I]{fullShare} f) ∗ ⌜∀ i ∈ I, f i = g i⌝) : sProp 𝕄) ⊢ ℓ ↦[I]{fullShare} g := by
  iintro ⟨%f, H, %h⟩
  rw [← pointsTo_congr h]
  iexact H

set_option maxHeartbeats 4000000 in
/-- The forty-eight rows, each at contents that agree with `g` on it, are the block at `g`. -/
theorem rows_post_tail (d : Dev nD) (L : grid0.Coords) (w : Fin 32) (hw : w.val = 2 * (L 1).val + (L 0).val) (g : Buf (Elt F) (oLoc d)) (T : sProp 𝕄) :
    iprop((∃ f, ((rowOf oW (k0_off9 L tr0) (k0_off9_inb L tr0)).view.loc (V d (cV L) (jV L)) ↦[(rowOf oW (k0_off9 L tr0) (k0_off9_inb L tr0)).view.set]{fullShare} f) ∗ ⌜∀ i ∈ (rowOf oW (k0_off9 L tr0) (k0_off9_inb L tr0)).view.set, f i = g i⌝)
        ∗ (∃ f, ((rowOf oW (k0_off13 L tr0) (k0_off13_inb L tr0)).view.loc (V d (cV L) (jV L)) ↦[(rowOf oW (k0_off13 L tr0) (k0_off13_inb L tr0)).view.set]{fullShare} f) ∗ ⌜∀ i ∈ (rowOf oW (k0_off13 L tr0) (k0_off13_inb L tr0)).view.set, f i = g i⌝)
        ∗ (∃ f, ((rowOf oW (k0_off17 L tr0) (k0_off17_inb L tr0)).view.loc (V d (cV L) (jV L)) ↦[(rowOf oW (k0_off17 L tr0) (k0_off17_inb L tr0)).view.set]{fullShare} f) ∗ ⌜∀ i ∈ (rowOf oW (k0_off17 L tr0) (k0_off17_inb L tr0)).view.set, f i = g i⌝)
        ∗ (∃ f, ((rowOf oW (k0_off21 L tr0) (k0_off21_inb L tr0)).view.loc (V d (cV L) (jV L)) ↦[(rowOf oW (k0_off21 L tr0) (k0_off21_inb L tr0)).view.set]{fullShare} f) ∗ ⌜∀ i ∈ (rowOf oW (k0_off21 L tr0) (k0_off21_inb L tr0)).view.set, f i = g i⌝)
        ∗ (∃ f, ((rowOf oW (k0_off25 L tr0) (k0_off25_inb L tr0)).view.loc (V d (cV L) (jV L)) ↦[(rowOf oW (k0_off25 L tr0) (k0_off25_inb L tr0)).view.set]{fullShare} f) ∗ ⌜∀ i ∈ (rowOf oW (k0_off25 L tr0) (k0_off25_inb L tr0)).view.set, f i = g i⌝)
        ∗ (∃ f, ((rowOf oW (k0_off29 L tr0) (k0_off29_inb L tr0)).view.loc (V d (cV L) (jV L)) ↦[(rowOf oW (k0_off29 L tr0) (k0_off29_inb L tr0)).view.set]{fullShare} f) ∗ ⌜∀ i ∈ (rowOf oW (k0_off29 L tr0) (k0_off29_inb L tr0)).view.set, f i = g i⌝)
        ∗ (∃ f, ((rowOf oW (k0_off33 L tr0) (k0_off33_inb L tr0)).view.loc (V d (cV L) (jV L)) ↦[(rowOf oW (k0_off33 L tr0) (k0_off33_inb L tr0)).view.set]{fullShare} f) ∗ ⌜∀ i ∈ (rowOf oW (k0_off33 L tr0) (k0_off33_inb L tr0)).view.set, f i = g i⌝)
        ∗ (∃ f, ((rowOf oW (k0_off37 L tr0) (k0_off37_inb L tr0)).view.loc (V d (cV L) (jV L)) ↦[(rowOf oW (k0_off37 L tr0) (k0_off37_inb L tr0)).view.set]{fullShare} f) ∗ ⌜∀ i ∈ (rowOf oW (k0_off37 L tr0) (k0_off37_inb L tr0)).view.set, f i = g i⌝)
        ∗ (∃ f, ((rowOf oW (k0_off41 L tr0) (k0_off41_inb L tr0)).view.loc (V d (cV L) (jV L)) ↦[(rowOf oW (k0_off41 L tr0) (k0_off41_inb L tr0)).view.set]{fullShare} f) ∗ ⌜∀ i ∈ (rowOf oW (k0_off41 L tr0) (k0_off41_inb L tr0)).view.set, f i = g i⌝)
        ∗ (∃ f, ((rowOf oW (k0_off45 L tr0) (k0_off45_inb L tr0)).view.loc (V d (cV L) (jV L)) ↦[(rowOf oW (k0_off45 L tr0) (k0_off45_inb L tr0)).view.set]{fullShare} f) ∗ ⌜∀ i ∈ (rowOf oW (k0_off45 L tr0) (k0_off45_inb L tr0)).view.set, f i = g i⌝)
        ∗ (∃ f, ((rowOf oW (k0_off49 L tr0) (k0_off49_inb L tr0)).view.loc (V d (cV L) (jV L)) ↦[(rowOf oW (k0_off49 L tr0) (k0_off49_inb L tr0)).view.set]{fullShare} f) ∗ ⌜∀ i ∈ (rowOf oW (k0_off49 L tr0) (k0_off49_inb L tr0)).view.set, f i = g i⌝)
        ∗ (∃ f, ((rowOf oW (k0_off53 L tr0) (k0_off53_inb L tr0)).view.loc (V d (cV L) (jV L)) ↦[(rowOf oW (k0_off53 L tr0) (k0_off53_inb L tr0)).view.set]{fullShare} f) ∗ ⌜∀ i ∈ (rowOf oW (k0_off53 L tr0) (k0_off53_inb L tr0)).view.set, f i = g i⌝)
        ∗ (∃ f, ((rowOf oW (k0_off57 L tr0) (k0_off57_inb L tr0)).view.loc (V d (cV L) (jV L)) ↦[(rowOf oW (k0_off57 L tr0) (k0_off57_inb L tr0)).view.set]{fullShare} f) ∗ ⌜∀ i ∈ (rowOf oW (k0_off57 L tr0) (k0_off57_inb L tr0)).view.set, f i = g i⌝)
        ∗ (∃ f, ((rowOf oW (k0_off61 L tr0) (k0_off61_inb L tr0)).view.loc (V d (cV L) (jV L)) ↦[(rowOf oW (k0_off61 L tr0) (k0_off61_inb L tr0)).view.set]{fullShare} f) ∗ ⌜∀ i ∈ (rowOf oW (k0_off61 L tr0) (k0_off61_inb L tr0)).view.set, f i = g i⌝)
        ∗ (∃ f, ((rowOf oW (k0_off65 L tr0) (k0_off65_inb L tr0)).view.loc (V d (cV L) (jV L)) ↦[(rowOf oW (k0_off65 L tr0) (k0_off65_inb L tr0)).view.set]{fullShare} f) ∗ ⌜∀ i ∈ (rowOf oW (k0_off65 L tr0) (k0_off65_inb L tr0)).view.set, f i = g i⌝)
        ∗ (∃ f, ((rowOf oW (k0_off69 L tr0) (k0_off69_inb L tr0)).view.loc (V d (cV L) (jV L)) ↦[(rowOf oW (k0_off69 L tr0) (k0_off69_inb L tr0)).view.set]{fullShare} f) ∗ ⌜∀ i ∈ (rowOf oW (k0_off69 L tr0) (k0_off69_inb L tr0)).view.set, f i = g i⌝)
        ∗ (∃ f, ((rowOf oW (k0_off9 L tr1) (k0_off9_inb L tr1)).view.loc (V d (cV L) (jV L)) ↦[(rowOf oW (k0_off9 L tr1) (k0_off9_inb L tr1)).view.set]{fullShare} f) ∗ ⌜∀ i ∈ (rowOf oW (k0_off9 L tr1) (k0_off9_inb L tr1)).view.set, f i = g i⌝)
        ∗ (∃ f, ((rowOf oW (k0_off13 L tr1) (k0_off13_inb L tr1)).view.loc (V d (cV L) (jV L)) ↦[(rowOf oW (k0_off13 L tr1) (k0_off13_inb L tr1)).view.set]{fullShare} f) ∗ ⌜∀ i ∈ (rowOf oW (k0_off13 L tr1) (k0_off13_inb L tr1)).view.set, f i = g i⌝)
        ∗ (∃ f, ((rowOf oW (k0_off17 L tr1) (k0_off17_inb L tr1)).view.loc (V d (cV L) (jV L)) ↦[(rowOf oW (k0_off17 L tr1) (k0_off17_inb L tr1)).view.set]{fullShare} f) ∗ ⌜∀ i ∈ (rowOf oW (k0_off17 L tr1) (k0_off17_inb L tr1)).view.set, f i = g i⌝)
        ∗ (∃ f, ((rowOf oW (k0_off21 L tr1) (k0_off21_inb L tr1)).view.loc (V d (cV L) (jV L)) ↦[(rowOf oW (k0_off21 L tr1) (k0_off21_inb L tr1)).view.set]{fullShare} f) ∗ ⌜∀ i ∈ (rowOf oW (k0_off21 L tr1) (k0_off21_inb L tr1)).view.set, f i = g i⌝)
        ∗ (∃ f, ((rowOf oW (k0_off25 L tr1) (k0_off25_inb L tr1)).view.loc (V d (cV L) (jV L)) ↦[(rowOf oW (k0_off25 L tr1) (k0_off25_inb L tr1)).view.set]{fullShare} f) ∗ ⌜∀ i ∈ (rowOf oW (k0_off25 L tr1) (k0_off25_inb L tr1)).view.set, f i = g i⌝)
        ∗ (∃ f, ((rowOf oW (k0_off29 L tr1) (k0_off29_inb L tr1)).view.loc (V d (cV L) (jV L)) ↦[(rowOf oW (k0_off29 L tr1) (k0_off29_inb L tr1)).view.set]{fullShare} f) ∗ ⌜∀ i ∈ (rowOf oW (k0_off29 L tr1) (k0_off29_inb L tr1)).view.set, f i = g i⌝)
        ∗ (∃ f, ((rowOf oW (k0_off33 L tr1) (k0_off33_inb L tr1)).view.loc (V d (cV L) (jV L)) ↦[(rowOf oW (k0_off33 L tr1) (k0_off33_inb L tr1)).view.set]{fullShare} f) ∗ ⌜∀ i ∈ (rowOf oW (k0_off33 L tr1) (k0_off33_inb L tr1)).view.set, f i = g i⌝)
        ∗ (∃ f, ((rowOf oW (k0_off37 L tr1) (k0_off37_inb L tr1)).view.loc (V d (cV L) (jV L)) ↦[(rowOf oW (k0_off37 L tr1) (k0_off37_inb L tr1)).view.set]{fullShare} f) ∗ ⌜∀ i ∈ (rowOf oW (k0_off37 L tr1) (k0_off37_inb L tr1)).view.set, f i = g i⌝)
        ∗ (∃ f, ((rowOf oW (k0_off41 L tr1) (k0_off41_inb L tr1)).view.loc (V d (cV L) (jV L)) ↦[(rowOf oW (k0_off41 L tr1) (k0_off41_inb L tr1)).view.set]{fullShare} f) ∗ ⌜∀ i ∈ (rowOf oW (k0_off41 L tr1) (k0_off41_inb L tr1)).view.set, f i = g i⌝)
        ∗ (∃ f, ((rowOf oW (k0_off45 L tr1) (k0_off45_inb L tr1)).view.loc (V d (cV L) (jV L)) ↦[(rowOf oW (k0_off45 L tr1) (k0_off45_inb L tr1)).view.set]{fullShare} f) ∗ ⌜∀ i ∈ (rowOf oW (k0_off45 L tr1) (k0_off45_inb L tr1)).view.set, f i = g i⌝)
        ∗ (∃ f, ((rowOf oW (k0_off49 L tr1) (k0_off49_inb L tr1)).view.loc (V d (cV L) (jV L)) ↦[(rowOf oW (k0_off49 L tr1) (k0_off49_inb L tr1)).view.set]{fullShare} f) ∗ ⌜∀ i ∈ (rowOf oW (k0_off49 L tr1) (k0_off49_inb L tr1)).view.set, f i = g i⌝)
        ∗ (∃ f, ((rowOf oW (k0_off53 L tr1) (k0_off53_inb L tr1)).view.loc (V d (cV L) (jV L)) ↦[(rowOf oW (k0_off53 L tr1) (k0_off53_inb L tr1)).view.set]{fullShare} f) ∗ ⌜∀ i ∈ (rowOf oW (k0_off53 L tr1) (k0_off53_inb L tr1)).view.set, f i = g i⌝)
        ∗ (∃ f, ((rowOf oW (k0_off57 L tr1) (k0_off57_inb L tr1)).view.loc (V d (cV L) (jV L)) ↦[(rowOf oW (k0_off57 L tr1) (k0_off57_inb L tr1)).view.set]{fullShare} f) ∗ ⌜∀ i ∈ (rowOf oW (k0_off57 L tr1) (k0_off57_inb L tr1)).view.set, f i = g i⌝)
        ∗ (∃ f, ((rowOf oW (k0_off61 L tr1) (k0_off61_inb L tr1)).view.loc (V d (cV L) (jV L)) ↦[(rowOf oW (k0_off61 L tr1) (k0_off61_inb L tr1)).view.set]{fullShare} f) ∗ ⌜∀ i ∈ (rowOf oW (k0_off61 L tr1) (k0_off61_inb L tr1)).view.set, f i = g i⌝)
        ∗ (∃ f, ((rowOf oW (k0_off65 L tr1) (k0_off65_inb L tr1)).view.loc (V d (cV L) (jV L)) ↦[(rowOf oW (k0_off65 L tr1) (k0_off65_inb L tr1)).view.set]{fullShare} f) ∗ ⌜∀ i ∈ (rowOf oW (k0_off65 L tr1) (k0_off65_inb L tr1)).view.set, f i = g i⌝)
        ∗ (∃ f, ((rowOf oW (k0_off69 L tr1) (k0_off69_inb L tr1)).view.loc (V d (cV L) (jV L)) ↦[(rowOf oW (k0_off69 L tr1) (k0_off69_inb L tr1)).view.set]{fullShare} f) ∗ ⌜∀ i ∈ (rowOf oW (k0_off69 L tr1) (k0_off69_inb L tr1)).view.set, f i = g i⌝)
        ∗ (∃ f, ((rowOf oW (k0_off9 L tr2) (k0_off9_inb L tr2)).view.loc (V d (cV L) (jV L)) ↦[(rowOf oW (k0_off9 L tr2) (k0_off9_inb L tr2)).view.set]{fullShare} f) ∗ ⌜∀ i ∈ (rowOf oW (k0_off9 L tr2) (k0_off9_inb L tr2)).view.set, f i = g i⌝)
        ∗ (∃ f, ((rowOf oW (k0_off13 L tr2) (k0_off13_inb L tr2)).view.loc (V d (cV L) (jV L)) ↦[(rowOf oW (k0_off13 L tr2) (k0_off13_inb L tr2)).view.set]{fullShare} f) ∗ ⌜∀ i ∈ (rowOf oW (k0_off13 L tr2) (k0_off13_inb L tr2)).view.set, f i = g i⌝)
        ∗ (∃ f, ((rowOf oW (k0_off17 L tr2) (k0_off17_inb L tr2)).view.loc (V d (cV L) (jV L)) ↦[(rowOf oW (k0_off17 L tr2) (k0_off17_inb L tr2)).view.set]{fullShare} f) ∗ ⌜∀ i ∈ (rowOf oW (k0_off17 L tr2) (k0_off17_inb L tr2)).view.set, f i = g i⌝)
        ∗ (∃ f, ((rowOf oW (k0_off21 L tr2) (k0_off21_inb L tr2)).view.loc (V d (cV L) (jV L)) ↦[(rowOf oW (k0_off21 L tr2) (k0_off21_inb L tr2)).view.set]{fullShare} f) ∗ ⌜∀ i ∈ (rowOf oW (k0_off21 L tr2) (k0_off21_inb L tr2)).view.set, f i = g i⌝)
        ∗ (∃ f, ((rowOf oW (k0_off25 L tr2) (k0_off25_inb L tr2)).view.loc (V d (cV L) (jV L)) ↦[(rowOf oW (k0_off25 L tr2) (k0_off25_inb L tr2)).view.set]{fullShare} f) ∗ ⌜∀ i ∈ (rowOf oW (k0_off25 L tr2) (k0_off25_inb L tr2)).view.set, f i = g i⌝)
        ∗ (∃ f, ((rowOf oW (k0_off29 L tr2) (k0_off29_inb L tr2)).view.loc (V d (cV L) (jV L)) ↦[(rowOf oW (k0_off29 L tr2) (k0_off29_inb L tr2)).view.set]{fullShare} f) ∗ ⌜∀ i ∈ (rowOf oW (k0_off29 L tr2) (k0_off29_inb L tr2)).view.set, f i = g i⌝)
        ∗ (∃ f, ((rowOf oW (k0_off33 L tr2) (k0_off33_inb L tr2)).view.loc (V d (cV L) (jV L)) ↦[(rowOf oW (k0_off33 L tr2) (k0_off33_inb L tr2)).view.set]{fullShare} f) ∗ ⌜∀ i ∈ (rowOf oW (k0_off33 L tr2) (k0_off33_inb L tr2)).view.set, f i = g i⌝)
        ∗ (∃ f, ((rowOf oW (k0_off37 L tr2) (k0_off37_inb L tr2)).view.loc (V d (cV L) (jV L)) ↦[(rowOf oW (k0_off37 L tr2) (k0_off37_inb L tr2)).view.set]{fullShare} f) ∗ ⌜∀ i ∈ (rowOf oW (k0_off37 L tr2) (k0_off37_inb L tr2)).view.set, f i = g i⌝)
        ∗ (∃ f, ((rowOf oW (k0_off41 L tr2) (k0_off41_inb L tr2)).view.loc (V d (cV L) (jV L)) ↦[(rowOf oW (k0_off41 L tr2) (k0_off41_inb L tr2)).view.set]{fullShare} f) ∗ ⌜∀ i ∈ (rowOf oW (k0_off41 L tr2) (k0_off41_inb L tr2)).view.set, f i = g i⌝)
        ∗ (∃ f, ((rowOf oW (k0_off45 L tr2) (k0_off45_inb L tr2)).view.loc (V d (cV L) (jV L)) ↦[(rowOf oW (k0_off45 L tr2) (k0_off45_inb L tr2)).view.set]{fullShare} f) ∗ ⌜∀ i ∈ (rowOf oW (k0_off45 L tr2) (k0_off45_inb L tr2)).view.set, f i = g i⌝)
        ∗ (∃ f, ((rowOf oW (k0_off49 L tr2) (k0_off49_inb L tr2)).view.loc (V d (cV L) (jV L)) ↦[(rowOf oW (k0_off49 L tr2) (k0_off49_inb L tr2)).view.set]{fullShare} f) ∗ ⌜∀ i ∈ (rowOf oW (k0_off49 L tr2) (k0_off49_inb L tr2)).view.set, f i = g i⌝)
        ∗ (∃ f, ((rowOf oW (k0_off53 L tr2) (k0_off53_inb L tr2)).view.loc (V d (cV L) (jV L)) ↦[(rowOf oW (k0_off53 L tr2) (k0_off53_inb L tr2)).view.set]{fullShare} f) ∗ ⌜∀ i ∈ (rowOf oW (k0_off53 L tr2) (k0_off53_inb L tr2)).view.set, f i = g i⌝)
        ∗ (∃ f, ((rowOf oW (k0_off57 L tr2) (k0_off57_inb L tr2)).view.loc (V d (cV L) (jV L)) ↦[(rowOf oW (k0_off57 L tr2) (k0_off57_inb L tr2)).view.set]{fullShare} f) ∗ ⌜∀ i ∈ (rowOf oW (k0_off57 L tr2) (k0_off57_inb L tr2)).view.set, f i = g i⌝)
        ∗ (∃ f, ((rowOf oW (k0_off61 L tr2) (k0_off61_inb L tr2)).view.loc (V d (cV L) (jV L)) ↦[(rowOf oW (k0_off61 L tr2) (k0_off61_inb L tr2)).view.set]{fullShare} f) ∗ ⌜∀ i ∈ (rowOf oW (k0_off61 L tr2) (k0_off61_inb L tr2)).view.set, f i = g i⌝)
        ∗ (∃ f, ((rowOf oW (k0_off65 L tr2) (k0_off65_inb L tr2)).view.loc (V d (cV L) (jV L)) ↦[(rowOf oW (k0_off65 L tr2) (k0_off65_inb L tr2)).view.set]{fullShare} f) ∗ ⌜∀ i ∈ (rowOf oW (k0_off65 L tr2) (k0_off65_inb L tr2)).view.set, f i = g i⌝)
        ∗ (∃ f, ((rowOf oW (k0_off69 L tr2) (k0_off69_inb L tr2)).view.loc (V d (cV L) (jV L)) ↦[(rowOf oW (k0_off69 L tr2) (k0_off69_inb L tr2)).view.set]{fullShare} f) ∗ ⌜∀ i ∈ (rowOf oW (k0_off69 L tr2) (k0_off69_inb L tr2)).view.set, f i = g i⌝)
        ∗ T)
      ⊢ iprop((oLoc d ↦[oSet w]{fullShare} g) ∗ T) :=
  BI.Entails.trans (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) (sepm (row_post _ _ _) .rfl))))))))))))))))))))))))))))))))))))))))))))))))
    (Entails.of_eq (oBlock_rows_tail d L w hw g T).symm)

/-! ## The task, over the launch's names -/

variable [FloatOps F]

set_option maxHeartbeats 4000000 in
/-- The task's run with the rows and the semaphores regrouped, over the launch's blocks and slots. -/
theorem tile_run' (d : Dev nD) (L : grid0.Coords) (O : CellTallies nD τ sig (HIx 1)) (W : Waits sig (HIx 1)) (hO : ∀ g, O g none = 0)
    (q : PosShare TreeShare) (X3 : Buf (Elt F) (xLoc d)) (SRC : Buf (Elt F) (sLoc d)) (hsrc : ∀ j, (SRC j).toNat < 1536)
    (fo : Buf (Elt F) (oLoc d)) (fi : Buf (Elt F) ((iW).view.loc (V d (cV L) (jV L)))) (fb0 fb1 : Buf (Elt F) (shLoc d (cV L))) :
    iprop(levAts (K (F := F)).L (K (F := F)).lev
        ∗ (xLoc d ↦{Transfers.shareTokN q 0} X3 : sProp 𝕄)
        ∗ (xLoc d ↦{Transfers.shareTokN q 1} X3)
        ∗ (sLoc d ↦[sSet (wid (cL L) (iL L))]{fullShare} SRC)
        ∗ ((iW).view.loc (V d (cV L) (jV L)) ↦{fullShare} fi)
        ∗ (shLoc d (cV L) ↦[bSet (iL L) 0]{fullShare} fb0)
        ∗ (shLoc d (cV L) ↦[bSet (iL L) 1]{fullShare} fb1)
        ∗ (oLoc d ↦[oSet (wid (cL L) (iL L))]{fullShare} fo)
        ∗ ownSems0 (V d (cV L) (jV L))
        ∗ owes (V d (cV L) (jV L)) O W)
      ⊢ wp frame (wpE (defs₀ (F := F)) 𝒱₀ (V d (cV L) (jV L)) none) Set.univ
          (cc0_sc_gather L xW (Memref.isWhole_whole _) sW (Memref.isWhole_whole _) oW (Memref.isWhole_whole _)
            iW (Memref.isWhole_whole _) bW (Memref.isWhole_whole _) cc0_scratch2 cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16)
          fun _ => iprop(
            (xLoc d ↦{Transfers.shareTokN q 0} X3 : sProp 𝕄)
            ∗ (xLoc d ↦{Transfers.shareTokN q 1} X3)
            ∗ (sLoc d ↦[sSet (wid (cL L) (iL L))]{fullShare} SRC)
            ∗ (∃ f, (iW).view.loc (V d (cV L) (jV L)) ↦{fullShare} f)
            ∗ (∃ f, shLoc d (cV L) ↦[bSet (iL L) 0]{fullShare} f)
            ∗ (∃ f, shLoc d (cV L) ↦[bSet (iL L) 1]{fullShare} f)
            ∗ (oLoc d ↦[oSet (wid (cL L) (iL L))]{fullShare} Cert.Proof.Spec.gathered X3 SRC)
            ∗ ownSems0 (V d (cV L) (jV L))
            ∗ (∃ W', owes (V d (cV L) (jV L)) O W' ∗ ⌜∀ p ∈ W', p ∈ W ∨ p.2 = none⌝)) := by
  refine (Entails.of_eq ?_).trans ((tile_run d L O W hO q X3 SRC hsrc fo fi fb0 fb1).trans (wp_mono frame _ _ fun _ => ?_))
  · rw [oBlock_rows_tail d L (wid (cL L) (iL L)) rfl fo, ownSems0_tail d L, set_srcSl L, set_slot0 L, set_slot1 L]
    rfl
  · rw [set_srcSl L, set_slot0 L, set_slot1 L]
    refine sepm .rfl (sepm .rfl (sepm .rfl (sepm .rfl (sepm .rfl (sepm .rfl ?_)))))
    exact (rows_post_tail d L (wid (cL L) (iL L)) rfl (Cert.Proof.Spec.gathered X3 SRC) _).trans
      (sepm .rfl (Entails.of_eq (ownSems0_tail d L _).symm))

variable (m : (ℓ : Loc nD τ sig) → Buf (Elt F) ℓ)

omit [FloatOps F] in
theorem bigSep_two (Φ : Fin 2 → sProp 𝕄) : bigSep Finset.univ Φ = iprop(Φ 0 ∗ Φ 1) := bigSep_fin_two Φ

/-- The task on the vector subcore at `L`, from what the launch hands it to what it hands back. -/
theorem tile_body (hpre : PreOK m) (d : Dev nD) (L : grid0.Coords) (O : CellTallies nD τ sig (HIx 1)) (W : Waits sig (HIx 1)) (hO : ∀ g, O g none = 0) :
    iprop(levAts (K (F := F)).L (K (F := F)).lev ∗ emp
        ∗ tileIn m d (cL L) (iL L) (cV L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_gather L xW (Memref.isWhole_whole _) sW (Memref.isWhole_whole _) oW (Memref.isWhole_whole _)
            iW (Memref.isWhole_whole _) bW (Memref.isWhole_whole _) cc0_scratch2 cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16)
          fun _ => iprop(tileIn m d (cL L) (iL L) (cV L) (OUT m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V facts d (cV L) (jV L), SparseCore.Cfg.scopedSems0_V (Val := Elt F) d (cV L) (jV L), ownBufs_V d L]
  iintro ⟨#Hlv, -, ⟨Hx, Hs, Ho, ⟨%fb0, Hb0⟩, ⟨%fb1, Hb1⟩⟩, ⟨%fi, Hi⟩, Hsem, HO⟩
  -- the subcore's read share of the images: two tokens for its two copies in flight, and a remainder kept aside
  ihave Hx2 := (Transfers.pointsTo_toks_split (qT (cL L) (iL L)) 2) $$ Hx
  icases Hx2 with ⟨Hxr, Hxs⟩
  ihave Hxs' := (Entails.of_eq (bigSep_two (F := F) _)) $$ Hxs
  icases Hxs' with ⟨Hx0, Hx1⟩
  iapply (wp_wand_r frame _ Set.univ) $$ [Hx0 Hx1 Hs Hi Hb0 Hb1 Ho Hsem HO Hxr]
  isplitl [Hx0 Hx1 Hs Hi Hb0 Hb1 Ho Hsem HO]
  · iapply (tile_run' d L O W hO (qT (cL L) (iL L)) (X3 m d) (SRC m d) (hpre d) (m (oLoc d)) fi fb0 fb1)
    isplitr; · iexact Hlv
    isplitl [Hx0]; · iexact Hx0
    isplitl [Hx1]; · iexact Hx1
    isplitl [Hs]; · iexact Hs
    isplitl [Hi]; · iexact Hi
    isplitl [Hb0]; · iexact Hb0
    isplitl [Hb1]; · iexact Hb1
    isplitl [Ho]; · iexact Ho
    isplitl [Hsem]; · iexact Hsem
    iexact HO
  iintro %_ ⟨Hx0, Hx1, Hs, Hi, Hb0, Hb1, Ho, Hsem, ⟨%W', HO, %hW'⟩⟩
  ihave Hx := (Transfers.pointsTo_toks_join (qT (cL L) (iL L)) 2) $$ [Hxr Hx0 Hx1]
  · isplitl [Hxr]; · iexact Hxr
    rw [bigSep_two]
    isplitl [Hx0]; · iexact Hx0
    iexact Hx1
  isplitl [Hx Hs Ho Hb0 Hb1]
  · isplitl [Hx]; · iexact Hx
    isplitl [Hs]; · iexact Hs
    isplitl [Ho]; · iexact Ho
    isplitl [Hb0]; · iexact Hb0
    iexact Hb1
  isplitl [Hi]; · iexact Hi
  isplitl [Hsem]; · iexact Hsem
  iexists W'
  isplitr; · ipureintro; exact hW'
  iexact HO

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_gather (coordsV c s) xW (Memref.isWhole_whole _) sW (Memref.isWhole_whole _) oW (Memref.isWhole_whole _)
          iW (Memref.isWhole_whole _) bW (Memref.isWhole_whole _) cc0_scratch2 cc0_scratch3 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hpre d (coordsV ⟨_, hc.1⟩ ⟨_, hc.2⟩) O W hO).trans (wp_mono frame _ _ fun _ => obl_post)

end Cert.Proof.RunWord

end
-- ==== Proof.lean ====
/-
  The claim.  Both programs compute the channel axis of a batch of images re-read through a table of
  channel numbers,
      out[b, c, h, w] = x[b, perm[c], h, w].
  The kernel flattens batch and channel to 1536 rows of 224 × 224 pixels, builds on the host the table of
  row numbers 192·b + perm[c], and has each of its thirty-two vector subcores copy its forty-eight rows
  of the result, each from the row the table names and through one of two staging slots of its
  SparseCore's shared memory; the host reshapes the rows back to batch × channel.  The reference is a
  gather along the channel axis under a range mask which, every table word being a channel number, is
  all ones.  From every memory satisfying the precondition each program runs to its end with its
  arguments unchanged (the frames), and at the ideal instance the two results are equal (the algebraic
  claim): both are the function above of the two arguments.
-/
import proofs.«214331_g712964571761_cont_9to1_m_186_24_alg».proof.Defs
import proofs.«214331_g712964571761_cont_9to1_m_186_24_alg».proof.Proof.Claims
import proofs.«214331_g712964571761_cont_9to1_m_186_24_alg».proof.Proof.TileObIdeal
import proofs.«214331_g712964571761_cont_9to1_m_186_24_alg».proof.Proof.TileObWord

noncomputable section

namespace Cert.Proof

/-- Everything claimed, from the vector subcores' task proved at the two instances. -/
theorem claim : Cert.Claim :=
  Cert.Proof.Claims.claim_of (fun m h => Cert.Proof.RunWord.tileObl m h) (fun m h => Cert.Proof.RunIdeal.tileObl m h)

end Cert.Proof

end
